-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v59)) (v1 : (c : Dev Cert.KernelIdeal.nD) → Buf (Elt Ideal) ((c.tc : Thread Cert.KernelIdeal.nD Cert.KernelIdeal.τ).loc Cert.KernelIdeal.main_v41)) (v2 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_v74) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v109) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x32 : Shape := ⟨2, ![800000, 32]⟩
abbrev S256x16 : Shape := ⟨2, ![256, 16]⟩
abbrev S176x128 : Shape := ⟨2, ![176, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S208x128 : Shape := ⟨2, ![208, 128]⟩
abbrev S80x128 : Shape := ⟨2, ![80, 128]⟩
abbrev S128x32 : Shape := ⟨2, ![128, 32]⟩
abbrev S32 : Shape := ⟨1, ![32]⟩
abbrev S2x800000 : Shape := ⟨2, ![2, 800000]⟩
abbrev S50000 : Shape := ⟨1, ![50000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S256x16 : S_.BroadcastsInDim S256x16 (![] : Fin 0 → Fin S256x16.rank)
  reducesTo_S256x16_S_d0_1 : S256x16.ReducesTo [0, 1] S_
  bcast_S_S176x128 : S_.BroadcastsInDim S176x128 (![] : Fin 0 → Fin S176x128.rank)
  reducesTo_S176x128_S_d0_1 : S176x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_
  bcast_S_S208x128 : S_.BroadcastsInDim S208x128 (![] : Fin 0 → Fin S208x128.rank)
  reducesTo_S208x128_S_d0_1 : S208x128.ReducesTo [0, 1] S_
  bcast_S_S80x128 : S_.BroadcastsInDim S80x128 (![] : Fin 0 → Fin S80x128.rank)
  reducesTo_S80x128_S_d0_1 : S80x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part5 {F : FTy → Type} [FloatOps F] (main_arg18 : FVec F S32 .f32) (main_v83 : IVec S_ 1) (main_v84 : FVec F S128x32 .f32) (main_cst_32 : FVec F S_ .f32) : IVec S_ 1 :=
  let main_v85 : FVec F S128x32 .f32 := broadcastInDim S128x32 ![] bcast_S_S128x32 main_cst_32
  let main_v86 : IVec S128x32 1 := cmpf .olt main_v84 main_v85
  let main_c_33 : IVec S_ 1 := constantI S_ 1 1#1
  let main_v87 : IVec S_ 1 := (fun x v => Host.reduce IntOp.andi x v reducesTo_S128x32_S_d0_1 h_S_) main_v86 main_c_33
  let main_v88 : IVec S_ 1 := andi main_v83 main_v87
  let main_v89 : FVec F S32 .f32 := Host.absf main_arg18
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  main_v93

def fn_part4 {F : FTy → Type} [FloatOps F] (main_arg14 : FVec F S64 .f32) (main_arg15 : FVec F S80x128 .f32) (main_arg16 : FVec F S128 .f32) (main_arg17 : FVec F S128x32 .f32) (main_arg18 : FVec F S32 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S80x128 .f32 := Host.absf main_arg15
  let main_cst_28 : FVec F S_ .f32 := constant S_ .f32 0x7F800000#32
  let main_v75 : FVec F S80x128 .f32 := broadcastInDim S80x128 ![] bcast_S_S80x128 main_cst_28
  let main_v76 : IVec S80x128 1 := cmpf .olt main_v74 main_v75
  let main_c_29 : IVec S_ 1 := constantI S_ 1 1#1
  let main_v77 : IVec S_ 1 := (fun x v => Host.reduce IntOp.andi x v reducesTo_S80x128_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x32 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S208x128 .f32) (main_arg12 : FVec F S128 .f32) (main_arg13 : FVec F S128x64 .f32) (main_arg14 : FVec F S64 .f32) (main_arg15 : FVec F S80x128 .f32) (main_arg16 : FVec F S128 .f32) (main_arg17 : FVec F S128x32 .f32) (main_arg18 : FVec F S32 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S208x128 .f32 := Host.absf main_arg11
  let main_cst_20 : FVec F S_ .f32 := constant S_ .f32 0x7F800000#32
  let main_v55 : FVec F S208x128 .f32 := broadcastInDim S208x128 ![] bcast_S_S208x128 main_cst_20
  let main_v56 : IVec S208x128 1 := cmpf .olt main_v54 main_v55
  let main_c_21 : IVec S_ 1 := constantI S_ 1 1#1
  let main_v57 : IVec S_ 1 := (fun x v => Host.reduce IntOp.andi x v reducesTo_S208x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x64 .f32 := Host.absf main_arg13
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg14 main_arg15 main_arg16 main_arg17 main_arg18 main_v63 main_v67

def fn_part2 {F : FTy → Type} [FloatOps F] (main_arg7 : FVec F S128x128 .f32) (main_arg8 : FVec F S128 .f32) (main_arg9 : FVec F S128x128 .f32) (main_arg10 : FVec F S128 .f32) (main_arg11 : FVec F S208x128 .f32) (main_arg12 : FVec F S128 .f32) (main_arg13 : FVec F S128x64 .f32) (main_arg14 : FVec F S64 .f32) (main_arg15 : FVec F S80x128 .f32) (main_arg16 : FVec F S128 .f32) (main_arg17 : FVec F S128x32 .f32) (main_arg18 : FVec F S32 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_v48 main_v49 main_v50

def fn_part1 {F : FTy → Type} [FloatOps F] (main_arg4 : FVec F S128 .f32) (main_arg5 : FVec F S128x64 .f32) (main_arg6 : FVec F S64 .f32) (main_arg7 : FVec F S128x128 .f32) (main_arg8 : FVec F S128 .f32) (main_arg9 : FVec F S128x128 .f32) (main_arg10 : FVec F S128 .f32) (main_arg11 : FVec F S208x128 .f32) (main_arg12 : FVec F S128 .f32) (main_arg13 : FVec F S128x64 .f32) (main_arg14 : FVec F S64 .f32) (main_arg15 : FVec F S80x128 .f32) (main_arg16 : FVec F S128 .f32) (main_arg17 : FVec F S128x32 .f32) (main_arg18 : FVec F S32 .f32) (main_v13 : IVec S_ 1) (main_v16 : IVec S176x128 1) : IVec S_ 1 :=
  let main_c_5 : IVec S_ 1 := constantI S_ 1 1#1
  let main_v17 : IVec S_ 1 := (fun x v => Host.reduce IntOp.andi x v reducesTo_S176x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S50000x64 .f32) (main_arg1 : FVec F S800000x32 .f32) (main_arg2 : FVec F S256x16 .f32) (main_arg3 : FVec F S176x128 .f32) (main_arg4 : FVec F S128 .f32) (main_arg5 : FVec F S128x64 .f32) (main_arg6 : FVec F S64 .f32) (main_arg7 : FVec F S128x128 .f32) (main_arg8 : FVec F S128 .f32) (main_arg9 : FVec F S128x128 .f32) (main_arg10 : FVec F S128 .f32) (main_arg11 : FVec F S208x128 .f32) (main_arg12 : FVec F S128 .f32) (main_arg13 : FVec F S128x64 .f32) (main_arg14 : FVec F S64 .f32) (main_arg15 : FVec F S80x128 .f32) (main_arg16 : FVec F S128 .f32) (main_arg17 : FVec F S128x32 .f32) (main_arg18 : FVec F S32 .f32) (main_arg19 : IVec S2x800000 32) (main_arg20 : IVec S50000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x32 .f32 := Host.absf main_arg1
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S256x16 .f32 := Host.absf main_arg2
  let main_cst_2 : FVec F S_ .f32 := constant S_ .f32 0x7F800000#32
  let main_v10 : FVec F S256x16 .f32 := broadcastInDim S256x16 ![] bcast_S_S256x16 main_cst_2
  let main_v11 : IVec S256x16 1 := cmpf .olt main_v9 main_v10
  let main_c_3 : IVec S_ 1 := constantI S_ 1 1#1
  let main_v12 : IVec S_ 1 := (fun x v => Host.reduce IntOp.andi x v reducesTo_S256x16_S_d0_1 h_S_) main_v11 main_c_3
  let main_v13 : IVec S_ 1 := andi main_v8 main_v12
  let main_v14 : FVec F S176x128 .f32 := Host.absf main_arg3
  let main_cst_4 : FVec F S_ .f32 := constant S_ .f32 0x7F800000#32
  let main_v15 : FVec F S176x128 .f32 := broadcastInDim S176x128 ![] bcast_S_S176x128 main_cst_4
  let main_v16 : IVec S176x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S50000x64 : Shape := ⟨2, ![50000, 64]⟩
abbrev S800000x32 : Shape := ⟨2, ![800000, 32]⟩
abbrev S256x16 : Shape := ⟨2, ![256, 16]⟩
abbrev S176x128 : Shape := ⟨2, ![176, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S208x128 : Shape := ⟨2, ![208, 128]⟩
abbrev S80x128 : Shape := ⟨2, ![80, 128]⟩
abbrev S128x32 : Shape := ⟨2, ![128, 32]⟩
abbrev S32 : Shape := ⟨1, ![32]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x16 : Shape := ⟨2, ![800000, 16]⟩
abbrev S50000x1 : Shape := ⟨2, ![50000, 1]⟩
abbrev S50000x16 : Shape := ⟨2, ![50000, 16]⟩
abbrev S1x128 : Shape := ⟨2, ![1, 128]⟩
abbrev S1x64 : Shape := ⟨2, ![1, 64]⟩
abbrev S4000x64 : Shape := ⟨2, ![4000, 64]⟩
abbrev S4000x32 : Shape := ⟨2, ![4000, 32]⟩
abbrev S4000x16 : Shape := ⟨2, ![4000, 16]⟩
abbrev S64x128 : Shape := ⟨2, ![64, 128]⟩
abbrev S4000x128 : Shape := ⟨2, ![4000, 128]⟩
abbrev S32x128 : Shape := ⟨2, ![32, 128]⟩
abbrev S16x128 : Shape := ⟨2, ![16, 128]⟩
abbrev S800000x128 : Shape := ⟨2, ![800000, 128]⟩
abbrev S50000x128 : Shape := ⟨2, ![50000, 128]⟩
abbrev S5000x64 : Shape := ⟨2, ![5000, 64]⟩
abbrev S5000x128 : Shape := ⟨2, ![5000, 128]⟩
abbrev S5000x16 : Shape := ⟨2, ![5000, 16]⟩
abbrev S256x64 : Shape := ⟨2, ![256, 64]⟩
abbrev S256 : Shape := ⟨1, ![256]⟩
abbrev S256x1 : Shape := ⟨2, ![256, 1]⟩
abbrev S1x32 : Shape := ⟨2, ![1, 32]⟩
abbrev S256x32 : Shape := ⟨2, ![256, 32]⟩
abbrev S256x128 : Shape := ⟨2, ![256, 128]⟩

abbrev nBuf : Space → Nat
  | .hbm => 114
  | .vmem => 43
  | .smem => 0
  | _ => 0

abbrev bufTy : (tb : Table) → Fin (tcTables nBuf tb) → BufTy
  | .hbm, ⟨0, _⟩ => ⟨S50000x64, .f32⟩
  | .hbm, ⟨1, _⟩ => ⟨S800000x32, .f32⟩
  | .hbm, ⟨2, _⟩ => ⟨S256x16, .f32⟩
  | .hbm, ⟨3, _⟩ => ⟨S176x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S208x128, .f32⟩
  | .hbm, ⟨12, _⟩ => ⟨S128, .f32⟩
  | .hbm, ⟨13, _⟩ => ⟨S128x64, .f32⟩
  | .hbm, ⟨14, _⟩ => ⟨S64, .f32⟩
  | .hbm, ⟨15, _⟩ => ⟨S80x128, .f32⟩
  | .hbm, ⟨16, _⟩ => ⟨S128, .f32⟩
  | .hbm, ⟨17, _⟩ => ⟨S128x32, .f32⟩
  | .hbm, ⟨18, _⟩ => ⟨S32, .f32⟩
  | .hbm, ⟨19, _⟩ => ⟨S2x800000, .i32⟩
  | .hbm, ⟨20, _⟩ => ⟨S50000, .i32⟩
  | .hbm, ⟨21, _⟩ => ⟨S1x800000, .i32⟩
  | .hbm, ⟨22, _⟩ => ⟨S800000, .i32⟩
  | .hbm, ⟨23, _⟩ => ⟨S1x800000, .i32⟩
  | .hbm, ⟨24, _⟩ => ⟨S800000, .i32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x64, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x64, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000, .i32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x16, .f32⟩
  | .hbm, ⟨61, _⟩ => ⟨S_, .i32⟩
  | .hbm, ⟨62, _⟩ => ⟨S50000, .i32⟩
  | .hbm, ⟨63, _⟩ => ⟨S50000, .i1⟩
  | .hbm, ⟨64, _⟩ => ⟨S_, .i32⟩
  | .hbm, ⟨65, _⟩ => ⟨S50000, .i32⟩
  | .hbm, ⟨66, _⟩ => ⟨S50000, .i32⟩
  | .hbm, ⟨67, _⟩ => ⟨S50000, .i32⟩
  | .hbm, ⟨68, _⟩ => ⟨S50000x1, .i32⟩
  | .hbm, ⟨69, _⟩ => ⟨S50000x16, .f32⟩
  | .hbm, ⟨70, _⟩ => ⟨S1x128, .f32⟩
  | .hbm, ⟨71, _⟩ => ⟨S1x64, .f32⟩
  | .hbm, ⟨72, _⟩ => ⟨S800000x64, .f32⟩
  | .hbm, ⟨73, _⟩ => ⟨S1x128, .f32⟩
  | .hbm, ⟨74, _⟩ => ⟨S1x128, .f32⟩
  | .hbm, ⟨75, _⟩ => ⟨S800000x128, .f32⟩
  | .hbm, ⟨76, _⟩ => ⟨S_, .f32⟩
  | .hbm, ⟨77, _⟩ => ⟨S50000x128, .f32⟩
  | .hbm, ⟨78, _⟩ => ⟨S800000x1, .i32⟩
  | .hbm, ⟨79, _⟩ => ⟨S50000x128, .f32⟩
  | .hbm, ⟨80, _⟩ => ⟨S_, .f32⟩
  | .hbm, ⟨81, _⟩ => ⟨S800000, .f32⟩
  | .hbm, ⟨82, _⟩ => ⟨S_, .f32⟩
  | .hbm, ⟨83, _⟩ => ⟨S50000, .f32⟩
  | .hbm, ⟨84, _⟩ => ⟨S800000x1, .i32⟩
  | .hbm, ⟨85, _⟩ => ⟨S50000, .f32⟩
  | .hbm, ⟨86, _⟩ => ⟨S_, .f32⟩
  | .hbm, ⟨87, _⟩ => ⟨S50000, .f32⟩
  | .hbm, ⟨88, _⟩ => ⟨S50000, .f32⟩
  | .hbm, ⟨89, _⟩ => ⟨S50000x1, .f32⟩
  | .hbm, ⟨90, _⟩ => ⟨S50000x128, .f32⟩
  | .hbm, ⟨91, _⟩ => ⟨S50000x128, .f32⟩
  | .hbm, ⟨92, _⟩ => ⟨S1x128, .f32⟩
  | .hbm, ⟨93, _⟩ => ⟨S1x64, .f32⟩
  | .hbm, ⟨94, _⟩ => ⟨S50000x64, .f32⟩
  | .hbm, ⟨95, _⟩ => ⟨S_, .f32⟩
  | .hbm, ⟨96, _⟩ => ⟨S256x64, .f32⟩
  | .hbm, ⟨97, _⟩ => ⟨S50000x1, .i32⟩
  | .hbm, ⟨98, _⟩ => ⟨S256x64, .f32⟩
  | .hbm, ⟨99, _⟩ => ⟨S_, .f32⟩
  | .hbm, ⟨100, _⟩ => ⟨S50000, .f32⟩
  | .hbm, ⟨101, _⟩ => ⟨S_, .f32⟩
  | .hbm, ⟨102, _⟩ => ⟨S256, .f32⟩
  | .hbm, ⟨103, _⟩ => ⟨S50000x1, .i32⟩
  | .hbm, ⟨104, _⟩ => ⟨S256, .f32⟩
  | .hbm, ⟨105, _⟩ => ⟨S_, .f32⟩
  | .hbm, ⟨106, _⟩ => ⟨S256, .f32⟩
  | .hbm, ⟨107, _⟩ => ⟨S256, .f32⟩
  | .hbm, ⟨108, _⟩ => ⟨S256x1, .f32⟩
  | .hbm, ⟨109, _⟩ => ⟨S256x64, .f32⟩
  | .hbm, ⟨110, _⟩ => ⟨S256x64, .f32⟩
  | .hbm, ⟨111, _⟩ => ⟨S1x128, .f32⟩
  | .hbm, ⟨112, _⟩ => ⟨S1x32, .f32⟩
  | .hbm, ⟨113, _⟩ => ⟨S256x32, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x32, .f32⟩
  | .local _ .vmem, ⟨5, _⟩ => ⟨S4000x32, .f32⟩
  | .local _ .vmem, ⟨6, _⟩ => ⟨S4000x16, .f32⟩
  | .local _ .vmem, ⟨7, _⟩ => ⟨S4000x16, .f32⟩
  | .local _ .vmem, ⟨8, _⟩ => ⟨S176x128, .f32⟩
  | .local _ .vmem, ⟨9, _⟩ => ⟨S1x128, .f32⟩
  | .local _ .vmem, ⟨10, _⟩ => ⟨S128x64, .f32⟩
  | .local _ .vmem, ⟨11, _⟩ => ⟨S1x64, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S4000x64, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S4000x128, .f32⟩
  | .local _ .vmem, ⟨23, _⟩ => ⟨S4000x128, .f32⟩
  | .local _ .vmem, ⟨24, _⟩ => ⟨S5000x64, .f32⟩
  | .local _ .vmem, ⟨25, _⟩ => ⟨S5000x64, .f32⟩
  | .local _ .vmem, ⟨26, _⟩ => ⟨S5000x128, .f32⟩
  | .local _ .vmem, ⟨27, _⟩ => ⟨S5000x128, .f32⟩
  | .local _ .vmem, ⟨28, _⟩ => ⟨S5000x16, .f32⟩
  | .local _ .vmem, ⟨29, _⟩ => ⟨S5000x16, .f32⟩
  | .local _ .vmem, ⟨30, _⟩ => ⟨S208x128, .f32⟩
  | .local _ .vmem, ⟨31, _⟩ => ⟨S1x128, .f32⟩
  | .local _ .vmem, ⟨32, _⟩ => ⟨S128x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S256x16, .f32⟩
  | .local _ .vmem, ⟨37, _⟩ => ⟨S256x64, .f32⟩
  | .local _ .vmem, ⟨38, _⟩ => ⟨S80x128, .f32⟩
  | .local _ .vmem, ⟨39, _⟩ => ⟨S1x128, .f32⟩
  | .local _ .vmem, ⟨40, _⟩ => ⟨S128x32, .f32⟩
  | .local _ .vmem, ⟨41, _⟩ => ⟨S1x32, .f32⟩
  | .local _ .vmem, ⟨42, _⟩ => ⟨S256x32, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c_1 : Ref sig .tc := ⟨.hbm, 34, rfl⟩
abbrev main_v11 : Ref sig .tc := ⟨.hbm, 35, rfl⟩
abbrev main_v12 : Ref sig .tc := ⟨.hbm, 36, rfl⟩
abbrev main_c_2 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_c_3 : Ref sig .tc := ⟨.hbm, 43, rfl⟩
abbrev main_v18 : Ref sig .tc := ⟨.hbm, 44, rfl⟩
abbrev main_v19 : Ref sig .tc := ⟨.hbm, 45, rfl⟩
abbrev main_c_4 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_c_5 : Ref sig .tc := ⟨.hbm, 52, rfl⟩
abbrev main_v25 : Ref sig .tc := ⟨.hbm, 53, rfl⟩
abbrev main_v26 : Ref sig .tc := ⟨.hbm, 54, rfl⟩
abbrev main_c_6 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_c_7 : Ref sig .tc := ⟨.hbm, 61, rfl⟩
abbrev main_v32 : Ref sig .tc := ⟨.hbm, 62, rfl⟩
abbrev main_v33 : Ref sig .tc := ⟨.hbm, 63, rfl⟩
abbrev main_c_8 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_9 : Ref sig .tc := ⟨.hbm, 80, rfl⟩
abbrev main_v48 : Ref sig .tc := ⟨.hbm, 81, rfl⟩
abbrev main_cst_10 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_11 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_12 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_13 : Ref sig .tc := ⟨.hbm, 99, rfl⟩
abbrev main_v63 : Ref sig .tc := ⟨.hbm, 100, rfl⟩
abbrev main_cst_14 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_15 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg7_1 : Ref sig .tc := ⟨.vmem, 35, rfl⟩
abbrev cc3_stg0_0 : Ref sig .tc := ⟨.vmem, 36, rfl⟩
abbrev cc3_stg1_0 : Ref sig .tc := ⟨.vmem, 37, rfl⟩
abbrev cc3_stg2_0 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem7_1 : DmaSem sig := 35
abbrev cc3_sem0_0 : DmaSem sig := 36
abbrev cc3_sem1_0 : DmaSem sig := 37
abbrev cc3_sem2_0 : DmaSem sig := 38
abbrev cc3_sem3_0 : DmaSem sig := 39
abbrev cc3_sem4_0 : DmaSem sig := 40
abbrev cc3_sem5_0 : DmaSem sig := 41
abbrev cc3_sem6_0 : DmaSem sig := 42

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S176x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S208x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S256x16 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S256x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S80x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256x32 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000 : S_.BroadcastsInDim S50000 (![] : Fin 0 → Fin S50000.rank)
  bcast_S50000_S50000x1_0 : S50000.BroadcastsInDim S50000x1 (![0] : Fin 1 → Fin S50000x1.rank)
  shapeCasts_S128_S1x128 : S128.ShapeCasts S1x128
  shapeCasts_S64_S1x64 : S64.ShapeCasts S1x64
  inb_S176x128_S176x128_0_0 : ∀ a, (![0, 0] : Fin 2 → Nat) a + S176x128.size a ≤ S176x128.size a
  h_S176x128 : 0 < S176x128.numel
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  slices_S176x128_o0_0_S64x128 : S176x128.Slices ![0, 0] S64x128
  slices_S176x128_o64_0_S64x128 : S176x128.Slices ![64, 0] S64x128
  inb_S4000x32_S4000x32_0_0 : ∀ a, (![0, 0] : Fin 2 → Nat) a + S4000x32.size a ≤ S4000x32.size a
  h_S4000x32 : 0 < S4000x32.numel
  slices_S176x128_o128_0_S32x128 : S176x128.Slices ![128, 0] S32x128
  inb_S4000x16_S4000x16_0_0 : ∀ a, (![0, 0] : Fin 2 → Nat) a + S4000x16.size a ≤ S4000x16.size a
  h_S4000x16 : 0 < S4000x16.numel
  shapeCasts_S4000x16_S4000x16 : S4000x16.ShapeCasts S4000x16
  slices_S176x128_o160_0_S16x128 : S176x128.Slices ![160, 0] S16x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S128x128_S128x128_0_0 : ∀ a, (![0, 0] : Fin 2 → Nat) a + S128x128.size a ≤ S128x128.size a
  h_S128x128 : 0 < S128x128.numel
  slices_S128x128_o0_0_S64x128 : S128x128.Slices ![0, 0] S64x128
  slices_S128x128_o64_0_S64x128 : S128x128.Slices ![64, 0] S64x128
  inb_S4000x128_S4000x128_0_0 : ∀ a, (![0, 0] : Fin 2 → Nat) a + S4000x128.size a ≤ S4000x128.size a
  h_S4000x128 : 0 < S4000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  inb_S208x128_S208x128_0_0 : ∀ a, (![0, 0] : Fin 2 → Nat) a + S208x128.size a ≤ S208x128.size a
  h_S208x128 : 0 < S208x128.numel
  inb_S5000x64_S5000x64_0_0 : ∀ a, (![0, 0] : Fin 2 → Nat) a + S5000x64.size a ≤ S5000x64.size a
  h_S5000x64 : 0 < S5000x64.numel
  slices_S208x128_o0_0_S64x128 : S208x128.Slices ![0, 0] S64x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  slices_S208x128_o64_0_S128x128 : S208x128.Slices ![64, 0] S128x128
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  slices_S208x128_o192_0_S16x128 : S208x128.Slices ![192, 0] S16x128
  broadcasts_S1x128_S5000x128 : S1x128.Broadcasts S5000x128
  broadcasts_S1x64_S5000x64 : S1x64.Broadcasts S5000x64
  bcast_S_S256x64 : S_.BroadcastsInDim S256x64 (![] : Fin 0 → Fin S256x64.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  shapeCasts_S32_S1x32 : S32.ShapeCasts S1x32
  inb_S80x128_S80x128_0_0 : ∀ a, (![0, 0] : Fin 2 → Nat) a + S80x128.size a ≤ S80x128.size a
  h_S80x128 : 0 < S80x128.numel
  inb_S256x16_S256x16_0_0 : ∀ a, (![0, 0] : Fin 2 → Nat) a + S256x16.size a ≤ S256x16.size a
  h_S256x16 : 0 < S256x16.numel
  slices_S80x128_o0_0_S16x128 : S80x128.Slices ![0, 0] S16x128
  inb_S256x64_S256x64_0_0 : ∀ a, (![0, 0] : Fin 2 → Nat) a + S256x64.size a ≤ S256x64.size a
  h_S256x64 : 0 < S256x64.numel
  shapeCasts_S256x64_S256x64 : S256x64.ShapeCasts S256x64
  slices_S80x128_o16_0_S64x128 : S80x128.Slices ![16, 0] S64x128
  broadcasts_S1x128_S256x128 : S1x128.Broadcasts S256x128
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S256x32 : S1x32.Broadcasts S256x32
  inb_S256x32_S256x32_0_0 : ∀ a, (![0, 0] : Fin 2 → Nat) a + S256x32.size a ≤ S256x32.size a
  h_S256x32 : 0 < S256x32.numel
  gather_S50000x64_S800000x1_S800000x64_1_0_n_n_0_1_164_wf : GatherDims.WF S50000x64 S800000x1 S800000x64 [1] [0] [] [0] [] 1 ![1, 64]
  gather_S50000_S800000x1_S800000_n_0_n_n_0_1_1_wf : GatherDims.WF S50000 S800000x1 S800000 [] [0] [] [0] [] 1 ![1]
  gather_S256x16_S800000x1_S800000x16_1_0_n_n_0_1_116_wf : GatherDims.WF S256x16 S800000x1 S800000x16 [1] [0] [] [0] [] 1 ![1, 16]
  gather_S256x16_S50000x1_S50000x16_1_0_n_n_0_1_116_wf : GatherDims.WF S256x16 S50000x1 S50000x16 [1] [0] [] [0] [] 1 ![1, 16]
  dot_S4000x64_S64x128_S4000x128_1_0_0_1_n_n_wf : DotDims.WF S4000x64 S64x128 S4000x128 [1] [0] [0] [1] [] []
  dot_S4000x32_S32x128_S4000x128_1_0_0_1_n_n_wf : DotDims.WF S4000x32 S32x128 S4000x128 [1] [0] [0] [1] [] []
  dot_S4000x16_S16x128_S4000x128_1_0_0_1_n_n_wf : DotDims.WF S4000x16 S16x128 S4000x128 [1] [0] [0] [1] [] []
  dot_S4000x128_S128x64_S4000x64_1_0_0_1_n_n_wf : DotDims.WF S4000x128 S128x64 S4000x64 [1] [0] [0] [1] [] []
  dot_S4000x128_S128x128_S4000x128_1_0_0_1_n_n_wf : DotDims.WF S4000x128 S128x128 S4000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  dot_S5000x16_S16x128_S5000x128_1_0_0_1_n_n_wf : DotDims.WF S5000x16 S16x128 S5000x128 [1] [0] [0] [1] [] []
  dot_S5000x128_S128x64_S5000x64_1_0_0_1_n_n_wf : DotDims.WF S5000x128 S128x64 S5000x64 [1] [0] [0] [1] [] []
  scatter_S256x64_S50000x1_S50000x64_1_0_0_1_wf : ScatterDims.WF S256x64 S50000x1 S50000x64 [1] [0] [0] 1
  scatter_S256_S50000x1_S50000_n_0_0_1_wf : ScatterDims.WF S256 S50000x1 S50000 [] [0] [0] 1
  dot_S256x16_S16x128_S256x128_1_0_0_1_n_n_wf : DotDims.WF S256x16 S16x128 S256x128 [1] [0] [0] [1] [] []
  dot_S256x64_S64x128_S256x128_1_0_0_1_n_n_wf : DotDims.WF S256x64 S64x128 S256x128 [1] [0] [0] [1] [] []
  dot_S256x128_S128x32_S256x32_1_0_0_1_n_n_wf : DotDims.WF S256x128 S128x32 S256x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S800000x64.size a
  hwx0_0 : ∀ i : grid0.Coords, EltTy.bits .f32 = 32 ∨ (Rect.block (s := S800000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S800000x64.size a
  hwx0_1 : ∀ i : grid0.Coords, EltTy.bits .f32 = 32 ∨ (Rect.block (s := S800000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x32.size a ≤ S800000x32.size a
  hwx0_2 : ∀ i : grid0.Coords, EltTy.bits .f32 = 32 ∨ (Rect.block (s := S800000x32) S4000x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x16.size a ≤ S800000x16.size a
  hwx0_3 : ∀ i : grid0.Coords, EltTy.bits .f32 = 32 ∨ (Rect.block (s := S800000x16) S4000x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S176x128.size a ≤ S176x128.size a
  hwx0_4 : ∀ i : grid0.Coords, EltTy.bits .f32 = 32 ∨ (Rect.block (s := S176x128) S176x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x64.size a ≤ S800000x64.size a
  hwx0_8 : ∀ i : grid0.Coords, EltTy.bits .f32 = 32 ∨ (Rect.block (s := S800000x64) S4000x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S800000x64.size a
  hwx1_0 : ∀ i : grid1.Coords, EltTy.bits .f32 = 32 ∨ (Rect.block (s := S800000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S800000x64.size a
  hwx1_1 : ∀ i : grid1.Coords, EltTy.bits .f32 = 32 ∨ (Rect.block (s := S800000x64) S4000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S800000x128.size a
  hwx1_6 : ∀ i : grid1.Coords, EltTy.bits .f32 = 32 ∨ (Rect.block (s := S800000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S50000x16.size a
  hwx2_2 : ∀ i : grid2.Coords, EltTy.bits .f32 = 32 ∨ (Rect.block (s := S50000x16) S5000x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S208x128.size a ≤ S208x128.size a
  hwx2_3 : ∀ i : grid2.Coords, EltTy.bits .f32 = 32 ∨ (Rect.block (s := S208x128) S208x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x64.size a ≤ S128x64.size a
  hwx2_5 : ∀ i : grid2.Coords, EltTy.bits .f32 = 32 ∨ (Rect.block (s := S128x64) S128x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S50000x64.size a
  hwx2_7 : ∀ i : grid2.Coords, EltTy.bits .f32 = 32 ∨ (Rect.block (s := S50000x64) S5000x64.size (cc2_transform_7 i) (hinb2_7 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S256x16.size a ≤ S256x16.size a
  hwx3_0 : ∀ i : grid3.Coords, EltTy.bits .f32 = 32 ∨ (Rect.block (s := S256x16) S256x16.size (cc3_transform_0 i) (hinb3_0 i)).WholeWords (EltTy.packing .f32)
  hstage3_1 : ∀ j, (stage3_1 j).IsWhole
  nbuf3_1 : grid3.bufCount reads3_1 false = 1
  hreads3_1 : ∀ i i' : grid3.Coords, (∀ a, reads3_1 a = true → i a = i' a) → cc3_transform_1 i = cc3_transform_1 i'
  hinb3_1 : ∀ (i : grid3.Coords) a, (cc3_transform_1 i a + 1) * S256x64.size a ≤ S256x64.size a
  hwx3_1 : ∀ i : grid3.Coords, EltTy.bits .f32 = 32 ∨ (Rect.block (s := S256x64) S256x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S80x128.size a ≤ S80x128.size a
  hwx3_2 : ∀ i : grid3.Coords, EltTy.bits .f32 = 32 ∨ (Rect.block (s := S80x128) S80x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x32.size a ≤ S128x32.size a
  hwx3_4 : ∀ i : grid3.Coords, EltTy.bits .f32 = 32 ∨ (Rect.block (s := S128x32) S128x32.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x32.size a ≤ S1x32.size a
  hwx3_5 : ∀ i : grid3.Coords, EltTy.bits .f32 = 32 ∨ (Rect.block (s := S1x32) S1x32.size (cc3_transform_5 i) (hinb3_5 i)).WholeWords (EltTy.packing .f32)
  hstage3_6 : ∀ j, (stage3_6 j).IsWhole
  nbuf3_6 : grid3.bufCount reads3_6 false = 1
  hreads3_6 : ∀ i i' : grid3.Coords, (∀ a, reads3_6 a = true → i a = i' a) → cc3_transform_6 i = cc3_transform_6 i'
  hinb3_6 : ∀ (i : grid3.Coords) a, (cc3_transform_6 i a + 1) * S256x32.size a ≤ S256x32.size a
  hwx3_6 : ∀ i : grid3.Coords, EltTy.bits .f32 = 32 ∨ (Rect.block (s := S256x32) S256x32.size (cc3_transform_6 i) (hinb3_6 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S256x16_S800000x1_S800000x16_1_0_n_n_0_1_116 : GatherDims S256x16 S800000x1 S800000x16 where
  offsetDims := [1]
  collapsedSliceDims := [0]
  operandBatchingDims := []
  startIndicesBatchingDims := []
  startIndexMap := [0]
  indexVectorDim := 1
  sliceSizes := ![1, 16]
  wf := gather_S256x16_S800000x1_S800000x16_1_0_n_n_0_1_116_wf
def gather_S256x16_S50000x1_S50000x16_1_0_n_n_0_1_116 : GatherDims S256x16 S50000x1 S50000x16 where
  offsetDims := [1]
  collapsedSliceDims := [0]
  operandBatchingDims := []
  startIndicesBatchingDims := []
  startIndexMap := [0]
  indexVectorDim := 1
  sliceSizes := ![1, 16]
  wf := gather_S256x16_S50000x1_S50000x16_1_0_n_n_0_1_116_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x32_S32x128_S4000x128_1_0_0_1_n_n : DotDims S4000x32 S32x128 S4000x128 where
  lhsContracting := [1]
  rhsContracting := [0]
  lhsNonContracting := [0]
  rhsNonContracting := [1]
  lhsBatch := []
  rhsBatch := []
  wf := dot_S4000x32_S32x128_S4000x128_1_0_0_1_n_n_wf
def dot_S4000x16_S16x128_S4000x128_1_0_0_1_n_n : DotDims S4000x16 S16x128 S4000x128 where
  lhsContracting := [1]
  rhsContracting := [0]
  lhsNonContracting := [0]
  rhsNonContracting := [1]
  lhsBatch := []
  rhsBatch := []
  wf := dot_S4000x16_S16x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x16_S16x128_S256x128_1_0_0_1_n_n : DotDims S256x16 S16x128 S256x128 where
  lhsContracting := [1]
  rhsContracting := [0]
  lhsNonContracting := [0]
  rhsNonContracting := [1]
  lhsBatch := []
  rhsBatch := []
  wf := dot_S256x16_S16x128_S256x128_1_0_0_1_n_n_wf
def dot_S256x64_S64x128_S256x128_1_0_0_1_n_n : DotDims S256x64 S64x128 S256x128 where
  lhsContracting := [1]
  rhsContracting := [0]
  lhsNonContracting := [0]
  rhsNonContracting := [1]
  lhsBatch := []
  rhsBatch := []
  wf := dot_S256x64_S64x128_S256x128_1_0_0_1_n_n_wf
def dot_S256x128_S128x32_S256x32_1_0_0_1_n_n : DotDims S256x128 S128x32 S256x32 where
  lhsContracting := [1]
  rhsContracting := [0]
  lhsNonContracting := [0]
  rhsNonContracting := [1]
  lhsBatch := []
  rhsBatch := []
  wf := dot_S256x128_S128x32_S256x32_1_0_0_1_n_n_wf

abbrev win0_0 : Pipeline.Window sig grid0 :=
  Pipeline.Window.ofSpec (Memref.whole main_v10) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31) S4000x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S176x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v40) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v41) S4000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v10) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S5000x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S208x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S128x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v59) S5000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_arg2) S256x16.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_v71) S256x64.size cc3_transform_1 reads3_1 false false 1 stage3_1 sem3_1
    hrank3 hreads3_1 hinb3_1 nbuf3_1 (Memref.isWhole_whole _) hwx3_1 hstage3_1

abbrev win3_2 : Pipeline.Window sig grid3 :=
  Pipeline.Window.ofSpec (Memref.whole main_arg15) S80x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v72) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg17) S128x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v73) S1x32.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v74) S256x32.size cc3_transform_6 reads3_6 true false 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x64 : Shape := ⟨2, ![50000, 64]⟩
abbrev S800000x32 : Shape := ⟨2, ![800000, 32]⟩
abbrev S256x16 : Shape := ⟨2, ![256, 16]⟩
abbrev S176x128 : Shape := ⟨2, ![176, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S208x128 : Shape := ⟨2, ![208, 128]⟩
abbrev S80x128 : Shape := ⟨2, ![80, 128]⟩
abbrev S128x32 : Shape := ⟨2, ![128, 32]⟩
abbrev S32 : Shape := ⟨1, ![32]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x16 : Shape := ⟨2, ![800000, 16]⟩
abbrev S800000x176 : Shape := ⟨2, ![800000, 176]⟩
abbrev S800000x128 : Shape := ⟨2, ![800000, 128]⟩
abbrev S1x128 : Shape := ⟨2, ![1, 128]⟩
abbrev S1x64 : Shape := ⟨2, ![1, 64]⟩
abbrev S50000x128 : Shape := ⟨2, ![50000, 128]⟩
abbrev S50000x1 : Shape := ⟨2, ![50000, 1]⟩
abbrev S50000x16 : Shape := ⟨2, ![50000, 16]⟩
abbrev S50000x208 : Shape := ⟨2, ![50000, 208]⟩
abbrev S256x64 : Shape := ⟨2, ![256, 64]⟩
abbrev S256 : Shape := ⟨1, ![256]⟩
abbrev S256x1 : Shape := ⟨2, ![256, 1]⟩
abbrev S256x80 : Shape := ⟨2, ![256, 80]⟩
abbrev S256x128 : Shape := ⟨2, ![256, 128]⟩
abbrev S256x32 : Shape := ⟨2, ![256, 32]⟩
abbrev S1x32 : Shape := ⟨2, ![1, 32]⟩

abbrev nBuf : Space → Nat
  | .hbm => 159
  | .vmem => 0
  | .smem => 0
  | _ => 0

abbrev hbmTy0_0 (i : Nat) : BufTy := match i % 128 with
  | 0 => ⟨S50000x64, .f32⟩
  | 1 => ⟨S800000x32, .f32⟩
  | 2 => ⟨S256x16, .f32⟩
  | 3 => ⟨S176x128, .f32⟩
  | 4 => ⟨S128, .f32⟩
  | 5 => ⟨S128x64, .f32⟩
  | 6 => ⟨S64, .f32⟩
  | 7 => ⟨S128x128, .f32⟩
  | 8 => ⟨S128, .f32⟩
  | 9 => ⟨S128x128, .f32⟩
  | 10 => ⟨S128, .f32⟩
  | 11 => ⟨S208x128, .f32⟩
  | 12 => ⟨S128, .f32⟩
  | 13 => ⟨S128x64, .f32⟩
  | 14 => ⟨S64, .f32⟩
  | 15 => ⟨S80x128, .f32⟩
  | 16 => ⟨S128, .f32⟩
  | 17 => ⟨S128x32, .f32⟩
  | 18 => ⟨S32, .f32⟩
  | 19 => ⟨S2x800000, .i32⟩
  | 20 => ⟨S50000, .i32⟩
  | 21 => ⟨S1x800000, .i32⟩
  | 22 => ⟨S800000, .i32⟩
  | 23 => ⟨S1x800000, .i32⟩
  | 24 => ⟨S800000, .i32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x64, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x64, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000, .i32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x16, .f32⟩
  | 61 => ⟨S800000x176, .f32⟩
  | 62 => ⟨S800000x128, .f32⟩
  | 63 => ⟨S1x128, .f32⟩
  | 64 => ⟨S800000x128, .f32⟩
  | 65 => ⟨S800000x128, .f32⟩
  | 66 => ⟨S_, .f32⟩
  | 67 => ⟨S800000x128, .f32⟩
  | 68 => ⟨S800000x128, .f32⟩
  | 69 => ⟨S800000x64, .f32⟩
  | 70 => ⟨S1x64, .f32⟩
  | 71 => ⟨S800000x64, .f32⟩
  | 72 => ⟨S800000x64, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x64, .f32⟩
  | 82 => ⟨S800000x128, .f32⟩
  | 83 => ⟨S800000x128, .f32⟩
  | 84 => ⟨S1x128, .f32⟩
  | 85 => ⟨S800000x128, .f32⟩
  | 86 => ⟨S800000x128, .f32⟩
  | 87 => ⟨S_, .f32⟩
  | 88 => ⟨S800000x128, .f32⟩
  | 89 => ⟨S800000x128, .f32⟩
  | 90 => ⟨S800000x128, .f32⟩
  | 91 => ⟨S1x128, .f32⟩
  | 92 => ⟨S800000x128, .f32⟩
  | 93 => ⟨S800000x128, .f32⟩
  | 94 => ⟨S_, .f32⟩
  | 95 => ⟨S50000x128, .f32⟩
  | 96 => ⟨S800000x1, .i32⟩
  | 97 => ⟨S50000x128, .f32⟩
  | 98 => ⟨S_, .f32⟩
  | 99 => ⟨S800000, .f32⟩
  | 100 => ⟨S_, .f32⟩
  | 101 => ⟨S50000, .f32⟩
  | 102 => ⟨S800000x1, .i32⟩
  | 103 => ⟨S50000, .f32⟩
  | 104 => ⟨S_, .f32⟩
  | 105 => ⟨S50000, .f32⟩
  | 106 => ⟨S50000, .f32⟩
  | 107 => ⟨S50000x1, .f32⟩
  | 108 => ⟨S50000x128, .f32⟩
  | 109 => ⟨S50000x128, .f32⟩
  | 110 => ⟨S_, .i32⟩
  | 111 => ⟨S50000, .i32⟩
  | 112 => ⟨S50000, .i1⟩
  | 113 => ⟨S_, .i32⟩
  | 114 => ⟨S50000, .i32⟩
  | 115 => ⟨S50000, .i32⟩
  | 116 => ⟨S50000, .i32⟩
  | 117 => ⟨S50000x1, .i32⟩
  | 118 => ⟨S50000x16, .f32⟩
  | 119 => ⟨S50000x208, .f32⟩
  | 120 => ⟨S50000x128, .f32⟩
  | 121 => ⟨S1x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S50000x64, .f32⟩
  | _ => ⟨S50000x64, .f32⟩

abbrev hbmTy0_1 (i : Nat) : BufTy := match i % 128 with
  | 0 => ⟨S1x64, .f32⟩
  | 1 => ⟨S50000x64, .f32⟩
  | 2 => ⟨S50000x64, .f32⟩
  | 3 => ⟨S_, .f32⟩
  | 4 => ⟨S256x64, .f32⟩
  | 5 => ⟨S50000x1, .i32⟩
  | 6 => ⟨S256x64, .f32⟩
  | 7 => ⟨S_, .f32⟩
  | 8 => ⟨S50000, .f32⟩
  | 9 => ⟨S_, .f32⟩
  | 10 => ⟨S256, .f32⟩
  | 11 => ⟨S50000x1, .i32⟩
  | 12 => ⟨S256, .f32⟩
  | 13 => ⟨S_, .f32⟩
  | 14 => ⟨S256, .f32⟩
  | 15 => ⟨S256, .f32⟩
  | 16 => ⟨S256x1, .f32⟩
  | 17 => ⟨S256x64, .f32⟩
  | 18 => ⟨S256x64, .f32⟩
  | 19 => ⟨S256x80, .f32⟩
  | 20 => ⟨S256x128, .f32⟩
  | 21 => ⟨S1x128, .f32⟩
  | 22 => ⟨S256x128, .f32⟩
  | 23 => ⟨S256x128, .f32⟩
  | 24 => ⟨S_, .f32⟩
  | 25 => ⟨S256x128, .f32⟩
  | 26 => ⟨S256x128, .f32⟩
  | 27 => ⟨S256x32, .f32⟩
  | 28 => ⟨S1x32, .f32⟩
  | 29 => ⟨S256x32, .f32⟩
  | 30 => ⟨S256x32, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c_1 : Ref sig .tc := ⟨.hbm, 34, rfl⟩
abbrev main_v11 : Ref sig .tc := ⟨.hbm, 35, rfl⟩
abbrev main_v12 : Ref sig .tc := ⟨.hbm, 36, rfl⟩
abbrev main_c_2 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_c_3 : Ref sig .tc := ⟨.hbm, 43, rfl⟩
abbrev main_v18 : Ref sig .tc := ⟨.hbm, 44, rfl⟩
abbrev main_v19 : Ref sig .tc := ⟨.hbm, 45, rfl⟩
abbrev main_c_4 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_c_5 : Ref sig .tc := ⟨.hbm, 52, rfl⟩
abbrev main_v25 : Ref sig .tc := ⟨.hbm, 53, rfl⟩
abbrev main_v26 : Ref sig .tc := ⟨.hbm, 54, rfl⟩
abbrev main_c_6 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_call0_cst : Ref sig .tc := ⟨.hbm, 66, rfl⟩
abbrev main_call0_v0 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_c_7 : Ref sig .tc := ⟨.hbm, 73, rfl⟩
abbrev main_v42 : Ref sig .tc := ⟨.hbm, 74, rfl⟩
abbrev main_v43 : Ref sig .tc := ⟨.hbm, 75, rfl⟩
abbrev main_c_8 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_call1_cst : Ref sig .tc := ⟨.hbm, 87, rfl⟩
abbrev main_call1_v0 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_9 : Ref sig .tc := ⟨.hbm, 98, rfl⟩
abbrev main_v62 : Ref sig .tc := ⟨.hbm, 99, rfl⟩
abbrev main_cst_10 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_11 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_c_12 : Ref sig .tc := ⟨.hbm, 110, rfl⟩
abbrev main_v71 : Ref sig .tc := ⟨.hbm, 111, rfl⟩
abbrev main_v72 : Ref sig .tc := ⟨.hbm, 112, rfl⟩
abbrev main_c_13 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_call2_cst : Ref sig .tc := ⟨.hbm, 124, rfl⟩
abbrev main_call2_v0 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_cst_14 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_cst_15 : Ref sig .tc := ⟨.hbm, 135, rfl⟩
abbrev main_v91 : Ref sig .tc := ⟨.hbm, 136, rfl⟩
abbrev main_cst_16 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_cst_17 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_call3_cst : Ref sig .tc := ⟨.hbm, 152, rfl⟩
abbrev main_call3_v0 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x32_S800000x16_S800000x176_d1 : Shape.Concatenates [S800000x64, S800000x64, S800000x32, S800000x16] S800000x176 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  concatenates_S800000x64_S800000x64_S800000x128_d1 : Shape.Concatenates [S800000x64, S800000x64] S800000x128 1
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x64_S50000x128_S50000x16_S50000x208_d1 : Shape.Concatenates [S50000x64, S50000x128, S50000x16] S50000x208 1
  bcast_S1x128_S50000x128_0_1 : S1x128.BroadcastsInDim S50000x128 (![0, 1] : Fin 2 → Fin S50000x128.rank)
  bcast_S1x64_S50000x64_0_1 : S1x64.BroadcastsInDim S50000x64 (![0, 1] : Fin 2 → Fin S50000x64.rank)
  bcast_S_S256x64 : S_.BroadcastsInDim S256x64 (![] : Fin 0 → Fin S256x64.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  concatenates_S256x16_S256x64_S256x80_d1 : Shape.Concatenates [S256x16, S256x64] S256x80 1
  bcast_S1x128_S256x128_0_1 : S1x128.BroadcastsInDim S256x128 (![0, 1] : Fin 2 → Fin S256x128.rank)
  bcast_S_S256x128 : S_.BroadcastsInDim S256x128 (![] : Fin 0 → Fin S256x128.rank)
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  gather_S50000x64_S800000x1_S800000x64_1_0_n_n_0_1_164_wf : GatherDims.WF S50000x64 S800000x1 S800000x64 [1] [0] [] [0] [] 1 ![1, 64]
  gather_S50000_S800000x1_S800000_n_0_n_n_0_1_1_wf : GatherDims.WF S50000 S800000x1 S800000 [] [0] [] [0] [] 1 ![1]
  gather_S256x16_S800000x1_S800000x16_1_0_n_n_0_1_116_wf : GatherDims.WF S256x16 S800000x1 S800000x16 [1] [0] [] [0] [] 1 ![1, 16]
  dot_S800000x176_S176x128_S800000x128_1_0_0_1_n_n_wf : DotDims.WF S800000x176 S176x128 S800000x128 [1] [0] [0] [1] [] []
  dot_S800000x128_S128x64_S800000x64_1_0_0_1_n_n_wf : DotDims.WF S800000x128 S128x64 S800000x64 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  gather_S256x16_S50000x1_S50000x16_1_0_n_n_0_1_116_wf : GatherDims.WF S256x16 S50000x1 S50000x16 [1] [0] [] [0] [] 1 ![1, 16]
  dot_S50000x208_S208x128_S50000x128_1_0_0_1_n_n_wf : DotDims.WF S50000x208 S208x128 S50000x128 [1] [0] [0] [1] [] []
  dot_S50000x128_S128x64_S50000x64_1_0_0_1_n_n_wf : DotDims.WF S50000x128 S128x64 S50000x64 [1] [0] [0] [1] [] []
  scatter_S256x64_S50000x1_S50000x64_1_0_0_1_wf : ScatterDims.WF S256x64 S50000x1 S50000x64 [1] [0] [0] 1
  scatter_S256_S50000x1_S50000_n_0_0_1_wf : ScatterDims.WF S256 S50000x1 S50000 [] [0] [0] 1
  dot_S256x80_S80x128_S256x128_1_0_0_1_n_n_wf : DotDims.WF S256x80 S80x128 S256x128 [1] [0] [0] [1] [] []
  dot_S256x128_S128x32_S256x32_1_0_0_1_n_n_wf : DotDims.WF S256x128 S128x32 S256x32 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S256x16_S800000x1_S800000x16_1_0_n_n_0_1_116 : GatherDims S256x16 S800000x1 S800000x16 where
  offsetDims := [1]
  collapsedSliceDims := [0]
  operandBatchingDims := []
  startIndicesBatchingDims := []
  startIndexMap := [0]
  indexVectorDim := 1
  sliceSizes := ![1, 16]
  wf := gather_S256x16_S800000x1_S800000x16_1_0_n_n_0_1_116_wf
def dot_S800000x176_S176x128_S800000x128_1_0_0_1_n_n : DotDims S800000x176 S176x128 S800000x128 where
  lhsContracting := [1]
  rhsContracting := [0]
  lhsNonContracting := [0]
  rhsNonContracting := [1]
  lhsBatch := []
  rhsBatch := []
  wf := dot_S800000x176_S176x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S256x16_S50000x1_S50000x16_1_0_n_n_0_1_116 : GatherDims S256x16 S50000x1 S50000x16 where
  offsetDims := [1]
  collapsedSliceDims := [0]
  operandBatchingDims := []
  startIndicesBatchingDims := []
  startIndexMap := [0]
  indexVectorDim := 1
  sliceSizes := ![1, 16]
  wf := gather_S256x16_S50000x1_S50000x16_1_0_n_n_0_1_116_wf
def dot_S50000x208_S208x128_S50000x128_1_0_0_1_n_n : DotDims S50000x208 S208x128 S50000x128 where
  lhsContracting := [1]
  rhsContracting := [0]
  lhsNonContracting := [0]
  rhsNonContracting := [1]
  lhsBatch := []
  rhsBatch := []
  wf := dot_S50000x208_S208x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x80_S80x128_S256x128_1_0_0_1_n_n : DotDims S256x80 S80x128 S256x128 where
  lhsContracting := [1]
  rhsContracting := [0]
  lhsNonContracting := [0]
  rhsNonContracting := [1]
  lhsBatch := []
  rhsBatch := []
  wf := dot_S256x80_S80x128_S256x128_1_0_0_1_n_n_wf
def dot_S256x128_S128x32_S256x32_1_0_0_1_n_n : DotDims S256x128 S128x32 S256x32 where
  lhsContracting := [1]
  rhsContracting := [0]
  lhsNonContracting := [0]
  rhsNonContracting := [1]
  lhsBatch := []
  rhsBatch := []
  wf := dot_S256x128_S128x32_S256x32_1_0_0_1_n_n_wf

class Facts : Prop extends Facts₀ where

variable [Facts]
-- ==== Proof.RefRun.lean ====
/-
  The reference program's run, read as values.

  The program is a straight line of 138 host operations: index vectors and gathers, then four times a concatenation of
  row-aligned pieces followed by a two-layer perceptron, with a scatter-mean between the stages. Every weakly fair
  execution terminates with each buffer at the fold of the operations' results over its launch contents. This module
  reads that fold at the three results and at the arguments. The fold is cut into thirteen stretches; each stretch is
  read once, over arbitrary entry contents, at the buffers later stretches read; the pieces are composed; and a buffer
  no operation writes is read through the whole line by one write-set argument.
-/
import proofs.«158231_j85143431676130_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 138 operations, in order (a called function's operations stand in its call's place, spelt `TRef.…`). -/
abbrev ops : List (HloOp τ sig (Elt F)) :=
  [ unary main_arg19 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg19 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_1 (constantI S_ 32 0#32),
    unary main_c_1 main_v11 (broadcastInDim S800000 ![] bcast_S_S800000 : (⟨S_, .i32⟩ : BufTy).Contents (Elt F) → (⟨S800000, .i32⟩ : BufTy).Contents (Elt F)),
    binary main_v3 main_v11 main_v12 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v13 (broadcastInDim S800000 ![] bcast_S_S800000 : (⟨S_, .i32⟩ : BufTy).Contents (Elt F) → (⟨S800000, .i32⟩ : BufTy).Contents (Elt F)),
    binary main_v3 main_v13 main_v14 (addi : (⟨S800000, .i32⟩ : BufTy).Contents (Elt F) → (⟨S800000, .i32⟩ : BufTy).Contents (Elt F) → (⟨S800000, .i32⟩ : BufTy).Contents (Elt F)),
    ternary main_v12 main_v14 main_v3 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v15 main_v16 (broadcastInDim S800000x1 ![0] bcast_S800000_S800000x1_0 : (⟨S800000, .i32⟩ : BufTy).Contents (Elt F) → (⟨S800000x1, .i32⟩ : BufTy).Contents (Elt F)),
    binary main_arg0 main_v16 main_v17 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_3 (constantI S_ 32 0#32),
    unary main_c_3 main_v18 (broadcastInDim S800000 ![] bcast_S_S800000 : (⟨S_, .i32⟩ : BufTy).Contents (Elt F) → (⟨S800000, .i32⟩ : BufTy).Contents (Elt F)),
    binary main_v1 main_v18 main_v19 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v20 (broadcastInDim S800000 ![] bcast_S_S800000 : (⟨S_, .i32⟩ : BufTy).Contents (Elt F) → (⟨S800000, .i32⟩ : BufTy).Contents (Elt F)),
    binary main_v1 main_v20 main_v21 (addi : (⟨S800000, .i32⟩ : BufTy).Contents (Elt F) → (⟨S800000, .i32⟩ : BufTy).Contents (Elt F) → (⟨S800000, .i32⟩ : BufTy).Contents (Elt F)),
    ternary main_v19 main_v21 main_v1 main_v22 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v22 main_v23 (broadcastInDim S800000x1 ![0] bcast_S800000_S800000x1_0 : (⟨S800000, .i32⟩ : BufTy).Contents (Elt F) → (⟨S800000x1, .i32⟩ : BufTy).Contents (Elt F)),
    binary main_arg20 main_v23 main_v24 ((fun x i => Host.gather gather_S50000_S800000x1_S800000_n_0_n_n_0_1_1 x i) : (⟨S50000, .i32⟩ : BufTy).Contents (Elt F) → (⟨S800000x1, .i32⟩ : BufTy).Contents (Elt F) → (⟨S800000, .i32⟩ : BufTy).Contents (Elt F)),
    nullary main_c_5 (constantI S_ 32 0#32),
    unary main_c_5 main_v25 (broadcastInDim S800000 ![] bcast_S_S800000 : (⟨S_, .i32⟩ : BufTy).Contents (Elt F) → (⟨S800000, .i32⟩ : BufTy).Contents (Elt F)),
    binary main_v24 main_v25 main_v26 (cmpi .slt : (⟨S800000, .i32⟩ : BufTy).Contents (Elt F) → (⟨S800000, .i32⟩ : BufTy).Contents (Elt F) → (⟨S800000, .i1⟩ : BufTy).Contents (Elt F)),
    nullary main_c_6 (constantI S_ 32 256#32),
    unary main_c_6 main_v27 (broadcastInDim S800000 ![] bcast_S_S800000 : (⟨S_, .i32⟩ : BufTy).Contents (Elt F) → (⟨S800000, .i32⟩ : BufTy).Contents (Elt F)),
    binary main_v24 main_v27 main_v28 (addi : (⟨S800000, .i32⟩ : BufTy).Contents (Elt F) → (⟨S800000, .i32⟩ : BufTy).Contents (Elt F) → (⟨S800000, .i32⟩ : BufTy).Contents (Elt F)),
    ternary main_v26 main_v28 main_v24 main_v29 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v29 main_v30 (broadcastInDim S800000x1 ![0] bcast_S800000_S800000x1_0 : (⟨S800000, .i32⟩ : BufTy).Contents (Elt F) → (⟨S800000x1, .i32⟩ : BufTy).Contents (Elt F)),
    binary main_arg2 main_v30 main_v31 ((fun x i => Host.gather gather_S256x16_S800000x1_S800000x16_1_0_n_n_0_1_116 x i) : (⟨S256x16, .f32⟩ : BufTy).Contents (Elt F) → (⟨S800000x1, .i32⟩ : BufTy).Contents (Elt F) → (⟨S800000x16, .f32⟩ : BufTy).Contents (Elt F)),
    nary ![main_v10, main_v17, main_arg1, main_v31] main_v32 (fun u => concatenate S800000x176 1 [⟨S800000x64, u 0⟩, ⟨S800000x64, u 1⟩, ⟨S800000x32, u 2⟩, ⟨S800000x16, u 3⟩] concatenates_S800000x64_S800000x64_S800000x32_S800000x16_S800000x176_d1),
    binary main_v32 main_arg3 main_v33 ((fun l r => Host.dotGeneral dot_S800000x176_S176x128_S800000x128_1_0_0_1_n_n none l r) : (⟨S800000x176, .f32⟩ : BufTy).Contents (Elt F) → (⟨S176x128, .f32⟩ : BufTy).Contents (Elt F) → (⟨S800000x128, .f32⟩ : BufTy).Contents (Elt F)),
    unary main_arg4 main_v34 (broadcastInDim S1x128 ![1] bcast_S128_S1x128_1 : (⟨S128, .f32⟩ : BufTy).Contents (Elt F) → (⟨S1x128, .f32⟩ : BufTy).Contents (Elt F)),
    unary main_v34 main_v35 (broadcastInDim S800000x128 ![0, 1] bcast_S1x128_S800000x128_0_1 : (⟨S1x128, .f32⟩ : BufTy).Contents (Elt F) → (⟨S800000x128, .f32⟩ : BufTy).Contents (Elt F)),
    binary main_v33 main_v35 main_v36 (addf : (⟨S800000x128, .f32⟩ : BufTy).Contents (Elt F) → (⟨S800000x128, .f32⟩ : BufTy).Contents (Elt F) → (⟨S800000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S800000x128, .f32⟩) main_call0_v0) (broadcastInDim S800000x128 ![] bcast_S_S800000x128),
    TRef.binary (TRef.of (T := ⟨S800000x128, .f32⟩) main_v36) (TRef.of (T := ⟨S800000x128, .f32⟩) main_call0_v0) (TRef.of (T := ⟨S800000x128, .f32⟩) main_v37) maximumf,
    binary main_v37 main_arg5 main_v38 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    unary main_arg6 main_v39 (broadcastInDim S1x64 ![1] bcast_S64_S1x64_1 : (⟨S64, .f32⟩ : BufTy).Contents (Elt F) → (⟨S1x64, .f32⟩ : BufTy).Contents (Elt F)),
    unary main_v39 main_v40 (broadcastInDim S800000x64 ![0, 1] bcast_S1x64_S800000x64_0_1 : (⟨S1x64, .f32⟩ : BufTy).Contents (Elt F) → (⟨S800000x64, .f32⟩ : BufTy).Contents (Elt F)),
    binary main_v38 main_v40 main_v41 (addf : (⟨S800000x64, .f32⟩ : BufTy).Contents (Elt F) → (⟨S800000x64, .f32⟩ : BufTy).Contents (Elt F) → (⟨S800000x64, .f32⟩ : BufTy).Contents (Elt F)),
    nullary main_c_7 (constantI S_ 32 0#32),
    unary main_c_7 main_v42 (broadcastInDim S800000 ![] bcast_S_S800000 : (⟨S_, .i32⟩ : BufTy).Contents (Elt F) → (⟨S800000, .i32⟩ : BufTy).Contents (Elt F)),
    binary main_v1 main_v42 main_v43 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v44 (broadcastInDim S800000 ![] bcast_S_S800000 : (⟨S_, .i32⟩ : BufTy).Contents (Elt F) → (⟨S800000, .i32⟩ : BufTy).Contents (Elt F)),
    binary main_v1 main_v44 main_v45 (addi : (⟨S800000, .i32⟩ : BufTy).Contents (Elt F) → (⟨S800000, .i32⟩ : BufTy).Contents (Elt F) → (⟨S800000, .i32⟩ : BufTy).Contents (Elt F)),
    ternary main_v43 main_v45 main_v1 main_v46 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v46 main_v47 (broadcastInDim S800000x1 ![0] bcast_S800000_S800000x1_0 : (⟨S800000, .i32⟩ : BufTy).Contents (Elt F) → (⟨S800000x1, .i32⟩ : BufTy).Contents (Elt F)),
    binary main_arg0 main_v47 main_v48 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v48 main_v41 main_v49 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    binary main_v49 main_arg7 main_v50 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    unary main_arg8 main_v51 (broadcastInDim S1x128 ![1] bcast_S128_S1x128_1 : (⟨S128, .f32⟩ : BufTy).Contents (Elt F) → (⟨S1x128, .f32⟩ : BufTy).Contents (Elt F)),
    unary main_v51 main_v52 (broadcastInDim S800000x128 ![0, 1] bcast_S1x128_S800000x128_0_1 : (⟨S1x128, .f32⟩ : BufTy).Contents (Elt F) → (⟨S800000x128, .f32⟩ : BufTy).Contents (Elt F)),
    binary main_v50 main_v52 main_v53 (addf : (⟨S800000x128, .f32⟩ : BufTy).Contents (Elt F) → (⟨S800000x128, .f32⟩ : BufTy).Contents (Elt F) → (⟨S800000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S800000x128, .f32⟩) main_call1_v0) (broadcastInDim S800000x128 ![] bcast_S_S800000x128),
    TRef.binary (TRef.of (T := ⟨S800000x128, .f32⟩) main_v53) (TRef.of (T := ⟨S800000x128, .f32⟩) main_call1_v0) (TRef.of (T := ⟨S800000x128, .f32⟩) main_v54) maximumf,
    binary main_v54 main_arg9 main_v55 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    unary main_arg10 main_v56 (broadcastInDim S1x128 ![1] bcast_S128_S1x128_1 : (⟨S128, .f32⟩ : BufTy).Contents (Elt F) → (⟨S1x128, .f32⟩ : BufTy).Contents (Elt F)),
    unary main_v56 main_v57 (broadcastInDim S800000x128 ![0, 1] bcast_S1x128_S800000x128_0_1 : (⟨S1x128, .f32⟩ : BufTy).Contents (Elt F) → (⟨S800000x128, .f32⟩ : BufTy).Contents (Elt F)),
    binary main_v55 main_v57 main_v58 (addf : (⟨S800000x128, .f32⟩ : BufTy).Contents (Elt F) → (⟨S800000x128, .f32⟩ : BufTy).Contents (Elt F) → (⟨S800000x128, .f32⟩ : BufTy).Contents (Elt F)),
    nullary main_cst (constant S_ .f32 0x00000000#32),
    unary main_cst main_v59 (broadcastInDim S50000x128 ![] bcast_S_S50000x128 : (⟨S_, .f32⟩ : BufTy).Contents (Elt F) → (⟨S50000x128, .f32⟩ : BufTy).Contents (Elt F)),
    unary main_v3 main_v60 (broadcastInDim S800000x1 ![0] bcast_S800000_S800000x1_0 : (⟨S800000, .i32⟩ : BufTy).Contents (Elt F) → (⟨S800000x1, .i32⟩ : BufTy).Contents (Elt F)),
    ternary main_v59 main_v60 main_v58 main_v61 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_9 (constant S_ .f32 0x3F800000#32),
    unary main_cst_9 main_v62 (broadcastInDim S800000 ![] bcast_S_S800000 : (⟨S_, .f32⟩ : BufTy).Contents (Elt F) → (⟨S800000, .f32⟩ : BufTy).Contents (Elt F)),
    nullary main_cst_10 (constant S_ .f32 0x00000000#32),
    unary main_cst_10 main_v63 (broadcastInDim S50000 ![] bcast_S_S50000 : (⟨S_, .f32⟩ : BufTy).Contents (Elt F) → (⟨S50000, .f32⟩ : BufTy).Contents (Elt F)),
    unary main_v3 main_v64 (broadcastInDim S800000x1 ![0] bcast_S800000_S800000x1_0 : (⟨S800000, .i32⟩ : BufTy).Contents (Elt F) → (⟨S800000x1, .i32⟩ : BufTy).Contents (Elt F)),
    ternary main_v63 main_v64 main_v62 main_v65 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_11 (constant S_ .f32 0x3F800000#32),
    unary main_cst_11 main_v66 (broadcastInDim S50000 ![] bcast_S_S50000 : (⟨S_, .f32⟩ : BufTy).Contents (Elt F) → (⟨S50000, .f32⟩ : BufTy).Contents (Elt F)),
    binary main_v65 main_v66 main_v67 (maximumf : (⟨S50000, .f32⟩ : BufTy).Contents (Elt F) → (⟨S50000, .f32⟩ : BufTy).Contents (Elt F) → (⟨S50000, .f32⟩ : BufTy).Contents (Elt F)),
    unary main_v67 main_v68 (broadcastInDim S50000x1 ![0] bcast_S50000_S50000x1_0 : (⟨S50000, .f32⟩ : BufTy).Contents (Elt F) → (⟨S50000x1, .f32⟩ : BufTy).Contents (Elt F)),
    unary main_v68 main_v69 (broadcastInDim S50000x128 ![0, 1] bcast_S50000x1_S50000x128_0_1 : (⟨S50000x1, .f32⟩ : BufTy).Contents (Elt F) → (⟨S50000x128, .f32⟩ : BufTy).Contents (Elt F)),
    binary main_v61 main_v69 main_v70 (Host.divf : (⟨S50000x128, .f32⟩ : BufTy).Contents (Elt F) → (⟨S50000x128, .f32⟩ : BufTy).Contents (Elt F) → (⟨S50000x128, .f32⟩ : BufTy).Contents (Elt F)),
    nullary main_c_12 (constantI S_ 32 0#32),
    unary main_c_12 main_v71 (broadcastInDim S50000 ![] bcast_S_S50000 : (⟨S_, .i32⟩ : BufTy).Contents (Elt F) → (⟨S50000, .i32⟩ : BufTy).Contents (Elt F)),
    binary main_arg20 main_v71 main_v72 (cmpi .slt : (⟨S50000, .i32⟩ : BufTy).Contents (Elt F) → (⟨S50000, .i32⟩ : BufTy).Contents (Elt F) → (⟨S50000, .i1⟩ : BufTy).Contents (Elt F)),
    nullary main_c_13 (constantI S_ 32 256#32),
    unary main_c_13 main_v73 (broadcastInDim S50000 ![] bcast_S_S50000 : (⟨S_, .i32⟩ : BufTy).Contents (Elt F) → (⟨S50000, .i32⟩ : BufTy).Contents (Elt F)),
    binary main_arg20 main_v73 main_v74 (addi : (⟨S50000, .i32⟩ : BufTy).Contents (Elt F) → (⟨S50000, .i32⟩ : BufTy).Contents (Elt F) → (⟨S50000, .i32⟩ : BufTy).Contents (Elt F)),
    ternary main_v72 main_v74 main_arg20 main_v75 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v75 main_v76 (broadcastInDim S50000x1 ![0] bcast_S50000_S50000x1_0 : (⟨S50000, .i32⟩ : BufTy).Contents (Elt F) → (⟨S50000x1, .i32⟩ : BufTy).Contents (Elt F)),
    binary main_arg2 main_v76 main_v77 ((fun x i => Host.gather gather_S256x16_S50000x1_S50000x16_1_0_n_n_0_1_116 x i) : (⟨S256x16, .f32⟩ : BufTy).Contents (Elt F) → (⟨S50000x1, .i32⟩ : BufTy).Contents (Elt F) → (⟨S50000x16, .f32⟩ : BufTy).Contents (Elt F)),
    nary ![main_arg0, main_v70, main_v77] main_v78 (fun u => concatenate S50000x208 1 [⟨S50000x64, u 0⟩, ⟨S50000x128, u 1⟩, ⟨S50000x16, u 2⟩] concatenates_S50000x64_S50000x128_S50000x16_S50000x208_d1),
    binary main_v78 main_arg11 main_v79 ((fun l r => Host.dotGeneral dot_S50000x208_S208x128_S50000x128_1_0_0_1_n_n none l r) : (⟨S50000x208, .f32⟩ : BufTy).Contents (Elt F) → (⟨S208x128, .f32⟩ : BufTy).Contents (Elt F) → (⟨S50000x128, .f32⟩ : BufTy).Contents (Elt F)),
    unary main_arg12 main_v80 (broadcastInDim S1x128 ![1] bcast_S128_S1x128_1 : (⟨S128, .f32⟩ : BufTy).Contents (Elt F) → (⟨S1x128, .f32⟩ : BufTy).Contents (Elt F)),
    unary main_v80 main_v81 (broadcastInDim S50000x128 ![0, 1] bcast_S1x128_S50000x128_0_1 : (⟨S1x128, .f32⟩ : BufTy).Contents (Elt F) → (⟨S50000x128, .f32⟩ : BufTy).Contents (Elt F)),
    binary main_v79 main_v81 main_v82 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v82) (TRef.of (T := ⟨S50000x128, .f32⟩) main_call2_v0) (TRef.of (T := ⟨S50000x128, .f32⟩) main_v83) maximumf,
    binary main_v83 main_arg13 main_v84 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg14 main_v85 (broadcastInDim S1x64 ![1] bcast_S64_S1x64_1 : (⟨S64, .f32⟩ : BufTy).Contents (Elt F) → (⟨S1x64, .f32⟩ : BufTy).Contents (Elt F)),
    unary main_v85 main_v86 (broadcastInDim S50000x64 ![0, 1] bcast_S1x64_S50000x64_0_1 : (⟨S1x64, .f32⟩ : BufTy).Contents (Elt F) → (⟨S50000x64, .f32⟩ : BufTy).Contents (Elt F)),
    binary main_v84 main_v86 main_v87 (addf : (⟨S50000x64, .f32⟩ : BufTy).Contents (Elt F) → (⟨S50000x64, .f32⟩ : BufTy).Contents (Elt F) → (⟨S50000x64, .f32⟩ : BufTy).Contents (Elt F)),
    nullary main_cst_14 (constant S_ .f32 0x00000000#32),
    unary main_cst_14 main_v88 (broadcastInDim S256x64 ![] bcast_S_S256x64 : (⟨S_, .f32⟩ : BufTy).Contents (Elt F) → (⟨S256x64, .f32⟩ : BufTy).Contents (Elt F)),
    unary main_arg20 main_v89 (broadcastInDim S50000x1 ![0] bcast_S50000_S50000x1_0 : (⟨S50000, .i32⟩ : BufTy).Contents (Elt F) → (⟨S50000x1, .i32⟩ : BufTy).Contents (Elt F)),
    ternary main_v88 main_v89 main_v87 main_v90 ((fun x i u => Host.scatterAdd scatter_S256x64_S50000x1_S50000x64_1_0_0_1 x i u) : (⟨S256x64, .f32⟩ : BufTy).Contents (Elt F) → (⟨S50000x1, .i32⟩ : BufTy).Contents (Elt F) → (⟨S50000x64, .f32⟩ : BufTy).Contents (Elt F) → (⟨S256x64, .f32⟩ : BufTy).Contents (Elt F)),
    nullary main_cst_15 (constant S_ .f32 0x3F800000#32),
    unary main_cst_15 main_v91 (broadcastInDim S50000 ![] bcast_S_S50000 : (⟨S_, .f32⟩ : BufTy).Contents (Elt F) → (⟨S50000, .f32⟩ : BufTy).Contents (Elt F)),
    nullary main_cst_16 (constant S_ .f32 0x00000000#32),
    unary main_cst_16 main_v92 (broadcastInDim S256 ![] bcast_S_S256 : (⟨S_, .f32⟩ : BufTy).Contents (Elt F) → (⟨S256, .f32⟩ : BufTy).Contents (Elt F)),
    unary main_arg20 main_v93 (broadcastInDim S50000x1 ![0] bcast_S50000_S50000x1_0 : (⟨S50000, .i32⟩ : BufTy).Contents (Elt F) → (⟨S50000x1, .i32⟩ : BufTy).Contents (Elt F)),
    ternary main_v92 main_v93 main_v91 main_v94 ((fun x i u => Host.scatterAdd scatter_S256_S50000x1_S50000_n_0_0_1 x i u) : (⟨S256, .f32⟩ : BufTy).Contents (Elt F) → (⟨S50000x1, .i32⟩ : BufTy).Contents (Elt F) → (⟨S50000, .f32⟩ : BufTy).Contents (Elt F) → (⟨S256, .f32⟩ : BufTy).Contents (Elt F)),
    nullary main_cst_17 (constant S_ .f32 0x3F800000#32),
    unary main_cst_17 main_v95 (broadcastInDim S256 ![] bcast_S_S256 : (⟨S_, .f32⟩ : BufTy).Contents (Elt F) → (⟨S256, .f32⟩ : BufTy).Contents (Elt F)),
    binary main_v94 main_v95 main_v96 (maximumf : (⟨S256, .f32⟩ : BufTy).Contents (Elt F) → (⟨S256, .f32⟩ : BufTy).Contents (Elt F) → (⟨S256, .f32⟩ : BufTy).Contents (Elt F)),
    unary main_v96 main_v97 (broadcastInDim S256x1 ![0] bcast_S256_S256x1_0 : (⟨S256, .f32⟩ : BufTy).Contents (Elt F) → (⟨S256x1, .f32⟩ : BufTy).Contents (Elt F)),
    unary main_v97 main_v98 (broadcastInDim S256x64 ![0, 1] bcast_S256x1_S256x64_0_1 : (⟨S256x1, .f32⟩ : BufTy).Contents (Elt F) → (⟨S256x64, .f32⟩ : BufTy).Contents (Elt F)),
    binary main_v90 main_v98 main_v99 (Host.divf : (⟨S256x64, .f32⟩ : BufTy).Contents (Elt F) → (⟨S256x64, .f32⟩ : BufTy).Contents (Elt F) → (⟨S256x64, .f32⟩ : BufTy).Contents (Elt F)),
    binary main_arg2 main_v99 main_v100 ((fun a b => concatenate S256x80 1 [⟨S256x16, a⟩, ⟨S256x64, b⟩] concatenates_S256x16_S256x64_S256x80_d1) : (⟨S256x16, .f32⟩ : BufTy).Contents (Elt F) → (⟨S256x64, .f32⟩ : BufTy).Contents (Elt F) → (⟨S256x80, .f32⟩ : BufTy).Contents (Elt F)),
    binary main_v100 main_arg15 main_v101 ((fun l r => Host.dotGeneral dot_S256x80_S80x128_S256x128_1_0_0_1_n_n none l r) : (⟨S256x80, .f32⟩ : BufTy).Contents (Elt F) → (⟨S80x128, .f32⟩ : BufTy).Contents (Elt F) → (⟨S256x128, .f32⟩ : BufTy).Contents (Elt F)),
    unary main_arg16 main_v102 (broadcastInDim S1x128 ![1] bcast_S128_S1x128_1 : (⟨S128, .f32⟩ : BufTy).Contents (Elt F) → (⟨S1x128, .f32⟩ : BufTy).Contents (Elt F)),
    unary main_v102 main_v103 (broadcastInDim S256x128 ![0, 1] bcast_S1x128_S256x128_0_1 : (⟨S1x128, .f32⟩ : BufTy).Contents (Elt F) → (⟨S256x128, .f32⟩ : BufTy).Contents (Elt F)),
    binary main_v101 main_v103 main_v104 (addf : (⟨S256x128, .f32⟩ : BufTy).Contents (Elt F) → (⟨S256x128, .f32⟩ : BufTy).Contents (Elt F) → (⟨S256x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S256x128, .f32⟩) main_call3_v0) (broadcastInDim S256x128 ![] bcast_S_S256x128),
    TRef.binary (TRef.of (T := ⟨S256x128, .f32⟩) main_v104) (TRef.of (T := ⟨S256x128, .f32⟩) main_call3_v0) (TRef.of (T := ⟨S256x128, .f32⟩) main_v105) maximumf,
    binary main_v105 main_arg17 main_v106 ((fun l r => Host.dotGeneral dot_S256x128_S128x32_S256x32_1_0_0_1_n_n none l r) : (⟨S256x128, .f32⟩ : BufTy).Contents (Elt F) → (⟨S128x32, .f32⟩ : BufTy).Contents (Elt F) → (⟨S256x32, .f32⟩ : BufTy).Contents (Elt F)),
    unary main_arg18 main_v107 (broadcastInDim S1x32 ![1] bcast_S32_S1x32_1 : (⟨S32, .f32⟩ : BufTy).Contents (Elt F) → (⟨S1x32, .f32⟩ : BufTy).Contents (Elt F)),
    unary main_v107 main_v108 (broadcastInDim S256x32 ![0, 1] bcast_S1x32_S256x32_0_1 : (⟨S1x32, .f32⟩ : BufTy).Contents (Elt F) → (⟨S256x32, .f32⟩ : BufTy).Contents (Elt F)),
    binary main_v106 main_v108 main_v109 (addf : (⟨S256x32, .f32⟩ : BufTy).Contents (Elt F) → (⟨S256x32, .f32⟩ : BufTy).Contents (Elt F) → (⟨S256x32, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

/-- No operation allocates a buffer. -/
theorem ops_fresh : (ops : List (HloOp τ sig (Elt F))).Forall fun op => op.fresh = ∅ := by
  simp only [List.Forall]; repeat' constructor

/-- The contents after two lines of operations in a row: the second line's, from the first line's. -/
theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

/-! ## The program cut into thirteen stretches

The cuts follow the program's stages: the index vectors and gathers; each concatenation on its own (so that its pieces
stay separate operands); each two-layer perceptron; each scatter-mean. -/

/-- Operations 1 to 40 of @main. -/
abbrev s1 : List (HloOp τ sig (Elt F)) :=
  [ unary main_arg19 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg19 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_1 (constantI S_ 32 0#32),
    unary main_c_1 main_v11 (broadcastInDim S800000 ![] bcast_S_S800000 : (⟨S_, .i32⟩ : BufTy).Contents (Elt F) → (⟨S800000, .i32⟩ : BufTy).Contents (Elt F)),
    binary main_v3 main_v11 main_v12 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v13 (broadcastInDim S800000 ![] bcast_S_S800000 : (⟨S_, .i32⟩ : BufTy).Contents (Elt F) → (⟨S800000, .i32⟩ : BufTy).Contents (Elt F)),
    binary main_v3 main_v13 main_v14 (addi : (⟨S800000, .i32⟩ : BufTy).Contents (Elt F) → (⟨S800000, .i32⟩ : BufTy).Contents (Elt F) → (⟨S800000, .i32⟩ : BufTy).Contents (Elt F)),
    ternary main_v12 main_v14 main_v3 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v15 main_v16 (broadcastInDim S800000x1 ![0] bcast_S800000_S800000x1_0 : (⟨S800000, .i32⟩ : BufTy).Contents (Elt F) → (⟨S800000x1, .i32⟩ : BufTy).Contents (Elt F)),
    binary main_arg0 main_v16 main_v17 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_3 (constantI S_ 32 0#32),
    unary main_c_3 main_v18 (broadcastInDim S800000 ![] bcast_S_S800000 : (⟨S_, .i32⟩ : BufTy).Contents (Elt F) → (⟨S800000, .i32⟩ : BufTy).Contents (Elt F)),
    binary main_v1 main_v18 main_v19 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v20 (broadcastInDim S800000 ![] bcast_S_S800000 : (⟨S_, .i32⟩ : BufTy).Contents (Elt F) → (⟨S800000, .i32⟩ : BufTy).Contents (Elt F)),
    binary main_v1 main_v20 main_v21 (addi : (⟨S800000, .i32⟩ : BufTy).Contents (Elt F) → (⟨S800000, .i32⟩ : BufTy).Contents (Elt F) → (⟨S800000, .i32⟩ : BufTy).Contents (Elt F)),
    ternary main_v19 main_v21 main_v1 main_v22 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v22 main_v23 (broadcastInDim S800000x1 ![0] bcast_S800000_S800000x1_0 : (⟨S800000, .i32⟩ : BufTy).Contents (Elt F) → (⟨S800000x1, .i32⟩ : BufTy).Contents (Elt F)),
    binary main_arg20 main_v23 main_v24 ((fun x i => Host.gather gather_S50000_S800000x1_S800000_n_0_n_n_0_1_1 x i) : (⟨S50000, .i32⟩ : BufTy).Contents (Elt F) → (⟨S800000x1, .i32⟩ : BufTy).Contents (Elt F) → (⟨S800000, .i32⟩ : BufTy).Contents (Elt F)),
    nullary main_c_5 (constantI S_ 32 0#32),
    unary main_c_5 main_v25 (broadcastInDim S800000 ![] bcast_S_S800000 : (⟨S_, .i32⟩ : BufTy).Contents (Elt F) → (⟨S800000, .i32⟩ : BufTy).Contents (Elt F)),
    binary main_v24 main_v25 main_v26 (cmpi .slt : (⟨S800000, .i32⟩ : BufTy).Contents (Elt F) → (⟨S800000, .i32⟩ : BufTy).Contents (Elt F) → (⟨S800000, .i1⟩ : BufTy).Contents (Elt F)),
    nullary main_c_6 (constantI S_ 32 256#32),
    unary main_c_6 main_v27 (broadcastInDim S800000 ![] bcast_S_S800000 : (⟨S_, .i32⟩ : BufTy).Contents (Elt F) → (⟨S800000, .i32⟩ : BufTy).Contents (Elt F)),
    binary main_v24 main_v27 main_v28 (addi : (⟨S800000, .i32⟩ : BufTy).Contents (Elt F) → (⟨S800000, .i32⟩ : BufTy).Contents (Elt F) → (⟨S800000, .i32⟩ : BufTy).Contents (Elt F)),
    ternary main_v26 main_v28 main_v24 main_v29 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v29 main_v30 (broadcastInDim S800000x1 ![0] bcast_S800000_S800000x1_0 : (⟨S800000, .i32⟩ : BufTy).Contents (Elt F) → (⟨S800000x1, .i32⟩ : BufTy).Contents (Elt F)),
    binary main_arg2 main_v30 main_v31 ((fun x i => Host.gather gather_S256x16_S800000x1_S800000x16_1_0_n_n_0_1_116 x i) : (⟨S256x16, .f32⟩ : BufTy).Contents (Elt F) → (⟨S800000x1, .i32⟩ : BufTy).Contents (Elt F) → (⟨S800000x16, .f32⟩ : BufTy).Contents (Elt F)) ]

/-- Operations 41 to 41 of @main. -/
abbrev s2 : List (HloOp τ sig (Elt F)) :=
  [ nary ![main_v10, main_v17, main_arg1, main_v31] main_v32 (fun u => concatenate S800000x176 1 [⟨S800000x64, u 0⟩, ⟨S800000x64, u 1⟩, ⟨S800000x32, u 2⟩, ⟨S800000x16, u 3⟩] concatenates_S800000x64_S800000x64_S800000x32_S800000x16_S800000x176_d1) ]

/-- Operations 42 to 52 of @main. -/
abbrev s3 : List (HloOp τ sig (Elt F)) :=
  [ binary main_v32 main_arg3 main_v33 ((fun l r => Host.dotGeneral dot_S800000x176_S176x128_S800000x128_1_0_0_1_n_n none l r) : (⟨S800000x176, .f32⟩ : BufTy).Contents (Elt F) → (⟨S176x128, .f32⟩ : BufTy).Contents (Elt F) → (⟨S800000x128, .f32⟩ : BufTy).Contents (Elt F)),
    unary main_arg4 main_v34 (broadcastInDim S1x128 ![1] bcast_S128_S1x128_1 : (⟨S128, .f32⟩ : BufTy).Contents (Elt F) → (⟨S1x128, .f32⟩ : BufTy).Contents (Elt F)),
    unary main_v34 main_v35 (broadcastInDim S800000x128 ![0, 1] bcast_S1x128_S800000x128_0_1 : (⟨S1x128, .f32⟩ : BufTy).Contents (Elt F) → (⟨S800000x128, .f32⟩ : BufTy).Contents (Elt F)),
    binary main_v33 main_v35 main_v36 (addf : (⟨S800000x128, .f32⟩ : BufTy).Contents (Elt F) → (⟨S800000x128, .f32⟩ : BufTy).Contents (Elt F) → (⟨S800000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S800000x128, .f32⟩) main_call0_v0) (broadcastInDim S800000x128 ![] bcast_S_S800000x128),
    TRef.binary (TRef.of (T := ⟨S800000x128, .f32⟩) main_v36) (TRef.of (T := ⟨S800000x128, .f32⟩) main_call0_v0) (TRef.of (T := ⟨S800000x128, .f32⟩) main_v37) maximumf,
    binary main_v37 main_arg5 main_v38 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    unary main_arg6 main_v39 (broadcastInDim S1x64 ![1] bcast_S64_S1x64_1 : (⟨S64, .f32⟩ : BufTy).Contents (Elt F) → (⟨S1x64, .f32⟩ : BufTy).Contents (Elt F)),
    unary main_v39 main_v40 (broadcastInDim S800000x64 ![0, 1] bcast_S1x64_S800000x64_0_1 : (⟨S1x64, .f32⟩ : BufTy).Contents (Elt F) → (⟨S800000x64, .f32⟩ : BufTy).Contents (Elt F)),
    binary main_v38 main_v40 main_v41 (addf : (⟨S800000x64, .f32⟩ : BufTy).Contents (Elt F) → (⟨S800000x64, .f32⟩ : BufTy).Contents (Elt F) → (⟨S800000x64, .f32⟩ : BufTy).Contents (Elt F)) ]

/-- Operations 53 to 61 of @main. -/
abbrev s4 : List (HloOp τ sig (Elt F)) :=
  [ nullary main_c_7 (constantI S_ 32 0#32),
    unary main_c_7 main_v42 (broadcastInDim S800000 ![] bcast_S_S800000 : (⟨S_, .i32⟩ : BufTy).Contents (Elt F) → (⟨S800000, .i32⟩ : BufTy).Contents (Elt F)),
    binary main_v1 main_v42 main_v43 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v44 (broadcastInDim S800000 ![] bcast_S_S800000 : (⟨S_, .i32⟩ : BufTy).Contents (Elt F) → (⟨S800000, .i32⟩ : BufTy).Contents (Elt F)),
    binary main_v1 main_v44 main_v45 (addi : (⟨S800000, .i32⟩ : BufTy).Contents (Elt F) → (⟨S800000, .i32⟩ : BufTy).Contents (Elt F) → (⟨S800000, .i32⟩ : BufTy).Contents (Elt F)),
    ternary main_v43 main_v45 main_v1 main_v46 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v46 main_v47 (broadcastInDim S800000x1 ![0] bcast_S800000_S800000x1_0 : (⟨S800000, .i32⟩ : BufTy).Contents (Elt F) → (⟨S800000x1, .i32⟩ : BufTy).Contents (Elt F)),
    binary main_arg0 main_v47 main_v48 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ]

/-- Operations 62 to 62 of @main. -/
abbrev s5 : List (HloOp τ sig (Elt F)) :=
  [ binary main_v48 main_v41 main_v49 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)) ]

/-- Operations 63 to 73 of @main. -/
abbrev s6 : List (HloOp τ sig (Elt F)) :=
  [ binary main_v49 main_arg7 main_v50 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    unary main_arg8 main_v51 (broadcastInDim S1x128 ![1] bcast_S128_S1x128_1 : (⟨S128, .f32⟩ : BufTy).Contents (Elt F) → (⟨S1x128, .f32⟩ : BufTy).Contents (Elt F)),
    unary main_v51 main_v52 (broadcastInDim S800000x128 ![0, 1] bcast_S1x128_S800000x128_0_1 : (⟨S1x128, .f32⟩ : BufTy).Contents (Elt F) → (⟨S800000x128, .f32⟩ : BufTy).Contents (Elt F)),
    binary main_v50 main_v52 main_v53 (addf : (⟨S800000x128, .f32⟩ : BufTy).Contents (Elt F) → (⟨S800000x128, .f32⟩ : BufTy).Contents (Elt F) → (⟨S800000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S800000x128, .f32⟩) main_call1_v0) (broadcastInDim S800000x128 ![] bcast_S_S800000x128),
    TRef.binary (TRef.of (T := ⟨S800000x128, .f32⟩) main_v53) (TRef.of (T := ⟨S800000x128, .f32⟩) main_call1_v0) (TRef.of (T := ⟨S800000x128, .f32⟩) main_v54) maximumf,
    binary main_v54 main_arg9 main_v55 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    unary main_arg10 main_v56 (broadcastInDim S1x128 ![1] bcast_S128_S1x128_1 : (⟨S128, .f32⟩ : BufTy).Contents (Elt F) → (⟨S1x128, .f32⟩ : BufTy).Contents (Elt F)),
    unary main_v56 main_v57 (broadcastInDim S800000x128 ![0, 1] bcast_S1x128_S800000x128_0_1 : (⟨S1x128, .f32⟩ : BufTy).Contents (Elt F) → (⟨S800000x128, .f32⟩ : BufTy).Contents (Elt F)),
    binary main_v55 main_v57 main_v58 (addf : (⟨S800000x128, .f32⟩ : BufTy).Contents (Elt F) → (⟨S800000x128, .f32⟩ : BufTy).Contents (Elt F) → (⟨S800000x128, .f32⟩ : BufTy).Contents (Elt F)) ]

/-- Operations 74 to 89 of @main. -/
abbrev s7 : List (HloOp τ sig (Elt F)) :=
  [ nullary main_cst (constant S_ .f32 0x00000000#32),
    unary main_cst main_v59 (broadcastInDim S50000x128 ![] bcast_S_S50000x128 : (⟨S_, .f32⟩ : BufTy).Contents (Elt F) → (⟨S50000x128, .f32⟩ : BufTy).Contents (Elt F)),
    unary main_v3 main_v60 (broadcastInDim S800000x1 ![0] bcast_S800000_S800000x1_0 : (⟨S800000, .i32⟩ : BufTy).Contents (Elt F) → (⟨S800000x1, .i32⟩ : BufTy).Contents (Elt F)),
    ternary main_v59 main_v60 main_v58 main_v61 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_9 (constant S_ .f32 0x3F800000#32),
    unary main_cst_9 main_v62 (broadcastInDim S800000 ![] bcast_S_S800000 : (⟨S_, .f32⟩ : BufTy).Contents (Elt F) → (⟨S800000, .f32⟩ : BufTy).Contents (Elt F)),
    nullary main_cst_10 (constant S_ .f32 0x00000000#32),
    unary main_cst_10 main_v63 (broadcastInDim S50000 ![] bcast_S_S50000 : (⟨S_, .f32⟩ : BufTy).Contents (Elt F) → (⟨S50000, .f32⟩ : BufTy).Contents (Elt F)),
    unary main_v3 main_v64 (broadcastInDim S800000x1 ![0] bcast_S800000_S800000x1_0 : (⟨S800000, .i32⟩ : BufTy).Contents (Elt F) → (⟨S800000x1, .i32⟩ : BufTy).Contents (Elt F)),
    ternary main_v63 main_v64 main_v62 main_v65 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_11 (constant S_ .f32 0x3F800000#32),
    unary main_cst_11 main_v66 (broadcastInDim S50000 ![] bcast_S_S50000 : (⟨S_, .f32⟩ : BufTy).Contents (Elt F) → (⟨S50000, .f32⟩ : BufTy).Contents (Elt F)),
    binary main_v65 main_v66 main_v67 (maximumf : (⟨S50000, .f32⟩ : BufTy).Contents (Elt F) → (⟨S50000, .f32⟩ : BufTy).Contents (Elt F) → (⟨S50000, .f32⟩ : BufTy).Contents (Elt F)),
    unary main_v67 main_v68 (broadcastInDim S50000x1 ![0] bcast_S50000_S50000x1_0 : (⟨S50000, .f32⟩ : BufTy).Contents (Elt F) → (⟨S50000x1, .f32⟩ : BufTy).Contents (Elt F)),
    unary main_v68 main_v69 (broadcastInDim S50000x128 ![0, 1] bcast_S50000x1_S50000x128_0_1 : (⟨S50000x1, .f32⟩ : BufTy).Contents (Elt F) → (⟨S50000x128, .f32⟩ : BufTy).Contents (Elt F)),
    binary main_v61 main_v69 main_v70 (Host.divf : (⟨S50000x128, .f32⟩ : BufTy).Contents (Elt F) → (⟨S50000x128, .f32⟩ : BufTy).Contents (Elt F) → (⟨S50000x128, .f32⟩ : BufTy).Contents (Elt F)) ]

/-- Operations 90 to 98 of @main. -/
abbrev s8 : List (HloOp τ sig (Elt F)) :=
  [ nullary main_c_12 (constantI S_ 32 0#32),
    unary main_c_12 main_v71 (broadcastInDim S50000 ![] bcast_S_S50000 : (⟨S_, .i32⟩ : BufTy).Contents (Elt F) → (⟨S50000, .i32⟩ : BufTy).Contents (Elt F)),
    binary main_arg20 main_v71 main_v72 (cmpi .slt : (⟨S50000, .i32⟩ : BufTy).Contents (Elt F) → (⟨S50000, .i32⟩ : BufTy).Contents (Elt F) → (⟨S50000, .i1⟩ : BufTy).Contents (Elt F)),
    nullary main_c_13 (constantI S_ 32 256#32),
    unary main_c_13 main_v73 (broadcastInDim S50000 ![] bcast_S_S50000 : (⟨S_, .i32⟩ : BufTy).Contents (Elt F) → (⟨S50000, .i32⟩ : BufTy).Contents (Elt F)),
    binary main_arg20 main_v73 main_v74 (addi : (⟨S50000, .i32⟩ : BufTy).Contents (Elt F) → (⟨S50000, .i32⟩ : BufTy).Contents (Elt F) → (⟨S50000, .i32⟩ : BufTy).Contents (Elt F)),
    ternary main_v72 main_v74 main_arg20 main_v75 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v75 main_v76 (broadcastInDim S50000x1 ![0] bcast_S50000_S50000x1_0 : (⟨S50000, .i32⟩ : BufTy).Contents (Elt F) → (⟨S50000x1, .i32⟩ : BufTy).Contents (Elt F)),
    binary main_arg2 main_v76 main_v77 ((fun x i => Host.gather gather_S256x16_S50000x1_S50000x16_1_0_n_n_0_1_116 x i) : (⟨S256x16, .f32⟩ : BufTy).Contents (Elt F) → (⟨S50000x1, .i32⟩ : BufTy).Contents (Elt F) → (⟨S50000x16, .f32⟩ : BufTy).Contents (Elt F)) ]

/-- Operations 99 to 99 of @main. -/
abbrev s9 : List (HloOp τ sig (Elt F)) :=
  [ nary ![main_arg0, main_v70, main_v77] main_v78 (fun u => concatenate S50000x208 1 [⟨S50000x64, u 0⟩, ⟨S50000x128, u 1⟩, ⟨S50000x16, u 2⟩] concatenates_S50000x64_S50000x128_S50000x16_S50000x208_d1) ]

/-- Operations 100 to 110 of @main. -/
abbrev s10 : List (HloOp τ sig (Elt F)) :=
  [ binary main_v78 main_arg11 main_v79 ((fun l r => Host.dotGeneral dot_S50000x208_S208x128_S50000x128_1_0_0_1_n_n none l r) : (⟨S50000x208, .f32⟩ : BufTy).Contents (Elt F) → (⟨S208x128, .f32⟩ : BufTy).Contents (Elt F) → (⟨S50000x128, .f32⟩ : BufTy).Contents (Elt F)),
    unary main_arg12 main_v80 (broadcastInDim S1x128 ![1] bcast_S128_S1x128_1 : (⟨S128, .f32⟩ : BufTy).Contents (Elt F) → (⟨S1x128, .f32⟩ : BufTy).Contents (Elt F)),
    unary main_v80 main_v81 (broadcastInDim S50000x128 ![0, 1] bcast_S1x128_S50000x128_0_1 : (⟨S1x128, .f32⟩ : BufTy).Contents (Elt F) → (⟨S50000x128, .f32⟩ : BufTy).Contents (Elt F)),
    binary main_v79 main_v81 main_v82 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v82) (TRef.of (T := ⟨S50000x128, .f32⟩) main_call2_v0) (TRef.of (T := ⟨S50000x128, .f32⟩) main_v83) maximumf,
    binary main_v83 main_arg13 main_v84 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg14 main_v85 (broadcastInDim S1x64 ![1] bcast_S64_S1x64_1 : (⟨S64, .f32⟩ : BufTy).Contents (Elt F) → (⟨S1x64, .f32⟩ : BufTy).Contents (Elt F)),
    unary main_v85 main_v86 (broadcastInDim S50000x64 ![0, 1] bcast_S1x64_S50000x64_0_1 : (⟨S1x64, .f32⟩ : BufTy).Contents (Elt F) → (⟨S50000x64, .f32⟩ : BufTy).Contents (Elt F)),
    binary main_v84 main_v86 main_v87 (addf : (⟨S50000x64, .f32⟩ : BufTy).Contents (Elt F) → (⟨S50000x64, .f32⟩ : BufTy).Contents (Elt F) → (⟨S50000x64, .f32⟩ : BufTy).Contents (Elt F)) ]

/-- Operations 111 to 126 of @main. -/
abbrev s11 : List (HloOp τ sig (Elt F)) :=
  [ nullary main_cst_14 (constant S_ .f32 0x00000000#32),
    unary main_cst_14 main_v88 (broadcastInDim S256x64 ![] bcast_S_S256x64 : (⟨S_, .f32⟩ : BufTy).Contents (Elt F) → (⟨S256x64, .f32⟩ : BufTy).Contents (Elt F)),
    unary main_arg20 main_v89 (broadcastInDim S50000x1 ![0] bcast_S50000_S50000x1_0 : (⟨S50000, .i32⟩ : BufTy).Contents (Elt F) → (⟨S50000x1, .i32⟩ : BufTy).Contents (Elt F)),
    ternary main_v88 main_v89 main_v87 main_v90 ((fun x i u => Host.scatterAdd scatter_S256x64_S50000x1_S50000x64_1_0_0_1 x i u) : (⟨S256x64, .f32⟩ : BufTy).Contents (Elt F) → (⟨S50000x1, .i32⟩ : BufTy).Contents (Elt F) → (⟨S50000x64, .f32⟩ : BufTy).Contents (Elt F) → (⟨S256x64, .f32⟩ : BufTy).Contents (Elt F)),
    nullary main_cst_15 (constant S_ .f32 0x3F800000#32),
    unary main_cst_15 main_v91 (broadcastInDim S50000 ![] bcast_S_S50000 : (⟨S_, .f32⟩ : BufTy).Contents (Elt F) → (⟨S50000, .f32⟩ : BufTy).Contents (Elt F)),
    nullary main_cst_16 (constant S_ .f32 0x00000000#32),
    unary main_cst_16 main_v92 (broadcastInDim S256 ![] bcast_S_S256 : (⟨S_, .f32⟩ : BufTy).Contents (Elt F) → (⟨S256, .f32⟩ : BufTy).Contents (Elt F)),
    unary main_arg20 main_v93 (broadcastInDim S50000x1 ![0] bcast_S50000_S50000x1_0 : (⟨S50000, .i32⟩ : BufTy).Contents (Elt F) → (⟨S50000x1, .i32⟩ : BufTy).Contents (Elt F)),
    ternary main_v92 main_v93 main_v91 main_v94 ((fun x i u => Host.scatterAdd scatter_S256_S50000x1_S50000_n_0_0_1 x i u) : (⟨S256, .f32⟩ : BufTy).Contents (Elt F) → (⟨S50000x1, .i32⟩ : BufTy).Contents (Elt F) → (⟨S50000, .f32⟩ : BufTy).Contents (Elt F) → (⟨S256, .f32⟩ : BufTy).Contents (Elt F)),
    nullary main_cst_17 (constant S_ .f32 0x3F800000#32),
    unary main_cst_17 main_v95 (broadcastInDim S256 ![] bcast_S_S256 : (⟨S_, .f32⟩ : BufTy).Contents (Elt F) → (⟨S256, .f32⟩ : BufTy).Contents (Elt F)),
    binary main_v94 main_v95 main_v96 (maximumf : (⟨S256, .f32⟩ : BufTy).Contents (Elt F) → (⟨S256, .f32⟩ : BufTy).Contents (Elt F) → (⟨S256, .f32⟩ : BufTy).Contents (Elt F)),
    unary main_v96 main_v97 (broadcastInDim S256x1 ![0] bcast_S256_S256x1_0 : (⟨S256, .f32⟩ : BufTy).Contents (Elt F) → (⟨S256x1, .f32⟩ : BufTy).Contents (Elt F)),
    unary main_v97 main_v98 (broadcastInDim S256x64 ![0, 1] bcast_S256x1_S256x64_0_1 : (⟨S256x1, .f32⟩ : BufTy).Contents (Elt F) → (⟨S256x64, .f32⟩ : BufTy).Contents (Elt F)),
    binary main_v90 main_v98 main_v99 (Host.divf : (⟨S256x64, .f32⟩ : BufTy).Contents (Elt F) → (⟨S256x64, .f32⟩ : BufTy).Contents (Elt F) → (⟨S256x64, .f32⟩ : BufTy).Contents (Elt F)) ]

/-- Operations 127 to 127 of @main. -/
abbrev s12 : List (HloOp τ sig (Elt F)) :=
  [ binary main_arg2 main_v99 main_v100 ((fun a b => concatenate S256x80 1 [⟨S256x16, a⟩, ⟨S256x64, b⟩] concatenates_S256x16_S256x64_S256x80_d1) : (⟨S256x16, .f32⟩ : BufTy).Contents (Elt F) → (⟨S256x64, .f32⟩ : BufTy).Contents (Elt F) → (⟨S256x80, .f32⟩ : BufTy).Contents (Elt F)) ]

/-- Operations 128 to 138 of @main. -/
abbrev s13 : List (HloOp τ sig (Elt F)) :=
  [ binary main_v100 main_arg15 main_v101 ((fun l r => Host.dotGeneral dot_S256x80_S80x128_S256x128_1_0_0_1_n_n none l r) : (⟨S256x80, .f32⟩ : BufTy).Contents (Elt F) → (⟨S80x128, .f32⟩ : BufTy).Contents (Elt F) → (⟨S256x128, .f32⟩ : BufTy).Contents (Elt F)),
    unary main_arg16 main_v102 (broadcastInDim S1x128 ![1] bcast_S128_S1x128_1 : (⟨S128, .f32⟩ : BufTy).Contents (Elt F) → (⟨S1x128, .f32⟩ : BufTy).Contents (Elt F)),
    unary main_v102 main_v103 (broadcastInDim S256x128 ![0, 1] bcast_S1x128_S256x128_0_1 : (⟨S1x128, .f32⟩ : BufTy).Contents (Elt F) → (⟨S256x128, .f32⟩ : BufTy).Contents (Elt F)),
    binary main_v101 main_v103 main_v104 (addf : (⟨S256x128, .f32⟩ : BufTy).Contents (Elt F) → (⟨S256x128, .f32⟩ : BufTy).Contents (Elt F) → (⟨S256x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S256x128, .f32⟩) main_call3_v0) (broadcastInDim S256x128 ![] bcast_S_S256x128),
    TRef.binary (TRef.of (T := ⟨S256x128, .f32⟩) main_v104) (TRef.of (T := ⟨S256x128, .f32⟩) main_call3_v0) (TRef.of (T := ⟨S256x128, .f32⟩) main_v105) maximumf,
    binary main_v105 main_arg17 main_v106 ((fun l r => Host.dotGeneral dot_S256x128_S128x32_S256x32_1_0_0_1_n_n none l r) : (⟨S256x128, .f32⟩ : BufTy).Contents (Elt F) → (⟨S128x32, .f32⟩ : BufTy).Contents (Elt F) → (⟨S256x32, .f32⟩ : BufTy).Contents (Elt F)),
    unary main_arg18 main_v107 (broadcastInDim S1x32 ![1] bcast_S32_S1x32_1 : (⟨S32, .f32⟩ : BufTy).Contents (Elt F) → (⟨S1x32, .f32⟩ : BufTy).Contents (Elt F)),
    unary main_v107 main_v108 (broadcastInDim S256x32 ![0, 1] bcast_S1x32_S256x32_0_1 : (⟨S1x32, .f32⟩ : BufTy).Contents (Elt F) → (⟨S256x32, .f32⟩ : BufTy).Contents (Elt F)),
    binary main_v106 main_v108 main_v109 (addf : (⟨S256x32, .f32⟩ : BufTy).Contents (Elt F) → (⟨S256x32, .f32⟩ : BufTy).Contents (Elt F) → (⟨S256x32, .f32⟩ : BufTy).Contents (Elt F)) ]

set_option maxRecDepth 8192 in
theorem ops_eq : (ops : List (HloOp τ sig (Elt F))) =
    s1 ++ (s2 ++ (s3 ++ (s4 ++ (s5 ++ (s6 ++ (s7 ++ (s8 ++ (s9 ++ (s10 ++ (s11 ++ (s12 ++ (s13)))))))))))) := rfl

/-! ## The contents after each stretch, from any contents `V` -/

/-- The contents after stretches 1 to 1. -/
abbrev A1 (V : Valuation τ sig (Elt F)) : Valuation τ sig (Elt F) := after s1 V
/-- The contents after stretches 1 to 2. -/
abbrev A2 (V : Valuation τ sig (Elt F)) : Valuation τ sig (Elt F) := after s2 (A1 V)
/-- The contents after stretches 1 to 3. -/
abbrev A3 (V : Valuation τ sig (Elt F)) : Valuation τ sig (Elt F) := after s3 (A2 V)
/-- The contents after stretches 1 to 4. -/
abbrev A4 (V : Valuation τ sig (Elt F)) : Valuation τ sig (Elt F) := after s4 (A3 V)
/-- The contents after stretches 1 to 5. -/
abbrev A5 (V : Valuation τ sig (Elt F)) : Valuation τ sig (Elt F) := after s5 (A4 V)
/-- The contents after stretches 1 to 6. -/
abbrev A6 (V : Valuation τ sig (Elt F)) : Valuation τ sig (Elt F) := after s6 (A5 V)
/-- The contents after stretches 1 to 7. -/
abbrev A7 (V : Valuation τ sig (Elt F)) : Valuation τ sig (Elt F) := after s7 (A6 V)
/-- The contents after stretches 1 to 8. -/
abbrev A8 (V : Valuation τ sig (Elt F)) : Valuation τ sig (Elt F) := after s8 (A7 V)
/-- The contents after stretches 1 to 9. -/
abbrev A9 (V : Valuation τ sig (Elt F)) : Valuation τ sig (Elt F) := after s9 (A8 V)
/-- The contents after stretches 1 to 10. -/
abbrev A10 (V : Valuation τ sig (Elt F)) : Valuation τ sig (Elt F) := after s10 (A9 V)
/-- The contents after stretches 1 to 11. -/
abbrev A11 (V : Valuation τ sig (Elt F)) : Valuation τ sig (Elt F) := after s11 (A10 V)
/-- The contents after stretches 1 to 12. -/
abbrev A12 (V : Valuation τ sig (Elt F)) : Valuation τ sig (Elt F) := after s12 (A11 V)
/-- The contents after stretches 1 to 13. -/
abbrev A13 (V : Valuation τ sig (Elt F)) : Valuation τ sig (Elt F) := after s13 (A12 V)

theorem after_ops (V : Valuation τ sig (Elt F)) : after ops V = A13 V := by
  rw [ops_eq]; simp only [after_append]

/-! ## What each stretch writes, and what it therefore keeps -/

/-- Every reference the program writes (each operation's result buffer, in order). -/
abbrev ops_W : List (Ref sig .tc) :=
  [main_v0, main_v1, main_v2, main_v3, main_c, main_v4, main_v5, main_c_0, main_v6, main_v7, main_v8, main_v9, main_v10, main_c_1, main_v11, main_v12, main_c_2, main_v13, main_v14, main_v15, main_v16, main_v17, main_c_3, main_v18, main_v19, main_c_4, main_v20, main_v21, main_v22, main_v23, main_v24, main_c_5, main_v25, main_v26, main_c_6, main_v27, main_v28, main_v29, main_v30, main_v31, main_v32, main_v33, main_v34, main_v35, main_v36, main_call0_cst, main_call0_v0, main_v37, main_v38, main_v39, main_v40, main_v41, main_c_7, main_v42, main_v43, main_c_8, main_v44, main_v45, main_v46, main_v47, main_v48, main_v49, main_v50, main_v51, main_v52, main_v53, main_call1_cst, main_call1_v0, main_v54, main_v55, main_v56, main_v57, main_v58, main_cst, main_v59, main_v60, main_v61, main_cst_9, main_v62, main_cst_10, main_v63, main_v64, main_v65, main_cst_11, main_v66, main_v67, main_v68, main_v69, main_v70, main_c_12, main_v71, main_v72, main_c_13, main_v73, main_v74, main_v75, main_v76, main_v77, main_v78, main_v79, main_v80, main_v81, main_v82, main_call2_cst, main_call2_v0, main_v83, main_v84, main_v85, main_v86, main_v87, main_cst_14, main_v88, main_v89, main_v90, main_cst_15, main_v91, main_cst_16, main_v92, main_v93, main_v94, main_cst_17, main_v95, main_v96, main_v97, main_v98, main_v99, main_v100, main_v101, main_v102, main_v103, main_v104, main_call3_cst, main_call3_v0, main_v105, main_v106, main_v107, main_v108, main_v109]

/-- The references stretch 1 writes. -/
abbrev W1 : List (Ref sig .tc) := [main_v0, main_v1, main_v2, main_v3, main_c, main_v4, main_v5, main_c_0, main_v6, main_v7, main_v8, main_v9, main_v10, main_c_1, main_v11, main_v12, main_c_2, main_v13, main_v14, main_v15, main_v16, main_v17, main_c_3, main_v18, main_v19, main_c_4, main_v20, main_v21, main_v22, main_v23, main_v24, main_c_5, main_v25, main_v26, main_c_6, main_v27, main_v28, main_v29, main_v30, main_v31]
set_option maxRecDepth 8192 in
theorem s1_writes : (s1 : List (HloOp τ sig (Elt F))).Forall fun op =>
    op.writes ⊆ (W1.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)
set_option maxRecDepth 8192 in
theorem s1_writesG : (s1 : List (HloOp τ sig (Elt F))).Forall fun op =>
    op.writes ⊆ (ops_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)
/-- A buffer stretch 1 does not write holds afterwards what it held before. -/
theorem keep1 (V : Valuation τ sig (Elt F)) (r : Ref sig .tc) (h : r ∉ W1) :
    after s1 V (Proc.devRef .tc r) = V (Proc.devRef .tc r) := after_of_writes_sub s1 V s1_writes h
theorem keepG1 (V : Valuation τ sig (Elt F)) (r : Ref sig .tc) (h : r ∉ ops_W) :
    after s1 V (Proc.devRef .tc r) = V (Proc.devRef .tc r) := after_of_writes_sub s1 V s1_writesG h
/-- A buffer the program never writes holds after stretch 1 what it held at the start. -/
theorem A1_arg (V : Valuation τ sig (Elt F)) (r : Ref sig .tc) (h : r ∉ ops_W) :
    A1 V (Proc.devRef .tc r) = V (Proc.devRef .tc r) := keepG1 V r h

/-- The references stretch 2 writes. -/
abbrev W2 : List (Ref sig .tc) := [main_v32]
set_option maxRecDepth 8192 in
theorem s2_writes : (s2 : List (HloOp τ sig (Elt F))).Forall fun op =>
    op.writes ⊆ (W2.map (Proc.devRef (τ := τ) .tc)).toFinset := by
  simp only [List.Forall, nullary_writes, unary_writes, binary_writes, ternary_writes, reshape_writes, nary_writes,
    Finset.singleton_subset_iff, List.mem_toFinset]
  exact List.mem_map_of_mem (by decide)
set_option maxRecDepth 8192 in
theorem s2_writesG : (s2 : List (HloOp τ sig (Elt F))).Forall fun op =>
    op.writes ⊆ (ops_W.map (Proc.devRef (τ := τ) .tc)).toFinset := by
  simp only [List.Forall, nullary_writes, unary_writes, binary_writes, ternary_writes, reshape_writes, nary_writes,
    Finset.singleton_subset_iff, List.mem_toFinset]
  exact List.mem_map_of_mem (by decide)
/-- A buffer stretch 2 does not write holds afterwards what it held before. -/
theorem keep2 (V : Valuation τ sig (Elt F)) (r : Ref sig .tc) (h : r ∉ W2) :
    after s2 V (Proc.devRef .tc r) = V (Proc.devRef .tc r) := after_of_writes_sub s2 V s2_writes h
theorem keepG2 (V : Valuation τ sig (Elt F)) (r : Ref sig .tc) (h : r ∉ ops_W) :
    after s2 V (Proc.devRef .tc r) = V (Proc.devRef .tc r) := after_of_writes_sub s2 V s2_writesG h
/-- A buffer the program never writes holds after stretch 2 what it held at the start. -/
theorem A2_arg (V : Valuation τ sig (Elt F)) (r : Ref sig .tc) (h : r ∉ ops_W) :
    A2 V (Proc.devRef .tc r) = V (Proc.devRef .tc r) := (keepG2 (A1 V) r h).trans (A1_arg V r h)

/-- The references stretch 3 writes. -/
abbrev W3 : List (Ref sig .tc) := [main_v33, main_v34, main_v35, main_v36, main_call0_cst, main_call0_v0, main_v37, main_v38, main_v39, main_v40, main_v41]
set_option maxRecDepth 8192 in
theorem s3_writes : (s3 : List (HloOp τ sig (Elt F))).Forall fun op =>
    op.writes ⊆ (W3.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)
set_option maxRecDepth 8192 in
theorem s3_writesG : (s3 : List (HloOp τ sig (Elt F))).Forall fun op =>
    op.writes ⊆ (ops_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)
/-- A buffer stretch 3 does not write holds afterwards what it held before. -/
theorem keep3 (V : Valuation τ sig (Elt F)) (r : Ref sig .tc) (h : r ∉ W3) :
    after s3 V (Proc.devRef .tc r) = V (Proc.devRef .tc r) := after_of_writes_sub s3 V s3_writes h
theorem keepG3 (V : Valuation τ sig (Elt F)) (r : Ref sig .tc) (h : r ∉ ops_W) :
    after s3 V (Proc.devRef .tc r) = V (Proc.devRef .tc r) := after_of_writes_sub s3 V s3_writesG h
/-- A buffer the program never writes holds after stretch 3 what it held at the start. -/
theorem A3_arg (V : Valuation τ sig (Elt F)) (r : Ref sig .tc) (h : r ∉ ops_W) :
    A3 V (Proc.devRef .tc r) = V (Proc.devRef .tc r) := (keepG3 (A2 V) r h).trans (A2_arg V r h)

/-- The references stretch 4 writes. -/
abbrev W4 : List (Ref sig .tc) := [main_c_7, main_v42, main_v43, main_c_8, main_v44, main_v45, main_v46, main_v47, main_v48]
set_option maxRecDepth 8192 in
theorem s4_writes : (s4 : List (HloOp τ sig (Elt F))).Forall fun op =>
    op.writes ⊆ (W4.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)
set_option maxRecDepth 8192 in
theorem s4_writesG : (s4 : List (HloOp τ sig (Elt F))).Forall fun op =>
    op.writes ⊆ (ops_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)
/-- A buffer stretch 4 does not write holds afterwards what it held before. -/
theorem keep4 (V : Valuation τ sig (Elt F)) (r : Ref sig .tc) (h : r ∉ W4) :
    after s4 V (Proc.devRef .tc r) = V (Proc.devRef .tc r) := after_of_writes_sub s4 V s4_writes h
theorem keepG4 (V : Valuation τ sig (Elt F)) (r : Ref sig .tc) (h : r ∉ ops_W) :
    after s4 V (Proc.devRef .tc r) = V (Proc.devRef .tc r) := after_of_writes_sub s4 V s4_writesG h
/-- A buffer the program never writes holds after stretch 4 what it held at the start. -/
theorem A4_arg (V : Valuation τ sig (Elt F)) (r : Ref sig .tc) (h : r ∉ ops_W) :
    A4 V (Proc.devRef .tc r) = V (Proc.devRef .tc r) := (keepG4 (A3 V) r h).trans (A3_arg V r h)

/-- The references stretch 5 writes. -/
abbrev W5 : List (Ref sig .tc) := [main_v49]
set_option maxRecDepth 8192 in
theorem s5_writes : (s5 : List (HloOp τ sig (Elt F))).Forall fun op =>
    op.writes ⊆ (W5.map (Proc.devRef (τ := τ) .tc)).toFinset := by
  simp only [List.Forall, nullary_writes, unary_writes, binary_writes, ternary_writes, reshape_writes, nary_writes,
    Finset.singleton_subset_iff, List.mem_toFinset]
  exact List.mem_map_of_mem (by decide)
set_option maxRecDepth 8192 in
theorem s5_writesG : (s5 : List (HloOp τ sig (Elt F))).Forall fun op =>
    op.writes ⊆ (ops_W.map (Proc.devRef (τ := τ) .tc)).toFinset := by
  simp only [List.Forall, nullary_writes, unary_writes, binary_writes, ternary_writes, reshape_writes, nary_writes,
    Finset.singleton_subset_iff, List.mem_toFinset]
  exact List.mem_map_of_mem (by decide)
/-- A buffer stretch 5 does not write holds afterwards what it held before. -/
theorem keep5 (V : Valuation τ sig (Elt F)) (r : Ref sig .tc) (h : r ∉ W5) :
    after s5 V (Proc.devRef .tc r) = V (Proc.devRef .tc r) := after_of_writes_sub s5 V s5_writes h
theorem keepG5 (V : Valuation τ sig (Elt F)) (r : Ref sig .tc) (h : r ∉ ops_W) :
    after s5 V (Proc.devRef .tc r) = V (Proc.devRef .tc r) := after_of_writes_sub s5 V s5_writesG h
/-- A buffer the program never writes holds after stretch 5 what it held at the start. -/
theorem A5_arg (V : Valuation τ sig (Elt F)) (r : Ref sig .tc) (h : r ∉ ops_W) :
    A5 V (Proc.devRef .tc r) = V (Proc.devRef .tc r) := (keepG5 (A4 V) r h).trans (A4_arg V r h)

/-- The references stretch 6 writes. -/
abbrev W6 : List (Ref sig .tc) := [main_v50, main_v51, main_v52, main_v53, main_call1_cst, main_call1_v0, main_v54, main_v55, main_v56, main_v57, main_v58]
set_option maxRecDepth 8192 in
theorem s6_writes : (s6 : List (HloOp τ sig (Elt F))).Forall fun op =>
    op.writes ⊆ (W6.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)
set_option maxRecDepth 8192 in
theorem s6_writesG : (s6 : List (HloOp τ sig (Elt F))).Forall fun op =>
    op.writes ⊆ (ops_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)
/-- A buffer stretch 6 does not write holds afterwards what it held before. -/
theorem keep6 (V : Valuation τ sig (Elt F)) (r : Ref sig .tc) (h : r ∉ W6) :
    after s6 V (Proc.devRef .tc r) = V (Proc.devRef .tc r) := after_of_writes_sub s6 V s6_writes h
theorem keepG6 (V : Valuation τ sig (Elt F)) (r : Ref sig .tc) (h : r ∉ ops_W) :
    after s6 V (Proc.devRef .tc r) = V (Proc.devRef .tc r) := after_of_writes_sub s6 V s6_writesG h
/-- A buffer the program never writes holds after stretch 6 what it held at the start. -/
theorem A6_arg (V : Valuation τ sig (Elt F)) (r : Ref sig .tc) (h : r ∉ ops_W) :
    A6 V (Proc.devRef .tc r) = V (Proc.devRef .tc r) := (keepG6 (A5 V) r h).trans (A5_arg V r h)

/-- The references stretch 7 writes. -/
abbrev W7 : List (Ref sig .tc) := [main_cst, main_v59, main_v60, main_v61, main_cst_9, main_v62, main_cst_10, main_v63, main_v64, main_v65, main_cst_11, main_v66, main_v67, main_v68, main_v69, main_v70]
set_option maxRecDepth 8192 in
theorem s7_writes : (s7 : List (HloOp τ sig (Elt F))).Forall fun op =>
    op.writes ⊆ (W7.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)
set_option maxRecDepth 8192 in
theorem s7_writesG : (s7 : List (HloOp τ sig (Elt F))).Forall fun op =>
    op.writes ⊆ (ops_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)
/-- A buffer stretch 7 does not write holds afterwards what it held before. -/
theorem keep7 (V : Valuation τ sig (Elt F)) (r : Ref sig .tc) (h : r ∉ W7) :
    after s7 V (Proc.devRef .tc r) = V (Proc.devRef .tc r) := after_of_writes_sub s7 V s7_writes h
theorem keepG7 (V : Valuation τ sig (Elt F)) (r : Ref sig .tc) (h : r ∉ ops_W) :
    after s7 V (Proc.devRef .tc r) = V (Proc.devRef .tc r) := after_of_writes_sub s7 V s7_writesG h
/-- A buffer the program never writes holds after stretch 7 what it held at the start. -/
theorem A7_arg (V : Valuation τ sig (Elt F)) (r : Ref sig .tc) (h : r ∉ ops_W) :
    A7 V (Proc.devRef .tc r) = V (Proc.devRef .tc r) := (keepG7 (A6 V) r h).trans (A6_arg V r h)

/-- The references stretch 8 writes. -/
abbrev W8 : List (Ref sig .tc) := [main_c_12, main_v71, main_v72, main_c_13, main_v73, main_v74, main_v75, main_v76, main_v77]
set_option maxRecDepth 8192 in
theorem s8_writes : (s8 : List (HloOp τ sig (Elt F))).Forall fun op =>
    op.writes ⊆ (W8.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)
set_option maxRecDepth 8192 in
theorem s8_writesG : (s8 : List (HloOp τ sig (Elt F))).Forall fun op =>
    op.writes ⊆ (ops_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)
/-- A buffer stretch 8 does not write holds afterwards what it held before. -/
theorem keep8 (V : Valuation τ sig (Elt F)) (r : Ref sig .tc) (h : r ∉ W8) :
    after s8 V (Proc.devRef .tc r) = V (Proc.devRef .tc r) := after_of_writes_sub s8 V s8_writes h
theorem keepG8 (V : Valuation τ sig (Elt F)) (r : Ref sig .tc) (h : r ∉ ops_W) :
    after s8 V (Proc.devRef .tc r) = V (Proc.devRef .tc r) := after_of_writes_sub s8 V s8_writesG h
/-- A buffer the program never writes holds after stretch 8 what it held at the start. -/
theorem A8_arg (V : Valuation τ sig (Elt F)) (r : Ref sig .tc) (h : r ∉ ops_W) :
    A8 V (Proc.devRef .tc r) = V (Proc.devRef .tc r) := (keepG8 (A7 V) r h).trans (A7_arg V r h)

/-- The references stretch 9 writes. -/
abbrev W9 : List (Ref sig .tc) := [main_v78]
set_option maxRecDepth 8192 in
theorem s9_writes : (s9 : List (HloOp τ sig (Elt F))).Forall fun op =>
    op.writes ⊆ (W9.map (Proc.devRef (τ := τ) .tc)).toFinset := by
  simp only [List.Forall, nullary_writes, unary_writes, binary_writes, ternary_writes, reshape_writes, nary_writes,
    Finset.singleton_subset_iff, List.mem_toFinset]
  exact List.mem_map_of_mem (by decide)
set_option maxRecDepth 8192 in
theorem s9_writesG : (s9 : List (HloOp τ sig (Elt F))).Forall fun op =>
    op.writes ⊆ (ops_W.map (Proc.devRef (τ := τ) .tc)).toFinset := by
  simp only [List.Forall, nullary_writes, unary_writes, binary_writes, ternary_writes, reshape_writes, nary_writes,
    Finset.singleton_subset_iff, List.mem_toFinset]
  exact List.mem_map_of_mem (by decide)
/-- A buffer stretch 9 does not write holds afterwards what it held before. -/
theorem keep9 (V : Valuation τ sig (Elt F)) (r : Ref sig .tc) (h : r ∉ W9) :
    after s9 V (Proc.devRef .tc r) = V (Proc.devRef .tc r) := after_of_writes_sub s9 V s9_writes h
theorem keepG9 (V : Valuation τ sig (Elt F)) (r : Ref sig .tc) (h : r ∉ ops_W) :
    after s9 V (Proc.devRef .tc r) = V (Proc.devRef .tc r) := after_of_writes_sub s9 V s9_writesG h
/-- A buffer the program never writes holds after stretch 9 what it held at the start. -/
theorem A9_arg (V : Valuation τ sig (Elt F)) (r : Ref sig .tc) (h : r ∉ ops_W) :
    A9 V (Proc.devRef .tc r) = V (Proc.devRef .tc r) := (keepG9 (A8 V) r h).trans (A8_arg V r h)

/-- The references stretch 10 writes. -/
abbrev W10 : List (Ref sig .tc) := [main_v79, main_v80, main_v81, main_v82, main_call2_cst, main_call2_v0, main_v83, main_v84, main_v85, main_v86, main_v87]
set_option maxRecDepth 8192 in
theorem s10_writes : (s10 : List (HloOp τ sig (Elt F))).Forall fun op =>
    op.writes ⊆ (W10.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)
set_option maxRecDepth 8192 in
theorem s10_writesG : (s10 : List (HloOp τ sig (Elt F))).Forall fun op =>
    op.writes ⊆ (ops_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)
/-- A buffer stretch 10 does not write holds afterwards what it held before. -/
theorem keep10 (V : Valuation τ sig (Elt F)) (r : Ref sig .tc) (h : r ∉ W10) :
    after s10 V (Proc.devRef .tc r) = V (Proc.devRef .tc r) := after_of_writes_sub s10 V s10_writes h
theorem keepG10 (V : Valuation τ sig (Elt F)) (r : Ref sig .tc) (h : r ∉ ops_W) :
    after s10 V (Proc.devRef .tc r) = V (Proc.devRef .tc r) := after_of_writes_sub s10 V s10_writesG h
/-- A buffer the program never writes holds after stretch 10 what it held at the start. -/
theorem A10_arg (V : Valuation τ sig (Elt F)) (r : Ref sig .tc) (h : r ∉ ops_W) :
    A10 V (Proc.devRef .tc r) = V (Proc.devRef .tc r) := (keepG10 (A9 V) r h).trans (A9_arg V r h)

/-- The references stretch 11 writes. -/
abbrev W11 : List (Ref sig .tc) := [main_cst_14, main_v88, main_v89, main_v90, main_cst_15, main_v91, main_cst_16, main_v92, main_v93, main_v94, main_cst_17, main_v95, main_v96, main_v97, main_v98, main_v99]
set_option maxRecDepth 8192 in
theorem s11_writes : (s11 : List (HloOp τ sig (Elt F))).Forall fun op =>
    op.writes ⊆ (W11.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)
set_option maxRecDepth 8192 in
theorem s11_writesG : (s11 : List (HloOp τ sig (Elt F))).Forall fun op =>
    op.writes ⊆ (ops_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)
/-- A buffer stretch 11 does not write holds afterwards what it held before. -/
theorem keep11 (V : Valuation τ sig (Elt F)) (r : Ref sig .tc) (h : r ∉ W11) :
    after s11 V (Proc.devRef .tc r) = V (Proc.devRef .tc r) := after_of_writes_sub s11 V s11_writes h
theorem keepG11 (V : Valuation τ sig (Elt F)) (r : Ref sig .tc) (h : r ∉ ops_W) :
    after s11 V (Proc.devRef .tc r) = V (Proc.devRef .tc r) := after_of_writes_sub s11 V s11_writesG h
/-- A buffer the program never writes holds after stretch 11 what it held at the start. -/
theorem A11_arg (V : Valuation τ sig (Elt F)) (r : Ref sig .tc) (h : r ∉ ops_W) :
    A11 V (Proc.devRef .tc r) = V (Proc.devRef .tc r) := (keepG11 (A10 V) r h).trans (A10_arg V r h)

/-- The references stretch 12 writes. -/
abbrev W12 : List (Ref sig .tc) := [main_v100]
set_option maxRecDepth 8192 in
theorem s12_writes : (s12 : List (HloOp τ sig (Elt F))).Forall fun op =>
    op.writes ⊆ (W12.map (Proc.devRef (τ := τ) .tc)).toFinset := by
  simp only [List.Forall, nullary_writes, unary_writes, binary_writes, ternary_writes, reshape_writes, nary_writes,
    Finset.singleton_subset_iff, List.mem_toFinset]
  exact List.mem_map_of_mem (by decide)
set_option maxRecDepth 8192 in
theorem s12_writesG : (s12 : List (HloOp τ sig (Elt F))).Forall fun op =>
    op.writes ⊆ (ops_W.map (Proc.devRef (τ := τ) .tc)).toFinset := by
  simp only [List.Forall, nullary_writes, unary_writes, binary_writes, ternary_writes, reshape_writes, nary_writes,
    Finset.singleton_subset_iff, List.mem_toFinset]
  exact List.mem_map_of_mem (by decide)
/-- A buffer stretch 12 does not write holds afterwards what it held before. -/
theorem keep12 (V : Valuation τ sig (Elt F)) (r : Ref sig .tc) (h : r ∉ W12) :
    after s12 V (Proc.devRef .tc r) = V (Proc.devRef .tc r) := after_of_writes_sub s12 V s12_writes h
theorem keepG12 (V : Valuation τ sig (Elt F)) (r : Ref sig .tc) (h : r ∉ ops_W) :
    after s12 V (Proc.devRef .tc r) = V (Proc.devRef .tc r) := after_of_writes_sub s12 V s12_writesG h
/-- A buffer the program never writes holds after stretch 12 what it held at the start. -/
theorem A12_arg (V : Valuation τ sig (Elt F)) (r : Ref sig .tc) (h : r ∉ ops_W) :
    A12 V (Proc.devRef .tc r) = V (Proc.devRef .tc r) := (keepG12 (A11 V) r h).trans (A11_arg V r h)

/-- The references stretch 13 writes. -/
abbrev W13 : List (Ref sig .tc) := [main_v101, main_v102, main_v103, main_v104, main_call3_cst, main_call3_v0, main_v105, main_v106, main_v107, main_v108, main_v109]
set_option maxRecDepth 8192 in
theorem s13_writes : (s13 : List (HloOp τ sig (Elt F))).Forall fun op =>
    op.writes ⊆ (W13.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)
set_option maxRecDepth 8192 in
theorem s13_writesG : (s13 : List (HloOp τ sig (Elt F))).Forall fun op =>
    op.writes ⊆ (ops_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)
/-- A buffer stretch 13 does not write holds afterwards what it held before. -/
theorem keep13 (V : Valuation τ sig (Elt F)) (r : Ref sig .tc) (h : r ∉ W13) :
    after s13 V (Proc.devRef .tc r) = V (Proc.devRef .tc r) := after_of_writes_sub s13 V s13_writes h
theorem keepG13 (V : Valuation τ sig (Elt F)) (r : Ref sig .tc) (h : r ∉ ops_W) :
    after s13 V (Proc.devRef .tc r) = V (Proc.devRef .tc r) := after_of_writes_sub s13 V s13_writesG h
/-- A buffer the program never writes holds after stretch 13 what it held at the start. -/
theorem A13_arg (V : Valuation τ sig (Elt F)) (r : Ref sig .tc) (h : r ∉ ops_W) :
    A13 V (Proc.devRef .tc r) = V (Proc.devRef .tc r) := (keepG13 (A12 V) r h).trans (A12_arg V r h)

/-- A buffer the program never writes holds at the end what it held at the start. -/
theorem ops_keep (V : Valuation τ sig (Elt F)) (r : Ref sig .tc) (h : r ∉ ops_W) :
    after ops V (Proc.devRef .tc r) = V (Proc.devRef .tc r) :=
  (congrFun (after_ops V) _).trans (A13_arg V r h)

/-! ## What each stretch leaves in the buffers read later, as a term of the stretch's entry contents -/

set_option maxRecDepth 8192 in
theorem s1_main_v1 (V : Valuation τ sig (Elt F)) :
    after s1 V (Proc.devRef .tc main_v1) =
      (fun i =>
      shapeCast (Ref.ty main_v1).shape
        (extractStridedSlice S1x800000 ![0, 0] (V (Proc.devRef Proc.tc main_arg19)) slices_S2x800000_S1x800000_0_0)
        shapeCasts_S1x800000_S800000 i) := by
  after_results_simp <;> rfl

set_option maxRecDepth 8192 in
theorem s1_main_v3 (V : Valuation τ sig (Elt F)) :
    after s1 V (Proc.devRef .tc main_v3) =
      (fun i =>
      shapeCast (Ref.ty main_v3).shape
        (extractStridedSlice S1x800000 ![1, 0] (V (Proc.devRef Proc.tc main_arg19)) slices_S2x800000_S1x800000_1_0)
        shapeCasts_S1x800000_S800000 i) := by
  after_results_simp <;> rfl

set_option maxRecDepth 8192 in
theorem s1_main_v10 (V : Valuation τ sig (Elt F)) :
    after s1 V (Proc.devRef .tc main_v10) =
      Host.gather gather_S50000x64_S800000x1_S800000x64_1_0_n_n_0_1_164 (V (Proc.devRef Proc.tc main_arg0))
      (broadcastInDim S800000x1 ![0] bcast_S800000_S800000x1_0
        (select
          (cmpi CmpIPredicate.slt
            (fun i =>
              shapeCast (Ref.ty main_v1).shape
                (extractStridedSlice S1x800000 ![0, 0] (V (Proc.devRef Proc.tc main_arg19))
                  slices_S2x800000_S1x800000_0_0)
                shapeCasts_S1x800000_S800000 i)
            (broadcastInDim S800000 ![] bcast_S_S800000 (constantI S_ 32 0#32)))
          (addi
            (fun i =>
              shapeCast (Ref.ty main_v1).shape
                (extractStridedSlice S1x800000 ![0, 0] (V (Proc.devRef Proc.tc main_arg19))
                  slices_S2x800000_S1x800000_0_0)
                shapeCasts_S1x800000_S800000 i)
            (broadcastInDim S800000 ![] bcast_S_S800000 (constantI S_ 32 50000#32)))
          fun i =>
          shapeCast (Ref.ty main_v1).shape
            (extractStridedSlice S1x800000 ![0, 0] (V (Proc.devRef Proc.tc main_arg19)) slices_S2x800000_S1x800000_0_0)
            shapeCasts_S1x800000_S800000 i)) := by
  after_results_simp <;> rfl

set_option maxRecDepth 8192 in
theorem s1_main_v17 (V : Valuation τ sig (Elt F)) :
    after s1 V (Proc.devRef .tc main_v17) =
      Host.gather gather_S50000x64_S800000x1_S800000x64_1_0_n_n_0_1_164 (V (Proc.devRef Proc.tc main_arg0))
      (broadcastInDim S800000x1 ![0] bcast_S800000_S800000x1_0
        (select
          (cmpi CmpIPredicate.slt
            (fun i =>
              shapeCast (Ref.ty main_v3).shape
                (extractStridedSlice S1x800000 ![1, 0] (V (Proc.devRef Proc.tc main_arg19))
                  slices_S2x800000_S1x800000_1_0)
                shapeCasts_S1x800000_S800000 i)
            (broadcastInDim S800000 ![] bcast_S_S800000 (constantI S_ 32 0#32)))
          (addi
            (fun i =>
              shapeCast (Ref.ty main_v3).shape
                (extractStridedSlice S1x800000 ![1, 0] (V (Proc.devRef Proc.tc main_arg19))
                  slices_S2x800000_S1x800000_1_0)
                shapeCasts_S1x800000_S800000 i)
            (broadcastInDim S800000 ![] bcast_S_S800000 (constantI S_ 32 50000#32)))
          fun i =>
          shapeCast (Ref.ty main_v3).shape
            (extractStridedSlice S1x800000 ![1, 0] (V (Proc.devRef Proc.tc main_arg19)) slices_S2x800000_S1x800000_1_0)
            shapeCasts_S1x800000_S800000 i)) := by
  after_results_simp <;> rfl

set_option maxRecDepth 8192 in
theorem s1_main_v31 (V : Valuation τ sig (Elt F)) :
    after s1 V (Proc.devRef .tc main_v31) =
      Host.gather gather_S256x16_S800000x1_S800000x16_1_0_n_n_0_1_116 (V (Proc.devRef Proc.tc main_arg2))
      (broadcastInDim S800000x1 ![0] bcast_S800000_S800000x1_0
        (select
          (cmpi CmpIPredicate.slt
            (Host.gather gather_S50000_S800000x1_S800000_n_0_n_n_0_1_1 (V (Proc.devRef Proc.tc main_arg20))
              (broadcastInDim S800000x1 ![0] bcast_S800000_S800000x1_0
                (select
                  (cmpi CmpIPredicate.slt
                    (fun i =>
                      shapeCast (Ref.ty main_v1).shape
                        (extractStridedSlice S1x800000 ![0, 0] (V (Proc.devRef Proc.tc main_arg19))
                          slices_S2x800000_S1x800000_0_0)
                        shapeCasts_S1x800000_S800000 i)
                    (broadcastInDim S800000 ![] bcast_S_S800000 (constantI S_ 32 0#32)))
                  (addi
                    (fun i =>
                      shapeCast (Ref.ty main_v1).shape
                        (extractStridedSlice S1x800000 ![0, 0] (V (Proc.devRef Proc.tc main_arg19))
                          slices_S2x800000_S1x800000_0_0)
                        shapeCasts_S1x800000_S800000 i)
                    (broadcastInDim S800000 ![] bcast_S_S800000 (constantI S_ 32 50000#32)))
                  fun i =>
                  shapeCast (Ref.ty main_v1).shape
                    (extractStridedSlice S1x800000 ![0, 0] (V (Proc.devRef Proc.tc main_arg19))
                      slices_S2x800000_S1x800000_0_0)
                    shapeCasts_S1x800000_S800000 i)))
            (broadcastInDim S800000 ![] bcast_S_S800000 (constantI S_ 32 0#32)))
          (addi
            (Host.gather gather_S50000_S800000x1_S800000_n_0_n_n_0_1_1 (V (Proc.devRef Proc.tc main_arg20))
              (broadcastInDim S800000x1 ![0] bcast_S800000_S800000x1_0
                (select
                  (cmpi CmpIPredicate.slt
                    (fun i =>
                      shapeCast (Ref.ty main_v1).shape
                        (extractStridedSlice S1x800000 ![0, 0] (V (Proc.devRef Proc.tc main_arg19))
                          slices_S2x800000_S1x800000_0_0)
                        shapeCasts_S1x800000_S800000 i)
                    (broadcastInDim S800000 ![] bcast_S_S800000 (constantI S_ 32 0#32)))
                  (addi
                    (fun i =>
                      shapeCast (Ref.ty main_v1).shape
                        (extractStridedSlice S1x800000 ![0, 0] (V (Proc.devRef Proc.tc main_arg19))
                          slices_S2x800000_S1x800000_0_0)
                        shapeCasts_S1x800000_S800000 i)
                    (broadcastInDim S800000 ![] bcast_S_S800000 (constantI S_ 32 50000#32)))
                  fun i =>
                  shapeCast (Ref.ty main_v1).shape
                    (extractStridedSlice S1x800000 ![0, 0] (V (Proc.devRef Proc.tc main_arg19))
                      slices_S2x800000_S1x800000_0_0)
                    shapeCasts_S1x800000_S800000 i)))
            (broadcastInDim S800000 ![] bcast_S_S800000 (constantI S_ 32 256#32)))
          (Host.gather gather_S50000_S800000x1_S800000_n_0_n_n_0_1_1 (V (Proc.devRef Proc.tc main_arg20))
            (broadcastInDim S800000x1 ![0] bcast_S800000_S800000x1_0
              (select
                (cmpi CmpIPredicate.slt
                  (fun i =>
                    shapeCast (Ref.ty main_v1).shape
                      (extractStridedSlice S1x800000 ![0, 0] (V (Proc.devRef Proc.tc main_arg19))
                        slices_S2x800000_S1x800000_0_0)
                      shapeCasts_S1x800000_S800000 i)
                  (broadcastInDim S800000 ![] bcast_S_S800000 (constantI S_ 32 0#32)))
                (addi
                  (fun i =>
                    shapeCast (Ref.ty main_v1).shape
                      (extractStridedSlice S1x800000 ![0, 0] (V (Proc.devRef Proc.tc main_arg19))
                        slices_S2x800000_S1x800000_0_0)
                      shapeCasts_S1x800000_S800000 i)
                  (broadcastInDim S800000 ![] bcast_S_S800000 (constantI S_ 32 50000#32)))
                fun i =>
                shapeCast (Ref.ty main_v1).shape
                  (extractStridedSlice S1x800000 ![0, 0] (V (Proc.devRef Proc.tc main_arg19))
                    slices_S2x800000_S1x800000_0_0)
                  shapeCasts_S1x800000_S800000 i))))) := by
  after_results_simp <;> rfl

set_option maxRecDepth 8192 in
theorem s2_main_v32 (V : Valuation τ sig (Elt F)) :
    after s2 V (Proc.devRef .tc main_v32) =
      concatenate S800000x176 1
      [⟨S800000x64, V (Proc.devRef Proc.tc main_v10)⟩,
        ⟨S800000x64, V (Proc.devRef Proc.tc main_v17)⟩,
        ⟨S800000x32, V (Proc.devRef Proc.tc main_arg1)⟩,
        ⟨S800000x16, V (Proc.devRef Proc.tc main_v31)⟩]
      concatenates_S800000x64_S800000x64_S800000x32_S800000x16_S800000x176_d1 := by
  after_results_simp <;> rfl

set_option maxRecDepth 8192 in
theorem s3_main_v41 (V : Valuation τ sig (Elt F)) :
    after s3 V (Proc.devRef .tc main_v41) =
      addf
      (Host.dotGeneral dot_S800000x128_S128x64_S800000x64_1_0_0_1_n_n none
        (maximumf
            (addf
                (Host.dotGeneral dot_S800000x176_S176x128_S800000x128_1_0_0_1_n_n none
                  (V (Proc.devRef Proc.tc main_v32)) (V (Proc.devRef Proc.tc main_arg3)))
                (broadcastInDim S800000x128 ![0, 1] bcast_S1x128_S800000x128_0_1
                  (broadcastInDim S1x128 ![1] bcast_S128_S1x128_1 (V (Proc.devRef Proc.tc main_arg4)))))
            (broadcastInDim S800000x128 ![] bcast_S_S800000x128
                  (constant S_ FTy.f32 0x00000000#32)))
        (V (Proc.devRef Proc.tc main_arg5)))
      (broadcastInDim S800000x64 ![0, 1] bcast_S1x64_S800000x64_0_1
        (broadcastInDim S1x64 ![1] bcast_S64_S1x64_1 (V (Proc.devRef Proc.tc main_arg6)))) := by
  after_results_simp <;> rfl

set_option maxRecDepth 8192 in
theorem s4_main_v48 (V : Valuation τ sig (Elt F)) :
    after s4 V (Proc.devRef .tc main_v48) =
      Host.gather gather_S50000x64_S800000x1_S800000x64_1_0_n_n_0_1_164 (V (Proc.devRef Proc.tc main_arg0))
      (broadcastInDim S800000x1 ![0] bcast_S800000_S800000x1_0
        (select
          (cmpi CmpIPredicate.slt (V (Proc.devRef Proc.tc main_v1))
            (broadcastInDim S800000 ![] bcast_S_S800000 (constantI S_ 32 0#32)))
          (addi (V (Proc.devRef Proc.tc main_v1))
            (broadcastInDim S800000 ![] bcast_S_S800000 (constantI S_ 32 50000#32)))
          (V (Proc.devRef Proc.tc main_v1)))) := by
  after_results_simp <;> rfl

set_option maxRecDepth 8192 in
theorem s5_main_v49 (V : Valuation τ sig (Elt F)) :
    after s5 V (Proc.devRef .tc main_v49) =
      concatenate S800000x128 1
      [⟨S800000x64, V (Proc.devRef Proc.tc main_v48)⟩, ⟨S800000x64, V (Proc.devRef Proc.tc main_v41)⟩]
      concatenates_S800000x64_S800000x64_S800000x128_d1 := by
  after_results_simp <;> rfl

set_option maxRecDepth 8192 in
theorem s6_main_v58 (V : Valuation τ sig (Elt F)) :
    after s6 V (Proc.devRef .tc main_v58) =
      addf
      (Host.dotGeneral dot_S800000x128_S128x128_S800000x128_1_0_0_1_n_n none
        (maximumf
            (addf
                (Host.dotGeneral dot_S800000x128_S128x128_S800000x128_1_0_0_1_n_n none
                  (V (Proc.devRef Proc.tc main_v49)) (V (Proc.devRef Proc.tc main_arg7)))
                (broadcastInDim S800000x128 ![0, 1] bcast_S1x128_S800000x128_0_1
                  (broadcastInDim S1x128 ![1] bcast_S128_S1x128_1 (V (Proc.devRef Proc.tc main_arg8)))))
            (broadcastInDim S800000x128 ![] bcast_S_S800000x128
                  (constant S_ FTy.f32 0x00000000#32)))
        (V (Proc.devRef Proc.tc main_arg9)))
      (broadcastInDim S800000x128 ![0, 1] bcast_S1x128_S800000x128_0_1
        (broadcastInDim S1x128 ![1] bcast_S128_S1x128_1 (V (Proc.devRef Proc.tc main_arg10)))) := by
  after_results_simp <;> rfl

set_option maxRecDepth 8192 in
theorem s7_main_v70 (V : Valuation τ sig (Elt F)) :
    after s7 V (Proc.devRef .tc main_v70) =
      Host.divf
      (Host.scatterAdd scatter_S50000x128_S800000x1_S800000x128_1_0_0_1
        (broadcastInDim S50000x128 ![] bcast_S_S50000x128 (constant S_ FTy.f32 0x00000000#32))
        (broadcastInDim S800000x1 ![0] bcast_S800000_S800000x1_0 (V (Proc.devRef Proc.tc main_v3)))
        (V (Proc.devRef Proc.tc main_v58)))
      (broadcastInDim S50000x128 ![0, 1] bcast_S50000x1_S50000x128_0_1
        (broadcastInDim S50000x1 ![0] bcast_S50000_S50000x1_0
          (maximumf
            (Host.scatterAdd scatter_S50000_S800000x1_S800000_n_0_0_1
              (broadcastInDim S50000 ![] bcast_S_S50000 (constant S_ FTy.f32 0x00000000#32))
              (broadcastInDim S800000x1 ![0] bcast_S800000_S800000x1_0 (V (Proc.devRef Proc.tc main_v3)))
              (broadcastInDim S800000 ![] bcast_S_S800000 (constant S_ FTy.f32 0x3F800000#32)))
            (broadcastInDim S50000 ![] bcast_S_S50000 (constant S_ FTy.f32 0x3F800000#32))))) := by
  after_results_simp <;> rfl

set_option maxRecDepth 8192 in
theorem s8_main_v77 (V : Valuation τ sig (Elt F)) :
    after s8 V (Proc.devRef .tc main_v77) =
      Host.gather gather_S256x16_S50000x1_S50000x16_1_0_n_n_0_1_116 (V (Proc.devRef Proc.tc main_arg2))
      (broadcastInDim S50000x1 ![0] bcast_S50000_S50000x1_0
        (select
          (cmpi CmpIPredicate.slt (V (Proc.devRef Proc.tc main_arg20))
            (broadcastInDim S50000 ![] bcast_S_S50000 (constantI S_ 32 0#32)))
          (addi (V (Proc.devRef Proc.tc main_arg20))
            (broadcastInDim S50000 ![] bcast_S_S50000 (constantI S_ 32 256#32)))
          (V (Proc.devRef Proc.tc main_arg20)))) := by
  after_results_simp <;> rfl

set_option maxRecDepth 8192 in
theorem s9_main_v78 (V : Valuation τ sig (Elt F)) :
    after s9 V (Proc.devRef .tc main_v78) =
      concatenate S50000x208 1
      [⟨S50000x64, V (Proc.devRef Proc.tc main_arg0)⟩,
        ⟨S50000x128, V (Proc.devRef Proc.tc main_v70)⟩,
        ⟨S50000x16, V (Proc.devRef Proc.tc main_v77)⟩]
      concatenates_S50000x64_S50000x128_S50000x16_S50000x208_d1 := by
  after_results_simp <;> rfl

set_option maxRecDepth 8192 in
theorem s10_main_v87 (V : Valuation τ sig (Elt F)) :
    after s10 V (Proc.devRef .tc main_v87) =
      addf
      (Host.dotGeneral dot_S50000x128_S128x64_S50000x64_1_0_0_1_n_n none
        (maximumf
            (addf
                (Host.dotGeneral dot_S50000x208_S208x128_S50000x128_1_0_0_1_n_n none (V (Proc.devRef Proc.tc main_v78))
                  (V (Proc.devRef Proc.tc main_arg11)))
                (broadcastInDim S50000x128 ![0, 1] bcast_S1x128_S50000x128_0_1
                  (broadcastInDim S1x128 ![1] bcast_S128_S1x128_1 (V (Proc.devRef Proc.tc main_arg12)))))
            (broadcastInDim S50000x128 ![] bcast_S_S50000x128
                  (constant S_ FTy.f32 0x00000000#32)))
        (V (Proc.devRef Proc.tc main_arg13)))
      (broadcastInDim S50000x64 ![0, 1] bcast_S1x64_S50000x64_0_1
        (broadcastInDim S1x64 ![1] bcast_S64_S1x64_1 (V (Proc.devRef Proc.tc main_arg14)))) := by
  after_results_simp <;> rfl

set_option maxRecDepth 8192 in
theorem s11_main_v99 (V : Valuation τ sig (Elt F)) :
    after s11 V (Proc.devRef .tc main_v99) =
      Host.divf
      (Host.scatterAdd scatter_S256x64_S50000x1_S50000x64_1_0_0_1
        (broadcastInDim S256x64 ![] bcast_S_S256x64 (constant S_ FTy.f32 0x00000000#32))
        (broadcastInDim S50000x1 ![0] bcast_S50000_S50000x1_0 (V (Proc.devRef Proc.tc main_arg20)))
        (V (Proc.devRef Proc.tc main_v87)))
      (broadcastInDim S256x64 ![0, 1] bcast_S256x1_S256x64_0_1
        (broadcastInDim S256x1 ![0] bcast_S256_S256x1_0
          (maximumf
            (Host.scatterAdd scatter_S256_S50000x1_S50000_n_0_0_1
              (broadcastInDim S256 ![] bcast_S_S256 (constant S_ FTy.f32 0x00000000#32))
              (broadcastInDim S50000x1 ![0] bcast_S50000_S50000x1_0 (V (Proc.devRef Proc.tc main_arg20)))
              (broadcastInDim S50000 ![] bcast_S_S50000 (constant S_ FTy.f32 0x3F800000#32)))
            (broadcastInDim S256 ![] bcast_S_S256 (constant S_ FTy.f32 0x3F800000#32))))) := by
  after_results_simp <;> rfl

set_option maxRecDepth 8192 in
theorem s12_main_v100 (V : Valuation τ sig (Elt F)) :
    after s12 V (Proc.devRef .tc main_v100) =
      concatenate S256x80 1 [⟨S256x16, V (Proc.devRef Proc.tc main_arg2)⟩, ⟨S256x64, V (Proc.devRef Proc.tc main_v99)⟩]
      concatenates_S256x16_S256x64_S256x80_d1 := by
  after_results_simp <;> rfl

set_option maxRecDepth 8192 in
theorem s13_main_v109 (V : Valuation τ sig (Elt F)) :
    after s13 V (Proc.devRef .tc main_v109) =
      addf
      (Host.dotGeneral dot_S256x128_S128x32_S256x32_1_0_0_1_n_n none
        (maximumf
            (addf
                (Host.dotGeneral dot_S256x80_S80x128_S256x128_1_0_0_1_n_n none (V (Proc.devRef Proc.tc main_v100))
                  (V (Proc.devRef Proc.tc main_arg15)))
                (broadcastInDim S256x128 ![0, 1] bcast_S1x128_S256x128_0_1
                  (broadcastInDim S1x128 ![1] bcast_S128_S1x128_1 (V (Proc.devRef Proc.tc main_arg16)))))
            (broadcastInDim S256x128 ![] bcast_S_S256x128
                  (constant S_ FTy.f32 0x00000000#32)))
        (V (Proc.devRef Proc.tc main_arg17)))
      (broadcastInDim S256x32 ![0, 1] bcast_S1x32_S256x32_0_1
        (broadcastInDim S1x32 ![1] bcast_S32_S1x32_1 (V (Proc.devRef Proc.tc main_arg18)))) := by
  after_results_simp <;> rfl

/-! ## The composed terms, and the fold read through the stretches

`T_b V` is what the program leaves in buffer `b` from contents `V`: the term of `b`'s stretch, with each buffer an
earlier stretch computes standing for its own composed term. -/

/-- What the program leaves in `main_v1`. -/
def T_main_v1 (V : Valuation τ sig (Elt F)) : (Proc.devRef (τ := τ) .tc main_v1).ty.Contents (Elt F) :=
      (fun i =>
      shapeCast (Ref.ty main_v1).shape
        (extractStridedSlice S1x800000 ![0, 0] (V (Proc.devRef Proc.tc main_arg19)) slices_S2x800000_S1x800000_0_0)
        shapeCasts_S1x800000_S800000 i)
set_option maxRecDepth 8192 in
theorem A1_main_v1 (V : Valuation τ sig (Elt F)) : A1 V (Proc.devRef .tc main_v1) = T_main_v1 V :=
  s1_main_v1 V
theorem A2_main_v1 (V : Valuation τ sig (Elt F)) : A2 V (Proc.devRef .tc main_v1) = T_main_v1 V :=
  (keep2 (A1 V) main_v1 (by decide)).trans (A1_main_v1 V)
theorem A3_main_v1 (V : Valuation τ sig (Elt F)) : A3 V (Proc.devRef .tc main_v1) = T_main_v1 V :=
  (keep3 (A2 V) main_v1 (by decide)).trans (A2_main_v1 V)

/-- What the program leaves in `main_v3`. -/
def T_main_v3 (V : Valuation τ sig (Elt F)) : (Proc.devRef (τ := τ) .tc main_v3).ty.Contents (Elt F) :=
      (fun i =>
      shapeCast (Ref.ty main_v3).shape
        (extractStridedSlice S1x800000 ![1, 0] (V (Proc.devRef Proc.tc main_arg19)) slices_S2x800000_S1x800000_1_0)
        shapeCasts_S1x800000_S800000 i)
set_option maxRecDepth 8192 in
theorem A1_main_v3 (V : Valuation τ sig (Elt F)) : A1 V (Proc.devRef .tc main_v3) = T_main_v3 V :=
  s1_main_v3 V
theorem A2_main_v3 (V : Valuation τ sig (Elt F)) : A2 V (Proc.devRef .tc main_v3) = T_main_v3 V :=
  (keep2 (A1 V) main_v3 (by decide)).trans (A1_main_v3 V)
theorem A3_main_v3 (V : Valuation τ sig (Elt F)) : A3 V (Proc.devRef .tc main_v3) = T_main_v3 V :=
  (keep3 (A2 V) main_v3 (by decide)).trans (A2_main_v3 V)
theorem A4_main_v3 (V : Valuation τ sig (Elt F)) : A4 V (Proc.devRef .tc main_v3) = T_main_v3 V :=
  (keep4 (A3 V) main_v3 (by decide)).trans (A3_main_v3 V)
theorem A5_main_v3 (V : Valuation τ sig (Elt F)) : A5 V (Proc.devRef .tc main_v3) = T_main_v3 V :=
  (keep5 (A4 V) main_v3 (by decide)).trans (A4_main_v3 V)
theorem A6_main_v3 (V : Valuation τ sig (Elt F)) : A6 V (Proc.devRef .tc main_v3) = T_main_v3 V :=
  (keep6 (A5 V) main_v3 (by decide)).trans (A5_main_v3 V)

/-- What the program leaves in `main_v10`. -/
def T_main_v10 (V : Valuation τ sig (Elt F)) : (Proc.devRef (τ := τ) .tc main_v10).ty.Contents (Elt F) :=
      Host.gather gather_S50000x64_S800000x1_S800000x64_1_0_n_n_0_1_164 (V (Proc.devRef Proc.tc main_arg0))
      (broadcastInDim S800000x1 ![0] bcast_S800000_S800000x1_0
        (select
          (cmpi CmpIPredicate.slt
            (fun i =>
              shapeCast (Ref.ty main_v1).shape
                (extractStridedSlice S1x800000 ![0, 0] (V (Proc.devRef Proc.tc main_arg19))
                  slices_S2x800000_S1x800000_0_0)
                shapeCasts_S1x800000_S800000 i)
            (broadcastInDim S800000 ![] bcast_S_S800000 (constantI S_ 32 0#32)))
          (addi
            (fun i =>
              shapeCast (Ref.ty main_v1).shape
                (extractStridedSlice S1x800000 ![0, 0] (V (Proc.devRef Proc.tc main_arg19))
                  slices_S2x800000_S1x800000_0_0)
                shapeCasts_S1x800000_S800000 i)
            (broadcastInDim S800000 ![] bcast_S_S800000 (constantI S_ 32 50000#32)))
          fun i =>
          shapeCast (Ref.ty main_v1).shape
            (extractStridedSlice S1x800000 ![0, 0] (V (Proc.devRef Proc.tc main_arg19)) slices_S2x800000_S1x800000_0_0)
            shapeCasts_S1x800000_S800000 i))
set_option maxRecDepth 8192 in
theorem A1_main_v10 (V : Valuation τ sig (Elt F)) : A1 V (Proc.devRef .tc main_v10) = T_main_v10 V :=
  s1_main_v10 V

/-- What the program leaves in `main_v17`. -/
def T_main_v17 (V : Valuation τ sig (Elt F)) : (Proc.devRef (τ := τ) .tc main_v17).ty.Contents (Elt F) :=
      Host.gather gather_S50000x64_S800000x1_S800000x64_1_0_n_n_0_1_164 (V (Proc.devRef Proc.tc main_arg0))
      (broadcastInDim S800000x1 ![0] bcast_S800000_S800000x1_0
        (select
          (cmpi CmpIPredicate.slt
            (fun i =>
              shapeCast (Ref.ty main_v3).shape
                (extractStridedSlice S1x800000 ![1, 0] (V (Proc.devRef Proc.tc main_arg19))
                  slices_S2x800000_S1x800000_1_0)
                shapeCasts_S1x800000_S800000 i)
            (broadcastInDim S800000 ![] bcast_S_S800000 (constantI S_ 32 0#32)))
          (addi
            (fun i =>
              shapeCast (Ref.ty main_v3).shape
                (extractStridedSlice S1x800000 ![1, 0] (V (Proc.devRef Proc.tc main_arg19))
                  slices_S2x800000_S1x800000_1_0)
                shapeCasts_S1x800000_S800000 i)
            (broadcastInDim S800000 ![] bcast_S_S800000 (constantI S_ 32 50000#32)))
          fun i =>
          shapeCast (Ref.ty main_v3).shape
            (extractStridedSlice S1x800000 ![1, 0] (V (Proc.devRef Proc.tc main_arg19)) slices_S2x800000_S1x800000_1_0)
            shapeCasts_S1x800000_S800000 i))
set_option maxRecDepth 8192 in
theorem A1_main_v17 (V : Valuation τ sig (Elt F)) : A1 V (Proc.devRef .tc main_v17) = T_main_v17 V :=
  s1_main_v17 V

/-- What the program leaves in `main_v31`. -/
def T_main_v31 (V : Valuation τ sig (Elt F)) : (Proc.devRef (τ := τ) .tc main_v31).ty.Contents (Elt F) :=
      Host.gather gather_S256x16_S800000x1_S800000x16_1_0_n_n_0_1_116 (V (Proc.devRef Proc.tc main_arg2))
      (broadcastInDim S800000x1 ![0] bcast_S800000_S800000x1_0
        (select
          (cmpi CmpIPredicate.slt
            (Host.gather gather_S50000_S800000x1_S800000_n_0_n_n_0_1_1 (V (Proc.devRef Proc.tc main_arg20))
              (broadcastInDim S800000x1 ![0] bcast_S800000_S800000x1_0
                (select
                  (cmpi CmpIPredicate.slt
                    (fun i =>
                      shapeCast (Ref.ty main_v1).shape
                        (extractStridedSlice S1x800000 ![0, 0] (V (Proc.devRef Proc.tc main_arg19))
                          slices_S2x800000_S1x800000_0_0)
                        shapeCasts_S1x800000_S800000 i)
                    (broadcastInDim S800000 ![] bcast_S_S800000 (constantI S_ 32 0#32)))
                  (addi
                    (fun i =>
                      shapeCast (Ref.ty main_v1).shape
                        (extractStridedSlice S1x800000 ![0, 0] (V (Proc.devRef Proc.tc main_arg19))
                          slices_S2x800000_S1x800000_0_0)
                        shapeCasts_S1x800000_S800000 i)
                    (broadcastInDim S800000 ![] bcast_S_S800000 (constantI S_ 32 50000#32)))
                  fun i =>
                  shapeCast (Ref.ty main_v1).shape
                    (extractStridedSlice S1x800000 ![0, 0] (V (Proc.devRef Proc.tc main_arg19))
                      slices_S2x800000_S1x800000_0_0)
                    shapeCasts_S1x800000_S800000 i)))
            (broadcastInDim S800000 ![] bcast_S_S800000 (constantI S_ 32 0#32)))
          (addi
            (Host.gather gather_S50000_S800000x1_S800000_n_0_n_n_0_1_1 (V (Proc.devRef Proc.tc main_arg20))
              (broadcastInDim S800000x1 ![0] bcast_S800000_S800000x1_0
                (select
                  (cmpi CmpIPredicate.slt
                    (fun i =>
                      shapeCast (Ref.ty main_v1).shape
                        (extractStridedSlice S1x800000 ![0, 0] (V (Proc.devRef Proc.tc main_arg19))
                          slices_S2x800000_S1x800000_0_0)
                        shapeCasts_S1x800000_S800000 i)
                    (broadcastInDim S800000 ![] bcast_S_S800000 (constantI S_ 32 0#32)))
                  (addi
                    (fun i =>
                      shapeCast (Ref.ty main_v1).shape
                        (extractStridedSlice S1x800000 ![0, 0] (V (Proc.devRef Proc.tc main_arg19))
                          slices_S2x800000_S1x800000_0_0)
                        shapeCasts_S1x800000_S800000 i)
                    (broadcastInDim S800000 ![] bcast_S_S800000 (constantI S_ 32 50000#32)))
                  fun i =>
                  shapeCast (Ref.ty main_v1).shape
                    (extractStridedSlice S1x800000 ![0, 0] (V (Proc.devRef Proc.tc main_arg19))
                      slices_S2x800000_S1x800000_0_0)
                    shapeCasts_S1x800000_S800000 i)))
            (broadcastInDim S800000 ![] bcast_S_S800000 (constantI S_ 32 256#32)))
          (Host.gather gather_S50000_S800000x1_S800000_n_0_n_n_0_1_1 (V (Proc.devRef Proc.tc main_arg20))
            (broadcastInDim S800000x1 ![0] bcast_S800000_S800000x1_0
              (select
                (cmpi CmpIPredicate.slt
                  (fun i =>
                    shapeCast (Ref.ty main_v1).shape
                      (extractStridedSlice S1x800000 ![0, 0] (V (Proc.devRef Proc.tc main_arg19))
                        slices_S2x800000_S1x800000_0_0)
                      shapeCasts_S1x800000_S800000 i)
                  (broadcastInDim S800000 ![] bcast_S_S800000 (constantI S_ 32 0#32)))
                (addi
                  (fun i =>
                    shapeCast (Ref.ty main_v1).shape
                      (extractStridedSlice S1x800000 ![0, 0] (V (Proc.devRef Proc.tc main_arg19))
                        slices_S2x800000_S1x800000_0_0)
                      shapeCasts_S1x800000_S800000 i)
                  (broadcastInDim S800000 ![] bcast_S_S800000 (constantI S_ 32 50000#32)))
                fun i =>
                shapeCast (Ref.ty main_v1).shape
                  (extractStridedSlice S1x800000 ![0, 0] (V (Proc.devRef Proc.tc main_arg19))
                    slices_S2x800000_S1x800000_0_0)
                  shapeCasts_S1x800000_S800000 i)))))
set_option maxRecDepth 8192 in
theorem A1_main_v31 (V : Valuation τ sig (Elt F)) : A1 V (Proc.devRef .tc main_v31) = T_main_v31 V :=
  s1_main_v31 V

/-- What the program leaves in `main_v32`. -/
def T_main_v32 (V : Valuation τ sig (Elt F)) : (Proc.devRef (τ := τ) .tc main_v32).ty.Contents (Elt F) :=
      concatenate S800000x176 1
      [⟨S800000x64, (T_main_v10 V)⟩,
        ⟨S800000x64, (T_main_v17 V)⟩,
        ⟨S800000x32, V (Proc.devRef Proc.tc main_arg1)⟩,
        ⟨S800000x16, (T_main_v31 V)⟩]
      concatenates_S800000x64_S800000x64_S800000x32_S800000x16_S800000x176_d1
set_option maxRecDepth 8192 in
theorem A2_main_v32 (V : Valuation τ sig (Elt F)) : A2 V (Proc.devRef .tc main_v32) = T_main_v32 V :=
  (s2_main_v32 (A1 V)).trans (by
    rw [A1_main_v10 V, A1_main_v17 V, A1_arg V main_arg1 (by decide), A1_main_v31 V]
    try rfl)

/-- What the program leaves in `main_v41`. -/
def T_main_v41 (V : Valuation τ sig (Elt F)) : (Proc.devRef (τ := τ) .tc main_v41).ty.Contents (Elt F) :=
      addf
      (Host.dotGeneral dot_S800000x128_S128x64_S800000x64_1_0_0_1_n_n none
        (maximumf
            (addf
                (Host.dotGeneral dot_S800000x176_S176x128_S800000x128_1_0_0_1_n_n none
                  (T_main_v32 V) (V (Proc.devRef Proc.tc main_arg3)))
                (broadcastInDim S800000x128 ![0, 1] bcast_S1x128_S800000x128_0_1
                  (broadcastInDim S1x128 ![1] bcast_S128_S1x128_1 (V (Proc.devRef Proc.tc main_arg4)))))
            (broadcastInDim S800000x128 ![] bcast_S_S800000x128
                  (constant S_ FTy.f32 0x00000000#32)))
        (V (Proc.devRef Proc.tc main_arg5)))
      (broadcastInDim S800000x64 ![0, 1] bcast_S1x64_S800000x64_0_1
        (broadcastInDim S1x64 ![1] bcast_S64_S1x64_1 (V (Proc.devRef Proc.tc main_arg6))))
set_option maxRecDepth 8192 in
theorem A3_main_v41 (V : Valuation τ sig (Elt F)) : A3 V (Proc.devRef .tc main_v41) = T_main_v41 V :=
  (s3_main_v41 (A2 V)).trans (by
    rw [A2_main_v32 V, A2_arg V main_arg3 (by decide), A2_arg V main_arg4 (by decide), A2_arg V main_arg5 (by decide), A2_arg V main_arg6 (by decide)]
    try rfl)
theorem A4_main_v41 (V : Valuation τ sig (Elt F)) : A4 V (Proc.devRef .tc main_v41) = T_main_v41 V :=
  (keep4 (A3 V) main_v41 (by decide)).trans (A3_main_v41 V)
theorem A5_main_v41 (V : Valuation τ sig (Elt F)) : A5 V (Proc.devRef .tc main_v41) = T_main_v41 V :=
  (keep5 (A4 V) main_v41 (by decide)).trans (A4_main_v41 V)
theorem A6_main_v41 (V : Valuation τ sig (Elt F)) : A6 V (Proc.devRef .tc main_v41) = T_main_v41 V :=
  (keep6 (A5 V) main_v41 (by decide)).trans (A5_main_v41 V)
theorem A7_main_v41 (V : Valuation τ sig (Elt F)) : A7 V (Proc.devRef .tc main_v41) = T_main_v41 V :=
  (keep7 (A6 V) main_v41 (by decide)).trans (A6_main_v41 V)
theorem A8_main_v41 (V : Valuation τ sig (Elt F)) : A8 V (Proc.devRef .tc main_v41) = T_main_v41 V :=
  (keep8 (A7 V) main_v41 (by decide)).trans (A7_main_v41 V)
theorem A9_main_v41 (V : Valuation τ sig (Elt F)) : A9 V (Proc.devRef .tc main_v41) = T_main_v41 V :=
  (keep9 (A8 V) main_v41 (by decide)).trans (A8_main_v41 V)
theorem A10_main_v41 (V : Valuation τ sig (Elt F)) : A10 V (Proc.devRef .tc main_v41) = T_main_v41 V :=
  (keep10 (A9 V) main_v41 (by decide)).trans (A9_main_v41 V)
theorem A11_main_v41 (V : Valuation τ sig (Elt F)) : A11 V (Proc.devRef .tc main_v41) = T_main_v41 V :=
  (keep11 (A10 V) main_v41 (by decide)).trans (A10_main_v41 V)
theorem A12_main_v41 (V : Valuation τ sig (Elt F)) : A12 V (Proc.devRef .tc main_v41) = T_main_v41 V :=
  (keep12 (A11 V) main_v41 (by decide)).trans (A11_main_v41 V)
theorem A13_main_v41 (V : Valuation τ sig (Elt F)) : A13 V (Proc.devRef .tc main_v41) = T_main_v41 V :=
  (keep13 (A12 V) main_v41 (by decide)).trans (A12_main_v41 V)

/-- What the program leaves in `main_v48`. -/
def T_main_v48 (V : Valuation τ sig (Elt F)) : (Proc.devRef (τ := τ) .tc main_v48).ty.Contents (Elt F) :=
      Host.gather gather_S50000x64_S800000x1_S800000x64_1_0_n_n_0_1_164 (V (Proc.devRef Proc.tc main_arg0))
      (broadcastInDim S800000x1 ![0] bcast_S800000_S800000x1_0
        (select
          (cmpi CmpIPredicate.slt (T_main_v1 V)
            (broadcastInDim S800000 ![] bcast_S_S800000 (constantI S_ 32 0#32)))
          (addi (T_main_v1 V)
            (broadcastInDim S800000 ![] bcast_S_S800000 (constantI S_ 32 50000#32)))
          (T_main_v1 V)))
set_option maxRecDepth 8192 in
theorem A4_main_v48 (V : Valuation τ sig (Elt F)) : A4 V (Proc.devRef .tc main_v48) = T_main_v48 V :=
  (s4_main_v48 (A3 V)).trans (by
    rw [A3_arg V main_arg0 (by decide), A3_main_v1 V]
    try rfl)

/-- What the program leaves in `main_v49`. -/
def T_main_v49 (V : Valuation τ sig (Elt F)) : (Proc.devRef (τ := τ) .tc main_v49).ty.Contents (Elt F) :=
      concatenate S800000x128 1
      [⟨S800000x64, (T_main_v48 V)⟩, ⟨S800000x64, (T_main_v41 V)⟩]
      concatenates_S800000x64_S800000x64_S800000x128_d1
set_option maxRecDepth 8192 in
theorem A5_main_v49 (V : Valuation τ sig (Elt F)) : A5 V (Proc.devRef .tc main_v49) = T_main_v49 V :=
  (s5_main_v49 (A4 V)).trans (by
    rw [A4_main_v48 V, A4_main_v41 V]
    try rfl)

/-- What the program leaves in `main_v58`. -/
def T_main_v58 (V : Valuation τ sig (Elt F)) : (Proc.devRef (τ := τ) .tc main_v58).ty.Contents (Elt F) :=
      addf
      (Host.dotGeneral dot_S800000x128_S128x128_S800000x128_1_0_0_1_n_n none
        (maximumf
            (addf
                (Host.dotGeneral dot_S800000x128_S128x128_S800000x128_1_0_0_1_n_n none
                  (T_main_v49 V) (V (Proc.devRef Proc.tc main_arg7)))
                (broadcastInDim S800000x128 ![0, 1] bcast_S1x128_S800000x128_0_1
                  (broadcastInDim S1x128 ![1] bcast_S128_S1x128_1 (V (Proc.devRef Proc.tc main_arg8)))))
            (broadcastInDim S800000x128 ![] bcast_S_S800000x128
                  (constant S_ FTy.f32 0x00000000#32)))
        (V (Proc.devRef Proc.tc main_arg9)))
      (broadcastInDim S800000x128 ![0, 1] bcast_S1x128_S800000x128_0_1
        (broadcastInDim S1x128 ![1] bcast_S128_S1x128_1 (V (Proc.devRef Proc.tc main_arg10))))
set_option maxRecDepth 8192 in
theorem A6_main_v58 (V : Valuation τ sig (Elt F)) : A6 V (Proc.devRef .tc main_v58) = T_main_v58 V :=
  (s6_main_v58 (A5 V)).trans (by
    rw [A5_main_v49 V, A5_arg V main_arg7 (by decide), A5_arg V main_arg8 (by decide), A5_arg V main_arg9 (by decide), A5_arg V main_arg10 (by decide)]
    try rfl)

/-- What the program leaves in `main_v70`. -/
def T_main_v70 (V : Valuation τ sig (Elt F)) : (Proc.devRef (τ := τ) .tc main_v70).ty.Contents (Elt F) :=
      Host.divf
      (Host.scatterAdd scatter_S50000x128_S800000x1_S800000x128_1_0_0_1
        (broadcastInDim S50000x128 ![] bcast_S_S50000x128 (constant S_ FTy.f32 0x00000000#32))
        (broadcastInDim S800000x1 ![0] bcast_S800000_S800000x1_0 (T_main_v3 V))
        (T_main_v58 V))
      (broadcastInDim S50000x128 ![0, 1] bcast_S50000x1_S50000x128_0_1
        (broadcastInDim S50000x1 ![0] bcast_S50000_S50000x1_0
          (maximumf
            (Host.scatterAdd scatter_S50000_S800000x1_S800000_n_0_0_1
              (broadcastInDim S50000 ![] bcast_S_S50000 (constant S_ FTy.f32 0x00000000#32))
              (broadcastInDim S800000x1 ![0] bcast_S800000_S800000x1_0 (T_main_v3 V))
              (broadcastInDim S800000 ![] bcast_S_S800000 (constant S_ FTy.f32 0x3F800000#32)))
            (broadcastInDim S50000 ![] bcast_S_S50000 (constant S_ FTy.f32 0x3F800000#32)))))
set_option maxRecDepth 8192 in
theorem A7_main_v70 (V : Valuation τ sig (Elt F)) : A7 V (Proc.devRef .tc main_v70) = T_main_v70 V :=
  (s7_main_v70 (A6 V)).trans (by
    rw [A6_main_v3 V, A6_main_v58 V]
    try rfl)
theorem A8_main_v70 (V : Valuation τ sig (Elt F)) : A8 V (Proc.devRef .tc main_v70) = T_main_v70 V :=
  (keep8 (A7 V) main_v70 (by decide)).trans (A7_main_v70 V)

/-- What the program leaves in `main_v77`. -/
def T_main_v77 (V : Valuation τ sig (Elt F)) : (Proc.devRef (τ := τ) .tc main_v77).ty.Contents (Elt F) :=
      Host.gather gather_S256x16_S50000x1_S50000x16_1_0_n_n_0_1_116 (V (Proc.devRef Proc.tc main_arg2))
      (broadcastInDim S50000x1 ![0] bcast_S50000_S50000x1_0
        (select
          (cmpi CmpIPredicate.slt (V (Proc.devRef Proc.tc main_arg20))
            (broadcastInDim S50000 ![] bcast_S_S50000 (constantI S_ 32 0#32)))
          (addi (V (Proc.devRef Proc.tc main_arg20))
            (broadcastInDim S50000 ![] bcast_S_S50000 (constantI S_ 32 256#32)))
          (V (Proc.devRef Proc.tc main_arg20))))
set_option maxRecDepth 8192 in
theorem A8_main_v77 (V : Valuation τ sig (Elt F)) : A8 V (Proc.devRef .tc main_v77) = T_main_v77 V :=
  (s8_main_v77 (A7 V)).trans (by
    rw [A7_arg V main_arg2 (by decide), A7_arg V main_arg20 (by decide)]
    try rfl)

/-- What the program leaves in `main_v78`. -/
def T_main_v78 (V : Valuation τ sig (Elt F)) : (Proc.devRef (τ := τ) .tc main_v78).ty.Contents (Elt F) :=
      concatenate S50000x208 1
      [⟨S50000x64, V (Proc.devRef Proc.tc main_arg0)⟩,
        ⟨S50000x128, (T_main_v70 V)⟩,
        ⟨S50000x16, (T_main_v77 V)⟩]
      concatenates_S50000x64_S50000x128_S50000x16_S50000x208_d1
set_option maxRecDepth 8192 in
theorem A9_main_v78 (V : Valuation τ sig (Elt F)) : A9 V (Proc.devRef .tc main_v78) = T_main_v78 V :=
  (s9_main_v78 (A8 V)).trans (by
    rw [A8_arg V main_arg0 (by decide), A8_main_v70 V, A8_main_v77 V]
    try rfl)

/-- What the program leaves in `main_v87`. -/
def T_main_v87 (V : Valuation τ sig (Elt F)) : (Proc.devRef (τ := τ) .tc main_v87).ty.Contents (Elt F) :=
      addf
      (Host.dotGeneral dot_S50000x128_S128x64_S50000x64_1_0_0_1_n_n none
        (maximumf
            (addf
                (Host.dotGeneral dot_S50000x208_S208x128_S50000x128_1_0_0_1_n_n none (T_main_v78 V)
                  (V (Proc.devRef Proc.tc main_arg11)))
                (broadcastInDim S50000x128 ![0, 1] bcast_S1x128_S50000x128_0_1
                  (broadcastInDim S1x128 ![1] bcast_S128_S1x128_1 (V (Proc.devRef Proc.tc main_arg12)))))
            (broadcastInDim S50000x128 ![] bcast_S_S50000x128
                  (constant S_ FTy.f32 0x00000000#32)))
        (V (Proc.devRef Proc.tc main_arg13)))
      (broadcastInDim S50000x64 ![0, 1] bcast_S1x64_S50000x64_0_1
        (broadcastInDim S1x64 ![1] bcast_S64_S1x64_1 (V (Proc.devRef Proc.tc main_arg14))))
set_option maxRecDepth 8192 in
theorem A10_main_v87 (V : Valuation τ sig (Elt F)) : A10 V (Proc.devRef .tc main_v87) = T_main_v87 V :=
  (s10_main_v87 (A9 V)).trans (by
    rw [A9_main_v78 V, A9_arg V main_arg11 (by decide), A9_arg V main_arg12 (by decide), A9_arg V main_arg13 (by decide), A9_arg V main_arg14 (by decide)]
    try rfl)
theorem A11_main_v87 (V : Valuation τ sig (Elt F)) : A11 V (Proc.devRef .tc main_v87) = T_main_v87 V :=
  (keep11 (A10 V) main_v87 (by decide)).trans (A10_main_v87 V)
theorem A12_main_v87 (V : Valuation τ sig (Elt F)) : A12 V (Proc.devRef .tc main_v87) = T_main_v87 V :=
  (keep12 (A11 V) main_v87 (by decide)).trans (A11_main_v87 V)
theorem A13_main_v87 (V : Valuation τ sig (Elt F)) : A13 V (Proc.devRef .tc main_v87) = T_main_v87 V :=
  (keep13 (A12 V) main_v87 (by decide)).trans (A12_main_v87 V)

/-- What the program leaves in `main_v99`. -/
def T_main_v99 (V : Valuation τ sig (Elt F)) : (Proc.devRef (τ := τ) .tc main_v99).ty.Contents (Elt F) :=
      Host.divf
      (Host.scatterAdd scatter_S256x64_S50000x1_S50000x64_1_0_0_1
        (broadcastInDim S256x64 ![] bcast_S_S256x64 (constant S_ FTy.f32 0x00000000#32))
        (broadcastInDim S50000x1 ![0] bcast_S50000_S50000x1_0 (V (Proc.devRef Proc.tc main_arg20)))
        (T_main_v87 V))
      (broadcastInDim S256x64 ![0, 1] bcast_S256x1_S256x64_0_1
        (broadcastInDim S256x1 ![0] bcast_S256_S256x1_0
          (maximumf
            (Host.scatterAdd scatter_S256_S50000x1_S50000_n_0_0_1
              (broadcastInDim S256 ![] bcast_S_S256 (constant S_ FTy.f32 0x00000000#32))
              (broadcastInDim S50000x1 ![0] bcast_S50000_S50000x1_0 (V (Proc.devRef Proc.tc main_arg20)))
              (broadcastInDim S50000 ![] bcast_S_S50000 (constant S_ FTy.f32 0x3F800000#32)))
            (broadcastInDim S256 ![] bcast_S_S256 (constant S_ FTy.f32 0x3F800000#32)))))
set_option maxRecDepth 8192 in
theorem A11_main_v99 (V : Valuation τ sig (Elt F)) : A11 V (Proc.devRef .tc main_v99) = T_main_v99 V :=
  (s11_main_v99 (A10 V)).trans (by
    rw [A10_arg V main_arg20 (by decide), A10_main_v87 V]
    try rfl)

/-- What the program leaves in `main_v100`. -/
def T_main_v100 (V : Valuation τ sig (Elt F)) : (Proc.devRef (τ := τ) .tc main_v100).ty.Contents (Elt F) :=
      concatenate S256x80 1 [⟨S256x16, V (Proc.devRef Proc.tc main_arg2)⟩, ⟨S256x64, (T_main_v99 V)⟩]
      concatenates_S256x16_S256x64_S256x80_d1
set_option maxRecDepth 8192 in
theorem A12_main_v100 (V : Valuation τ sig (Elt F)) : A12 V (Proc.devRef .tc main_v100) = T_main_v100 V :=
  (s12_main_v100 (A11 V)).trans (by
    rw [A11_arg V main_arg2 (by decide), A11_main_v99 V]
    try rfl)

/-- What the program leaves in `main_v109`. -/
def T_main_v109 (V : Valuation τ sig (Elt F)) : (Proc.devRef (τ := τ) .tc main_v109).ty.Contents (Elt F) :=
      addf
      (Host.dotGeneral dot_S256x128_S128x32_S256x32_1_0_0_1_n_n none
        (maximumf
            (addf
                (Host.dotGeneral dot_S256x80_S80x128_S256x128_1_0_0_1_n_n none (T_main_v100 V)
                  (V (Proc.devRef Proc.tc main_arg15)))
                (broadcastInDim S256x128 ![0, 1] bcast_S1x128_S256x128_0_1
                  (broadcastInDim S1x128 ![1] bcast_S128_S1x128_1 (V (Proc.devRef Proc.tc main_arg16)))))
            (broadcastInDim S256x128 ![] bcast_S_S256x128
                  (constant S_ FTy.f32 0x00000000#32)))
        (V (Proc.devRef Proc.tc main_arg17)))
      (broadcastInDim S256x32 ![0, 1] bcast_S1x32_S256x32_0_1
        (broadcastInDim S1x32 ![1] bcast_S32_S1x32_1 (V (Proc.devRef Proc.tc main_arg18))))
set_option maxRecDepth 8192 in
theorem A13_main_v109 (V : Valuation τ sig (Elt F)) : A13 V (Proc.devRef .tc main_v109) = T_main_v109 V :=
  (s13_main_v109 (A12 V)).trans (by
    rw [A12_main_v100 V, A12_arg V main_arg15 (by decide), A12_arg V main_arg16 (by decide), A12_arg V main_arg17 (by decide), A12_arg V main_arg18 (by decide)]
    try rfl)

/-! ## The three results as composed terms of the launch contents -/

set_option maxRecDepth 8192 in
/-- The node model's output as one term of the arguments' launch contents. -/
def res87 (m : (ℓ : Loc nD τ sig) → Buf (Elt F) ℓ) (c : Dev nD) : Buf (Elt F) ((c.tc : Thread nD τ).loc main_v87) :=
  addf (Host.dotGeneral dot_S50000x128_S128x64_S50000x64_1_0_0_1_n_n none (maximumf (addf (Host.dotGeneral dot_S50000x208_S208x128_S50000x128_1_0_0_1_n_n none (concatenate S50000x208 1 [⟨S50000x64, (m ((c.tc : Thread nD τ).loc main_arg0))⟩, ⟨S50000x128, (Host.divf (Host.scatterAdd scatter_S50000x128_S800000x1_S800000x128_1_0_0_1 (broadcastInDim S50000x128 ![] bcast_S_S50000x128 (constant S_ .f32 0x00000000#32)) (broadcastInDim S800000x1 ![0] bcast_S800000_S800000x1_0 (shapeCast _ (extractStridedSlice S1x800000 ![1, 0] (m ((c.tc : Thread nD τ).loc main_arg19)) slices_S2x800000_S1x800000_1_0) shapeCasts_S1x800000_S800000)) (addf (Host.dotGeneral dot_S800000x128_S128x128_S800000x128_1_0_0_1_n_n none (maximumf (addf (Host.dotGeneral dot_S800000x128_S128x128_S800000x128_1_0_0_1_n_n none (concatenate S800000x128 1 [⟨S800000x64, (Host.gather gather_S50000x64_S800000x1_S800000x64_1_0_n_n_0_1_164 (m ((c.tc : Thread nD τ).loc main_arg0)) (broadcastInDim S800000x1 ![0] bcast_S800000_S800000x1_0 (select (cmpi .slt (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 0#32))) (addi (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 50000#32))) (shapeCast _ (extractStridedSlice S1x800000 ![0, 0] (m ((c.tc : Thread nD τ).loc main_arg19)) slices_S2x800000_S1x800000_0_0) shapeCasts_S1x800000_S800000))))⟩, ⟨S800000x64, (addf (Host.dotGeneral dot_S800000x128_S128x64_S800000x64_1_0_0_1_n_n none (maximumf (addf (Host.dotGeneral dot_S800000x176_S176x128_S800000x128_1_0_0_1_n_n none (concatenate S800000x176 1 [⟨S800000x64, (Host.gather gather_S50000x64_S800000x1_S800000x64_1_0_n_n_0_1_164 (m ((c.tc : Thread nD τ).loc main_arg0)) (broadcastInDim S800000x1 ![0] bcast_S800000_S800000x1_0 (select (cmpi .slt (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 0#32))) (addi (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 50000#32))) (shapeCast _ (extractStridedSlice S1x800000 ![0, 0] (m ((c.tc : Thread nD τ).loc main_arg19)) slices_S2x800000_S1x800000_0_0) shapeCasts_S1x800000_S800000))))⟩, ⟨S800000x64, (Host.gather gather_S50000x64_S800000x1_S800000x64_1_0_n_n_0_1_164 (m ((c.tc : Thread nD τ).loc main_arg0)) (broadcastInDim S800000x1 ![0] bcast_S800000_S800000x1_0 (select (cmpi .slt (shapeCast _ (extractStridedSlice S1x800000 ![1, 0] (m ((c.tc : Thread nD τ).loc main_arg19)) slices_S2x800000_S1x800000_1_0) shapeCasts_S1x800000_S800000) (broadcastInDim S800000 ![] bcast_S_S800000 (constantI S_ 32 0#32))) (addi (shapeCast _ (extractStridedSlice S1x800000 ![1, 0] (m ((c.tc : Thread nD τ).loc main_arg19)) slices_S2x800000_S1x800000_1_0) shapeCasts_S1x800000_S800000) (broadcastInDim S800000 ![] bcast_S_S800000 (constantI S_ 32 50000#32))) (shapeCast _ (extractStridedSlice S1x800000 ![1, 0] (m ((c.tc : Thread nD τ).loc main_arg19)) slices_S2x800000_S1x800000_1_0) shapeCasts_S1x800000_S800000))))⟩, ⟨S800000x32, (m ((c.tc : Thread nD τ).loc main_arg1))⟩, ⟨S800000x16, (Host.gather gather_S256x16_S800000x1_S800000x16_1_0_n_n_0_1_116 (m ((c.tc : Thread nD τ).loc main_arg2)) (broadcastInDim S800000x1 ![0] bcast_S800000_S800000x1_0 (select (cmpi .slt (Host.gather gather_S50000_S800000x1_S800000_n_0_n_n_0_1_1 (m ((c.tc : Thread nD τ).loc main_arg20)) (broadcastInDim S800000x1 ![0] bcast_S800000_S800000x1_0 (select (cmpi .slt (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 0#32))) (addi (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 50000#32))) (shapeCast _ (extractStridedSlice S1x800000 ![0, 0] (m ((c.tc : Thread nD τ).loc main_arg19)) slices_S2x800000_S1x800000_0_0) shapeCasts_S1x800000_S800000)))) (broadcastInDim S800000 ![] bcast_S_S800000 (constantI S_ 32 0#32))) (addi (Host.gather gather_S50000_S800000x1_S800000_n_0_n_n_0_1_1 (m ((c.tc : Thread nD τ).loc main_arg20)) (broadcastInDim S800000x1 ![0] bcast_S800000_S800000x1_0 (select (cmpi .slt (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 0#32))) (addi (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 50000#32))) (shapeCast _ (extractStridedSlice S1x800000 ![0, 0] (m ((c.tc : Thread nD τ).loc main_arg19)) slices_S2x800000_S1x800000_0_0) shapeCasts_S1x800000_S800000)))) (broadcastInDim S800000 ![] bcast_S_S800000 (constantI S_ 32 256#32))) (Host.gather gather_S50000_S800000x1_S800000_n_0_n_n_0_1_1 (m ((c.tc : Thread nD τ).loc main_arg20)) (broadcastInDim S800000x1 ![0] bcast_S800000_S800000x1_0 (select (cmpi .slt (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 0#32))) (addi (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 50000#32))) (shapeCast _ (extractStridedSlice S1x800000 ![0, 0] (m ((c.tc : Thread nD τ).loc main_arg19)) slices_S2x800000_S1x800000_0_0) shapeCasts_S1x800000_S800000)))))))⟩] concatenates_S800000x64_S800000x64_S800000x32_S800000x16_S800000x176_d1) (m ((c.tc : Thread nD τ).loc main_arg3))) (broadcastInDim S800000x128 ![0, 1] bcast_S1x128_S800000x128_0_1 (broadcastInDim S1x128 ![1] bcast_S128_S1x128_1 (m ((c.tc : Thread nD τ).loc main_arg4))))) (broadcastInDim S800000x128 ![] bcast_S_S800000x128 (constant S_ .f32 0x00000000#32))) (m ((c.tc : Thread nD τ).loc main_arg5))) (broadcastInDim S800000x64 ![0, 1] bcast_S1x64_S800000x64_0_1 (broadcastInDim S1x64 ![1] bcast_S64_S1x64_1 (m ((c.tc : Thread nD τ).loc main_arg6)))))⟩] concatenates_S800000x64_S800000x64_S800000x128_d1) (m ((c.tc : Thread nD τ).loc main_arg7))) (broadcastInDim S800000x128 ![0, 1] bcast_S1x128_S800000x128_0_1 (broadcastInDim S1x128 ![1] bcast_S128_S1x128_1 (m ((c.tc : Thread nD τ).loc main_arg8))))) (broadcastInDim S800000x128 ![] bcast_S_S800000x128 (constant S_ .f32 0x00000000#32))) (m ((c.tc : Thread nD τ).loc main_arg9))) (broadcastInDim S800000x128 ![0, 1] bcast_S1x128_S800000x128_0_1 (broadcastInDim S1x128 ![1] bcast_S128_S1x128_1 (m ((c.tc : Thread nD τ).loc main_arg10)))))) (broadcastInDim S50000x128 ![0, 1] bcast_S50000x1_S50000x128_0_1 (broadcastInDim S50000x1 ![0] bcast_S50000_S50000x1_0 (maximumf (Host.scatterAdd scatter_S50000_S800000x1_S800000_n_0_0_1 (broadcastInDim S50000 ![] bcast_S_S50000 (constant S_ .f32 0x00000000#32)) (broadcastInDim S800000x1 ![0] bcast_S800000_S800000x1_0 (shapeCast _ (extractStridedSlice S1x800000 ![1, 0] (m ((c.tc : Thread nD τ).loc main_arg19)) slices_S2x800000_S1x800000_1_0) shapeCasts_S1x800000_S800000)) (broadcastInDim S800000 ![] bcast_S_S800000 (constant S_ .f32 0x3F800000#32))) (broadcastInDim S50000 ![] bcast_S_S50000 (constant S_ .f32 0x3F800000#32))))))⟩, ⟨S50000x16, (Host.gather gather_S256x16_S50000x1_S50000x16_1_0_n_n_0_1_116 (m ((c.tc : Thread nD τ).loc main_arg2)) (broadcastInDim S50000x1 ![0] bcast_S50000_S50000x1_0 (select (cmpi .slt (m ((c.tc : Thread nD τ).loc main_arg20)) (broadcastInDim S50000 ![] bcast_S_S50000 (constantI S_ 32 0#32))) (addi (m ((c.tc : Thread nD τ).loc main_arg20)) (broadcastInDim S50000 ![] bcast_S_S50000 (constantI S_ 32 256#32))) (m ((c.tc : Thread nD τ).loc main_arg20)))))⟩] concatenates_S50000x64_S50000x128_S50000x16_S50000x208_d1) (m ((c.tc : Thread nD τ).loc main_arg11))) (broadcastInDim S50000x128 ![0, 1] bcast_S1x128_S50000x128_0_1 (broadcastInDim S1x128 ![1] bcast_S128_S1x128_1 (m ((c.tc : Thread nD τ).loc main_arg12))))) (broadcastInDim S50000x128 ![] bcast_S_S50000x128 (constant S_ .f32 0x00000000#32))) (m ((c.tc : Thread nD τ).loc main_arg13))) (broadcastInDim S50000x64 ![0, 1] bcast_S1x64_S50000x64_0_1 (broadcastInDim S1x64 ![1] bcast_S64_S1x64_1 (m ((c.tc : Thread nD τ).loc main_arg14))))

set_option maxRecDepth 8192 in
/-- The edge model's output as one term of the arguments' launch contents. -/
def res41 (m : (ℓ : Loc nD τ sig) → Buf (Elt F) ℓ) (c : Dev nD) : Buf (Elt F) ((c.tc : Thread nD τ).loc main_v41) :=
  addf (Host.dotGeneral dot_S800000x128_S128x64_S800000x64_1_0_0_1_n_n none (maximumf (addf (Host.dotGeneral dot_S800000x176_S176x128_S800000x128_1_0_0_1_n_n none (concatenate S800000x176 1 [⟨S800000x64, (Host.gather gather_S50000x64_S800000x1_S800000x64_1_0_n_n_0_1_164 (m ((c.tc : Thread nD τ).loc main_arg0)) (broadcastInDim S800000x1 ![0] bcast_S800000_S800000x1_0 (select (cmpi .slt (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 0#32))) (addi (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 50000#32))) (shapeCast _ (extractStridedSlice S1x800000 ![0, 0] (m ((c.tc : Thread nD τ).loc main_arg19)) slices_S2x800000_S1x800000_0_0) shapeCasts_S1x800000_S800000))))⟩, ⟨S800000x64, (Host.gather gather_S50000x64_S800000x1_S800000x64_1_0_n_n_0_1_164 (m ((c.tc : Thread nD τ).loc main_arg0)) (broadcastInDim S800000x1 ![0] bcast_S800000_S800000x1_0 (select (cmpi .slt (shapeCast _ (extractStridedSlice S1x800000 ![1, 0] (m ((c.tc : Thread nD τ).loc main_arg19)) slices_S2x800000_S1x800000_1_0) shapeCasts_S1x800000_S800000) (broadcastInDim S800000 ![] bcast_S_S800000 (constantI S_ 32 0#32))) (addi (shapeCast _ (extractStridedSlice S1x800000 ![1, 0] (m ((c.tc : Thread nD τ).loc main_arg19)) slices_S2x800000_S1x800000_1_0) shapeCasts_S1x800000_S800000) (broadcastInDim S800000 ![] bcast_S_S800000 (constantI S_ 32 50000#32))) (shapeCast _ (extractStridedSlice S1x800000 ![1, 0] (m ((c.tc : Thread nD τ).loc main_arg19)) slices_S2x800000_S1x800000_1_0) shapeCasts_S1x800000_S800000))))⟩, ⟨S800000x32, (m ((c.tc : Thread nD τ).loc main_arg1))⟩, ⟨S800000x16, (Host.gather gather_S256x16_S800000x1_S800000x16_1_0_n_n_0_1_116 (m ((c.tc : Thread nD τ).loc main_arg2)) (broadcastInDim S800000x1 ![0] bcast_S800000_S800000x1_0 (select (cmpi .slt (Host.gather gather_S50000_S800000x1_S800000_n_0_n_n_0_1_1 (m ((c.tc : Thread nD τ).loc main_arg20)) (broadcastInDim S800000x1 ![0] bcast_S800000_S800000x1_0 (select (cmpi .slt (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 0#32))) (addi (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 50000#32))) (shapeCast _ (extractStridedSlice S1x800000 ![0, 0] (m ((c.tc : Thread nD τ).loc main_arg19)) slices_S2x800000_S1x800000_0_0) shapeCasts_S1x800000_S800000)))) (broadcastInDim S800000 ![] bcast_S_S800000 (constantI S_ 32 0#32))) (addi (Host.gather gather_S50000_S800000x1_S800000_n_0_n_n_0_1_1 (m ((c.tc : Thread nD τ).loc main_arg20)) (broadcastInDim S800000x1 ![0] bcast_S800000_S800000x1_0 (select (cmpi .slt (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 0#32))) (addi (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 50000#32))) (shapeCast _ (extractStridedSlice S1x800000 ![0, 0] (m ((c.tc : Thread nD τ).loc main_arg19)) slices_S2x800000_S1x800000_0_0) shapeCasts_S1x800000_S800000)))) (broadcastInDim S800000 ![] bcast_S_S800000 (constantI S_ 32 256#32))) (Host.gather gather_S50000_S800000x1_S800000_n_0_n_n_0_1_1 (m ((c.tc : Thread nD τ).loc main_arg20)) (broadcastInDim S800000x1 ![0] bcast_S800000_S800000x1_0 (select (cmpi .slt (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 0#32))) (addi (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 50000#32))) (shapeCast _ (extractStridedSlice S1x800000 ![0, 0] (m ((c.tc : Thread nD τ).loc main_arg19)) slices_S2x800000_S1x800000_0_0) shapeCasts_S1x800000_S800000)))))))⟩] concatenates_S800000x64_S800000x64_S800000x32_S800000x16_S800000x176_d1) (m ((c.tc : Thread nD τ).loc main_arg3))) (broadcastInDim S800000x128 ![0, 1] bcast_S1x128_S800000x128_0_1 (broadcastInDim S1x128 ![1] bcast_S128_S1x128_1 (m ((c.tc : Thread nD τ).loc main_arg4))))) (broadcastInDim S800000x128 ![] bcast_S_S800000x128 (constant S_ .f32 0x00000000#32))) (m ((c.tc : Thread nD τ).loc main_arg5))) (broadcastInDim S800000x64 ![0, 1] bcast_S1x64_S800000x64_0_1 (broadcastInDim S1x64 ![1] bcast_S64_S1x64_1 (m ((c.tc : Thread nD τ).loc main_arg6))))

set_option maxRecDepth 8192 in
/-- The global model's output as one term of the arguments' launch contents. -/
def res109 (m : (ℓ : Loc nD τ sig) → Buf (Elt F) ℓ) (c : Dev nD) : Buf (Elt F) ((c.tc : Thread nD τ).loc main_v109) :=
  addf (Host.dotGeneral dot_S256x128_S128x32_S256x32_1_0_0_1_n_n none (maximumf (addf (Host.dotGeneral dot_S256x80_S80x128_S256x128_1_0_0_1_n_n none (concatenate S256x80 1 [⟨S256x16, (m ((c.tc : Thread nD τ).loc main_arg2))⟩, ⟨S256x64, (Host.divf (Host.scatterAdd scatter_S256x64_S50000x1_S50000x64_1_0_0_1 (broadcastInDim S256x64 ![] bcast_S_S256x64 (constant S_ .f32 0x00000000#32)) (broadcastInDim S50000x1 ![0] bcast_S50000_S50000x1_0 (m ((c.tc : Thread nD τ).loc main_arg20))) (addf (Host.dotGeneral dot_S50000x128_S128x64_S50000x64_1_0_0_1_n_n none (maximumf (addf (Host.dotGeneral dot_S50000x208_S208x128_S50000x128_1_0_0_1_n_n none (concatenate S50000x208 1 [⟨S50000x64, (m ((c.tc : Thread nD τ).loc main_arg0))⟩, ⟨S50000x128, (Host.divf (Host.scatterAdd scatter_S50000x128_S800000x1_S800000x128_1_0_0_1 (broadcastInDim S50000x128 ![] bcast_S_S50000x128 (constant S_ .f32 0x00000000#32)) (broadcastInDim S800000x1 ![0] bcast_S800000_S800000x1_0 (shapeCast _ (extractStridedSlice S1x800000 ![1, 0] (m ((c.tc : Thread nD τ).loc main_arg19)) slices_S2x800000_S1x800000_1_0) shapeCasts_S1x800000_S800000)) (addf (Host.dotGeneral dot_S800000x128_S128x128_S800000x128_1_0_0_1_n_n none (maximumf (addf (Host.dotGeneral dot_S800000x128_S128x128_S800000x128_1_0_0_1_n_n none (concatenate S800000x128 1 [⟨S800000x64, (Host.gather gather_S50000x64_S800000x1_S800000x64_1_0_n_n_0_1_164 (m ((c.tc : Thread nD τ).loc main_arg0)) (broadcastInDim S800000x1 ![0] bcast_S800000_S800000x1_0 (select (cmpi .slt (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 0#32))) (addi (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 50000#32))) (shapeCast _ (extractStridedSlice S1x800000 ![0, 0] (m ((c.tc : Thread nD τ).loc main_arg19)) slices_S2x800000_S1x800000_0_0) shapeCasts_S1x800000_S800000))))⟩, ⟨S800000x64, (addf (Host.dotGeneral dot_S800000x128_S128x64_S800000x64_1_0_0_1_n_n none (maximumf (addf (Host.dotGeneral dot_S800000x176_S176x128_S800000x128_1_0_0_1_n_n none (concatenate S800000x176 1 [⟨S800000x64, (Host.gather gather_S50000x64_S800000x1_S800000x64_1_0_n_n_0_1_164 (m ((c.tc : Thread nD τ).loc main_arg0)) (broadcastInDim S800000x1 ![0] bcast_S800000_S800000x1_0 (select (cmpi .slt (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 0#32))) (addi (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 50000#32))) (shapeCast _ (extractStridedSlice S1x800000 ![0, 0] (m ((c.tc : Thread nD τ).loc main_arg19)) slices_S2x800000_S1x800000_0_0) shapeCasts_S1x800000_S800000))))⟩, ⟨S800000x64, (Host.gather gather_S50000x64_S800000x1_S800000x64_1_0_n_n_0_1_164 (m ((c.tc : Thread nD τ).loc main_arg0)) (broadcastInDim S800000x1 ![0] bcast_S800000_S800000x1_0 (select (cmpi .slt (shapeCast _ (extractStridedSlice S1x800000 ![1, 0] (m ((c.tc : Thread nD τ).loc main_arg19)) slices_S2x800000_S1x800000_1_0) shapeCasts_S1x800000_S800000) (broadcastInDim S800000 ![] bcast_S_S800000 (constantI S_ 32 0#32))) (addi (shapeCast _ (extractStridedSlice S1x800000 ![1, 0] (m ((c.tc : Thread nD τ).loc main_arg19)) slices_S2x800000_S1x800000_1_0) shapeCasts_S1x800000_S800000) (broadcastInDim S800000 ![] bcast_S_S800000 (constantI S_ 32 50000#32))) (shapeCast _ (extractStridedSlice S1x800000 ![1, 0] (m ((c.tc : Thread nD τ).loc main_arg19)) slices_S2x800000_S1x800000_1_0) shapeCasts_S1x800000_S800000))))⟩, ⟨S800000x32, (m ((c.tc : Thread nD τ).loc main_arg1))⟩, ⟨S800000x16, (Host.gather gather_S256x16_S800000x1_S800000x16_1_0_n_n_0_1_116 (m ((c.tc : Thread nD τ).loc main_arg2)) (broadcastInDim S800000x1 ![0] bcast_S800000_S800000x1_0 (select (cmpi .slt (Host.gather gather_S50000_S800000x1_S800000_n_0_n_n_0_1_1 (m ((c.tc : Thread nD τ).loc main_arg20)) (broadcastInDim S800000x1 ![0] bcast_S800000_S800000x1_0 (select (cmpi .slt (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 0#32))) (addi (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 50000#32))) (shapeCast _ (extractStridedSlice S1x800000 ![0, 0] (m ((c.tc : Thread nD τ).loc main_arg19)) slices_S2x800000_S1x800000_0_0) shapeCasts_S1x800000_S800000)))) (broadcastInDim S800000 ![] bcast_S_S800000 (constantI S_ 32 0#32))) (addi (Host.gather gather_S50000_S800000x1_S800000_n_0_n_n_0_1_1 (m ((c.tc : Thread nD τ).loc main_arg20)) (broadcastInDim S800000x1 ![0] bcast_S800000_S800000x1_0 (select (cmpi .slt (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 0#32))) (addi (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 50000#32))) (shapeCast _ (extractStridedSlice S1x800000 ![0, 0] (m ((c.tc : Thread nD τ).loc main_arg19)) slices_S2x800000_S1x800000_0_0) shapeCasts_S1x800000_S800000)))) (broadcastInDim S800000 ![] bcast_S_S800000 (constantI S_ 32 256#32))) (Host.gather gather_S50000_S800000x1_S800000_n_0_n_n_0_1_1 (m ((c.tc : Thread nD τ).loc main_arg20)) (broadcastInDim S800000x1 ![0] bcast_S800000_S800000x1_0 (select (cmpi .slt (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 0#32))) (addi (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 50000#32))) (shapeCast _ (extractStridedSlice S1x800000 ![0, 0] (m ((c.tc : Thread nD τ).loc main_arg19)) slices_S2x800000_S1x800000_0_0) shapeCasts_S1x800000_S800000)))))))⟩] concatenates_S800000x64_S800000x64_S800000x32_S800000x16_S800000x176_d1) (m ((c.tc : Thread nD τ).loc main_arg3))) (broadcastInDim S800000x128 ![0, 1] bcast_S1x128_S800000x128_0_1 (broadcastInDim S1x128 ![1] bcast_S128_S1x128_1 (m ((c.tc : Thread nD τ).loc main_arg4))))) (broadcastInDim S800000x128 ![] bcast_S_S800000x128 (constant S_ .f32 0x00000000#32))) (m ((c.tc : Thread nD τ).loc main_arg5))) (broadcastInDim S800000x64 ![0, 1] bcast_S1x64_S800000x64_0_1 (broadcastInDim S1x64 ![1] bcast_S64_S1x64_1 (m ((c.tc : Thread nD τ).loc main_arg6)))))⟩] concatenates_S800000x64_S800000x64_S800000x128_d1) (m ((c.tc : Thread nD τ).loc main_arg7))) (broadcastInDim S800000x128 ![0, 1] bcast_S1x128_S800000x128_0_1 (broadcastInDim S1x128 ![1] bcast_S128_S1x128_1 (m ((c.tc : Thread nD τ).loc main_arg8))))) (broadcastInDim S800000x128 ![] bcast_S_S800000x128 (constant S_ .f32 0x00000000#32))) (m ((c.tc : Thread nD τ).loc main_arg9))) (broadcastInDim S800000x128 ![0, 1] bcast_S1x128_S800000x128_0_1 (broadcastInDim S1x128 ![1] bcast_S128_S1x128_1 (m ((c.tc : Thread nD τ).loc main_arg10)))))) (broadcastInDim S50000x128 ![0, 1] bcast_S50000x1_S50000x128_0_1 (broadcastInDim S50000x1 ![0] bcast_S50000_S50000x1_0 (maximumf (Host.scatterAdd scatter_S50000_S800000x1_S800000_n_0_0_1 (broadcastInDim S50000 ![] bcast_S_S50000 (constant S_ .f32 0x00000000#32)) (broadcastInDim S800000x1 ![0] bcast_S800000_S800000x1_0 (shapeCast _ (extractStridedSlice S1x800000 ![1, 0] (m ((c.tc : Thread nD τ).loc main_arg19)) slices_S2x800000_S1x800000_1_0) shapeCasts_S1x800000_S800000)) (broadcastInDim S800000 ![] bcast_S_S800000 (constant S_ .f32 0x3F800000#32))) (broadcastInDim S50000 ![] bcast_S_S50000 (constant S_ .f32 0x3F800000#32))))))⟩, ⟨S50000x16, (Host.gather gather_S256x16_S50000x1_S50000x16_1_0_n_n_0_1_116 (m ((c.tc : Thread nD τ).loc main_arg2)) (broadcastInDim S50000x1 ![0] bcast_S50000_S50000x1_0 (select (cmpi .slt (m ((c.tc : Thread nD τ).loc main_arg20)) (broadcastInDim S50000 ![] bcast_S_S50000 (constantI S_ 32 0#32))) (addi (m ((c.tc : Thread nD τ).loc main_arg20)) (broadcastInDim S50000 ![] bcast_S_S50000 (constantI S_ 32 256#32))) (m ((c.tc : Thread nD τ).loc main_arg20)))))⟩] concatenates_S50000x64_S50000x128_S50000x16_S50000x208_d1) (m ((c.tc : Thread nD τ).loc main_arg11))) (broadcastInDim S50000x128 ![0, 1] bcast_S1x128_S50000x128_0_1 (broadcastInDim S1x128 ![1] bcast_S128_S1x128_1 (m ((c.tc : Thread nD τ).loc main_arg12))))) (broadcastInDim S50000x128 ![] bcast_S_S50000x128 (constant S_ .f32 0x00000000#32))) (m ((c.tc : Thread nD τ).loc main_arg13))) (broadcastInDim S50000x64 ![0, 1] bcast_S1x64_S50000x64_0_1 (broadcastInDim S1x64 ![1] bcast_S64_S1x64_1 (m ((c.tc : Thread nD τ).loc main_arg14)))))) (broadcastInDim S256x64 ![0, 1] bcast_S256x1_S256x64_0_1 (broadcastInDim S256x1 ![0] bcast_S256_S256x1_0 (maximumf (Host.scatterAdd scatter_S256_S50000x1_S50000_n_0_0_1 (broadcastInDim S256 ![] bcast_S_S256 (constant S_ .f32 0x00000000#32)) (broadcastInDim S50000x1 ![0] bcast_S50000_S50000x1_0 (m ((c.tc : Thread nD τ).loc main_arg20))) (broadcastInDim S50000 ![] bcast_S_S50000 (constant S_ .f32 0x3F800000#32))) (broadcastInDim S256 ![] bcast_S_S256 (constant S_ .f32 0x3F800000#32))))))⟩] concatenates_S256x16_S256x64_S256x80_d1) (m ((c.tc : Thread nD τ).loc main_arg15))) (broadcastInDim S256x128 ![0, 1] bcast_S1x128_S256x128_0_1 (broadcastInDim S1x128 ![1] bcast_S128_S1x128_1 (m ((c.tc : Thread nD τ).loc main_arg16))))) (broadcastInDim S256x128 ![] bcast_S_S256x128 (constant S_ .f32 0x00000000#32))) (m ((c.tc : Thread nD τ).loc main_arg17))) (broadcastInDim S256x32 ![0, 1] bcast_S1x32_S256x32_0_1 (broadcastInDim S1x32 ![1] bcast_S32_S1x32_1 (m ((c.tc : Thread nD τ).loc main_arg18))))

set_option maxRecDepth 16384 in
set_option maxHeartbeats 4000000 in
/-- The fold at `main_v87` is that term: the stretches' composed term, which is the same term written out. -/
theorem res87_eq (m : (ℓ : Loc nD τ sig) → Buf (Elt F) ℓ) (c : Dev nD) :
    after ops (launchContents m c) (Proc.devRef .tc main_v87) = res87 m c :=
  (congrFun (after_ops _) _).trans ((A13_main_v87 _).trans (by unfold res87; rfl))

set_option maxRecDepth 16384 in
set_option maxHeartbeats 4000000 in
/-- The fold at `main_v41` is that term: the stretches' composed term, which is the same term written out. -/
theorem res41_eq (m : (ℓ : Loc nD τ sig) → Buf (Elt F) ℓ) (c : Dev nD) :
    after ops (launchContents m c) (Proc.devRef .tc main_v41) = res41 m c :=
  (congrFun (after_ops _) _).trans ((A13_main_v41 _).trans (by unfold res41; rfl))

set_option maxRecDepth 16384 in
set_option maxHeartbeats 4000000 in
/-- The fold at `main_v109` is that term: the stretches' composed term, which is the same term written out. -/
theorem res109_eq (m : (ℓ : Loc nD τ sig) → Buf (Elt F) ℓ) (c : Dev nD) :
    after ops (launchContents m c) (Proc.devRef .tc main_v109) = res109 m c :=
  (congrFun (after_ops _) _).trans ((A13_main_v109 _).trans (by unfold res109; rfl))

/-! ## The run -/

set_option maxRecDepth 8192 in
set_option maxHeartbeats 4000000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v87) = res87 m c
      ∧ r.2.mem ((c.tc : Thread nD τ).loc main_v41) = res41 m c
      ∧ r.2.mem ((c.tc : Thread nD τ).loc main_v109) = res109 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨(h c main_v87).trans (res87_eq m c),
      (h c main_v41).trans (res41_eq m c),
      (h c main_v109).trans (res109_eq m c),
      (h c main_arg0).trans (ops_keep _ main_arg0 (by decide)),
      (h c main_arg1).trans (ops_keep _ main_arg1 (by decide)),
      (h c main_arg2).trans (ops_keep _ main_arg2 (by decide)),
      (h c main_arg3).trans (ops_keep _ main_arg3 (by decide)),
      (h c main_arg4).trans (ops_keep _ main_arg4 (by decide)),
      (h c main_arg5).trans (ops_keep _ main_arg5 (by decide)),
      (h c main_arg6).trans (ops_keep _ main_arg6 (by decide)),
      (h c main_arg7).trans (ops_keep _ main_arg7 (by decide)),
      (h c main_arg8).trans (ops_keep _ main_arg8 (by decide)),
      (h c main_arg9).trans (ops_keep _ main_arg9 (by decide)),
      (h c main_arg10).trans (ops_keep _ main_arg10 (by decide)),
      (h c main_arg11).trans (ops_keep _ main_arg11 (by decide)),
      (h c main_arg12).trans (ops_keep _ main_arg12 (by decide)),
      (h c main_arg13).trans (ops_keep _ main_arg13 (by decide)),
      (h c main_arg14).trans (ops_keep _ main_arg14 (by decide)),
      (h c main_arg15).trans (ops_keep _ main_arg15 (by decide)),
      (h c main_arg16).trans (ops_keep _ main_arg16 (by decide)),
      (h c main_arg17).trans (ops_keep _ main_arg17 (by decide)),
      (h c main_arg18).trans (ops_keep _ main_arg18 (by decide)),
      (h c main_arg19).trans (ops_keep _ main_arg19 (by decide)),
      (h c main_arg20).trans (ops_keep _ main_arg20 (by decide))⟩)
    (run_seq scopedRefs_eq scopedSems_eq defs main (fun _ => ops) main_eq (fun _ => ops_sub) m ρ
      (fun _ => List.forall_iff_forall_mem.mp ops_fresh))

end Cert.ReferenceIdeal.HandRun

end
-- ==== Proof.RefTerms.lean ====
/-
  The reference's three results as terms of its arguments: the new node features, the new edge features and the new
  graph features, each the composition of the reference's host operations — gathers of sender, receiver and graph rows,
  the four perceptrons over inputs laid side by side, and the two segment means (a scatter-add of the rows divided by
  the scatter-add of ones, the count floored at one).
-/
import proofs.«158231_j85143431676130_1_alg».proof.Proof.Gen.ReferenceIdeal

noncomputable section

namespace Cert.ReferenceIdeal.Terms

open Cert.ReferenceIdeal Cert.ReferenceIdeal.Gen Idealize.ShloMosaic Idealize.ShloMosaic.TcCoe Idealize.SL.Sem

variable {F : FTy → Type} [FloatOps F]

set_option maxRecDepth 8192 in
/-- The new node features. -/
def nodes (m : (ℓ : Loc nD τ sig) → Buf (Elt F) ℓ) (c : Dev nD) : Buf (Elt F) ((c.tc : Thread nD τ).loc main_v87) :=
  addf (Host.dotGeneral dot_S50000x128_S128x64_S50000x64_1_0_0_1_n_n none (maximumf (addf (Host.dotGeneral dot_S50000x208_S208x128_S50000x128_1_0_0_1_n_n none (concatenate S50000x208 1 [⟨S50000x64, (m ((c.tc : Thread nD τ).loc main_arg0))⟩, ⟨S50000x128, (Host.divf (Host.scatterAdd scatter_S50000x128_S800000x1_S800000x128_1_0_0_1 (broadcastInDim S50000x128 ![] bcast_S_S50000x128 (constant S_ .f32 0x00000000#32)) (broadcastInDim S800000x1 ![0] bcast_S800000_S800000x1_0 (shapeCast _ (extractStridedSlice S1x800000 ![1, 0] (m ((c.tc : Thread nD τ).loc main_arg19)) slices_S2x800000_S1x800000_1_0) shapeCasts_S1x800000_S800000)) (addf (Host.dotGeneral dot_S800000x128_S128x128_S800000x128_1_0_0_1_n_n none (maximumf (addf (Host.dotGeneral dot_S800000x128_S128x128_S800000x128_1_0_0_1_n_n none (concatenate S800000x128 1 [⟨S800000x64, (Host.gather gather_S50000x64_S800000x1_S800000x64_1_0_n_n_0_1_164 (m ((c.tc : Thread nD τ).loc main_arg0)) (broadcastInDim S800000x1 ![0] bcast_S800000_S800000x1_0 (select (cmpi .slt (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 0#32))) (addi (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 50000#32))) (shapeCast _ (extractStridedSlice S1x800000 ![0, 0] (m ((c.tc : Thread nD τ).loc main_arg19)) slices_S2x800000_S1x800000_0_0) shapeCasts_S1x800000_S800000))))⟩, ⟨S800000x64, (addf (Host.dotGeneral dot_S800000x128_S128x64_S800000x64_1_0_0_1_n_n none (maximumf (addf (Host.dotGeneral dot_S800000x176_S176x128_S800000x128_1_0_0_1_n_n none (concatenate S800000x176 1 [⟨S800000x64, (Host.gather gather_S50000x64_S800000x1_S800000x64_1_0_n_n_0_1_164 (m ((c.tc : Thread nD τ).loc main_arg0)) (broadcastInDim S800000x1 ![0] bcast_S800000_S800000x1_0 (select (cmpi .slt (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 0#32))) (addi (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 50000#32))) (shapeCast _ (extractStridedSlice S1x800000 ![0, 0] (m ((c.tc : Thread nD τ).loc main_arg19)) slices_S2x800000_S1x800000_0_0) shapeCasts_S1x800000_S800000))))⟩, ⟨S800000x64, (Host.gather gather_S50000x64_S800000x1_S800000x64_1_0_n_n_0_1_164 (m ((c.tc : Thread nD τ).loc main_arg0)) (broadcastInDim S800000x1 ![0] bcast_S800000_S800000x1_0 (select (cmpi .slt (shapeCast _ (extractStridedSlice S1x800000 ![1, 0] (m ((c.tc : Thread nD τ).loc main_arg19)) slices_S2x800000_S1x800000_1_0) shapeCasts_S1x800000_S800000) (broadcastInDim S800000 ![] bcast_S_S800000 (constantI S_ 32 0#32))) (addi (shapeCast _ (extractStridedSlice S1x800000 ![1, 0] (m ((c.tc : Thread nD τ).loc main_arg19)) slices_S2x800000_S1x800000_1_0) shapeCasts_S1x800000_S800000) (broadcastInDim S800000 ![] bcast_S_S800000 (constantI S_ 32 50000#32))) (shapeCast _ (extractStridedSlice S1x800000 ![1, 0] (m ((c.tc : Thread nD τ).loc main_arg19)) slices_S2x800000_S1x800000_1_0) shapeCasts_S1x800000_S800000))))⟩, ⟨S800000x32, (m ((c.tc : Thread nD τ).loc main_arg1))⟩, ⟨S800000x16, (Host.gather gather_S256x16_S800000x1_S800000x16_1_0_n_n_0_1_116 (m ((c.tc : Thread nD τ).loc main_arg2)) (broadcastInDim S800000x1 ![0] bcast_S800000_S800000x1_0 (select (cmpi .slt (Host.gather gather_S50000_S800000x1_S800000_n_0_n_n_0_1_1 (m ((c.tc : Thread nD τ).loc main_arg20)) (broadcastInDim S800000x1 ![0] bcast_S800000_S800000x1_0 (select (cmpi .slt (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 0#32))) (addi (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 50000#32))) (shapeCast _ (extractStridedSlice S1x800000 ![0, 0] (m ((c.tc : Thread nD τ).loc main_arg19)) slices_S2x800000_S1x800000_0_0) shapeCasts_S1x800000_S800000)))) (broadcastInDim S800000 ![] bcast_S_S800000 (constantI S_ 32 0#32))) (addi (Host.gather gather_S50000_S800000x1_S800000_n_0_n_n_0_1_1 (m ((c.tc : Thread nD τ).loc main_arg20)) (broadcastInDim S800000x1 ![0] bcast_S800000_S800000x1_0 (select (cmpi .slt (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 0#32))) (addi (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 50000#32))) (shapeCast _ (extractStridedSlice S1x800000 ![0, 0] (m ((c.tc : Thread nD τ).loc main_arg19)) slices_S2x800000_S1x800000_0_0) shapeCasts_S1x800000_S800000)))) (broadcastInDim S800000 ![] bcast_S_S800000 (constantI S_ 32 256#32))) (Host.gather gather_S50000_S800000x1_S800000_n_0_n_n_0_1_1 (m ((c.tc : Thread nD τ).loc main_arg20)) (broadcastInDim S800000x1 ![0] bcast_S800000_S800000x1_0 (select (cmpi .slt (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 0#32))) (addi (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 50000#32))) (shapeCast _ (extractStridedSlice S1x800000 ![0, 0] (m ((c.tc : Thread nD τ).loc main_arg19)) slices_S2x800000_S1x800000_0_0) shapeCasts_S1x800000_S800000)))))))⟩] concatenates_S800000x64_S800000x64_S800000x32_S800000x16_S800000x176_d1) (m ((c.tc : Thread nD τ).loc main_arg3))) (broadcastInDim S800000x128 ![0, 1] bcast_S1x128_S800000x128_0_1 (broadcastInDim S1x128 ![1] bcast_S128_S1x128_1 (m ((c.tc : Thread nD τ).loc main_arg4))))) (broadcastInDim S800000x128 ![] bcast_S_S800000x128 (constant S_ .f32 0x00000000#32))) (m ((c.tc : Thread nD τ).loc main_arg5))) (broadcastInDim S800000x64 ![0, 1] bcast_S1x64_S800000x64_0_1 (broadcastInDim S1x64 ![1] bcast_S64_S1x64_1 (m ((c.tc : Thread nD τ).loc main_arg6)))))⟩] concatenates_S800000x64_S800000x64_S800000x128_d1) (m ((c.tc : Thread nD τ).loc main_arg7))) (broadcastInDim S800000x128 ![0, 1] bcast_S1x128_S800000x128_0_1 (broadcastInDim S1x128 ![1] bcast_S128_S1x128_1 (m ((c.tc : Thread nD τ).loc main_arg8))))) (broadcastInDim S800000x128 ![] bcast_S_S800000x128 (constant S_ .f32 0x00000000#32))) (m ((c.tc : Thread nD τ).loc main_arg9))) (broadcastInDim S800000x128 ![0, 1] bcast_S1x128_S800000x128_0_1 (broadcastInDim S1x128 ![1] bcast_S128_S1x128_1 (m ((c.tc : Thread nD τ).loc main_arg10)))))) (broadcastInDim S50000x128 ![0, 1] bcast_S50000x1_S50000x128_0_1 (broadcastInDim S50000x1 ![0] bcast_S50000_S50000x1_0 (maximumf (Host.scatterAdd scatter_S50000_S800000x1_S800000_n_0_0_1 (broadcastInDim S50000 ![] bcast_S_S50000 (constant S_ .f32 0x00000000#32)) (broadcastInDim S800000x1 ![0] bcast_S800000_S800000x1_0 (shapeCast _ (extractStridedSlice S1x800000 ![1, 0] (m ((c.tc : Thread nD τ).loc main_arg19)) slices_S2x800000_S1x800000_1_0) shapeCasts_S1x800000_S800000)) (broadcastInDim S800000 ![] bcast_S_S800000 (constant S_ .f32 0x3F800000#32))) (broadcastInDim S50000 ![] bcast_S_S50000 (constant S_ .f32 0x3F800000#32))))))⟩, ⟨S50000x16, (Host.gather gather_S256x16_S50000x1_S50000x16_1_0_n_n_0_1_116 (m ((c.tc : Thread nD τ).loc main_arg2)) (broadcastInDim S50000x1 ![0] bcast_S50000_S50000x1_0 (select (cmpi .slt (m ((c.tc : Thread nD τ).loc main_arg20)) (broadcastInDim S50000 ![] bcast_S_S50000 (constantI S_ 32 0#32))) (addi (m ((c.tc : Thread nD τ).loc main_arg20)) (broadcastInDim S50000 ![] bcast_S_S50000 (constantI S_ 32 256#32))) (m ((c.tc : Thread nD τ).loc main_arg20)))))⟩] concatenates_S50000x64_S50000x128_S50000x16_S50000x208_d1) (m ((c.tc : Thread nD τ).loc main_arg11))) (broadcastInDim S50000x128 ![0, 1] bcast_S1x128_S50000x128_0_1 (broadcastInDim S1x128 ![1] bcast_S128_S1x128_1 (m ((c.tc : Thread nD τ).loc main_arg12))))) (broadcastInDim S50000x128 ![] bcast_S_S50000x128 (constant S_ .f32 0x00000000#32))) (m ((c.tc : Thread nD τ).loc main_arg13))) (broadcastInDim S50000x64 ![0, 1] bcast_S1x64_S50000x64_0_1 (broadcastInDim S1x64 ![1] bcast_S64_S1x64_1 (m ((c.tc : Thread nD τ).loc main_arg14))))

set_option maxRecDepth 8192 in
/-- The new edge features. -/
def edges (m : (ℓ : Loc nD τ sig) → Buf (Elt F) ℓ) (c : Dev nD) : Buf (Elt F) ((c.tc : Thread nD τ).loc main_v41) :=
  addf (Host.dotGeneral dot_S800000x128_S128x64_S800000x64_1_0_0_1_n_n none (maximumf (addf (Host.dotGeneral dot_S800000x176_S176x128_S800000x128_1_0_0_1_n_n none (concatenate S800000x176 1 [⟨S800000x64, (Host.gather gather_S50000x64_S800000x1_S800000x64_1_0_n_n_0_1_164 (m ((c.tc : Thread nD τ).loc main_arg0)) (broadcastInDim S800000x1 ![0] bcast_S800000_S800000x1_0 (select (cmpi .slt (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 0#32))) (addi (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 50000#32))) (shapeCast _ (extractStridedSlice S1x800000 ![0, 0] (m ((c.tc : Thread nD τ).loc main_arg19)) slices_S2x800000_S1x800000_0_0) shapeCasts_S1x800000_S800000))))⟩, ⟨S800000x64, (Host.gather gather_S50000x64_S800000x1_S800000x64_1_0_n_n_0_1_164 (m ((c.tc : Thread nD τ).loc main_arg0)) (broadcastInDim S800000x1 ![0] bcast_S800000_S800000x1_0 (select (cmpi .slt (shapeCast _ (extractStridedSlice S1x800000 ![1, 0] (m ((c.tc : Thread nD τ).loc main_arg19)) slices_S2x800000_S1x800000_1_0) shapeCasts_S1x800000_S800000) (broadcastInDim S800000 ![] bcast_S_S800000 (constantI S_ 32 0#32))) (addi (shapeCast _ (extractStridedSlice S1x800000 ![1, 0] (m ((c.tc : Thread nD τ).loc main_arg19)) slices_S2x800000_S1x800000_1_0) shapeCasts_S1x800000_S800000) (broadcastInDim S800000 ![] bcast_S_S800000 (constantI S_ 32 50000#32))) (shapeCast _ (extractStridedSlice S1x800000 ![1, 0] (m ((c.tc : Thread nD τ).loc main_arg19)) slices_S2x800000_S1x800000_1_0) shapeCasts_S1x800000_S800000))))⟩, ⟨S800000x32, (m ((c.tc : Thread nD τ).loc main_arg1))⟩, ⟨S800000x16, (Host.gather gather_S256x16_S800000x1_S800000x16_1_0_n_n_0_1_116 (m ((c.tc : Thread nD τ).loc main_arg2)) (broadcastInDim S800000x1 ![0] bcast_S800000_S800000x1_0 (select (cmpi .slt (Host.gather gather_S50000_S800000x1_S800000_n_0_n_n_0_1_1 (m ((c.tc : Thread nD τ).loc main_arg20)) (broadcastInDim S800000x1 ![0] bcast_S800000_S800000x1_0 (select (cmpi .slt (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 0#32))) (addi (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 50000#32))) (shapeCast _ (extractStridedSlice S1x800000 ![0, 0] (m ((c.tc : Thread nD τ).loc main_arg19)) slices_S2x800000_S1x800000_0_0) shapeCasts_S1x800000_S800000)))) (broadcastInDim S800000 ![] bcast_S_S800000 (constantI S_ 32 0#32))) (addi (Host.gather gather_S50000_S800000x1_S800000_n_0_n_n_0_1_1 (m ((c.tc : Thread nD τ).loc main_arg20)) (broadcastInDim S800000x1 ![0] bcast_S800000_S800000x1_0 (select (cmpi .slt (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 0#32))) (addi (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 50000#32))) (shapeCast _ (extractStridedSlice S1x800000 ![0, 0] (m ((c.tc : Thread nD τ).loc main_arg19)) slices_S2x800000_S1x800000_0_0) shapeCasts_S1x800000_S800000)))) (broadcastInDim S800000 ![] bcast_S_S800000 (constantI S_ 32 256#32))) (Host.gather gather_S50000_S800000x1_S800000_n_0_n_n_0_1_1 (m ((c.tc : Thread nD τ).loc main_arg20)) (broadcastInDim S800000x1 ![0] bcast_S800000_S800000x1_0 (select (cmpi .slt (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 0#32))) (addi (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 50000#32))) (shapeCast _ (extractStridedSlice S1x800000 ![0, 0] (m ((c.tc : Thread nD τ).loc main_arg19)) slices_S2x800000_S1x800000_0_0) shapeCasts_S1x800000_S800000)))))))⟩] concatenates_S800000x64_S800000x64_S800000x32_S800000x16_S800000x176_d1) (m ((c.tc : Thread nD τ).loc main_arg3))) (broadcastInDim S800000x128 ![0, 1] bcast_S1x128_S800000x128_0_1 (broadcastInDim S1x128 ![1] bcast_S128_S1x128_1 (m ((c.tc : Thread nD τ).loc main_arg4))))) (broadcastInDim S800000x128 ![] bcast_S_S800000x128 (constant S_ .f32 0x00000000#32))) (m ((c.tc : Thread nD τ).loc main_arg5))) (broadcastInDim S800000x64 ![0, 1] bcast_S1x64_S800000x64_0_1 (broadcastInDim S1x64 ![1] bcast_S64_S1x64_1 (m ((c.tc : Thread nD τ).loc main_arg6))))

set_option maxRecDepth 8192 in
/-- The new graph features. -/
def graphs (m : (ℓ : Loc nD τ sig) → Buf (Elt F) ℓ) (c : Dev nD) : Buf (Elt F) ((c.tc : Thread nD τ).loc main_v109) :=
  addf (Host.dotGeneral dot_S256x128_S128x32_S256x32_1_0_0_1_n_n none (maximumf (addf (Host.dotGeneral dot_S256x80_S80x128_S256x128_1_0_0_1_n_n none (concatenate S256x80 1 [⟨S256x16, (m ((c.tc : Thread nD τ).loc main_arg2))⟩, ⟨S256x64, (Host.divf (Host.scatterAdd scatter_S256x64_S50000x1_S50000x64_1_0_0_1 (broadcastInDim S256x64 ![] bcast_S_S256x64 (constant S_ .f32 0x00000000#32)) (broadcastInDim S50000x1 ![0] bcast_S50000_S50000x1_0 (m ((c.tc : Thread nD τ).loc main_arg20))) (addf (Host.dotGeneral dot_S50000x128_S128x64_S50000x64_1_0_0_1_n_n none (maximumf (addf (Host.dotGeneral dot_S50000x208_S208x128_S50000x128_1_0_0_1_n_n none (concatenate S50000x208 1 [⟨S50000x64, (m ((c.tc : Thread nD τ).loc main_arg0))⟩, ⟨S50000x128, (Host.divf (Host.scatterAdd scatter_S50000x128_S800000x1_S800000x128_1_0_0_1 (broadcastInDim S50000x128 ![] bcast_S_S50000x128 (constant S_ .f32 0x00000000#32)) (broadcastInDim S800000x1 ![0] bcast_S800000_S800000x1_0 (shapeCast _ (extractStridedSlice S1x800000 ![1, 0] (m ((c.tc : Thread nD τ).loc main_arg19)) slices_S2x800000_S1x800000_1_0) shapeCasts_S1x800000_S800000)) (addf (Host.dotGeneral dot_S800000x128_S128x128_S800000x128_1_0_0_1_n_n none (maximumf (addf (Host.dotGeneral dot_S800000x128_S128x128_S800000x128_1_0_0_1_n_n none (concatenate S800000x128 1 [⟨S800000x64, (Host.gather gather_S50000x64_S800000x1_S800000x64_1_0_n_n_0_1_164 (m ((c.tc : Thread nD τ).loc main_arg0)) (broadcastInDim S800000x1 ![0] bcast_S800000_S800000x1_0 (select (cmpi .slt (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 0#32))) (addi (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 50000#32))) (shapeCast _ (extractStridedSlice S1x800000 ![0, 0] (m ((c.tc : Thread nD τ).loc main_arg19)) slices_S2x800000_S1x800000_0_0) shapeCasts_S1x800000_S800000))))⟩, ⟨S800000x64, (addf (Host.dotGeneral dot_S800000x128_S128x64_S800000x64_1_0_0_1_n_n none (maximumf (addf (Host.dotGeneral dot_S800000x176_S176x128_S800000x128_1_0_0_1_n_n none (concatenate S800000x176 1 [⟨S800000x64, (Host.gather gather_S50000x64_S800000x1_S800000x64_1_0_n_n_0_1_164 (m ((c.tc : Thread nD τ).loc main_arg0)) (broadcastInDim S800000x1 ![0] bcast_S800000_S800000x1_0 (select (cmpi .slt (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 0#32))) (addi (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 50000#32))) (shapeCast _ (extractStridedSlice S1x800000 ![0, 0] (m ((c.tc : Thread nD τ).loc main_arg19)) slices_S2x800000_S1x800000_0_0) shapeCasts_S1x800000_S800000))))⟩, ⟨S800000x64, (Host.gather gather_S50000x64_S800000x1_S800000x64_1_0_n_n_0_1_164 (m ((c.tc : Thread nD τ).loc main_arg0)) (broadcastInDim S800000x1 ![0] bcast_S800000_S800000x1_0 (select (cmpi .slt (shapeCast _ (extractStridedSlice S1x800000 ![1, 0] (m ((c.tc : Thread nD τ).loc main_arg19)) slices_S2x800000_S1x800000_1_0) shapeCasts_S1x800000_S800000) (broadcastInDim S800000 ![] bcast_S_S800000 (constantI S_ 32 0#32))) (addi (shapeCast _ (extractStridedSlice S1x800000 ![1, 0] (m ((c.tc : Thread nD τ).loc main_arg19)) slices_S2x800000_S1x800000_1_0) shapeCasts_S1x800000_S800000) (broadcastInDim S800000 ![] bcast_S_S800000 (constantI S_ 32 50000#32))) (shapeCast _ (extractStridedSlice S1x800000 ![1, 0] (m ((c.tc : Thread nD τ).loc main_arg19)) slices_S2x800000_S1x800000_1_0) shapeCasts_S1x800000_S800000))))⟩, ⟨S800000x32, (m ((c.tc : Thread nD τ).loc main_arg1))⟩, ⟨S800000x16, (Host.gather gather_S256x16_S800000x1_S800000x16_1_0_n_n_0_1_116 (m ((c.tc : Thread nD τ).loc main_arg2)) (broadcastInDim S800000x1 ![0] bcast_S800000_S800000x1_0 (select (cmpi .slt (Host.gather gather_S50000_S800000x1_S800000_n_0_n_n_0_1_1 (m ((c.tc : Thread nD τ).loc main_arg20)) (broadcastInDim S800000x1 ![0] bcast_S800000_S800000x1_0 (select (cmpi .slt (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 0#32))) (addi (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 50000#32))) (shapeCast _ (extractStridedSlice S1x800000 ![0, 0] (m ((c.tc : Thread nD τ).loc main_arg19)) slices_S2x800000_S1x800000_0_0) shapeCasts_S1x800000_S800000)))) (broadcastInDim S800000 ![] bcast_S_S800000 (constantI S_ 32 0#32))) (addi (Host.gather gather_S50000_S800000x1_S800000_n_0_n_n_0_1_1 (m ((c.tc : Thread nD τ).loc main_arg20)) (broadcastInDim S800000x1 ![0] bcast_S800000_S800000x1_0 (select (cmpi .slt (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 0#32))) (addi (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 50000#32))) (shapeCast _ (extractStridedSlice S1x800000 ![0, 0] (m ((c.tc : Thread nD τ).loc main_arg19)) slices_S2x800000_S1x800000_0_0) shapeCasts_S1x800000_S800000)))) (broadcastInDim S800000 ![] bcast_S_S800000 (constantI S_ 32 256#32))) (Host.gather gather_S50000_S800000x1_S800000_n_0_n_n_0_1_1 (m ((c.tc : Thread nD τ).loc main_arg20)) (broadcastInDim S800000x1 ![0] bcast_S800000_S800000x1_0 (select (cmpi .slt (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 0#32))) (addi (shapeCast _ (extractStridedSlice S1x800000 ![0, 0] (m ((c.tc : Thread nD τ).loc main_arg19)) slices_S2x800000_S1x800000_0_0) shapeCasts_S1x800000_S800000) (broadcastInDim S800000 ![] bcast_S_S800000 (constantI S_ 32 50000#32))) (shapeCast _ (extractStridedSlice S1x800000 ![0, 0] (m ((c.tc : Thread nD τ).loc main_arg19)) slices_S2x800000_S1x800000_0_0) shapeCasts_S1x800000_S800000)))))))⟩] concatenates_S800000x64_S800000x64_S800000x32_S800000x16_S800000x176_d1) (m ((c.tc : Thread nD τ).loc main_arg3))) (broadcastInDim S800000x128 ![0, 1] bcast_S1x128_S800000x128_0_1 (broadcastInDim S1x128 ![1] bcast_S128_S1x128_1 (m ((c.tc : Thread nD τ).loc main_arg4))))) (broadcastInDim S800000x128 ![] bcast_S_S800000x128 (constant S_ .f32 0x00000000#32))) (m ((c.tc : Thread nD τ).loc main_arg5))) (broadcastInDim S800000x64 ![0, 1] bcast_S1x64_S800000x64_0_1 (broadcastInDim S1x64 ![1] bcast_S64_S1x64_1 (m ((c.tc : Thread nD τ).loc main_arg6)))))⟩] concatenates_S800000x64_S800000x64_S800000x128_d1) (m ((c.tc : Thread nD τ).loc main_arg7))) (broadcastInDim S800000x128 ![0, 1] bcast_S1x128_S800000x128_0_1 (broadcastInDim S1x128 ![1] bcast_S128_S1x128_1 (m ((c.tc : Thread nD τ).loc main_arg8))))) (broadcastInDim S800000x128 ![] bcast_S_S800000x128 (constant S_ .f32 0x00000000#32))) (m ((c.tc : Thread nD τ).loc main_arg9))) (broadcastInDim S800000x128 ![0, 1] bcast_S1x128_S800000x128_0_1 (broadcastInDim S1x128 ![1] bcast_S128_S1x128_1 (m ((c.tc : Thread nD τ).loc main_arg10)))))) (broadcastInDim S50000x128 ![0, 1] bcast_S50000x1_S50000x128_0_1 (broadcastInDim S50000x1 ![0] bcast_S50000_S50000x1_0 (maximumf (Host.scatterAdd scatter_S50000_S800000x1_S800000_n_0_0_1 (broadcastInDim S50000 ![] bcast_S_S50000 (constant S_ .f32 0x00000000#32)) (broadcastInDim S800000x1 ![0] bcast_S800000_S800000x1_0 (shapeCast _ (extractStridedSlice S1x800000 ![1, 0] (m ((c.tc : Thread nD τ).loc main_arg19)) slices_S2x800000_S1x800000_1_0) shapeCasts_S1x800000_S800000)) (broadcastInDim S800000 ![] bcast_S_S800000 (constant S_ .f32 0x3F800000#32))) (broadcastInDim S50000 ![] bcast_S_S50000 (constant S_ .f32 0x3F800000#32))))))⟩, ⟨S50000x16, (Host.gather gather_S256x16_S50000x1_S50000x16_1_0_n_n_0_1_116 (m ((c.tc : Thread nD τ).loc main_arg2)) (broadcastInDim S50000x1 ![0] bcast_S50000_S50000x1_0 (select (cmpi .slt (m ((c.tc : Thread nD τ).loc main_arg20)) (broadcastInDim S50000 ![] bcast_S_S50000 (constantI S_ 32 0#32))) (addi (m ((c.tc : Thread nD τ).loc main_arg20)) (broadcastInDim S50000 ![] bcast_S_S50000 (constantI S_ 32 256#32))) (m ((c.tc : Thread nD τ).loc main_arg20)))))⟩] concatenates_S50000x64_S50000x128_S50000x16_S50000x208_d1) (m ((c.tc : Thread nD τ).loc main_arg11))) (broadcastInDim S50000x128 ![0, 1] bcast_S1x128_S50000x128_0_1 (broadcastInDim S1x128 ![1] bcast_S128_S1x128_1 (m ((c.tc : Thread nD τ).loc main_arg12))))) (broadcastInDim S50000x128 ![] bcast_S_S50000x128 (constant S_ .f32 0x00000000#32))) (m ((c.tc : Thread nD τ).loc main_arg13))) (broadcastInDim S50000x64 ![0, 1] bcast_S1x64_S50000x64_0_1 (broadcastInDim S1x64 ![1] bcast_S64_S1x64_1 (m ((c.tc : Thread nD τ).loc main_arg14)))))) (broadcastInDim S256x64 ![0, 1] bcast_S256x1_S256x64_0_1 (broadcastInDim S256x1 ![0] bcast_S256_S256x1_0 (maximumf (Host.scatterAdd scatter_S256_S50000x1_S50000_n_0_0_1 (broadcastInDim S256 ![] bcast_S_S256 (constant S_ .f32 0x00000000#32)) (broadcastInDim S50000x1 ![0] bcast_S50000_S50000x1_0 (m ((c.tc : Thread nD τ).loc main_arg20))) (broadcastInDim S50000 ![] bcast_S_S50000 (constant S_ .f32 0x3F800000#32))) (broadcastInDim S256 ![] bcast_S_S256 (constant S_ .f32 0x3F800000#32))))))⟩] concatenates_S256x16_S256x64_S256x80_d1) (m ((c.tc : Thread nD τ).loc main_arg15))) (broadcastInDim S256x128 ![0, 1] bcast_S1x128_S256x128_0_1 (broadcastInDim S1x128 ![1] bcast_S128_S1x128_1 (m ((c.tc : Thread nD τ).loc main_arg16))))) (broadcastInDim S256x128 ![] bcast_S_S256x128 (constant S_ .f32 0x00000000#32))) (m ((c.tc : Thread nD τ).loc main_arg17))) (broadcastInDim S256x32 ![0, 1] bcast_S1x32_S256x32_0_1 (broadcastInDim S1x32 ![1] bcast_S32_S1x32_1 (m ((c.tc : Thread nD τ).loc main_arg18))))

end Cert.ReferenceIdeal.Terms

end
-- ==== Proof.Spec.lean ====
/-
  The four two-layer perceptrons of the message-passing layer, each as one function of its operands, entry by entry.

  A stage takes several row-aligned feature matrices `x₁ … x_P` (the pieces of one concatenated input row), a first
  weight matrix `w₁` whose rows are split among the pieces in order, a bias `b₁`, a second weight matrix `w₂` and a
  bias `b₂`, and returns, at row `a` and column `j`,

      ∑_c  max (pre a c + b₁ c) 0 · w₂ (c, j)  +  b₂ j,      pre a c = ∑_pieces ∑_e x_i (a, e) · w₁ (o_i + e, c).

  Entry `(a, j)` depends on row `a` of the pieces only, so the stage of a block of rows is the block of the stage.
-/
import Idealize.ShloMosaic.Lib.ValueIdx
import Idealize.ShloMosaic.PureOps.Ideal

noncomputable section

namespace Cert.Spec

open Idealize.ShloMosaic Idealize.ShloMosaic.ValueIdx

/-- The shape of an `a × b` matrix. -/
abbrev Sh (a b : Nat) : Shape := ⟨2, ![a, b]⟩

/-- Entry `(r, c)` of a `K × h` matrix for a row number `r` given as a natural number (zero outside the matrix). -/
def rowAt {K h : Nat} (w : (Sh K h).Idx → EReal) (r : Nat) (c : Fin h) : EReal :=
  if hr : r < K then w (ix2 ⟨r, hr⟩ c) else 0

theorem rowAt_of_lt {K h : Nat} (w : (Sh K h).Idx → EReal) (r : Nat) (hr : r < K) (c : Fin h) :
    rowAt w r c = w (ix2 ⟨r, hr⟩ c) := dif_pos hr

/-- One piece's share of a hidden unit: the piece's row against rows `o, o+1, …` of the first weight matrix. -/
def dotRow {k K h : Nat} (x : Fin k → EReal) (w : (Sh K h).Idx → EReal) (o : Nat) (c : Fin h) : EReal :=
  ∑ e : Fin k, x e * rowAt w (o + e.val) c

/-- Row `a` of a matrix. -/
def rowOf {m k : Nat} (x : (Sh m k).Idx → EReal) (a : Fin m) : Fin k → EReal := fun e => x (ix2 a e)

/-- The second layer over a row of hidden pre-activations: bias, rectifier, second weight matrix, bias. -/
def outRow {h n : Nat} (pre : Fin h → EReal) (b₁ : Fin h → EReal) (w₂ : (Sh h n).Idx → EReal) (b₂ : Fin n → EReal)
    (j : Fin n) : EReal :=
  (∑ c : Fin h, max (pre c + b₁ c) (Ideal.ofBits .f32 0x00000000#32) * w₂ (ix2 c j)) + b₂ j

/-- The edge model: pieces of widths 64, 64, 32, 16 against a 176 × 128 matrix, then 128 → 64. -/
def stage0 {m : Nat} (x₀ x₁ : (Sh m 64).Idx → EReal) (x₂ : (Sh m 32).Idx → EReal) (x₃ : (Sh m 16).Idx → EReal)
    (w₁ : (Sh 176 128).Idx → EReal) (b₁ : Fin 128 → EReal) (w₂ : (Sh 128 64).Idx → EReal) (b₂ : Fin 64 → EReal) :
    (Sh m 64).Idx → EReal := fun i =>
  outRow (fun c => ((dotRow (rowOf x₀ (i 0)) w₁ 0 c + dotRow (rowOf x₁ (i 0)) w₁ 64 c) + dotRow (rowOf x₂ (i 0)) w₁ 128 c)
    + dotRow (rowOf x₃ (i 0)) w₁ 160 c) b₁ w₂ b₂ (i 1)

/-- The message model: pieces of widths 64, 64 against a 128 × 128 matrix, then 128 → 128. -/
def stage1 {m : Nat} (x₀ x₁ : (Sh m 64).Idx → EReal)
    (w₁ : (Sh 128 128).Idx → EReal) (b₁ : Fin 128 → EReal) (w₂ : (Sh 128 128).Idx → EReal) (b₂ : Fin 128 → EReal) :
    (Sh m 128).Idx → EReal := fun i =>
  outRow (fun c => dotRow (rowOf x₀ (i 0)) w₁ 0 c + dotRow (rowOf x₁ (i 0)) w₁ 64 c) b₁ w₂ b₂ (i 1)

/-- The node model: pieces of widths 64, 128, 16 against a 208 × 128 matrix, then 128 → 64. -/
def stage2 {m : Nat} (x₀ : (Sh m 64).Idx → EReal) (x₁ : (Sh m 128).Idx → EReal) (x₂ : (Sh m 16).Idx → EReal)
    (w₁ : (Sh 208 128).Idx → EReal) (b₁ : Fin 128 → EReal) (w₂ : (Sh 128 64).Idx → EReal) (b₂ : Fin 64 → EReal) :
    (Sh m 64).Idx → EReal := fun i =>
  outRow (fun c => (dotRow (rowOf x₀ (i 0)) w₁ 0 c + dotRow (rowOf x₁ (i 0)) w₁ 64 c) + dotRow (rowOf x₂ (i 0)) w₁ 192 c)
    b₁ w₂ b₂ (i 1)

/-- The global model: pieces of widths 16, 64 against an 80 × 128 matrix, then 128 → 32. -/
def stage3 {m : Nat} (x₀ : (Sh m 16).Idx → EReal) (x₁ : (Sh m 64).Idx → EReal)
    (w₁ : (Sh 80 128).Idx → EReal) (b₁ : Fin 128 → EReal) (w₂ : (Sh 128 32).Idx → EReal) (b₂ : Fin 32 → EReal) :
    (Sh m 32).Idx → EReal := fun i =>
  outRow (fun c => dotRow (rowOf x₀ (i 0)) w₁ 0 c + dotRow (rowOf x₁ (i 0)) w₁ 16 c) b₁ w₂ b₂ (i 1)

/-! ## A stage is row-local: rows that agree give entries that agree -/

theorem stage0_row {m m' : Nat} (x₀ x₁ : (Sh m 64).Idx → EReal) (x₂ : (Sh m 32).Idx → EReal) (x₃ : (Sh m 16).Idx → EReal)
    (y₀ y₁ : (Sh m' 64).Idx → EReal) (y₂ : (Sh m' 32).Idx → EReal) (y₃ : (Sh m' 16).Idx → EReal)
    (w₁ : (Sh 176 128).Idx → EReal) (b₁ : Fin 128 → EReal) (w₂ : (Sh 128 64).Idx → EReal) (b₂ : Fin 64 → EReal)
    (a : Fin m) (a' : Fin m') (j : Fin 64)
    (h₀ : rowOf x₀ a = rowOf y₀ a') (h₁ : rowOf x₁ a = rowOf y₁ a') (h₂ : rowOf x₂ a = rowOf y₂ a') (h₃ : rowOf x₃ a = rowOf y₃ a') :
    stage0 x₀ x₁ x₂ x₃ w₁ b₁ w₂ b₂ (ix2 a j) = stage0 y₀ y₁ y₂ y₃ w₁ b₁ w₂ b₂ (ix2 a' j) := by
  show outRow _ b₁ w₂ b₂ j = outRow _ b₁ w₂ b₂ j
  rw [show rowOf x₀ ((ix2 a j : (Sh m 64).Idx) 0) = rowOf y₀ ((ix2 a' j : (Sh m' 64).Idx) 0) from h₀,
    show rowOf x₁ ((ix2 a j : (Sh m 64).Idx) 0) = rowOf y₁ ((ix2 a' j : (Sh m' 64).Idx) 0) from h₁,
    show rowOf x₂ ((ix2 a j : (Sh m 64).Idx) 0) = rowOf y₂ ((ix2 a' j : (Sh m' 64).Idx) 0) from h₂,
    show rowOf x₃ ((ix2 a j : (Sh m 64).Idx) 0) = rowOf y₃ ((ix2 a' j : (Sh m' 64).Idx) 0) from h₃]

theorem stage1_row {m m' : Nat} (x₀ x₁ : (Sh m 64).Idx → EReal) (y₀ y₁ : (Sh m' 64).Idx → EReal)
    (w₁ : (Sh 128 128).Idx → EReal) (b₁ : Fin 128 → EReal) (w₂ : (Sh 128 128).Idx → EReal) (b₂ : Fin 128 → EReal)
    (a : Fin m) (a' : Fin m') (j : Fin 128)
    (h₀ : rowOf x₀ a = rowOf y₀ a') (h₁ : rowOf x₁ a = rowOf y₁ a') :
    stage1 x₀ x₁ w₁ b₁ w₂ b₂ (ix2 a j) = stage1 y₀ y₁ w₁ b₁ w₂ b₂ (ix2 a' j) := by
  show outRow _ b₁ w₂ b₂ j = outRow _ b₁ w₂ b₂ j
  rw [show rowOf x₀ ((ix2 a j : (Sh m 128).Idx) 0) = rowOf y₀ ((ix2 a' j : (Sh m' 128).Idx) 0) from h₀,
    show rowOf x₁ ((ix2 a j : (Sh m 128).Idx) 0) = rowOf y₁ ((ix2 a' j : (Sh m' 128).Idx) 0) from h₁]

theorem stage2_row {m m' : Nat} (x₀ : (Sh m 64).Idx → EReal) (x₁ : (Sh m 128).Idx → EReal) (x₂ : (Sh m 16).Idx → EReal)
    (y₀ : (Sh m' 64).Idx → EReal) (y₁ : (Sh m' 128).Idx → EReal) (y₂ : (Sh m' 16).Idx → EReal)
    (w₁ : (Sh 208 128).Idx → EReal) (b₁ : Fin 128 → EReal) (w₂ : (Sh 128 64).Idx → EReal) (b₂ : Fin 64 → EReal)
    (a : Fin m) (a' : Fin m') (j : Fin 64)
    (h₀ : rowOf x₀ a = rowOf y₀ a') (h₁ : rowOf x₁ a = rowOf y₁ a') (h₂ : rowOf x₂ a = rowOf y₂ a') :
    stage2 x₀ x₁ x₂ w₁ b₁ w₂ b₂ (ix2 a j) = stage2 y₀ y₁ y₂ w₁ b₁ w₂ b₂ (ix2 a' j) := by
  show outRow _ b₁ w₂ b₂ j = outRow _ b₁ w₂ b₂ j
  rw [show rowOf x₀ ((ix2 a j : (Sh m 64).Idx) 0) = rowOf y₀ ((ix2 a' j : (Sh m' 64).Idx) 0) from h₀,
    show rowOf x₁ ((ix2 a j : (Sh m 64).Idx) 0) = rowOf y₁ ((ix2 a' j : (Sh m' 64).Idx) 0) from h₁,
    show rowOf x₂ ((ix2 a j : (Sh m 64).Idx) 0) = rowOf y₂ ((ix2 a' j : (Sh m' 64).Idx) 0) from h₂]

theorem stage3_row {m m' : Nat} (x₀ : (Sh m 16).Idx → EReal) (x₁ : (Sh m 64).Idx → EReal)
    (y₀ : (Sh m' 16).Idx → EReal) (y₁ : (Sh m' 64).Idx → EReal)
    (w₁ : (Sh 80 128).Idx → EReal) (b₁ : Fin 128 → EReal) (w₂ : (Sh 128 32).Idx → EReal) (b₂ : Fin 32 → EReal)
    (a : Fin m) (a' : Fin m') (j : Fin 32)
    (h₀ : rowOf x₀ a = rowOf y₀ a') (h₁ : rowOf x₁ a = rowOf y₁ a') :
    stage3 x₀ x₁ w₁ b₁ w₂ b₂ (ix2 a j) = stage3 y₀ y₁ w₁ b₁ w₂ b₂ (ix2 a' j) := by
  show outRow _ b₁ w₂ b₂ j = outRow _ b₁ w₂ b₂ j
  rw [show rowOf x₀ ((ix2 a j : (Sh m 32).Idx) 0) = rowOf y₀ ((ix2 a' j : (Sh m' 32).Idx) 0) from h₀,
    show rowOf x₁ ((ix2 a j : (Sh m 32).Idx) 0) = rowOf y₁ ((ix2 a' j : (Sh m' 32).Idx) 0) from h₁]

end Cert.Spec

end
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.LibHostLayer.lean ====
/-
  General lemmas: a two-layer perceptron written with whole-array host operations, read at an index.

  * the first layer over a concatenated input: the product of matrices laid side by side with a weight matrix is,
    entry by entry, the sum over the pieces of each piece's row against its own band of rows of the weights (a finite
    sum over consecutive ranges splits into the sums over the ranges);
  * a bias vector laid along every row, read at an index; the rectifier's zero; the output layer.
-/
import proofs.«158231_j85143431676130_1_alg».proof.Proof.Spec
import proofs.«158231_j85143431676130_1_alg».proof.Proof.LibPlainProduct
import Idealize.ShloMosaic.Lib.KernelVsHost
import Idealize.ShloMosaic.Lib.Pipeline.Value

noncomputable section

namespace Cert.LibHostLayer

open Idealize.ShloMosaic Idealize.ShloMosaic.ValueIdx Cert.Spec

variable {m K h n : Nat}

/-- A sum over `Fin (a + b)` is the sum over the first `a` indices plus the sum over the last `b`. -/
theorem sum_fin_split {M : Type} [AddCommMonoid M] {N : Nat} (a b : Nat) (hN : N = a + b) (f : Fin N → M) :
    ∑ e : Fin N, f e = (∑ e : Fin a, f ⟨e.val, by have := e.isLt; omega⟩) + ∑ e : Fin b, f ⟨a + e.val, by have := e.isLt; omega⟩ := by
  subst hN
  rw [Fin.sum_univ_add]
  rfl

/-- Entry `(a, o + e)` of matrices laid side by side is entry `(a, e)` of the piece that starts at column `o`. -/
theorem cat_piece_apply {k : Nat} (xs : List ((s : Shape) × (s.Idx → EReal)))
    (hcat : Shape.Concatenates (xs.map (·.1)) (Sh m K) 1) (q : Nat) (hq : q < xs.length) (x : (Sh m k).Idx → EReal)
    (hx : xs[q] = ⟨Sh m k, x⟩) (o : Nat)
    (ho : (((xs.take q).map (·.1)).map fun s => if h : s.rank = (Sh m K).rank then s.size ((1 : Fin 2).cast h.symm) else 0).sum = o)
    (a : Fin m) (e : Fin k) (hoK : o + e.val < K) :
    concatenate (Sh m K) 1 xs hcat (ix2 a ⟨o + e.val, hoK⟩) = x (ix2 a e) :=
  concatenate_apply_piece 1 xs hcat (ix2 a ⟨o + e.val, hoK⟩) q hq (Sh m k) x hx rfl o ho (ix2 a e)
    (fun d hd => match d, hd with
      | ⟨0, _⟩, _ => rfl
      | ⟨1, _⟩, hd => absurd rfl hd)
    rfl

/-- One piece's share of entry `(a, c)` of the product of the side-by-side matrix with the weights. -/
theorem cat_share {k : Nat} (xs : List ((s : Shape) × (s.Idx → EReal)))
    (hcat : Shape.Concatenates (xs.map (·.1)) (Sh m K) 1) (q : Nat) (hq : q < xs.length) (x : (Sh m k).Idx → EReal)
    (hx : xs[q] = ⟨Sh m k, x⟩) (o : Nat)
    (ho : (((xs.take q).map (·.1)).map fun s => if h : s.rank = (Sh m K).rank then s.size ((1 : Fin 2).cast h.symm) else 0).sum = o)
    (W : (Sh K h).Idx → EReal) (a : Fin m) (c : Fin h) (hoK : o + k ≤ K) :
    (∑ e : Fin k, concatenate (Sh m K) 1 xs hcat (ix2 a ⟨o + e.val, by have := e.isLt; omega⟩)
        * W (ix2 ⟨o + e.val, by have := e.isLt; omega⟩ c))
      = dotRow (rowOf x a) W o c := by
  unfold dotRow rowOf
  refine Finset.sum_congr rfl fun e _ => ?_
  rw [cat_piece_apply xs hcat q hq x hx o ho a e, rowAt_of_lt W (o + e.val) (by have := e.isLt; omega) c]

/-- Two pieces. -/
theorem cat2_dot_apply {k₁ k₂ : Nat} (d : DotDims (Sh m K) (Sh K h) (Sh m h)) (hd : d = DotDims.plain m K h)
    (hK : K = k₁ + k₂) (x₁ : (Sh m k₁).Idx → EReal) (x₂ : (Sh m k₂).Idx → EReal)
    (hcat : Shape.Concatenates [Sh m k₁, Sh m k₂] (Sh m K) 1) (W : FVec Ideal (Sh K h) .f32) (a : Fin m) (c : Fin h) :
    Host.dotGeneral d none (concatenate (Sh m K) 1 [⟨Sh m k₁, x₁⟩, ⟨Sh m k₂, x₂⟩] hcat : FVec Ideal (Sh m K) .f32) W (ix2 a c)
      = dotRow (rowOf x₁ a) W 0 c + dotRow (rowOf x₂ a) W k₁ c := by
  rw [Cert.PlainProduct.dotGeneral_plain_apply' d hd, sum_fin_split k₁ k₂ hK]
  refine congrArg₂ (· + ·) ?_ ?_
  · have := cat_share (k := k₁) [⟨Sh m k₁, x₁⟩, ⟨Sh m k₂, x₂⟩] hcat 0 (by simp) x₁ rfl 0 (by simp) W a c (by omega)
    simpa only [Nat.zero_add] using this
  · exact cat_share (k := k₂) [⟨Sh m k₁, x₁⟩, ⟨Sh m k₂, x₂⟩] hcat 1 (by simp) x₂ rfl k₁ (by simp) W a c (by omega)

/-- Three pieces. -/
theorem cat3_dot_apply {k₁ k₂ k₃ : Nat} (d : DotDims (Sh m K) (Sh K h) (Sh m h)) (hd : d = DotDims.plain m K h)
    (hK : K = k₁ + k₂ + k₃) (x₁ : (Sh m k₁).Idx → EReal) (x₂ : (Sh m k₂).Idx → EReal) (x₃ : (Sh m k₃).Idx → EReal)
    (hcat : Shape.Concatenates [Sh m k₁, Sh m k₂, Sh m k₃] (Sh m K) 1) (W : FVec Ideal (Sh K h) .f32) (a : Fin m) (c : Fin h) :
    Host.dotGeneral d none (concatenate (Sh m K) 1 [⟨Sh m k₁, x₁⟩, ⟨Sh m k₂, x₂⟩, ⟨Sh m k₃, x₃⟩] hcat : FVec Ideal (Sh m K) .f32) W (ix2 a c)
      = (dotRow (rowOf x₁ a) W 0 c + dotRow (rowOf x₂ a) W k₁ c) + dotRow (rowOf x₃ a) W (k₁ + k₂) c := by
  rw [Cert.PlainProduct.dotGeneral_plain_apply' d hd, sum_fin_split (k₁ + k₂) k₃ hK, sum_fin_split k₁ k₂ rfl]
  refine congrArg₂ (· + ·) (congrArg₂ (· + ·) ?_ ?_) ?_
  · have := cat_share (k := k₁) [⟨Sh m k₁, x₁⟩, ⟨Sh m k₂, x₂⟩, ⟨Sh m k₃, x₃⟩] hcat 0 (by simp) x₁ rfl 0 (by simp) W a c (by omega)
    simpa only [Nat.zero_add] using this
  · exact cat_share (k := k₂) [⟨Sh m k₁, x₁⟩, ⟨Sh m k₂, x₂⟩, ⟨Sh m k₃, x₃⟩] hcat 1 (by simp) x₂ rfl k₁ (by simp) W a c (by omega)
  · exact cat_share (k := k₃) [⟨Sh m k₁, x₁⟩, ⟨Sh m k₂, x₂⟩, ⟨Sh m k₃, x₃⟩] hcat 2 (by simp) x₃ rfl (k₁ + k₂) (by simp) W a c (by omega)

/-- Four pieces. -/
theorem cat4_dot_apply {k₁ k₂ k₃ k₄ : Nat} (d : DotDims (Sh m K) (Sh K h) (Sh m h)) (hd : d = DotDims.plain m K h)
    (hK : K = k₁ + k₂ + k₃ + k₄) (x₁ : (Sh m k₁).Idx → EReal) (x₂ : (Sh m k₂).Idx → EReal) (x₃ : (Sh m k₃).Idx → EReal)
    (x₄ : (Sh m k₄).Idx → EReal)
    (hcat : Shape.Concatenates [Sh m k₁, Sh m k₂, Sh m k₃, Sh m k₄] (Sh m K) 1) (W : FVec Ideal (Sh K h) .f32) (a : Fin m) (c : Fin h) :
    Host.dotGeneral d none (concatenate (Sh m K) 1 [⟨Sh m k₁, x₁⟩, ⟨Sh m k₂, x₂⟩, ⟨Sh m k₃, x₃⟩, ⟨Sh m k₄, x₄⟩] hcat : FVec Ideal (Sh m K) .f32) W (ix2 a c)
      = ((dotRow (rowOf x₁ a) W 0 c + dotRow (rowOf x₂ a) W k₁ c) + dotRow (rowOf x₃ a) W (k₁ + k₂) c)
        + dotRow (rowOf x₄ a) W (k₁ + k₂ + k₃) c := by
  rw [Cert.PlainProduct.dotGeneral_plain_apply' d hd, sum_fin_split (k₁ + k₂ + k₃) k₄ hK, sum_fin_split (k₁ + k₂) k₃ rfl,
    sum_fin_split k₁ k₂ rfl]
  refine congrArg₂ (· + ·) (congrArg₂ (· + ·) (congrArg₂ (· + ·) ?_ ?_) ?_) ?_
  · have := cat_share (k := k₁) [⟨Sh m k₁, x₁⟩, ⟨Sh m k₂, x₂⟩, ⟨Sh m k₃, x₃⟩, ⟨Sh m k₄, x₄⟩] hcat 0 (by simp) x₁ rfl 0 (by simp) W a c (by omega)
    simpa only [Nat.zero_add] using this
  · exact cat_share (k := k₂) [⟨Sh m k₁, x₁⟩, ⟨Sh m k₂, x₂⟩, ⟨Sh m k₃, x₃⟩, ⟨Sh m k₄, x₄⟩] hcat 1 (by simp) x₂ rfl k₁ (by simp) W a c (by omega)
  · exact cat_share (k := k₃) [⟨Sh m k₁, x₁⟩, ⟨Sh m k₂, x₂⟩, ⟨Sh m k₃, x₃⟩, ⟨Sh m k₄, x₄⟩] hcat 2 (by simp) x₃ rfl (k₁ + k₂) (by simp) W a c (by omega)
  · exact cat_share (k := k₄) [⟨Sh m k₁, x₁⟩, ⟨Sh m k₂, x₂⟩, ⟨Sh m k₃, x₃⟩, ⟨Sh m k₄, x₄⟩] hcat 3 (by simp) x₄ rfl (k₁ + k₂ + k₃) (by simp; omega) W a c (by omega)

/-- A bias vector made a one-row matrix and repeated down every row, at `(a, c)`, is the vector's entry `c`. -/
theorem bias_apply (b : (⟨1, ![h]⟩ : Shape).Idx → EReal)
    (h₁ : (⟨1, ![h]⟩ : Shape).BroadcastsInDim (Sh 1 h) ![1]) (h₂ : (Sh 1 h).BroadcastsInDim (Sh m h) ![0, 1])
    (a : Fin m) (c : Fin h) :
    broadcastInDim (Sh m h) ![0, 1] h₂ (broadcastInDim (Sh 1 h) ![1] h₁ b) (ix2 a c) = b (ix1 c) := by
  rw [broadcastInDim_oneRow_apply h₂ _ a c]
  refine broadcastInDim_apply ![1] h₁ b (ix2 (0 : Fin 1) c) (ix1 c) fun ax => ?_
  match ax with
  | ⟨0, _⟩ =>
    show c.val = if h = 1 then 0 else c.val
    split
    · have := c.isLt; omega
    · rfl

/-- A hidden unit at `(a, c)`: the first layer's entry plus the bias entry, rectified against the splat of zero. -/
theorem hidden_apply (acc : FVec Ideal (Sh m h) .f32) (b : FVec Ideal ⟨1, ![h]⟩ .f32)
    (h₁ : (⟨1, ![h]⟩ : Shape).BroadcastsInDim (Sh 1 h) ![1]) (h₂ : (Sh 1 h).BroadcastsInDim (Sh m h) ![0, 1])
    (h₀ : (⟨0, ![]⟩ : Shape).BroadcastsInDim (Sh m h) ![]) (a : Fin m) (c : Fin h) (pre : EReal)
    (hacc : acc (ix2 a c) = pre) :
    maximumf (addf acc (broadcastInDim (Sh m h) ![0, 1] h₂ (broadcastInDim (Sh 1 h) ![1] h₁ b)))
        (broadcastInDim (Sh m h) ![] h₀ (constant (F := Ideal) ⟨0, ![]⟩ .f32 0x00000000#32)) (ix2 a c)
      = max (pre + b (ix1 c)) (Ideal.ofBits .f32 0x00000000#32) := by
  show max (acc (ix2 a c) + broadcastInDim (Sh m h) ![0, 1] h₂ (broadcastInDim (Sh 1 h) ![1] h₁ b) (ix2 a c)) _ = _
  rw [hacc, bias_apply]
  rfl

/-- An output entry at `(a, j)`. -/
theorem second_apply (e : DotDims (Sh m h) (Sh h n) (Sh m n)) (he : e = DotDims.plain m h n)
    (H : FVec Ideal (Sh m h) .f32) (W₂ : FVec Ideal (Sh h n) .f32) (b : FVec Ideal ⟨1, ![n]⟩ .f32)
    (h₁ : (⟨1, ![n]⟩ : Shape).BroadcastsInDim (Sh 1 n) ![1]) (h₂ : (Sh 1 n).BroadcastsInDim (Sh m n) ![0, 1])
    (pre b₁ : Fin h → EReal) (a : Fin m) (j : Fin n)
    (hH : ∀ c : Fin h, H (ix2 a c) = max (pre c + b₁ c) (Ideal.ofBits .f32 0x00000000#32)) :
    addf (Host.dotGeneral e none H W₂) (broadcastInDim (Sh m n) ![0, 1] h₂ (broadcastInDim (Sh 1 n) ![1] h₁ b)) (ix2 a j)
      = outRow pre b₁ W₂ (fun j => b (ix1 j)) j := by
  show Host.dotGeneral e none H W₂ (ix2 a j) + broadcastInDim (Sh m n) ![0, 1] h₂ (broadcastInDim (Sh 1 n) ![1] h₁ b) (ix2 a j) = _
  rw [Cert.PlainProduct.dotGeneral_plain_apply' e he, bias_apply]
  unfold outRow
  refine congrArg (· + b (ix1 j)) ?_
  refine Finset.sum_congr rfl fun c _ => ?_
  rw [← hH c]

end Cert.LibHostLayer

end
-- ==== Proof.RefStages.lean ====
/-
  The reference's four perceptrons: each, written with whole-array host operations (matrices laid side by side, a
  matrix product, a bias vector laid along every row, the rectifier against a splat of zero, a second product and
  bias), is the stage function of its operands, entry by entry.
-/
import proofs.«158231_j85143431676130_1_alg».proof.Proof.Gen.ReferenceIdeal
import proofs.«158231_j85143431676130_1_alg».proof.Proof.Spec
import proofs.«158231_j85143431676130_1_alg».proof.Proof.LibHostLayer

noncomputable section

namespace Cert.ReferenceIdeal.Stages

open Idealize.ShloMosaic Idealize.ShloMosaic.ValueIdx Cert.ReferenceIdeal Cert.ReferenceIdeal.Gen Cert.LibHostLayer

/-- The edge model over the gathered sender, receiver, edge and graph features. -/
theorem stage0_eq (a0 a1 : FVec Ideal S800000x64 .f32) (a2 : FVec Ideal S800000x32 .f32) (a3 : FVec Ideal S800000x16 .f32)
    (w1 : FVec Ideal S176x128 .f32) (b1 : FVec Ideal S128 .f32) (w2 : FVec Ideal S128x64 .f32) (b2 : FVec Ideal S64 .f32) :
    addf (Host.dotGeneral dot_S800000x128_S128x64_S800000x64_1_0_0_1_n_n none (maximumf (addf (Host.dotGeneral dot_S800000x176_S176x128_S800000x128_1_0_0_1_n_n none (concatenate S800000x176 1 [⟨S800000x64, a0⟩, ⟨S800000x64, a1⟩, ⟨S800000x32, a2⟩, ⟨S800000x16, a3⟩] concatenates_S800000x64_S800000x64_S800000x32_S800000x16_S800000x176_d1) w1) (broadcastInDim S800000x128 ![0, 1] bcast_S1x128_S800000x128_0_1 (broadcastInDim S1x128 ![1] bcast_S128_S1x128_1 b1))) (broadcastInDim S800000x128 ![] bcast_S_S800000x128 (constant S_ .f32 0x00000000#32))) w2) (broadcastInDim S800000x64 ![0, 1] bcast_S1x64_S800000x64_0_1 (broadcastInDim S1x64 ![1] bcast_S64_S1x64_1 b2))
      = Spec.stage0 a0 a1 a2 a3 w1 (fun c => b1 (ix1 c)) w2 (fun j => b2 (ix1 j)) := by
  funext i
  obtain ⟨a, j, rfl⟩ : ∃ (a : Fin 800000) (j : Fin 64), i = ix2 a j := ⟨i 0, i 1, eq_ix2 i⟩
  refine second_apply _ rfl _ w2 b2 _ _ _ (fun c => b1 (ix1 c)) a j (fun c => ?_)
  refine hidden_apply _ b1 _ _ _ a c _ ?_
  exact cat4_dot_apply _ rfl rfl a0 a1 a2 a3 _ w1 a c

/-- The message model over the gathered sender features and the new edge features. -/
theorem stage1_eq (a0 a1 : FVec Ideal S800000x64 .f32)
    (w1 : FVec Ideal S128x128 .f32) (b1 : FVec Ideal S128 .f32) (w2 : FVec Ideal S128x128 .f32) (b2 : FVec Ideal S128 .f32) :
    addf (Host.dotGeneral dot_S800000x128_S128x128_S800000x128_1_0_0_1_n_n none (maximumf (addf (Host.dotGeneral dot_S800000x128_S128x128_S800000x128_1_0_0_1_n_n none (concatenate S800000x128 1 [⟨S800000x64, a0⟩, ⟨S800000x64, a1⟩] concatenates_S800000x64_S800000x64_S800000x128_d1) w1) (broadcastInDim S800000x128 ![0, 1] bcast_S1x128_S800000x128_0_1 (broadcastInDim S1x128 ![1] bcast_S128_S1x128_1 b1))) (broadcastInDim S800000x128 ![] bcast_S_S800000x128 (constant S_ .f32 0x00000000#32))) w2) (broadcastInDim S800000x128 ![0, 1] bcast_S1x128_S800000x128_0_1 (broadcastInDim S1x128 ![1] bcast_S128_S1x128_1 b2))
      = Spec.stage1 a0 a1 w1 (fun c => b1 (ix1 c)) w2 (fun j => b2 (ix1 j)) := by
  funext i
  obtain ⟨a, j, rfl⟩ : ∃ (a : Fin 800000) (j : Fin 128), i = ix2 a j := ⟨i 0, i 1, eq_ix2 i⟩
  refine second_apply _ rfl _ w2 b2 _ _ _ (fun c => b1 (ix1 c)) a j (fun c => ?_)
  refine hidden_apply _ b1 _ _ _ a c _ ?_
  exact cat2_dot_apply _ rfl rfl a0 a1 _ w1 a c

/-- The node model over the node features, the aggregated messages and the gathered graph features. -/
theorem stage2_eq (a0 : FVec Ideal S50000x64 .f32) (a1 : FVec Ideal S50000x128 .f32) (a2 : FVec Ideal S50000x16 .f32)
    (w1 : FVec Ideal S208x128 .f32) (b1 : FVec Ideal S128 .f32) (w2 : FVec Ideal S128x64 .f32) (b2 : FVec Ideal S64 .f32) :
    addf (Host.dotGeneral dot_S50000x128_S128x64_S50000x64_1_0_0_1_n_n none (maximumf (addf (Host.dotGeneral dot_S50000x208_S208x128_S50000x128_1_0_0_1_n_n none (concatenate S50000x208 1 [⟨S50000x64, a0⟩, ⟨S50000x128, a1⟩, ⟨S50000x16, a2⟩] concatenates_S50000x64_S50000x128_S50000x16_S50000x208_d1) w1) (broadcastInDim S50000x128 ![0, 1] bcast_S1x128_S50000x128_0_1 (broadcastInDim S1x128 ![1] bcast_S128_S1x128_1 b1))) (broadcastInDim S50000x128 ![] bcast_S_S50000x128 (constant S_ .f32 0x00000000#32))) w2) (broadcastInDim S50000x64 ![0, 1] bcast_S1x64_S50000x64_0_1 (broadcastInDim S1x64 ![1] bcast_S64_S1x64_1 b2))
      = Spec.stage2 a0 a1 a2 w1 (fun c => b1 (ix1 c)) w2 (fun j => b2 (ix1 j)) := by
  funext i
  obtain ⟨a, j, rfl⟩ : ∃ (a : Fin 50000) (j : Fin 64), i = ix2 a j := ⟨i 0, i 1, eq_ix2 i⟩
  refine second_apply _ rfl _ w2 b2 _ _ _ (fun c => b1 (ix1 c)) a j (fun c => ?_)
  refine hidden_apply _ b1 _ _ _ a c _ ?_
  exact cat3_dot_apply _ rfl rfl a0 a1 a2 _ w1 a c

/-- The global model over the graph features and the pooled node features. -/
theorem stage3_eq (a0 : FVec Ideal S256x16 .f32) (a1 : FVec Ideal S256x64 .f32)
    (w1 : FVec Ideal S80x128 .f32) (b1 : FVec Ideal S128 .f32) (w2 : FVec Ideal S128x32 .f32) (b2 : FVec Ideal S32 .f32) :
    addf (Host.dotGeneral dot_S256x128_S128x32_S256x32_1_0_0_1_n_n none (maximumf (addf (Host.dotGeneral dot_S256x80_S80x128_S256x128_1_0_0_1_n_n none (concatenate S256x80 1 [⟨S256x16, a0⟩, ⟨S256x64, a1⟩] concatenates_S256x16_S256x64_S256x80_d1) w1) (broadcastInDim S256x128 ![0, 1] bcast_S1x128_S256x128_0_1 (broadcastInDim S1x128 ![1] bcast_S128_S1x128_1 b1))) (broadcastInDim S256x128 ![] bcast_S_S256x128 (constant S_ .f32 0x00000000#32))) w2) (broadcastInDim S256x32 ![0, 1] bcast_S1x32_S256x32_0_1 (broadcastInDim S1x32 ![1] bcast_S32_S1x32_1 b2))
      = Spec.stage3 a0 a1 w1 (fun c => b1 (ix1 c)) w2 (fun j => b2 (ix1 j)) := by
  funext i
  obtain ⟨a, j, rfl⟩ : ∃ (a : Fin 256) (j : Fin 32), i = ix2 a j := ⟨i 0, i 1, eq_ix2 i⟩
  refine second_apply _ rfl _ w2 b2 _ _ _ (fun c => b1 (ix1 c)) a j (fun c => ?_)
  refine hidden_apply _ b1 _ _ _ a c _ ?_
  exact cat2_dot_apply _ rfl rfl a0 a1 _ w1 a c

end Cert.ReferenceIdeal.Stages

end
-- ==== Proof.KernelHost.lean ====
/-
  The kernel program's run, read as values.

  The run is a fold of buffer contents through eight segments: four stretches of host operations, each followed by a
  region. This module reads that fold: which buffers a stretch or a region leaves alone, where each of the three results
  is written, what term of its entry contents a stretch leaves in each buffer a region then reads, and hence what every
  window of every region holds when the region is entered, in terms of the launch memory and of the earlier regions'
  outputs.
-/
import proofs.«158231_j85143431676130_1_alg».proof.Proof.Gen.KernelIdeal.Frame

set_option maxRecDepth 16384

noncomputable section

namespace Cert.KernelIdeal.HostRead

open Idealize.ShloMosaic Idealize.ShloMosaic.TcCoe
open Cert.KernelIdeal

variable {F : FTy → Type} [FloatOps F]

/-! ## What each stretch of host operations writes, and what it therefore keeps -/

/-- The references the first stretch of host operations writes (each operation's result buffer, in order). -/
abbrev hostOps0_W : List (Ref sig .tc) :=
  [main_v0, main_v1, main_v2, main_v3, main_c, main_v4, main_v5, main_c_0, main_v6, main_v7, main_v8, main_v9, main_v10, main_c_1, main_v11, main_v12, main_c_2, main_v13, main_v14, main_v15, main_v16, main_v17, main_c_3, main_v18, main_v19, main_c_4, main_v20, main_v21, main_v22, main_v23, main_v24, main_c_5, main_v25, main_v26, main_c_6, main_v27, main_v28, main_v29, main_v30, main_v31, main_c_7, main_v32, main_v33, main_c_8, main_v34, main_v35, main_v36, main_v37, main_v38, main_v39, main_v40]
theorem hostOps0_writes : (Gen.hostOps0 : List (HloOp τ sig (Elt F))).Forall fun op =>
    op.writes ⊆ (hostOps0_W.map (Proc.devRef (τ := τ) .tc)).toFinset := by
  simp only [Gen.hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
/-- A buffer the first stretch does not write holds afterwards what it held before, from any contents. -/
theorem keep0 (V : Valuation τ sig (Elt F)) (r : Ref sig .tc) (h : r ∉ hostOps0_W) :
    StableHlo.after Gen.hostOps0 V (Proc.devRef .tc r) = V (Proc.devRef .tc r) :=
  StableHlo.after_of_writes_sub Gen.hostOps0 V hostOps0_writes h

/-- The references the second stretch of host operations writes (each operation's result buffer, in order). -/
abbrev hostOps1_W : List (Ref sig .tc) :=
  [main_v42, main_v43]
theorem hostOps1_writes : (Gen.hostOps1 : List (HloOp τ sig (Elt F))).Forall fun op =>
    op.writes ⊆ (hostOps1_W.map (Proc.devRef (τ := τ) .tc)).toFinset := by
  simp only [Gen.hostOps1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
/-- A buffer the second stretch does not write holds afterwards what it held before, from any contents. -/
theorem keep1 (V : Valuation τ sig (Elt F)) (r : Ref sig .tc) (h : r ∉ hostOps1_W) :
    StableHlo.after Gen.hostOps1 V (Proc.devRef .tc r) = V (Proc.devRef .tc r) :=
  StableHlo.after_of_writes_sub Gen.hostOps1 V hostOps1_writes h

/-- The references the third stretch of host operations writes (each operation's result buffer, in order). -/
abbrev hostOps2_W : List (Ref sig .tc) :=
  [main_cst, main_v45, main_v46, main_v47, main_cst_9, main_v48, main_cst_10, main_v49, main_v50, main_v51, main_cst_11, main_v52, main_v53, main_v54, main_v55, main_v56, main_v57, main_v58]
theorem hostOps2_writes : (Gen.hostOps2 : List (HloOp τ sig (Elt F))).Forall fun op =>
    op.writes ⊆ (hostOps2_W.map (Proc.devRef (τ := τ) .tc)).toFinset := by
  simp only [Gen.hostOps2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
/-- A buffer the third stretch does not write holds afterwards what it held before, from any contents. -/
theorem keep2 (V : Valuation τ sig (Elt F)) (r : Ref sig .tc) (h : r ∉ hostOps2_W) :
    StableHlo.after Gen.hostOps2 V (Proc.devRef .tc r) = V (Proc.devRef .tc r) :=
  StableHlo.after_of_writes_sub Gen.hostOps2 V hostOps2_writes h

/-- The references the fourth stretch of host operations writes (each operation's result buffer, in order). -/
abbrev hostOps3_W : List (Ref sig .tc) :=
  [main_cst_12, main_v60, main_v61, main_v62, main_cst_13, main_v63, main_cst_14, main_v64, main_v65, main_v66, main_cst_15, main_v67, main_v68, main_v69, main_v70, main_v71, main_v72, main_v73]
theorem hostOps3_writes : (Gen.hostOps3 : List (HloOp τ sig (Elt F))).Forall fun op =>
    op.writes ⊆ (hostOps3_W.map (Proc.devRef (τ := τ) .tc)).toFinset := by
  simp only [Gen.hostOps3, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
/-- A buffer the fourth stretch does not write holds afterwards what it held before, from any contents. -/
theorem keep3 (V : Valuation τ sig (Elt F)) (r : Ref sig .tc) (h : r ∉ hostOps3_W) :
    StableHlo.after Gen.hostOps3 V (Proc.devRef .tc r) = V (Proc.devRef .tc r) :=
  StableHlo.after_of_writes_sub Gen.hostOps3 V hostOps3_writes h

/-! ## What each stretch leaves in the buffers the regions read, as a term of the stretch's entry contents

Each statement is over an arbitrary valuation `V` of the buffers: the operations' functions composed in program order,
nothing simplified. -/

theorem hostOps0_main_v10 (V : Valuation τ sig (Elt F)) :
    StableHlo.after Gen.hostOps0 V (Proc.devRef .tc main_v10) =
      Host.gather gather_S50000x64_S800000x1_S800000x64_1_0_n_n_0_1_164 (V (Proc.devRef Proc.tc main_arg0))
      (broadcastInDim S800000x1 ![0] Gen.bcast_S800000_S800000x1_0
        (select
          (cmpi CmpIPredicate.slt
            (fun i =>
              shapeCast (Ref.ty main_v1).shape
                (extractStridedSlice S1x800000 ![0, 0] (V (Proc.devRef Proc.tc main_arg19))
                  Gen.slices_S2x800000_S1x800000_0_0)
                Gen.shapeCasts_S1x800000_S800000 i)
            (broadcastInDim S800000 ![] Gen.bcast_S_S800000 (constantI S_ 32 0#32)))
          (addi
            (fun i =>
              shapeCast (Ref.ty main_v1).shape
                (extractStridedSlice S1x800000 ![0, 0] (V (Proc.devRef Proc.tc main_arg19))
                  Gen.slices_S2x800000_S1x800000_0_0)
                Gen.shapeCasts_S1x800000_S800000 i)
            (broadcastInDim S800000 ![] Gen.bcast_S_S800000 (constantI S_ 32 50000#32)))
          fun i =>
          shapeCast (Ref.ty main_v1).shape
            (extractStridedSlice S1x800000 ![0, 0] (V (Proc.devRef Proc.tc main_arg19))
              Gen.slices_S2x800000_S1x800000_0_0)
            Gen.shapeCasts_S1x800000_S800000 i)) := by
  after_results_simp <;> rfl

theorem hostOps0_main_v17 (V : Valuation τ sig (Elt F)) :
    StableHlo.after Gen.hostOps0 V (Proc.devRef .tc main_v17) =
      Host.gather gather_S50000x64_S800000x1_S800000x64_1_0_n_n_0_1_164 (V (Proc.devRef Proc.tc main_arg0))
      (broadcastInDim S800000x1 ![0] Gen.bcast_S800000_S800000x1_0
        (select
          (cmpi CmpIPredicate.slt
            (fun i =>
              shapeCast (Ref.ty main_v3).shape
                (extractStridedSlice S1x800000 ![1, 0] (V (Proc.devRef Proc.tc main_arg19))
                  Gen.slices_S2x800000_S1x800000_1_0)
                Gen.shapeCasts_S1x800000_S800000 i)
            (broadcastInDim S800000 ![] Gen.bcast_S_S800000 (constantI S_ 32 0#32)))
          (addi
            (fun i =>
              shapeCast (Ref.ty main_v3).shape
                (extractStridedSlice S1x800000 ![1, 0] (V (Proc.devRef Proc.tc main_arg19))
                  Gen.slices_S2x800000_S1x800000_1_0)
                Gen.shapeCasts_S1x800000_S800000 i)
            (broadcastInDim S800000 ![] Gen.bcast_S_S800000 (constantI S_ 32 50000#32)))
          fun i =>
          shapeCast (Ref.ty main_v3).shape
            (extractStridedSlice S1x800000 ![1, 0] (V (Proc.devRef Proc.tc main_arg19))
              Gen.slices_S2x800000_S1x800000_1_0)
            Gen.shapeCasts_S1x800000_S800000 i)) := by
  after_results_simp <;> rfl

theorem hostOps0_main_v31 (V : Valuation τ sig (Elt F)) :
    StableHlo.after Gen.hostOps0 V (Proc.devRef .tc main_v31) =
      Host.gather gather_S256x16_S800000x1_S800000x16_1_0_n_n_0_1_116 (V (Proc.devRef Proc.tc main_arg2))
      (broadcastInDim S800000x1 ![0] Gen.bcast_S800000_S800000x1_0
        (select
          (cmpi CmpIPredicate.slt
            (Host.gather gather_S50000_S800000x1_S800000_n_0_n_n_0_1_1 (V (Proc.devRef Proc.tc main_arg20))
              (broadcastInDim S800000x1 ![0] Gen.bcast_S800000_S800000x1_0
                (select
                  (cmpi CmpIPredicate.slt
                    (fun i =>
                      shapeCast (Ref.ty main_v1).shape
                        (extractStridedSlice S1x800000 ![0, 0] (V (Proc.devRef Proc.tc main_arg19))
                          Gen.slices_S2x800000_S1x800000_0_0)
                        Gen.shapeCasts_S1x800000_S800000 i)
                    (broadcastInDim S800000 ![] Gen.bcast_S_S800000 (constantI S_ 32 0#32)))
                  (addi
                    (fun i =>
                      shapeCast (Ref.ty main_v1).shape
                        (extractStridedSlice S1x800000 ![0, 0] (V (Proc.devRef Proc.tc main_arg19))
                          Gen.slices_S2x800000_S1x800000_0_0)
                        Gen.shapeCasts_S1x800000_S800000 i)
                    (broadcastInDim S800000 ![] Gen.bcast_S_S800000 (constantI S_ 32 50000#32)))
                  fun i =>
                  shapeCast (Ref.ty main_v1).shape
                    (extractStridedSlice S1x800000 ![0, 0] (V (Proc.devRef Proc.tc main_arg19))
                      Gen.slices_S2x800000_S1x800000_0_0)
                    Gen.shapeCasts_S1x800000_S800000 i)))
            (broadcastInDim S800000 ![] Gen.bcast_S_S800000 (constantI S_ 32 0#32)))
          (addi
            (Host.gather gather_S50000_S800000x1_S800000_n_0_n_n_0_1_1 (V (Proc.devRef Proc.tc main_arg20))
              (broadcastInDim S800000x1 ![0] Gen.bcast_S800000_S800000x1_0
                (select
                  (cmpi CmpIPredicate.slt
                    (fun i =>
                      shapeCast (Ref.ty main_v1).shape
                        (extractStridedSlice S1x800000 ![0, 0] (V (Proc.devRef Proc.tc main_arg19))
                          Gen.slices_S2x800000_S1x800000_0_0)
                        Gen.shapeCasts_S1x800000_S800000 i)
                    (broadcastInDim S800000 ![] Gen.bcast_S_S800000 (constantI S_ 32 0#32)))
                  (addi
                    (fun i =>
                      shapeCast (Ref.ty main_v1).shape
                        (extractStridedSlice S1x800000 ![0, 0] (V (Proc.devRef Proc.tc main_arg19))
                          Gen.slices_S2x800000_S1x800000_0_0)
                        Gen.shapeCasts_S1x800000_S800000 i)
                    (broadcastInDim S800000 ![] Gen.bcast_S_S800000 (constantI S_ 32 50000#32)))
                  fun i =>
                  shapeCast (Ref.ty main_v1).shape
                    (extractStridedSlice S1x800000 ![0, 0] (V (Proc.devRef Proc.tc main_arg19))
                      Gen.slices_S2x800000_S1x800000_0_0)
                    Gen.shapeCasts_S1x800000_S800000 i)))
            (broadcastInDim S800000 ![] Gen.bcast_S_S800000 (constantI S_ 32 256#32)))
          (Host.gather gather_S50000_S800000x1_S800000_n_0_n_n_0_1_1 (V (Proc.devRef Proc.tc main_arg20))
            (broadcastInDim S800000x1 ![0] Gen.bcast_S800000_S800000x1_0
              (select
                (cmpi CmpIPredicate.slt
                  (fun i =>
                    shapeCast (Ref.ty main_v1).shape
                      (extractStridedSlice S1x800000 ![0, 0] (V (Proc.devRef Proc.tc main_arg19))
                        Gen.slices_S2x800000_S1x800000_0_0)
                      Gen.shapeCasts_S1x800000_S800000 i)
                  (broadcastInDim S800000 ![] Gen.bcast_S_S800000 (constantI S_ 32 0#32)))
                (addi
                  (fun i =>
                    shapeCast (Ref.ty main_v1).shape
                      (extractStridedSlice S1x800000 ![0, 0] (V (Proc.devRef Proc.tc main_arg19))
                        Gen.slices_S2x800000_S1x800000_0_0)
                      Gen.shapeCasts_S1x800000_S800000 i)
                  (broadcastInDim S800000 ![] Gen.bcast_S_S800000 (constantI S_ 32 50000#32)))
                fun i =>
                shapeCast (Ref.ty main_v1).shape
                  (extractStridedSlice S1x800000 ![0, 0] (V (Proc.devRef Proc.tc main_arg19))
                    Gen.slices_S2x800000_S1x800000_0_0)
                  Gen.shapeCasts_S1x800000_S800000 i))))) := by
  after_results_simp <;> rfl

theorem hostOps0_main_v38 (V : Valuation τ sig (Elt F)) :
    StableHlo.after Gen.hostOps0 V (Proc.devRef .tc main_v38) =
      Host.gather gather_S256x16_S50000x1_S50000x16_1_0_n_n_0_1_116 (V (Proc.devRef Proc.tc main_arg2))
      (broadcastInDim S50000x1 ![0] Gen.bcast_S50000_S50000x1_0
        (select
          (cmpi CmpIPredicate.slt (V (Proc.devRef Proc.tc main_arg20))
            (broadcastInDim S50000 ![] Gen.bcast_S_S50000 (constantI S_ 32 0#32)))
          (addi (V (Proc.devRef Proc.tc main_arg20))
            (broadcastInDim S50000 ![] Gen.bcast_S_S50000 (constantI S_ 32 256#32)))
          (V (Proc.devRef Proc.tc main_arg20)))) := by
  after_results_simp <;> rfl

theorem hostOps0_main_v39 (V : Valuation τ sig (Elt F)) :
    StableHlo.after Gen.hostOps0 V (Proc.devRef .tc main_v39) =
      (fun i => shapeCast (Ref.ty main_v39).shape (V (Proc.devRef Proc.tc main_arg4)) Gen.shapeCasts_S128_S1x128 i) := by
  after_results_simp <;> rfl

theorem hostOps0_main_v40 (V : Valuation τ sig (Elt F)) :
    StableHlo.after Gen.hostOps0 V (Proc.devRef .tc main_v40) =
      (fun i => shapeCast (Ref.ty main_v40).shape (V (Proc.devRef Proc.tc main_arg6)) Gen.shapeCasts_S64_S1x64 i) := by
  after_results_simp <;> rfl

theorem hostOps0_main_v3 (V : Valuation τ sig (Elt F)) :
    StableHlo.after Gen.hostOps0 V (Proc.devRef .tc main_v3) =
      (fun i =>
      shapeCast (Ref.ty main_v3).shape
        (extractStridedSlice S1x800000 ![1, 0] (V (Proc.devRef Proc.tc main_arg19)) Gen.slices_S2x800000_S1x800000_1_0)
        Gen.shapeCasts_S1x800000_S800000 i) := by
  after_results_simp <;> rfl

theorem hostOps1_main_v42 (V : Valuation τ sig (Elt F)) :
    StableHlo.after Gen.hostOps1 V (Proc.devRef .tc main_v42) =
      (fun i => shapeCast (Ref.ty main_v42).shape (V (Proc.devRef Proc.tc main_arg8)) Gen.shapeCasts_S128_S1x128 i) := by
  after_results_simp <;> rfl

theorem hostOps1_main_v43 (V : Valuation τ sig (Elt F)) :
    StableHlo.after Gen.hostOps1 V (Proc.devRef .tc main_v43) =
      (fun i => shapeCast (Ref.ty main_v43).shape (V (Proc.devRef Proc.tc main_arg10)) Gen.shapeCasts_S128_S1x128 i) := by
  after_results_simp <;> rfl

theorem hostOps2_main_v56 (V : Valuation τ sig (Elt F)) :
    StableHlo.after Gen.hostOps2 V (Proc.devRef .tc main_v56) =
      Host.divf
      (Host.scatterAdd scatter_S50000x128_S800000x1_S800000x128_1_0_0_1
        (broadcastInDim S50000x128 ![] Gen.bcast_S_S50000x128 (constant S_ FTy.f32 0x00000000#32))
        (broadcastInDim S800000x1 ![0] Gen.bcast_S800000_S800000x1_0 (V (Proc.devRef Proc.tc main_v3)))
        (V (Proc.devRef Proc.tc main_v44)))
      (broadcastInDim S50000x128 ![0, 1] Gen.bcast_S50000x1_S50000x128_0_1
        (broadcastInDim S50000x1 ![0] Gen.bcast_S50000_S50000x1_0
          (maximumf
            (Host.scatterAdd scatter_S50000_S800000x1_S800000_n_0_0_1
              (broadcastInDim S50000 ![] Gen.bcast_S_S50000 (constant S_ FTy.f32 0x00000000#32))
              (broadcastInDim S800000x1 ![0] Gen.bcast_S800000_S800000x1_0 (V (Proc.devRef Proc.tc main_v3)))
              (broadcastInDim S800000 ![] Gen.bcast_S_S800000 (constant S_ FTy.f32 0x3F800000#32)))
            (broadcastInDim S50000 ![] Gen.bcast_S_S50000 (constant S_ FTy.f32 0x3F800000#32))))) := by
  after_results_simp <;> rfl

theorem hostOps2_main_v57 (V : Valuation τ sig (Elt F)) :
    StableHlo.after Gen.hostOps2 V (Proc.devRef .tc main_v57) =
      (fun i => shapeCast (Ref.ty main_v57).shape (V (Proc.devRef Proc.tc main_arg12)) Gen.shapeCasts_S128_S1x128 i) := by
  after_results_simp <;> rfl

theorem hostOps2_main_v58 (V : Valuation τ sig (Elt F)) :
    StableHlo.after Gen.hostOps2 V (Proc.devRef .tc main_v58) =
      (fun i => shapeCast (Ref.ty main_v58).shape (V (Proc.devRef Proc.tc main_arg14)) Gen.shapeCasts_S64_S1x64 i) := by
  after_results_simp <;> rfl

theorem hostOps3_main_v71 (V : Valuation τ sig (Elt F)) :
    StableHlo.after Gen.hostOps3 V (Proc.devRef .tc main_v71) =
      Host.divf
      (Host.scatterAdd scatter_S256x64_S50000x1_S50000x64_1_0_0_1
        (broadcastInDim S256x64 ![] Gen.bcast_S_S256x64 (constant S_ FTy.f32 0x00000000#32))
        (broadcastInDim S50000x1 ![0] Gen.bcast_S50000_S50000x1_0 (V (Proc.devRef Proc.tc main_arg20)))
        (V (Proc.devRef Proc.tc main_v59)))
      (broadcastInDim S256x64 ![0, 1] Gen.bcast_S256x1_S256x64_0_1
        (broadcastInDim S256x1 ![0] Gen.bcast_S256_S256x1_0
          (maximumf
            (Host.scatterAdd scatter_S256_S50000x1_S50000_n_0_0_1
              (broadcastInDim S256 ![] Gen.bcast_S_S256 (constant S_ FTy.f32 0x00000000#32))
              (broadcastInDim S50000x1 ![0] Gen.bcast_S50000_S50000x1_0 (V (Proc.devRef Proc.tc main_arg20)))
              (broadcastInDim S50000 ![] Gen.bcast_S_S50000 (constant S_ FTy.f32 0x3F800000#32)))
            (broadcastInDim S256 ![] Gen.bcast_S_S256 (constant S_ FTy.f32 0x3F800000#32))))) := by
  after_results_simp <;> rfl

theorem hostOps3_main_v72 (V : Valuation τ sig (Elt F)) :
    StableHlo.after Gen.hostOps3 V (Proc.devRef .tc main_v72) =
      (fun i => shapeCast (Ref.ty main_v72).shape (V (Proc.devRef Proc.tc main_arg16)) Gen.shapeCasts_S128_S1x128 i) := by
  after_results_simp <;> rfl

theorem hostOps3_main_v73 (V : Valuation τ sig (Elt F)) :
    StableHlo.after Gen.hostOps3 V (Proc.devRef .tc main_v73) =
      (fun i => shapeCast (Ref.ty main_v73).shape (V (Proc.devRef Proc.tc main_arg18)) Gen.shapeCasts_S32_S1x32 i) := by
  after_results_simp <;> rfl

/-! ## A region keeps every buffer that is not one of its output windows -/

variable (m : (ℓ : Loc nD τ sig) → Buf (Elt F) ℓ) (ρ : Dev nD → PrngReg)

/-- Region 0 leaves a buffer as it found it when the buffer is none of its windows' arrays, or an input window's. -/
theorem region0_keep (c : Dev nD) (r : Ref sig .tc)
    (h : ∀ w, Pipeline.arrRef spec0 w = r → (cfg0.win w).isOut = false) :
    Gen.W2 m ρ c (Proc.devRef .tc r) = Gen.W1 m ρ c (Proc.devRef .tc r) := by
  by_cases hr : ∃ w, Pipeline.arrRef spec0 w = r
  · obtain ⟨w, rfl⟩ := hr
    exact (Gen.W2_arr m ρ c w).trans
      (((Gen.dat0 (Gen.V1 m ρ) c).arrAt_in w (h w rfl) _).trans (Gen.A_eq0 (Gen.V1 m ρ) c w))
  · exact Gen.W2_of_ne m ρ c r fun w e => hr ⟨w, e⟩

/-- Region 1 leaves a buffer as it found it when the buffer is none of its windows' arrays, or an input window's. -/
theorem region1_keep (c : Dev nD) (r : Ref sig .tc)
    (h : ∀ w, Pipeline.arrRef spec1 w = r → (cfg1.win w).isOut = false) :
    Gen.W4 m ρ c (Proc.devRef .tc r) = Gen.W3 m ρ c (Proc.devRef .tc r) := by
  by_cases hr : ∃ w, Pipeline.arrRef spec1 w = r
  · obtain ⟨w, rfl⟩ := hr
    exact (Gen.W4_arr m ρ c w).trans
      (((Gen.dat1 (Gen.V3 m ρ) c).arrAt_in w (h w rfl) _).trans (Gen.A_eq1 (Gen.V3 m ρ) c w))
  · exact Gen.W4_of_ne m ρ c r fun w e => hr ⟨w, e⟩

/-- Region 2 leaves a buffer as it found it when the buffer is none of its windows' arrays, or an input window's. -/
theorem region2_keep (c : Dev nD) (r : Ref sig .tc)
    (h : ∀ w, Pipeline.arrRef spec2 w = r → (cfg2.win w).isOut = false) :
    Gen.W6 m ρ c (Proc.devRef .tc r) = Gen.W5 m ρ c (Proc.devRef .tc r) := by
  by_cases hr : ∃ w, Pipeline.arrRef spec2 w = r
  · obtain ⟨w, rfl⟩ := hr
    exact (Gen.W6_arr m ρ c w).trans
      (((Gen.dat2 (Gen.V5 m ρ) c).arrAt_in w (h w rfl) _).trans (Gen.A_eq2 (Gen.V5 m ρ) c w))
  · exact Gen.W6_of_ne m ρ c r fun w e => hr ⟨w, e⟩

/-- Region 3 leaves a buffer as it found it when the buffer is none of its windows' arrays, or an input window's. -/
theorem region3_keep (c : Dev nD) (r : Ref sig .tc)
    (h : ∀ w, Pipeline.arrRef spec3 w = r → (cfg3.win w).isOut = false) :
    Gen.W8 m ρ c (Proc.devRef .tc r) = Gen.W7 m ρ c (Proc.devRef .tc r) := by
  by_cases hr : ∃ w, Pipeline.arrRef spec3 w = r
  · obtain ⟨w, rfl⟩ := hr
    exact (Gen.W8_arr m ρ c w).trans
      (((Gen.dat3 (Gen.V7 m ρ) c).arrAt_in w (h w rfl) _).trans (Gen.A_eq3 (Gen.V7 m ρ) c w))
  · exact Gen.W8_of_ne m ρ c r fun w e => hr ⟨w, e⟩

/-! ## The three results, read back through the fold to the region that writes them -/

/-- The last region's output is what its write-backs leave in window 6. -/
theorem W8_main_v74 (c : Dev nD) :
    Gen.W8 m ρ c (Proc.devRef .tc main_v74) = (Gen.dat3 (Gen.V7 m ρ) c).arrAt 6 cfg3.N :=
  Gen.W8_arr m ρ c 6

/-- The third region's output, which neither the last region nor the last stretch of host operations writes. -/
theorem W8_main_v59 (c : Dev nD) :
    Gen.W8 m ρ c (Proc.devRef .tc main_v59) = (Gen.dat2 (Gen.V5 m ρ) c).arrAt 7 cfg2.N :=
  calc Gen.W8 m ρ c (Proc.devRef .tc main_v59)
    _ = Gen.W7 m ρ c (Proc.devRef .tc main_v59) := region3_keep m ρ c main_v59 (by decide)
    _ = Gen.W6 m ρ c (Proc.devRef .tc main_v59) := keep3 _ main_v59 (by decide)
    _ = (Gen.dat2 (Gen.V5 m ρ) c).arrAt 7 cfg2.N := Gen.W6_arr m ρ c 7

/-- The first region's output: the second region reads it through an input window, nothing later touches it. -/
theorem W8_main_v41 (c : Dev nD) :
    Gen.W8 m ρ c (Proc.devRef .tc main_v41) = (Gen.dat0 (Gen.V1 m ρ) c).arrAt 8 cfg0.N :=
  calc Gen.W8 m ρ c (Proc.devRef .tc main_v41)
    _ = Gen.W7 m ρ c (Proc.devRef .tc main_v41) := region3_keep m ρ c main_v41 (by decide)
    _ = Gen.W6 m ρ c (Proc.devRef .tc main_v41) := keep3 _ main_v41 (by decide)
    _ = Gen.W5 m ρ c (Proc.devRef .tc main_v41) := region2_keep m ρ c main_v41 (by decide)
    _ = Gen.W4 m ρ c (Proc.devRef .tc main_v41) := keep2 _ main_v41 (by decide)
    _ = Gen.W3 m ρ c (Proc.devRef .tc main_v41) := region1_keep m ρ c main_v41 (by decide)
    _ = Gen.W2 m ρ c (Proc.devRef .tc main_v41) := keep1 _ main_v41 (by decide)
    _ = (Gen.dat0 (Gen.V1 m ρ) c).arrAt 8 cfg0.N := Gen.W2_arr m ρ c 8

/-! ## An argument array holds its launch contents at every boundary up to the last region -/

theorem W1_arg (c : Dev nD) (r : Ref sig .tc) (h0 : r ∉ hostOps0_W) :
    Gen.W1 m ρ c (Proc.devRef .tc r) = m ((c : Thread nD τ).loc r) := keep0 _ r h0
theorem W2_arg (c : Dev nD) (r : Ref sig .tc) (h0 : r ∉ hostOps0_W)
    (hr0 : ∀ w, Pipeline.arrRef spec0 w = r → (cfg0.win w).isOut = false) :
    Gen.W2 m ρ c (Proc.devRef .tc r) = m ((c : Thread nD τ).loc r) := (region0_keep m ρ c r hr0).trans (W1_arg m ρ c r h0)
theorem W3_arg (c : Dev nD) (r : Ref sig .tc) (h0 : r ∉ hostOps0_W)
    (hr0 : ∀ w, Pipeline.arrRef spec0 w = r → (cfg0.win w).isOut = false) (h1 : r ∉ hostOps1_W) :
    Gen.W3 m ρ c (Proc.devRef .tc r) = m ((c : Thread nD τ).loc r) := (keep1 _ r h1).trans (W2_arg m ρ c r h0 hr0)
theorem W4_arg (c : Dev nD) (r : Ref sig .tc) (h0 : r ∉ hostOps0_W)
    (hr0 : ∀ w, Pipeline.arrRef spec0 w = r → (cfg0.win w).isOut = false) (h1 : r ∉ hostOps1_W)
    (hr1 : ∀ w, Pipeline.arrRef spec1 w = r → (cfg1.win w).isOut = false) :
    Gen.W4 m ρ c (Proc.devRef .tc r) = m ((c : Thread nD τ).loc r) := (region1_keep m ρ c r hr1).trans (W3_arg m ρ c r h0 hr0 h1)
theorem W5_arg (c : Dev nD) (r : Ref sig .tc) (h0 : r ∉ hostOps0_W)
    (hr0 : ∀ w, Pipeline.arrRef spec0 w = r → (cfg0.win w).isOut = false) (h1 : r ∉ hostOps1_W)
    (hr1 : ∀ w, Pipeline.arrRef spec1 w = r → (cfg1.win w).isOut = false) (h2 : r ∉ hostOps2_W) :
    Gen.W5 m ρ c (Proc.devRef .tc r) = m ((c : Thread nD τ).loc r) := (keep2 _ r h2).trans (W4_arg m ρ c r h0 hr0 h1 hr1)
theorem W6_arg (c : Dev nD) (r : Ref sig .tc) (h0 : r ∉ hostOps0_W)
    (hr0 : ∀ w, Pipeline.arrRef spec0 w = r → (cfg0.win w).isOut = false) (h1 : r ∉ hostOps1_W)
    (hr1 : ∀ w, Pipeline.arrRef spec1 w = r → (cfg1.win w).isOut = false) (h2 : r ∉ hostOps2_W)
    (hr2 : ∀ w, Pipeline.arrRef spec2 w = r → (cfg2.win w).isOut = false) :
    Gen.W6 m ρ c (Proc.devRef .tc r) = m ((c : Thread nD τ).loc r) := (region2_keep m ρ c r hr2).trans (W5_arg m ρ c r h0 hr0 h1 hr1 h2)
theorem W7_arg (c : Dev nD) (r : Ref sig .tc) (h0 : r ∉ hostOps0_W)
    (hr0 : ∀ w, Pipeline.arrRef spec0 w = r → (cfg0.win w).isOut = false) (h1 : r ∉ hostOps1_W)
    (hr1 : ∀ w, Pipeline.arrRef spec1 w = r → (cfg1.win w).isOut = false) (h2 : r ∉ hostOps2_W)
    (hr2 : ∀ w, Pipeline.arrRef spec2 w = r → (cfg2.win w).isOut = false) (h3 : r ∉ hostOps3_W) :
    Gen.W7 m ρ c (Proc.devRef .tc r) = m ((c : Thread nD τ).loc r) := (keep3 _ r h3).trans (W6_arg m ρ c r h0 hr0 h1 hr1 h2 hr2)

/-! ## What the first region finds in its windows -/

theorem V1_main_v10 (c : Dev nD) :
    Gen.V1 m ρ c main_v10 =
      Host.gather gather_S50000x64_S800000x1_S800000x64_1_0_n_n_0_1_164 (m ((c : Thread nD τ).loc main_arg0))
      (broadcastInDim S800000x1 ![0] Gen.bcast_S800000_S800000x1_0
        (select
          (cmpi CmpIPredicate.slt
            (fun i =>
              shapeCast (Ref.ty main_v1).shape
                (extractStridedSlice S1x800000 ![0, 0] (m ((c : Thread nD τ).loc main_arg19))
                  Gen.slices_S2x800000_S1x800000_0_0)
                Gen.shapeCasts_S1x800000_S800000 i)
            (broadcastInDim S800000 ![] Gen.bcast_S_S800000 (constantI S_ 32 0#32)))
          (addi
            (fun i =>
              shapeCast (Ref.ty main_v1).shape
                (extractStridedSlice S1x800000 ![0, 0] (m ((c : Thread nD τ).loc main_arg19))
                  Gen.slices_S2x800000_S1x800000_0_0)
                Gen.shapeCasts_S1x800000_S800000 i)
            (broadcastInDim S800000 ![] Gen.bcast_S_S800000 (constantI S_ 32 50000#32)))
          fun i =>
          shapeCast (Ref.ty main_v1).shape
            (extractStridedSlice S1x800000 ![0, 0] (m ((c : Thread nD τ).loc main_arg19))
              Gen.slices_S2x800000_S1x800000_0_0)
            Gen.shapeCasts_S1x800000_S800000 i)) :=
  hostOps0_main_v10 (Gen.W0 m ρ c)

theorem V1_main_v17 (c : Dev nD) :
    Gen.V1 m ρ c main_v17 =
      Host.gather gather_S50000x64_S800000x1_S800000x64_1_0_n_n_0_1_164 (m ((c : Thread nD τ).loc main_arg0))
      (broadcastInDim S800000x1 ![0] Gen.bcast_S800000_S800000x1_0
        (select
          (cmpi CmpIPredicate.slt
            (fun i =>
              shapeCast (Ref.ty main_v3).shape
                (extractStridedSlice S1x800000 ![1, 0] (m ((c : Thread nD τ).loc main_arg19))
                  Gen.slices_S2x800000_S1x800000_1_0)
                Gen.shapeCasts_S1x800000_S800000 i)
            (broadcastInDim S800000 ![] Gen.bcast_S_S800000 (constantI S_ 32 0#32)))
          (addi
            (fun i =>
              shapeCast (Ref.ty main_v3).shape
                (extractStridedSlice S1x800000 ![1, 0] (m ((c : Thread nD τ).loc main_arg19))
                  Gen.slices_S2x800000_S1x800000_1_0)
                Gen.shapeCasts_S1x800000_S800000 i)
            (broadcastInDim S800000 ![] Gen.bcast_S_S800000 (constantI S_ 32 50000#32)))
          fun i =>
          shapeCast (Ref.ty main_v3).shape
            (extractStridedSlice S1x800000 ![1, 0] (m ((c : Thread nD τ).loc main_arg19))
              Gen.slices_S2x800000_S1x800000_1_0)
            Gen.shapeCasts_S1x800000_S800000 i)) :=
  hostOps0_main_v17 (Gen.W0 m ρ c)

theorem V1_main_v31 (c : Dev nD) :
    Gen.V1 m ρ c main_v31 =
      Host.gather gather_S256x16_S800000x1_S800000x16_1_0_n_n_0_1_116 (m ((c : Thread nD τ).loc main_arg2))
      (broadcastInDim S800000x1 ![0] Gen.bcast_S800000_S800000x1_0
        (select
          (cmpi CmpIPredicate.slt
            (Host.gather gather_S50000_S800000x1_S800000_n_0_n_n_0_1_1 (m ((c : Thread nD τ).loc main_arg20))
              (broadcastInDim S800000x1 ![0] Gen.bcast_S800000_S800000x1_0
                (select
                  (cmpi CmpIPredicate.slt
                    (fun i =>
                      shapeCast (Ref.ty main_v1).shape
                        (extractStridedSlice S1x800000 ![0, 0] (m ((c : Thread nD τ).loc main_arg19))
                          Gen.slices_S2x800000_S1x800000_0_0)
                        Gen.shapeCasts_S1x800000_S800000 i)
                    (broadcastInDim S800000 ![] Gen.bcast_S_S800000 (constantI S_ 32 0#32)))
                  (addi
                    (fun i =>
                      shapeCast (Ref.ty main_v1).shape
                        (extractStridedSlice S1x800000 ![0, 0] (m ((c : Thread nD τ).loc main_arg19))
                          Gen.slices_S2x800000_S1x800000_0_0)
                        Gen.shapeCasts_S1x800000_S800000 i)
                    (broadcastInDim S800000 ![] Gen.bcast_S_S800000 (constantI S_ 32 50000#32)))
                  fun i =>
                  shapeCast (Ref.ty main_v1).shape
                    (extractStridedSlice S1x800000 ![0, 0] (m ((c : Thread nD τ).loc main_arg19))
                      Gen.slices_S2x800000_S1x800000_0_0)
                    Gen.shapeCasts_S1x800000_S800000 i)))
            (broadcastInDim S800000 ![] Gen.bcast_S_S800000 (constantI S_ 32 0#32)))
          (addi
            (Host.gather gather_S50000_S800000x1_S800000_n_0_n_n_0_1_1 (m ((c : Thread nD τ).loc main_arg20))
              (broadcastInDim S800000x1 ![0] Gen.bcast_S800000_S800000x1_0
                (select
                  (cmpi CmpIPredicate.slt
                    (fun i =>
                      shapeCast (Ref.ty main_v1).shape
                        (extractStridedSlice S1x800000 ![0, 0] (m ((c : Thread nD τ).loc main_arg19))
                          Gen.slices_S2x800000_S1x800000_0_0)
                        Gen.shapeCasts_S1x800000_S800000 i)
                    (broadcastInDim S800000 ![] Gen.bcast_S_S800000 (constantI S_ 32 0#32)))
                  (addi
                    (fun i =>
                      shapeCast (Ref.ty main_v1).shape
                        (extractStridedSlice S1x800000 ![0, 0] (m ((c : Thread nD τ).loc main_arg19))
                          Gen.slices_S2x800000_S1x800000_0_0)
                        Gen.shapeCasts_S1x800000_S800000 i)
                    (broadcastInDim S800000 ![] Gen.bcast_S_S800000 (constantI S_ 32 50000#32)))
                  fun i =>
                  shapeCast (Ref.ty main_v1).shape
                    (extractStridedSlice S1x800000 ![0, 0] (m ((c : Thread nD τ).loc main_arg19))
                      Gen.slices_S2x800000_S1x800000_0_0)
                    Gen.shapeCasts_S1x800000_S800000 i)))
            (broadcastInDim S800000 ![] Gen.bcast_S_S800000 (constantI S_ 32 256#32)))
          (Host.gather gather_S50000_S800000x1_S800000_n_0_n_n_0_1_1 (m ((c : Thread nD τ).loc main_arg20))
            (broadcastInDim S800000x1 ![0] Gen.bcast_S800000_S800000x1_0
              (select
                (cmpi CmpIPredicate.slt
                  (fun i =>
                    shapeCast (Ref.ty main_v1).shape
                      (extractStridedSlice S1x800000 ![0, 0] (m ((c : Thread nD τ).loc main_arg19))
                        Gen.slices_S2x800000_S1x800000_0_0)
                      Gen.shapeCasts_S1x800000_S800000 i)
                  (broadcastInDim S800000 ![] Gen.bcast_S_S800000 (constantI S_ 32 0#32)))
                (addi
                  (fun i =>
                    shapeCast (Ref.ty main_v1).shape
                      (extractStridedSlice S1x800000 ![0, 0] (m ((c : Thread nD τ).loc main_arg19))
                        Gen.slices_S2x800000_S1x800000_0_0)
                      Gen.shapeCasts_S1x800000_S800000 i)
                  (broadcastInDim S800000 ![] Gen.bcast_S_S800000 (constantI S_ 32 50000#32)))
                fun i =>
                shapeCast (Ref.ty main_v1).shape
                  (extractStridedSlice S1x800000 ![0, 0] (m ((c : Thread nD τ).loc main_arg19))
                    Gen.slices_S2x800000_S1x800000_0_0)
                  Gen.shapeCasts_S1x800000_S800000 i))))) :=
  hostOps0_main_v31 (Gen.W0 m ρ c)

theorem V1_main_v39 (c : Dev nD) :
    Gen.V1 m ρ c main_v39 =
      (fun i => shapeCast (Ref.ty main_v39).shape (m ((c : Thread nD τ).loc main_arg4)) Gen.shapeCasts_S128_S1x128 i) :=
  hostOps0_main_v39 (Gen.W0 m ρ c)

theorem V1_main_v40 (c : Dev nD) :
    Gen.V1 m ρ c main_v40 =
      (fun i => shapeCast (Ref.ty main_v40).shape (m ((c : Thread nD τ).loc main_arg6)) Gen.shapeCasts_S64_S1x64 i) :=
  hostOps0_main_v40 (Gen.W0 m ρ c)

theorem V1_main_arg1 (c : Dev nD) : Gen.V1 m ρ c main_arg1 = m ((c : Thread nD τ).loc main_arg1) :=
  W1_arg m ρ c main_arg1 (by decide)

theorem V1_main_arg3 (c : Dev nD) : Gen.V1 m ρ c main_arg3 = m ((c : Thread nD τ).loc main_arg3) :=
  W1_arg m ρ c main_arg3 (by decide)

theorem V1_main_arg5 (c : Dev nD) : Gen.V1 m ρ c main_arg5 = m ((c : Thread nD τ).loc main_arg5) :=
  W1_arg m ρ c main_arg5 (by decide)

/-- The receivers' index vector, which the third stretch scatters by, as the first stretch leaves it. -/
theorem W1_main_v3 (c : Dev nD) :
    Gen.W1 m ρ c (Proc.devRef .tc main_v3) =
      (fun i =>
      shapeCast (Ref.ty main_v3).shape
        (extractStridedSlice S1x800000 ![1, 0] (m ((c : Thread nD τ).loc main_arg19)) Gen.slices_S2x800000_S1x800000_1_0)
        Gen.shapeCasts_S1x800000_S800000 i) :=
  hostOps0_main_v3 (Gen.W0 m ρ c)

theorem W1_main_v38 (c : Dev nD) :
    Gen.W1 m ρ c (Proc.devRef .tc main_v38) =
      Host.gather gather_S256x16_S50000x1_S50000x16_1_0_n_n_0_1_116 (m ((c : Thread nD τ).loc main_arg2))
      (broadcastInDim S50000x1 ![0] Gen.bcast_S50000_S50000x1_0
        (select
          (cmpi CmpIPredicate.slt (m ((c : Thread nD τ).loc main_arg20))
            (broadcastInDim S50000 ![] Gen.bcast_S_S50000 (constantI S_ 32 0#32)))
          (addi (m ((c : Thread nD τ).loc main_arg20))
            (broadcastInDim S50000 ![] Gen.bcast_S_S50000 (constantI S_ 32 256#32)))
          (m ((c : Thread nD τ).loc main_arg20)))) :=
  hostOps0_main_v38 (Gen.W0 m ρ c)

/-! ## What the second region finds in its windows -/

theorem V3_main_v10 (c : Dev nD) :
    Gen.V3 m ρ c main_v10 =
      Host.gather gather_S50000x64_S800000x1_S800000x64_1_0_n_n_0_1_164 (m ((c : Thread nD τ).loc main_arg0))
      (broadcastInDim S800000x1 ![0] Gen.bcast_S800000_S800000x1_0
        (select
          (cmpi CmpIPredicate.slt
            (fun i =>
              shapeCast (Ref.ty main_v1).shape
                (extractStridedSlice S1x800000 ![0, 0] (m ((c : Thread nD τ).loc main_arg19))
                  Gen.slices_S2x800000_S1x800000_0_0)
                Gen.shapeCasts_S1x800000_S800000 i)
            (broadcastInDim S800000 ![] Gen.bcast_S_S800000 (constantI S_ 32 0#32)))
          (addi
            (fun i =>
              shapeCast (Ref.ty main_v1).shape
                (extractStridedSlice S1x800000 ![0, 0] (m ((c : Thread nD τ).loc main_arg19))
                  Gen.slices_S2x800000_S1x800000_0_0)
                Gen.shapeCasts_S1x800000_S800000 i)
            (broadcastInDim S800000 ![] Gen.bcast_S_S800000 (constantI S_ 32 50000#32)))
          fun i =>
          shapeCast (Ref.ty main_v1).shape
            (extractStridedSlice S1x800000 ![0, 0] (m ((c : Thread nD τ).loc main_arg19))
              Gen.slices_S2x800000_S1x800000_0_0)
            Gen.shapeCasts_S1x800000_S800000 i)) :=
  ((keep1 _ main_v10 (by decide)).trans (region0_keep m ρ c main_v10 (by decide))).trans (V1_main_v10 m ρ c)

theorem V3_main_v41 (c : Dev nD) : Gen.V3 m ρ c main_v41 = (Gen.dat0 (Gen.V1 m ρ) c).arrAt 8 cfg0.N :=
  (keep1 _ main_v41 (by decide)).trans (Gen.W2_arr m ρ c 8)

theorem V3_main_arg7 (c : Dev nD) : Gen.V3 m ρ c main_arg7 = m ((c : Thread nD τ).loc main_arg7) :=
  W3_arg m ρ c main_arg7 (by decide) (by decide) (by decide)

theorem V3_main_arg9 (c : Dev nD) : Gen.V3 m ρ c main_arg9 = m ((c : Thread nD τ).loc main_arg9) :=
  W3_arg m ρ c main_arg9 (by decide) (by decide) (by decide)

theorem V3_main_v42 (c : Dev nD) :
    Gen.V3 m ρ c main_v42 =
      (fun i => shapeCast (Ref.ty main_v42).shape (m ((c : Thread nD τ).loc main_arg8)) Gen.shapeCasts_S128_S1x128 i) :=
  (hostOps1_main_v42 (Gen.W2 m ρ c)).trans (by rw [W2_arg m ρ c main_arg8 (by decide) (by decide)])

theorem V3_main_v43 (c : Dev nD) :
    Gen.V3 m ρ c main_v43 =
      (fun i => shapeCast (Ref.ty main_v43).shape (m ((c : Thread nD τ).loc main_arg10)) Gen.shapeCasts_S128_S1x128 i) :=
  (hostOps1_main_v43 (Gen.W2 m ρ c)).trans (by rw [W2_arg m ρ c main_arg10 (by decide) (by decide)])

/-! ## What the third region finds in its windows -/

theorem W4_main_v44 (c : Dev nD) : Gen.W4 m ρ c (Proc.devRef .tc main_v44) = (Gen.dat1 (Gen.V3 m ρ) c).arrAt 6 cfg1.N :=
  Gen.W4_arr m ρ c 6

theorem W4_main_v3 (c : Dev nD) :
    Gen.W4 m ρ c (Proc.devRef .tc main_v3) =
      (fun i =>
      shapeCast (Ref.ty main_v3).shape
        (extractStridedSlice S1x800000 ![1, 0] (m ((c : Thread nD τ).loc main_arg19)) Gen.slices_S2x800000_S1x800000_1_0)
        Gen.shapeCasts_S1x800000_S800000 i) :=
  (region1_keep m ρ c main_v3 (by decide)).trans ((keep1 _ main_v3 (by decide)).trans ((region0_keep m ρ c main_v3 (by decide)).trans (W1_main_v3 m ρ c)))

theorem V5_main_arg0 (c : Dev nD) : Gen.V5 m ρ c main_arg0 = m ((c : Thread nD τ).loc main_arg0) :=
  W5_arg m ρ c main_arg0 (by decide) (by decide) (by decide) (by decide) (by decide)

theorem V5_main_v56 (c : Dev nD) :
    Gen.V5 m ρ c main_v56 =
      Host.divf
      (Host.scatterAdd scatter_S50000x128_S800000x1_S800000x128_1_0_0_1
        (broadcastInDim S50000x128 ![] Gen.bcast_S_S50000x128 (constant S_ FTy.f32 0x00000000#32))
        (broadcastInDim S800000x1 ![0] Gen.bcast_S800000_S800000x1_0 ((fun i => shapeCast (Ref.ty main_v3).shape (extractStridedSlice S1x800000 ![1, 0] (m ((c : Thread nD τ).loc main_arg19)) Gen.slices_S2x800000_S1x800000_1_0) Gen.shapeCasts_S1x800000_S800000 i)))
        ((Gen.dat1 (Gen.V3 m ρ) c).arrAt 6 cfg1.N))
      (broadcastInDim S50000x128 ![0, 1] Gen.bcast_S50000x1_S50000x128_0_1
        (broadcastInDim S50000x1 ![0] Gen.bcast_S50000_S50000x1_0
          (maximumf
            (Host.scatterAdd scatter_S50000_S800000x1_S800000_n_0_0_1
              (broadcastInDim S50000 ![] Gen.bcast_S_S50000 (constant S_ FTy.f32 0x00000000#32))
              (broadcastInDim S800000x1 ![0] Gen.bcast_S800000_S800000x1_0 ((fun i => shapeCast (Ref.ty main_v3).shape (extractStridedSlice S1x800000 ![1, 0] (m ((c : Thread nD τ).loc main_arg19)) Gen.slices_S2x800000_S1x800000_1_0) Gen.shapeCasts_S1x800000_S800000 i)))
              (broadcastInDim S800000 ![] Gen.bcast_S_S800000 (constant S_ FTy.f32 0x3F800000#32)))
            (broadcastInDim S50000 ![] Gen.bcast_S_S50000 (constant S_ FTy.f32 0x3F800000#32))))) :=
  (hostOps2_main_v56 (Gen.W4 m ρ c)).trans (by rw [W4_main_v44 m ρ c, W4_main_v3 m ρ c])

theorem V5_main_v38 (c : Dev nD) :
    Gen.V5 m ρ c main_v38 =
      Host.gather gather_S256x16_S50000x1_S50000x16_1_0_n_n_0_1_116 (m ((c : Thread nD τ).loc main_arg2))
      (broadcastInDim S50000x1 ![0] Gen.bcast_S50000_S50000x1_0
        (select
          (cmpi CmpIPredicate.slt (m ((c : Thread nD τ).loc main_arg20))
            (broadcastInDim S50000 ![] Gen.bcast_S_S50000 (constantI S_ 32 0#32)))
          (addi (m ((c : Thread nD τ).loc main_arg20))
            (broadcastInDim S50000 ![] Gen.bcast_S_S50000 (constantI S_ 32 256#32)))
          (m ((c : Thread nD τ).loc main_arg20)))) :=
  (keep2 _ main_v38 (by decide)).trans ((region1_keep m ρ c main_v38 (by decide)).trans ((keep1 _ main_v38 (by decide)).trans ((region0_keep m ρ c main_v38 (by decide)).trans (W1_main_v38 m ρ c))))

theorem V5_main_arg11 (c : Dev nD) : Gen.V5 m ρ c main_arg11 = m ((c : Thread nD τ).loc main_arg11) :=
  W5_arg m ρ c main_arg11 (by decide) (by decide) (by decide) (by decide) (by decide)

theorem V5_main_arg13 (c : Dev nD) : Gen.V5 m ρ c main_arg13 = m ((c : Thread nD τ).loc main_arg13) :=
  W5_arg m ρ c main_arg13 (by decide) (by decide) (by decide) (by decide) (by decide)

theorem V5_main_v57 (c : Dev nD) :
    Gen.V5 m ρ c main_v57 =
      (fun i => shapeCast (Ref.ty main_v57).shape (m ((c : Thread nD τ).loc main_arg12)) Gen.shapeCasts_S128_S1x128 i) :=
  (hostOps2_main_v57 (Gen.W4 m ρ c)).trans (by rw [W4_arg m ρ c main_arg12 (by decide) (by decide) (by decide) (by decide)])

theorem V5_main_v58 (c : Dev nD) :
    Gen.V5 m ρ c main_v58 =
      (fun i => shapeCast (Ref.ty main_v58).shape (m ((c : Thread nD τ).loc main_arg14)) Gen.shapeCasts_S64_S1x64 i) :=
  (hostOps2_main_v58 (Gen.W4 m ρ c)).trans (by rw [W4_arg m ρ c main_arg14 (by decide) (by decide) (by decide) (by decide)])

/-! ## What the fourth region finds in its windows -/

theorem W6_main_v59 (c : Dev nD) : Gen.W6 m ρ c (Proc.devRef .tc main_v59) = (Gen.dat2 (Gen.V5 m ρ) c).arrAt 7 cfg2.N :=
  Gen.W6_arr m ρ c 7

theorem V7_main_arg2 (c : Dev nD) : Gen.V7 m ρ c main_arg2 = m ((c : Thread nD τ).loc main_arg2) :=
  W7_arg m ρ c main_arg2 (by decide) (by decide) (by decide) (by decide) (by decide) (by decide) (by decide)

theorem V7_main_v71 (c : Dev nD) :
    Gen.V7 m ρ c main_v71 =
      Host.divf
      (Host.scatterAdd scatter_S256x64_S50000x1_S50000x64_1_0_0_1
        (broadcastInDim S256x64 ![] Gen.bcast_S_S256x64 (constant S_ FTy.f32 0x00000000#32))
        (broadcastInDim S50000x1 ![0] Gen.bcast_S50000_S50000x1_0 (m ((c : Thread nD τ).loc main_arg20)))
        ((Gen.dat2 (Gen.V5 m ρ) c).arrAt 7 cfg2.N))
      (broadcastInDim S256x64 ![0, 1] Gen.bcast_S256x1_S256x64_0_1
        (broadcastInDim S256x1 ![0] Gen.bcast_S256_S256x1_0
          (maximumf
            (Host.scatterAdd scatter_S256_S50000x1_S50000_n_0_0_1
              (broadcastInDim S256 ![] Gen.bcast_S_S256 (constant S_ FTy.f32 0x00000000#32))
              (broadcastInDim S50000x1 ![0] Gen.bcast_S50000_S50000x1_0 (m ((c : Thread nD τ).loc main_arg20)))
              (broadcastInDim S50000 ![] Gen.bcast_S_S50000 (constant S_ FTy.f32 0x3F800000#32)))
            (broadcastInDim S256 ![] Gen.bcast_S_S256 (constant S_ FTy.f32 0x3F800000#32))))) :=
  (hostOps3_main_v71 (Gen.W6 m ρ c)).trans (by rw [W6_main_v59 m ρ c, W6_arg m ρ c main_arg20 (by decide) (by decide) (by decide) (by decide) (by decide) (by decide)])

theorem V7_main_arg15 (c : Dev nD) : Gen.V7 m ρ c main_arg15 = m ((c : Thread nD τ).loc main_arg15) :=
  W7_arg m ρ c main_arg15 (by decide) (by decide) (by decide) (by decide) (by decide) (by decide) (by decide)

theorem V7_main_arg17 (c : Dev nD) : Gen.V7 m ρ c main_arg17 = m ((c : Thread nD τ).loc main_arg17) :=
  W7_arg m ρ c main_arg17 (by decide) (by decide) (by decide) (by decide) (by decide) (by decide) (by decide)

theorem V7_main_v72 (c : Dev nD) :
    Gen.V7 m ρ c main_v72 =
      (fun i => shapeCast (Ref.ty main_v72).shape (m ((c : Thread nD τ).loc main_arg16)) Gen.shapeCasts_S128_S1x128 i) :=
  (hostOps3_main_v72 (Gen.W6 m ρ c)).trans (by rw [W6_arg m ρ c main_arg16 (by decide) (by decide) (by decide) (by decide) (by decide) (by decide)])

theorem V7_main_v73 (c : Dev nD) :
    Gen.V7 m ρ c main_v73 =
      (fun i => shapeCast (Ref.ty main_v73).shape (m ((c : Thread nD τ).loc main_arg18)) Gen.shapeCasts_S32_S1x32 i) :=
  (hostOps3_main_v73 (Gen.W6 m ρ c)).trans (by rw [W6_arg m ρ c main_arg18 (by decide) (by decide) (by decide) (by decide) (by decide) (by decide)])

end Cert.KernelIdeal.HostRead

end
-- ==== Proof.LibTwoLayer.lean ====
/-
  General lemmas: the pieces of a two-layer perceptron computed tile by tile, read at an index.

  * one piece of the first layer: a row block times a band of rows of the first weight matrix, into a zero
    accumulator, is the piece's row against those rows;
  * the hidden layer: accumulated pieces plus a one-row bias laid along every row, rectified;
  * the output layer: hidden units times the second weight matrix, plus a one-row bias laid along every row.
  Narrowing a product's operands is the identity on extended reals, so it does not show in the values.
-/
import proofs.«158231_j85143431676130_1_alg».proof.Proof.Spec
import proofs.«158231_j85143431676130_1_alg».proof.Proof.LibPlainProduct
import Idealize.ShloMosaic.Lib.ValueLayout
import Idealize.ShloMosaic.Lib.Pipeline.Value

noncomputable section

namespace Cert.LibTwoLayer

open Idealize.ShloMosaic Idealize.ShloMosaic.ValueIdx Cert.Spec

variable {m k K h n : Nat}

/-- One piece of the first layer at `(a, c)`: the piece's row `a` against rows `o, o+1, …, o+k-1` of the weights. -/
theorem part_apply (d : DotDims (Sh m k) (Sh k h) (Sh m h)) (hd : d = DotDims.plain m k h)
    (A : FVec Ideal (Sh m k) .bf16) (X : (Sh m k).Idx → EReal) (W : FVec Ideal (Sh K h) .f32) (o : Nat)
    (hs : (Sh K h).Slices ![o, 0] (Sh k h)) (hb : FTy.bf16.bits < FTy.f32.bits) (hoK : o + k ≤ K)
    (a : Fin m) (c : Fin h) (hA : ∀ e : Fin k, A (ix2 a e) = X (ix2 a e)) :
    matmul d none A (truncf .bf16 (extractStridedSlice (Sh k h) ![o, 0] W hs) hb) (constant (Sh m h) .f32 0x00000000#32) (ix2 a c)
      = dotRow (rowOf X a) W o c := by
  rw [Cert.PlainProduct.matmul_plain_apply d hd]
  unfold dotRow rowOf
  refine Finset.sum_congr rfl fun e _ => ?_
  rw [hA e, rowAt_of_lt W (o + e.val) (by have := e.isLt; omega) c]
  refine congrArg (X (ix2 a e) * ·) ?_
  exact slice2_axis0_apply o W hs e c ⟨o + e.val, by have := e.isLt; omega⟩ rfl

/-- A hidden unit at `(a, c)`: the accumulated pieces plus the bias row's entry `c`, rectified. -/
theorem hidden_apply (acc : FVec Ideal (Sh m h) .f32) (B : (Sh 1 h).Idx → EReal)
    (hc : (Sh 1 h).ShapeCasts (Sh 1 h)) (hbr : (Sh 1 h).Broadcasts (Sh m h)) (a : Fin m) (c : Fin h) (pre : EReal)
    (hacc : acc (ix2 a c) = pre) :
    maximumf (addf acc (broadcastTo (Sh m h) (shapeCast (Sh 1 h) B hc) hbr))
        (broadcast (Sh m h) (Scalar.ofBits (F := Ideal) .f32 0x00000000#32)) (ix2 a c)
      = max (pre + B (ix2 0 c)) (Ideal.ofBits .f32 0x00000000#32) := by
  show max (acc (ix2 a c) + broadcastTo (Sh m h) (shapeCast (Sh 1 h) B hc) hbr (ix2 a c)) _ = _
  rw [hacc, broadcastTo_1b_ab_apply, shapeCast_self]
  rfl

/-- An output entry at `(a, j)`: the hidden row against column `j` of the second weights, plus the bias row's entry. -/
theorem second_apply (e : DotDims (Sh m h) (Sh h n) (Sh m n)) (he : e = DotDims.plain m h n)
    (H : FVec Ideal (Sh m h) .f32) (W₂ : FVec Ideal (Sh h n) .f32) (hb : FTy.bf16.bits < FTy.f32.bits)
    (B : (Sh 1 n).Idx → EReal) (hc : (Sh 1 n).ShapeCasts (Sh 1 n)) (hbr : (Sh 1 n).Broadcasts (Sh m n))
    (pre b₁ : Fin h → EReal) (a : Fin m) (j : Fin n)
    (hH : ∀ c : Fin h, H (ix2 a c) = max (pre c + b₁ c) (Ideal.ofBits .f32 0x00000000#32)) :
    addf (matmul e none (truncf .bf16 H hb) (truncf .bf16 W₂ hb) (constant (Sh m n) .f32 0x00000000#32))
        (broadcastTo (Sh m n) (shapeCast (Sh 1 n) B hc) hbr) (ix2 a j)
      = outRow pre b₁ W₂ (fun j => B (ix2 0 j)) j := by
  show matmul e none (truncf .bf16 H hb) (truncf .bf16 W₂ hb) (constant (Sh m n) .f32 0x00000000#32) (ix2 a j)
      + broadcastTo (Sh m n) (shapeCast (Sh 1 n) B hc) hbr (ix2 a j) = _
  rw [Cert.PlainProduct.matmul_plain_apply e he, broadcastTo_1b_ab_apply, shapeCast_self]
  unfold outRow
  refine congrArg (· + B (ix2 0 j)) ?_
  refine Finset.sum_congr rfl fun c _ => ?_
  rw [← hH c]
  rfl

end Cert.LibTwoLayer

end
-- ==== Proof.Payload.lean ====
/-
  Each region's body, as arithmetic: the value a grid point stores is the two-layer perceptron of the blocks it
  loaded. The matrix products into a zero accumulator are plain contractions, the narrowing of a product's operands
  is the identity on extended reals, the rows of the first weight matrix are cut among the pieces in order, and the
  biases are one-row arrays laid along every row.
-/
import proofs.«158231_j85143431676130_1_alg».proof.Proof.Gen.KernelIdeal.Skeleton
import proofs.«158231_j85143431676130_1_alg».proof.Proof.Spec
import proofs.«158231_j85143431676130_1_alg».proof.Proof.LibTwoLayer

noncomputable section

namespace Cert.KernelIdeal.Payload

open Idealize.ShloMosaic Idealize.ShloMosaic.ValueIdx Cert.KernelIdeal Cert.KernelIdeal.Gen Cert.LibTwoLayer

theorem pay0 (v0 : Vec Ideal S176x128 .f32) (v1 v7 : Vec Ideal S4000x64 .f32) (v14 : Vec Ideal S4000x32 .f32)
    (v20 : Vec Ideal S4000x16 .f32) (v27 : Vec Ideal S1x128 .f32) (v34 : Vec Ideal S128x64 .f32) (v37 : Vec Ideal S1x64 .f32) :
    Gen.k0_pay1 (Gen.k0_pay2 v0 v1 v7 v14 v20 v27 v34) v37
      = Spec.stage0 v1 v7 v14 v20 v0 (fun c => v27 (ix2 0 c)) v34 (fun j => v37 (ix2 0 j)) := by
  funext i
  obtain ⟨p, j, rfl⟩ : ∃ (p : Fin 4000) (j : Fin 64), i = ix2 p j := ⟨i 0, i 1, eq_ix2 i⟩
  unfold Gen.k0_pay1 Gen.k0_pay2
  refine second_apply _ rfl _ v34 bitsLt_bf16_f32 v37 _ _ _ (fun c => v27 (ix2 0 c)) p j (fun c => ?_)
  refine hidden_apply _ v27 _ _ p c _ ?_
  exact congrArg₂ (· + ·) (congrArg₂ (· + ·) (congrArg₂ (· + ·)
      (part_apply _ rfl _ v1 v0 0 _ _ (by omega) p c (fun e => congrFun (shapeCast_self v1 _) _))
      (part_apply _ rfl _ v7 v0 64 _ _ (by omega) p c (fun e => congrFun (shapeCast_self v7 _) _)))
      (part_apply _ rfl _ v14 v0 128 _ _ (by omega) p c (fun e => rfl)))
      (part_apply _ rfl _ v20 v0 160 _ _ (by omega) p c (fun e => congrFun (shapeCast_self v20 _) _))

theorem pay1 (v0 : Vec Ideal S128x128 .f32) (v1 v7 : Vec Ideal S4000x64 .f32) (v14 : Vec Ideal S1x128 .f32)
    (v21 : Vec Ideal S128x128 .f32) (v24 : Vec Ideal S1x128 .f32) :
    Gen.k1_pay1 v0 v1 v7 v14 v21 v24 = Spec.stage1 v1 v7 v0 (fun c => v14 (ix2 0 c)) v21 (fun j => v24 (ix2 0 j)) := by
  funext i
  obtain ⟨p, j, rfl⟩ : ∃ (p : Fin 4000) (j : Fin 128), i = ix2 p j := ⟨i 0, i 1, eq_ix2 i⟩
  unfold Gen.k1_pay1
  refine second_apply _ rfl _ v21 bitsLt_bf16_f32 v24 _ _ _ (fun c => v14 (ix2 0 c)) p j (fun c => ?_)
  refine hidden_apply _ v14 _ _ p c _ ?_
  exact congrArg₂ (· + ·)
      (part_apply _ rfl _ v1 v0 0 _ _ (by omega) p c (fun e => congrFun (shapeCast_self v1 _) _))
      (part_apply _ rfl _ v7 v0 64 _ _ (by omega) p c (fun e => congrFun (shapeCast_self v7 _) _))

theorem pay2 (v0 : Vec Ideal S208x128 .f32) (v1 : Vec Ideal S5000x64 .f32) (v6 : Vec Ideal S5000x128 .f32)
    (v13 : Vec Ideal S5000x16 .f32) (v20 : Vec Ideal S1x128 .f32) (v27 : Vec Ideal S128x64 .f32) (v30 : Vec Ideal S1x64 .f32) :
    Gen.k2_pay1 v0 v1 v6 v13 v20 v27 v30 = Spec.stage2 v1 v6 v13 v0 (fun c => v20 (ix2 0 c)) v27 (fun j => v30 (ix2 0 j)) := by
  funext i
  obtain ⟨p, j, rfl⟩ : ∃ (p : Fin 5000) (j : Fin 64), i = ix2 p j := ⟨i 0, i 1, eq_ix2 i⟩
  unfold Gen.k2_pay1
  refine second_apply _ rfl _ v27 bitsLt_bf16_f32 v30 _ _ _ (fun c => v20 (ix2 0 c)) p j (fun c => ?_)
  refine hidden_apply _ v20 _ _ p c _ ?_
  exact congrArg₂ (· + ·) (congrArg₂ (· + ·)
      (part_apply _ rfl _ v1 v0 0 _ _ (by omega) p c (fun e => rfl))
      (part_apply _ rfl _ v6 v0 64 _ _ (by omega) p c (fun e => congrFun (shapeCast_self v6 _) _)))
      (part_apply _ rfl _ v13 v0 192 _ _ (by omega) p c (fun e => congrFun (shapeCast_self v13 _) _))

theorem pay3 (v0 : Vec Ideal S80x128 .f32) (v1 : Vec Ideal S256x16 .f32) (v6 : Vec Ideal S256x64 .f32)
    (v13 : Vec Ideal S1x128 .f32) (v20 : Vec Ideal S128x32 .f32) (v23 : Vec Ideal S1x32 .f32) :
    Gen.k3_pay1 v0 v1 v6 v13 v20 v23 = Spec.stage3 v1 v6 v0 (fun c => v13 (ix2 0 c)) v20 (fun j => v23 (ix2 0 j)) := by
  funext i
  obtain ⟨p, j, rfl⟩ : ∃ (p : Fin 256) (j : Fin 32), i = ix2 p j := ⟨i 0, i 1, eq_ix2 i⟩
  unfold Gen.k3_pay1
  refine second_apply _ rfl _ v20 bitsLt_bf16_f32 v23 _ _ _ (fun c => v13 (ix2 0 c)) p j (fun c => ?_)
  refine hidden_apply _ v13 _ _ p c _ ?_
  exact congrArg₂ (· + ·)
      (part_apply _ rfl _ v1 v0 0 _ _ (by omega) p c (fun e => rfl))
      (part_apply _ rfl _ v6 v0 16 _ _ (by omega) p c (fun e => congrFun (shapeCast_self v6 _) _))

end Cert.KernelIdeal.Payload

end
-- ==== Proof.Blocks0.lean ====
/-
  From blocks to the array, for the edge model's region (the first pallas_call): the region's output array after all
  its grid points is the two-layer perceptron Spec.stage0 of the region's input arrays as the region finds them.
  Point t reads rows 4000 t … 4000 t + 3999 of the row-tiled inputs and the whole weights and biases, and writes
  rows 4000 t … 4000 t + 3999 of the output; an entry of the perceptron depends on its own row of the inputs only, so
  what point t writes back is block t of the perceptron of the whole arrays, and the 200 blocks cover the output array.
-/
import proofs.«158231_j85143431676130_1_alg».proof.Proof.Gen.KernelIdeal.Frame
import proofs.«158231_j85143431676130_1_alg».proof.Proof.Spec
import proofs.«158231_j85143431676130_1_alg».proof.Proof.Payload
import Idealize.ShloMosaic.Lib.Pipeline.Value
import Idealize.ShloMosaic.Lib.ValueIdx
import Idealize.ShloMosaic.PureOps.Ideal

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The edge model's region: 200 grid points, 4000 rows each -/

theorem offsets_zero0 : (![0, 0] : Fin 2 → Nat) = fun _ => 0 := funext fun a => by fin_cases a <;> rfl

/-- The stage function of the region's input arrays as the region finds them. -/
abbrev stageArr0 (c : Dev nD) : S800000x64.Idx → EReal :=
  Spec.stage0 (V c main_v10) (V c main_v17) (V c main_arg1) (V c main_v31) (V c main_arg3)
      (fun e => V c main_v39 (ix2 0 e)) (V c main_arg5) (fun j => V c main_v40 (ix2 0 j))

/-- The printed index maps, decided over the grid: the row-tiled inputs and the output sit at the point's number on the
    row axis and at 0 on the column axis; the weights and biases sit at block (0, 0). -/
theorem index_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- Element (p, j) of the output's block at point t sits in the array at row 4000 t + p, column j. -/
theorem out_emb0 (t : Fin cfg0.N) (p : Fin 4000) (j : Fin 64) (hr : t.val * 4000 + p.val < 800000) :
    ((cfg0.win 8).blk t).view.emb (ix2 p j) = (ix2 ⟨t.val * 4000 + p.val, hr⟩ j : S800000x64.Idx) := by
  obtain ⟨-, -, -, -, -, -, -, -, -, -, -, -, -, -, -, -, e0, e1⟩ := index_facts0 t
  funext a; apply Fin.ext
  match a with
  | ⟨0, _⟩ => show win0_8.index t (0 : Fin 2) * 4000 + 1 * p.val = t.val * 4000 + p.val; omega
  | ⟨1, _⟩ => show win0_8.index t (1 : Fin 2) * 64 + 1 * j.val = j.val; omega

/-- Element (p, e) of the first piece's block at point t is the array's at row 4000 t + p. -/
theorem read0_0 (c : Dev nD) (t : Fin cfg0.N) (p : Fin 4000) (e : Fin 64) (hr : t.val * 4000 + p.val < 800000) :
    iblk0 V c 0 t (ix2 p e) = V c main_v10 (ix2 ⟨t.val * 4000 + p.val, hr⟩ e) := by
  obtain ⟨e0, e1, -⟩ := index_facts0 t
  show V c main_v10 (((cfg0.win 0).blk t).view.emb (ix2 p e)) = V c main_v10 _
  refine congrArg (V c main_v10) ?_
  funext a; apply Fin.ext
  match a with
  | ⟨0, _⟩ => show win0_0.index t (0 : Fin 2) * 4000 + 1 * p.val = t.val * 4000 + p.val; omega
  | ⟨1, _⟩ => show win0_0.index t (1 : Fin 2) * 64 + 1 * e.val = e.val; omega

/-- Element (p, e) of the second piece's block at point t is the array's at row 4000 t + p. -/
theorem read0_1 (c : Dev nD) (t : Fin cfg0.N) (p : Fin 4000) (e : Fin 64) (hr : t.val * 4000 + p.val < 800000) :
    iblk0 V c 1 t (ix2 p e) = V c main_v17 (ix2 ⟨t.val * 4000 + p.val, hr⟩ e) := by
  obtain ⟨-, -, e0, e1, -⟩ := index_facts0 t
  show V c main_v17 (((cfg0.win 1).blk t).view.emb (ix2 p e)) = V c main_v17 _
  refine congrArg (V c main_v17) ?_
  funext a; apply Fin.ext
  match a with
  | ⟨0, _⟩ => show win0_1.index t (0 : Fin 2) * 4000 + 1 * p.val = t.val * 4000 + p.val; omega
  | ⟨1, _⟩ => show win0_1.index t (1 : Fin 2) * 64 + 1 * e.val = e.val; omega

/-- Element (p, e) of the third piece's block at point t is the array's at row 4000 t + p. -/
theorem read0_2 (c : Dev nD) (t : Fin cfg0.N) (p : Fin 4000) (e : Fin 32) (hr : t.val * 4000 + p.val < 800000) :
    iblk0 V c 2 t (ix2 p e) = V c main_arg1 (ix2 ⟨t.val * 4000 + p.val, hr⟩ e) := by
  obtain ⟨-, -, -, -, e0, e1, -⟩ := index_facts0 t
  show V c main_arg1 (((cfg0.win 2).blk t).view.emb (ix2 p e)) = V c main_arg1 _
  refine congrArg (V c main_arg1) ?_
  funext a; apply Fin.ext
  match a with
  | ⟨0, _⟩ => show win0_2.index t (0 : Fin 2) * 4000 + 1 * p.val = t.val * 4000 + p.val; omega
  | ⟨1, _⟩ => show win0_2.index t (1 : Fin 2) * 32 + 1 * e.val = e.val; omega

/-- Element (p, e) of the fourth piece's block at point t is the array's at row 4000 t + p. -/
theorem read0_3 (c : Dev nD) (t : Fin cfg0.N) (p : Fin 4000) (e : Fin 16) (hr : t.val * 4000 + p.val < 800000) :
    iblk0 V c 3 t (ix2 p e) = V c main_v31 (ix2 ⟨t.val * 4000 + p.val, hr⟩ e) := by
  obtain ⟨-, -, -, -, -, -, e0, e1, -⟩ := index_facts0 t
  show V c main_v31 (((cfg0.win 3).blk t).view.emb (ix2 p e)) = V c main_v31 _
  refine congrArg (V c main_v31) ?_
  funext a; apply Fin.ext
  match a with
  | ⟨0, _⟩ => show win0_3.index t (0 : Fin 2) * 4000 + 1 * p.val = t.val * 4000 + p.val; omega
  | ⟨1, _⟩ => show win0_3.index t (1 : Fin 2) * 16 + 1 * e.val = e.val; omega

/-- The first weight matrix's block is the weight matrix. -/
theorem whole0_4 (c : Dev nD) (t : Fin cfg0.N) : iblk0 V c 4 t = V c main_arg3 := by
  obtain ⟨-, -, -, -, -, -, -, -, e0, e1, -⟩ := index_facts0 t
  funext y
  show V c main_arg3 (((cfg0.win 4).blk t).view.emb y) = V c main_arg3 y
  refine congrArg (V c main_arg3) ?_
  funext a; apply Fin.ext
  match a with
  | ⟨0, _⟩ => show win0_4.index t (0 : Fin 2) * 176 + 1 * (y 0).val = (y 0).val; omega
  | ⟨1, _⟩ => show win0_4.index t (1 : Fin 2) * 128 + 1 * (y 1).val = (y 1).val; omega

/-- The first bias's block is the bias. -/
theorem whole0_5 (c : Dev nD) (t : Fin cfg0.N) : iblk0 V c 5 t = V c main_v39 := by
  obtain ⟨-, -, -, -, -, -, -, -, -, -, e0, e1, -⟩ := index_facts0 t
  funext y
  show V c main_v39 (((cfg0.win 5).blk t).view.emb y) = V c main_v39 y
  refine congrArg (V c main_v39) ?_
  funext a; apply Fin.ext
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- The second weight matrix's block is the weight matrix. -/
theorem whole0_6 (c : Dev nD) (t : Fin cfg0.N) : iblk0 V c 6 t = V c main_arg5 := by
  obtain ⟨-, -, -, -, -, -, -, -, -, -, -, -, e0, e1, -⟩ := index_facts0 t
  funext y
  show V c main_arg5 (((cfg0.win 6).blk t).view.emb y) = V c main_arg5 y
  refine congrArg (V c main_arg5) ?_
  funext a; apply Fin.ext
  match a with
  | ⟨0, _⟩ => show win0_6.index t (0 : Fin 2) * 128 + 1 * (y 0).val = (y 0).val; omega
  | ⟨1, _⟩ => show win0_6.index t (1 : Fin 2) * 64 + 1 * (y 1).val = (y 1).val; omega

/-- The second bias's block is the bias. -/
theorem whole0_7 (c : Dev nD) (t : Fin cfg0.N) : iblk0 V c 7 t = V c main_v40 := by
  obtain ⟨-, -, -, -, -, -, -, -, -, -, -, -, -, -, e0, e1, -⟩ := index_facts0 t
  funext y
  show V c main_v40 (((cfg0.win 7).blk t).view.emb y) = V c main_v40 y
  refine congrArg (V c main_v40) ?_
  funext a; apply Fin.ext
  match a with
  | ⟨0, _⟩ => show win0_7.index t (0 : Fin 2) * 1 + 1 * (y 0).val = (y 0).val; omega
  | ⟨1, _⟩ => show win0_7.index t (1 : Fin 2) * 64 + 1 * (y 1).val = (y 1).val; omega

/-- Two functions, one of the output block's index and one of the array's index, that agree row by row (row p of the
    first against row 4000 t + p of the second): the first, written back at point t, is block t of the second. -/
theorem block_of_rows0 (t : Fin cfg0.N) (B : S4000x64.Idx → EReal) (G : S800000x64.Idx → EReal)
    (h : ∀ (p : Fin 4000) (j : Fin 64) (hr : t.val * 4000 + p.val < 800000), B (ix2 p j) = G (ix2 ⟨t.val * 4000 + p.val, hr⟩ j)) :
    (cfg0.win 8).cut (grid0.coords t) B = ((cfg0.win 8).blk t).view.read (Elt Ideal) G := by
  have ht : t.val < 200 := Nat.lt_of_lt_of_eq t.isLt N_0
  funext y
  obtain ⟨p, j, rfl⟩ : ∃ (p : Fin 4000) (j : Fin 64), y = ix2 p j := ⟨y 0, y 1, eq_ix2 y⟩
  have hp : p.val < 4000 := p.isLt
  have hr : t.val * 4000 + p.val < 800000 := by omega
  show B (ix2 p j) = G (((cfg0.win 8).blk t).view.emb (ix2 p j))
  rw [out_emb0 t p j hr]
  exact h p j hr

/-- What point t writes back is block t of the stage function of the region's arrays. -/
theorem flushed0 (c : Dev nD) (t : Fin cfg0.N) :
    (dat0 V c).flushed 8 t = ((cfg0.win 8).blk t).view.read (Elt Ideal) (stageArr0 V c) := by
  show (cfg0.win 8).cut (grid0.coords t) ((dat0 V c).after 8 t) = _
  rw [after0_8]
  unfold out0_8
  rw [View.canon_unit_zero offsets_zero0]
  simp only [View.ld_unit_zero (S := S4000x64) offsets_zero0, View.ld_unit_zero (S := S4000x32) offsets_zero0,
    View.ld_unit_zero (S := S4000x16) offsets_zero0, View.ld_unit_zero (S := S176x128) offsets_zero0,
    View.ld_unit_zero (S := S1x128) offsets_zero0, View.ld_unit_zero (S := S128x64) offsets_zero0,
    View.ld_unit_zero (S := S1x64) offsets_zero0]
  rw [Payload.pay0, whole0_4 V c t, whole0_5 V c t, whole0_6 V c t, whole0_7 V c t]
  refine block_of_rows0 t _ _ fun p j hr => ?_
  exact Spec.stage0_row _ _ _ _ _ _ _ _ _ _ _ _ p ⟨t.val * 4000 + p.val, hr⟩ j
    (funext fun e => read0_0 V c t p e hr)
    (funext fun e => read0_1 V c t p e hr)
    (funext fun e => read0_2 V c t p e hr)
    (funext fun e => read0_3 V c t p e hr)

/-- An index of the array is in point t's block iff each coordinate is in the block's range on its axis. -/
theorem mem_block0 (t : Fin cfg0.N) (i : S800000x64.Idx) :
    i ∈ ((cfg0.win 8).blk t).view.set ↔ ∀ a : Fin 2, win0_8.index t a * S4000x64.size a ≤ (i a).val
      ∧ (i a).val < win0_8.index t a * S4000x64.size a + S4000x64.size a := by
  show i ∈ ((View.whole main_v41).slice (win0_8.rect t)).set ↔ _
  rw [View.set_slice_whole, Rect.mem_set_unit]
  exact Iff.rfl

/-- Every index of the array is in the block of the point numbered by its row divided by the block's rows. -/
theorem cover0 (i : S800000x64.Idx) :
    ∃ t : Fin cfg0.N, (cfg0.win 8).flush t = true ∧ i ∈ ((cfg0.win 8).blk t).view.set := by
  have hi0 : (i 0).val < 800000 := (i 0).isLt
  have hi1 : (i 1).val < 64 := (i 1).isLt
  have hq : (i 0).val / 4000 < cfg0.N := Nat.lt_of_lt_of_eq (by omega) N_0.symm
  obtain ⟨-, -, -, -, -, -, -, -, -, -, -, -, -, -, -, -, e0, e1⟩ := index_facts0 ⟨(i 0).val / 4000, hq⟩
  refine ⟨⟨(i 0).val / 4000, hq⟩, flush0_8 _, ?_⟩
  rw [mem_block0]
  intro a
  match a with
  | ⟨0, _⟩ =>
    show win0_8.index ⟨(i 0).val / 4000, hq⟩ (0 : Fin 2) * 4000 ≤ (i 0).val
      ∧ (i 0).val < win0_8.index ⟨(i 0).val / 4000, hq⟩ (0 : Fin 2) * 4000 + 4000
    rw [e0]; show (i 0).val / 4000 * 4000 ≤ (i 0).val ∧ (i 0).val < (i 0).val / 4000 * 4000 + 4000; omega
  | ⟨1, _⟩ =>
    show win0_8.index ⟨(i 0).val / 4000, hq⟩ (1 : Fin 2) * 64 ≤ (i 1).val
      ∧ (i 1).val < win0_8.index ⟨(i 0).val / 4000, hq⟩ (1 : Fin 2) * 64 + 64
    rw [e1]; omega

/-- The region's output array after all grid points is the stage function of the region's input arrays. -/
theorem final0 (c : Dev nD) :
    (dat0 V c).arrAt 8 cfg0.N = Spec.stage0 (V c main_v10) (V c main_v17) (V c main_arg1) (V c main_v31) (V c main_arg3)
      (fun e => V c main_v39 (ix2 0 e)) (V c main_arg5) (fun j => V c main_v40 (ix2 0 j)) :=
  (dat0 V c).arrAt_eq_of_cover 8 (stageArr0 V c) (fun t _ => flushed0 V c t) cover0

end Cert.KernelIdeal.Blocks

end
-- ==== Proof.Blocks1.lean ====
/-
  From blocks to the array, for the message model's region (the second pallas_call): the region's output array after all
  its grid points is the two-layer perceptron Spec.stage1 of the region's input arrays as the region finds them.
  Point t reads rows 4000 t … 4000 t + 3999 of the row-tiled inputs and the whole weights and biases, and writes
  rows 4000 t … 4000 t + 3999 of the output; an entry of the perceptron depends on its own row of the inputs only, so
  what point t writes back is block t of the perceptron of the whole arrays, and the 200 blocks cover the output array.
-/
import proofs.«158231_j85143431676130_1_alg».proof.Proof.Gen.KernelIdeal.Frame
import proofs.«158231_j85143431676130_1_alg».proof.Proof.Spec
import proofs.«158231_j85143431676130_1_alg».proof.Proof.Payload
import Idealize.ShloMosaic.Lib.Pipeline.Value
import Idealize.ShloMosaic.Lib.ValueIdx
import Idealize.ShloMosaic.PureOps.Ideal

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The message model's region: 200 grid points, 4000 rows each -/

theorem offsets_zero1 : (![0, 0] : Fin 2 → Nat) = fun _ => 0 := funext fun a => by fin_cases a <;> rfl

/-- The stage function of the region's input arrays as the region finds them. -/
abbrev stageArr1 (c : Dev nD) : S800000x128.Idx → EReal :=
  Spec.stage1 (V c main_v10) (V c main_v41) (V c main_arg7)
      (fun e => V c main_v42 (ix2 0 e)) (V c main_arg9) (fun j => V c main_v43 (ix2 0 j))

/-- The printed index maps, decided over the grid: the row-tiled inputs and the output sit at the point's number on the
    row axis and at 0 on the column axis; the weights and biases sit at block (0, 0). -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Element (p, j) of the output's block at point t sits in the array at row 4000 t + p, column j. -/
theorem out_emb1 (t : Fin cfg1.N) (p : Fin 4000) (j : Fin 128) (hr : t.val * 4000 + p.val < 800000) :
    ((cfg1.win 6).blk t).view.emb (ix2 p j) = (ix2 ⟨t.val * 4000 + p.val, hr⟩ j : S800000x128.Idx) := by
  obtain ⟨-, -, -, -, -, -, -, -, -, -, -, -, e0, e1⟩ := index_facts1 t
  funext a; apply Fin.ext
  match a with
  | ⟨0, _⟩ => show win1_6.index t (0 : Fin 2) * 4000 + 1 * p.val = t.val * 4000 + p.val; omega
  | ⟨1, _⟩ => show win1_6.index t (1 : Fin 2) * 128 + 1 * j.val = j.val; omega

/-- Element (p, e) of the first piece's block at point t is the array's at row 4000 t + p. -/
theorem read1_0 (c : Dev nD) (t : Fin cfg1.N) (p : Fin 4000) (e : Fin 64) (hr : t.val * 4000 + p.val < 800000) :
    iblk1 V c 0 t (ix2 p e) = V c main_v10 (ix2 ⟨t.val * 4000 + p.val, hr⟩ e) := by
  obtain ⟨e0, e1, -⟩ := index_facts1 t
  show V c main_v10 (((cfg1.win 0).blk t).view.emb (ix2 p e)) = V c main_v10 _
  refine congrArg (V c main_v10) ?_
  funext a; apply Fin.ext
  match a with
  | ⟨0, _⟩ => show win1_0.index t (0 : Fin 2) * 4000 + 1 * p.val = t.val * 4000 + p.val; omega
  | ⟨1, _⟩ => show win1_0.index t (1 : Fin 2) * 64 + 1 * e.val = e.val; omega

/-- Element (p, e) of the second piece's block at point t is the array's at row 4000 t + p. -/
theorem read1_1 (c : Dev nD) (t : Fin cfg1.N) (p : Fin 4000) (e : Fin 64) (hr : t.val * 4000 + p.val < 800000) :
    iblk1 V c 1 t (ix2 p e) = V c main_v41 (ix2 ⟨t.val * 4000 + p.val, hr⟩ e) := by
  obtain ⟨-, -, e0, e1, -⟩ := index_facts1 t
  show V c main_v41 (((cfg1.win 1).blk t).view.emb (ix2 p e)) = V c main_v41 _
  refine congrArg (V c main_v41) ?_
  funext a; apply Fin.ext
  match a with
  | ⟨0, _⟩ => show win1_1.index t (0 : Fin 2) * 4000 + 1 * p.val = t.val * 4000 + p.val; omega
  | ⟨1, _⟩ => show win1_1.index t (1 : Fin 2) * 64 + 1 * e.val = e.val; omega

/-- The first weight matrix's block is the weight matrix. -/
theorem whole1_2 (c : Dev nD) (t : Fin cfg1.N) : iblk1 V c 2 t = V c main_arg7 := by
  obtain ⟨-, -, -, -, e0, e1, -⟩ := index_facts1 t
  funext y
  show V c main_arg7 (((cfg1.win 2).blk t).view.emb y) = V c main_arg7 y
  refine congrArg (V c main_arg7) ?_
  funext a; apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The first bias's block is the bias. -/
theorem whole1_3 (c : Dev nD) (t : Fin cfg1.N) : iblk1 V c 3 t = V c main_v42 := by
  obtain ⟨-, -, -, -, -, -, e0, e1, -⟩ := index_facts1 t
  funext y
  show V c main_v42 (((cfg1.win 3).blk t).view.emb y) = V c main_v42 y
  refine congrArg (V c main_v42) ?_
  funext a; apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The second weight matrix's block is the weight matrix. -/
theorem whole1_4 (c : Dev nD) (t : Fin cfg1.N) : iblk1 V c 4 t = V c main_arg9 := by
  obtain ⟨-, -, -, -, -, -, -, -, e0, e1, -⟩ := index_facts1 t
  funext y
  show V c main_arg9 (((cfg1.win 4).blk t).view.emb y) = V c main_arg9 y
  refine congrArg (V c main_arg9) ?_
  funext a; apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The second bias's block is the bias. -/
theorem whole1_5 (c : Dev nD) (t : Fin cfg1.N) : iblk1 V c 5 t = V c main_v43 := by
  obtain ⟨-, -, -, -, -, -, -, -, -, -, e0, e1, -⟩ := index_facts1 t
  funext y
  show V c main_v43 (((cfg1.win 5).blk t).view.emb y) = V c main_v43 y
  refine congrArg (V c main_v43) ?_
  funext a; apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- Two functions, one of the output block's index and one of the array's index, that agree row by row (row p of the
    first against row 4000 t + p of the second): the first, written back at point t, is block t of the second. -/
theorem block_of_rows1 (t : Fin cfg1.N) (B : S4000x128.Idx → EReal) (G : S800000x128.Idx → EReal)
    (h : ∀ (p : Fin 4000) (j : Fin 128) (hr : t.val * 4000 + p.val < 800000), B (ix2 p j) = G (ix2 ⟨t.val * 4000 + p.val, hr⟩ j)) :
    (cfg1.win 6).cut (grid1.coords t) B = ((cfg1.win 6).blk t).view.read (Elt Ideal) G := by
  have ht : t.val < 200 := Nat.lt_of_lt_of_eq t.isLt N_1
  funext y
  obtain ⟨p, j, rfl⟩ : ∃ (p : Fin 4000) (j : Fin 128), y = ix2 p j := ⟨y 0, y 1, eq_ix2 y⟩
  have hp : p.val < 4000 := p.isLt
  have hr : t.val * 4000 + p.val < 800000 := by omega
  show B (ix2 p j) = G (((cfg1.win 6).blk t).view.emb (ix2 p j))
  rw [out_emb1 t p j hr]
  exact h p j hr

/-- What point t writes back is block t of the stage function of the region's arrays. -/
theorem flushed1 (c : Dev nD) (t : Fin cfg1.N) :
    (dat1 V c).flushed 6 t = ((cfg1.win 6).blk t).view.read (Elt Ideal) (stageArr1 V c) := by
  show (cfg1.win 6).cut (grid1.coords t) ((dat1 V c).after 6 t) = _
  rw [after1_6]
  unfold out1_6
  rw [View.canon_unit_zero offsets_zero1]
  simp only [View.ld_unit_zero (S := S4000x64) offsets_zero1, View.ld_unit_zero (S := S128x128) offsets_zero1,
    View.ld_unit_zero (S := S1x128) offsets_zero1]
  rw [Payload.pay1, whole1_2 V c t, whole1_3 V c t, whole1_4 V c t, whole1_5 V c t]
  refine block_of_rows1 t _ _ fun p j hr => ?_
  exact Spec.stage1_row _ _ _ _ _ _ _ _ p ⟨t.val * 4000 + p.val, hr⟩ j
    (funext fun e => read1_0 V c t p e hr)
    (funext fun e => read1_1 V c t p e hr)

/-- An index of the array is in point t's block iff each coordinate is in the block's range on its axis. -/
theorem mem_block1 (t : Fin cfg1.N) (i : S800000x128.Idx) :
    i ∈ ((cfg1.win 6).blk t).view.set ↔ ∀ a : Fin 2, win1_6.index t a * S4000x128.size a ≤ (i a).val
      ∧ (i a).val < win1_6.index t a * S4000x128.size a + S4000x128.size a := by
  show i ∈ ((View.whole main_v44).slice (win1_6.rect t)).set ↔ _
  rw [View.set_slice_whole, Rect.mem_set_unit]
  exact Iff.rfl

/-- Every index of the array is in the block of the point numbered by its row divided by the block's rows. -/
theorem cover1 (i : S800000x128.Idx) :
    ∃ t : Fin cfg1.N, (cfg1.win 6).flush t = true ∧ i ∈ ((cfg1.win 6).blk t).view.set := by
  have hi0 : (i 0).val < 800000 := (i 0).isLt
  have hi1 : (i 1).val < 128 := (i 1).isLt
  have hq : (i 0).val / 4000 < cfg1.N := Nat.lt_of_lt_of_eq (by omega) N_1.symm
  obtain ⟨-, -, -, -, -, -, -, -, -, -, -, -, e0, e1⟩ := index_facts1 ⟨(i 0).val / 4000, hq⟩
  refine ⟨⟨(i 0).val / 4000, hq⟩, flush1_6 _, ?_⟩
  rw [mem_block1]
  intro a
  match a with
  | ⟨0, _⟩ =>
    show win1_6.index ⟨(i 0).val / 4000, hq⟩ (0 : Fin 2) * 4000 ≤ (i 0).val
      ∧ (i 0).val < win1_6.index ⟨(i 0).val / 4000, hq⟩ (0 : Fin 2) * 4000 + 4000
    rw [e0]; show (i 0).val / 4000 * 4000 ≤ (i 0).val ∧ (i 0).val < (i 0).val / 4000 * 4000 + 4000; omega
  | ⟨1, _⟩ =>
    show win1_6.index ⟨(i 0).val / 4000, hq⟩ (1 : Fin 2) * 128 ≤ (i 1).val
      ∧ (i 1).val < win1_6.index ⟨(i 0).val / 4000, hq⟩ (1 : Fin 2) * 128 + 128
    rw [e1]; omega

/-- The region's output array after all grid points is the stage function of the region's input arrays. -/
theorem final1 (c : Dev nD) :
    (dat1 V c).arrAt 6 cfg1.N = Spec.stage1 (V c main_v10) (V c main_v41) (V c main_arg7)
      (fun e => V c main_v42 (ix2 0 e)) (V c main_arg9) (fun j => V c main_v43 (ix2 0 j)) :=
  (dat1 V c).arrAt_eq_of_cover 6 (stageArr1 V c) (fun t _ => flushed1 V c t) cover1

end Cert.KernelIdeal.Blocks

end
-- ==== Proof.Blocks2.lean ====
/-
  From blocks to the array, for the node model's region (the third pallas_call): the region's output array after all
  its grid points is the two-layer perceptron Spec.stage2 of the region's input arrays as the region finds them.
  Point t reads rows 5000 t … 5000 t + 4999 of the row-tiled inputs and the whole weights and biases, and writes
  rows 5000 t … 5000 t + 4999 of the output; an entry of the perceptron depends on its own row of the inputs only, so
  what point t writes back is block t of the perceptron of the whole arrays, and the 10 blocks cover the output array.
-/
import proofs.«158231_j85143431676130_1_alg».proof.Proof.Gen.KernelIdeal.Frame
import proofs.«158231_j85143431676130_1_alg».proof.Proof.Spec
import proofs.«158231_j85143431676130_1_alg».proof.Proof.Payload
import Idealize.ShloMosaic.Lib.Pipeline.Value
import Idealize.ShloMosaic.Lib.ValueIdx
import Idealize.ShloMosaic.PureOps.Ideal

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The node model's region: 10 grid points, 5000 rows each -/

theorem offsets_zero2 : (![0, 0] : Fin 2 → Nat) = fun _ => 0 := funext fun a => by fin_cases a <;> rfl

/-- The stage function of the region's input arrays as the region finds them. -/
abbrev stageArr2 (c : Dev nD) : S50000x64.Idx → EReal :=
  Spec.stage2 (V c main_arg0) (V c main_v56) (V c main_v38) (V c main_arg11)
      (fun e => V c main_v57 (ix2 0 e)) (V c main_arg13) (fun j => V c main_v58 (ix2 0 j))

/-- The printed index maps, decided over the grid: the row-tiled inputs and the output sit at the point's number on the
    row axis and at 0 on the column axis; the weights and biases sit at block (0, 0). -/
theorem index_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Element (p, j) of the output's block at point t sits in the array at row 5000 t + p, column j. -/
theorem out_emb2 (t : Fin cfg2.N) (p : Fin 5000) (j : Fin 64) (hr : t.val * 5000 + p.val < 50000) :
    ((cfg2.win 7).blk t).view.emb (ix2 p j) = (ix2 ⟨t.val * 5000 + p.val, hr⟩ j : S50000x64.Idx) := by
  obtain ⟨-, -, -, -, -, -, -, -, -, -, -, -, -, -, e0, e1⟩ := index_facts2 t
  funext a; apply Fin.ext
  match a with
  | ⟨0, _⟩ => show win2_7.index t (0 : Fin 2) * 5000 + 1 * p.val = t.val * 5000 + p.val; omega
  | ⟨1, _⟩ => show win2_7.index t (1 : Fin 2) * 64 + 1 * j.val = j.val; omega

/-- Element (p, e) of the first piece's block at point t is the array's at row 5000 t + p. -/
theorem read2_0 (c : Dev nD) (t : Fin cfg2.N) (p : Fin 5000) (e : Fin 64) (hr : t.val * 5000 + p.val < 50000) :
    iblk2 V c 0 t (ix2 p e) = V c main_arg0 (ix2 ⟨t.val * 5000 + p.val, hr⟩ e) := by
  obtain ⟨e0, e1, -⟩ := index_facts2 t
  show V c main_arg0 (((cfg2.win 0).blk t).view.emb (ix2 p e)) = V c main_arg0 _
  refine congrArg (V c main_arg0) ?_
  funext a; apply Fin.ext
  match a with
  | ⟨0, _⟩ => show win2_0.index t (0 : Fin 2) * 5000 + 1 * p.val = t.val * 5000 + p.val; omega
  | ⟨1, _⟩ => show win2_0.index t (1 : Fin 2) * 64 + 1 * e.val = e.val; omega

/-- Element (p, e) of the second piece's block at point t is the array's at row 5000 t + p. -/
theorem read2_1 (c : Dev nD) (t : Fin cfg2.N) (p : Fin 5000) (e : Fin 128) (hr : t.val * 5000 + p.val < 50000) :
    iblk2 V c 1 t (ix2 p e) = V c main_v56 (ix2 ⟨t.val * 5000 + p.val, hr⟩ e) := by
  obtain ⟨-, -, e0, e1, -⟩ := index_facts2 t
  show V c main_v56 (((cfg2.win 1).blk t).view.emb (ix2 p e)) = V c main_v56 _
  refine congrArg (V c main_v56) ?_
  funext a; apply Fin.ext
  match a with
  | ⟨0, _⟩ => show win2_1.index t (0 : Fin 2) * 5000 + 1 * p.val = t.val * 5000 + p.val; omega
  | ⟨1, _⟩ => show win2_1.index t (1 : Fin 2) * 128 + 1 * e.val = e.val; omega

/-- Element (p, e) of the third piece's block at point t is the array's at row 5000 t + p. -/
theorem read2_2 (c : Dev nD) (t : Fin cfg2.N) (p : Fin 5000) (e : Fin 16) (hr : t.val * 5000 + p.val < 50000) :
    iblk2 V c 2 t (ix2 p e) = V c main_v38 (ix2 ⟨t.val * 5000 + p.val, hr⟩ e) := by
  obtain ⟨-, -, -, -, e0, e1, -⟩ := index_facts2 t
  show V c main_v38 (((cfg2.win 2).blk t).view.emb (ix2 p e)) = V c main_v38 _
  refine congrArg (V c main_v38) ?_
  funext a; apply Fin.ext
  match a with
  | ⟨0, _⟩ => show win2_2.index t (0 : Fin 2) * 5000 + 1 * p.val = t.val * 5000 + p.val; omega
  | ⟨1, _⟩ => show win2_2.index t (1 : Fin 2) * 16 + 1 * e.val = e.val; omega

/-- The first weight matrix's block is the weight matrix. -/
theorem whole2_3 (c : Dev nD) (t : Fin cfg2.N) : iblk2 V c 3 t = V c main_arg11 := by
  obtain ⟨-, -, -, -, -, -, e0, e1, -⟩ := index_facts2 t
  funext y
  show V c main_arg11 (((cfg2.win 3).blk t).view.emb y) = V c main_arg11 y
  refine congrArg (V c main_arg11) ?_
  funext a; apply Fin.ext
  match a with
  | ⟨0, _⟩ => show win2_3.index t (0 : Fin 2) * 208 + 1 * (y 0).val = (y 0).val; omega
  | ⟨1, _⟩ => show win2_3.index t (1 : Fin 2) * 128 + 1 * (y 1).val = (y 1).val; omega

/-- The first bias's block is the bias. -/
theorem whole2_4 (c : Dev nD) (t : Fin cfg2.N) : iblk2 V c 4 t = V c main_v57 := by
  obtain ⟨-, -, -, -, -, -, -, -, e0, e1, -⟩ := index_facts2 t
  funext y
  show V c main_v57 (((cfg2.win 4).blk t).view.emb y) = V c main_v57 y
  refine congrArg (V c main_v57) ?_
  funext a; apply Fin.ext
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- The second weight matrix's block is the weight matrix. -/
theorem whole2_5 (c : Dev nD) (t : Fin cfg2.N) : iblk2 V c 5 t = V c main_arg13 := by
  obtain ⟨-, -, -, -, -, -, -, -, -, -, e0, e1, -⟩ := index_facts2 t
  funext y
  show V c main_arg13 (((cfg2.win 5).blk t).view.emb y) = V c main_arg13 y
  refine congrArg (V c main_arg13) ?_
  funext a; apply Fin.ext
  match a with
  | ⟨0, _⟩ => show win2_5.index t (0 : Fin 2) * 128 + 1 * (y 0).val = (y 0).val; omega
  | ⟨1, _⟩ => show win2_5.index t (1 : Fin 2) * 64 + 1 * (y 1).val = (y 1).val; omega

/-- The second bias's block is the bias. -/
theorem whole2_6 (c : Dev nD) (t : Fin cfg2.N) : iblk2 V c 6 t = V c main_v58 := by
  obtain ⟨-, -, -, -, -, -, -, -, -, -, -, -, e0, e1, -⟩ := index_facts2 t
  funext y
  show V c main_v58 (((cfg2.win 6).blk t).view.emb y) = V c main_v58 y
  refine congrArg (V c main_v58) ?_
  funext a; apply Fin.ext
  match a with
  | ⟨0, _⟩ => show win2_6.index t (0 : Fin 2) * 1 + 1 * (y 0).val = (y 0).val; omega
  | ⟨1, _⟩ => show win2_6.index t (1 : Fin 2) * 64 + 1 * (y 1).val = (y 1).val; omega

/-- Two functions, one of the output block's index and one of the array's index, that agree row by row (row p of the
    first against row 5000 t + p of the second): the first, written back at point t, is block t of the second. -/
theorem block_of_rows2 (t : Fin cfg2.N) (B : S5000x64.Idx → EReal) (G : S50000x64.Idx → EReal)
    (h : ∀ (p : Fin 5000) (j : Fin 64) (hr : t.val * 5000 + p.val < 50000), B (ix2 p j) = G (ix2 ⟨t.val * 5000 + p.val, hr⟩ j)) :
    (cfg2.win 7).cut (grid2.coords t) B = ((cfg2.win 7).blk t).view.read (Elt Ideal) G := by
  have ht : t.val < 10 := Nat.lt_of_lt_of_eq t.isLt N_2
  funext y
  obtain ⟨p, j, rfl⟩ : ∃ (p : Fin 5000) (j : Fin 64), y = ix2 p j := ⟨y 0, y 1, eq_ix2 y⟩
  have hp : p.val < 5000 := p.isLt
  have hr : t.val * 5000 + p.val < 50000 := by omega
  show B (ix2 p j) = G (((cfg2.win 7).blk t).view.emb (ix2 p j))
  rw [out_emb2 t p j hr]
  exact h p j hr

/-- What point t writes back is block t of the stage function of the region's arrays. -/
theorem flushed2 (c : Dev nD) (t : Fin cfg2.N) :
    (dat2 V c).flushed 7 t = ((cfg2.win 7).blk t).view.read (Elt Ideal) (stageArr2 V c) := by
  show (cfg2.win 7).cut (grid2.coords t) ((dat2 V c).after 7 t) = _
  rw [after2_7]
  unfold out2_7
  rw [View.canon_unit_zero offsets_zero2]
  simp only [View.ld_unit_zero (S := S5000x64) offsets_zero2, View.ld_unit_zero (S := S5000x128) offsets_zero2,
    View.ld_unit_zero (S := S5000x16) offsets_zero2, View.ld_unit_zero (S := S208x128) offsets_zero2,
    View.ld_unit_zero (S := S1x128) offsets_zero2, View.ld_unit_zero (S := S128x64) offsets_zero2,
    View.ld_unit_zero (S := S1x64) offsets_zero2]
  rw [Payload.pay2, whole2_3 V c t, whole2_4 V c t, whole2_5 V c t, whole2_6 V c t]
  refine block_of_rows2 t _ _ fun p j hr => ?_
  exact Spec.stage2_row _ _ _ _ _ _ _ _ _ _ p ⟨t.val * 5000 + p.val, hr⟩ j
    (funext fun e => read2_0 V c t p e hr)
    (funext fun e => read2_1 V c t p e hr)
    (funext fun e => read2_2 V c t p e hr)

/-- An index of the array is in point t's block iff each coordinate is in the block's range on its axis. -/
theorem mem_block2 (t : Fin cfg2.N) (i : S50000x64.Idx) :
    i ∈ ((cfg2.win 7).blk t).view.set ↔ ∀ a : Fin 2, win2_7.index t a * S5000x64.size a ≤ (i a).val
      ∧ (i a).val < win2_7.index t a * S5000x64.size a + S5000x64.size a := by
  show i ∈ ((View.whole main_v59).slice (win2_7.rect t)).set ↔ _
  rw [View.set_slice_whole, Rect.mem_set_unit]
  exact Iff.rfl

/-- Every index of the array is in the block of the point numbered by its row divided by the block's rows. -/
theorem cover2 (i : S50000x64.Idx) :
    ∃ t : Fin cfg2.N, (cfg2.win 7).flush t = true ∧ i ∈ ((cfg2.win 7).blk t).view.set := by
  have hi0 : (i 0).val < 50000 := (i 0).isLt
  have hi1 : (i 1).val < 64 := (i 1).isLt
  have hq : (i 0).val / 5000 < cfg2.N := Nat.lt_of_lt_of_eq (by omega) N_2.symm
  obtain ⟨-, -, -, -, -, -, -, -, -, -, -, -, -, -, e0, e1⟩ := index_facts2 ⟨(i 0).val / 5000, hq⟩
  refine ⟨⟨(i 0).val / 5000, hq⟩, flush2_7 _, ?_⟩
  rw [mem_block2]
  intro a
  match a with
  | ⟨0, _⟩ =>
    show win2_7.index ⟨(i 0).val / 5000, hq⟩ (0 : Fin 2) * 5000 ≤ (i 0).val
      ∧ (i 0).val < win2_7.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win2_7.index ⟨(i 0).val / 5000, hq⟩ (1 : Fin 2) * 64 ≤ (i 1).val
      ∧ (i 1).val < win2_7.index ⟨(i 0).val / 5000, hq⟩ (1 : Fin 2) * 64 + 64
    rw [e1]; omega

/-- The region's output array after all grid points is the stage function of the region's input arrays. -/
theorem final2 (c : Dev nD) :
    (dat2 V c).arrAt 7 cfg2.N = Spec.stage2 (V c main_arg0) (V c main_v56) (V c main_v38) (V c main_arg11)
      (fun e => V c main_v57 (ix2 0 e)) (V c main_arg13) (fun j => V c main_v58 (ix2 0 j)) :=
  (dat2 V c).arrAt_eq_of_cover 7 (stageArr2 V c) (fun t _ => flushed2 V c t) cover2

end Cert.KernelIdeal.Blocks

end
-- ==== Proof.Blocks3.lean ====
/-
  From blocks to the array, for the global model's region (the fourth pallas_call): the region's output array after all
  its grid points is the two-layer perceptron Spec.stage3 of the region's input arrays as the region finds them.
  Point t reads rows 256 t … 256 t + 255 of the row-tiled inputs and the whole weights and biases, and writes
  rows 256 t … 256 t + 255 of the output; an entry of the perceptron depends on its own row of the inputs only, so
  what point t writes back is block t of the perceptron of the whole arrays, and the 1 block cover the output array.
-/
import proofs.«158231_j85143431676130_1_alg».proof.Proof.Gen.KernelIdeal.Frame
import proofs.«158231_j85143431676130_1_alg».proof.Proof.Spec
import proofs.«158231_j85143431676130_1_alg».proof.Proof.Payload
import Idealize.ShloMosaic.Lib.Pipeline.Value
import Idealize.ShloMosaic.Lib.ValueIdx
import Idealize.ShloMosaic.PureOps.Ideal

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The global model's region: 1 grid point, 256 rows each -/

theorem offsets_zero3 : (![0, 0] : Fin 2 → Nat) = fun _ => 0 := funext fun a => by fin_cases a <;> rfl

/-- The stage function of the region's input arrays as the region finds them. -/
abbrev stageArr3 (c : Dev nD) : S256x32.Idx → EReal :=
  Spec.stage3 (V c main_arg2) (V c main_v71) (V c main_arg15)
      (fun e => V c main_v72 (ix2 0 e)) (V c main_arg17) (fun j => V c main_v73 (ix2 0 j))

/-- The printed index maps, decided over the grid: the row-tiled inputs and the output sit at the point's number on the
    row axis and at 0 on the column axis; the weights and biases sit at block (0, 0). -/
theorem index_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Element (p, j) of the output's block at point t sits in the array at row 256 t + p, column j. -/
theorem out_emb3 (t : Fin cfg3.N) (p : Fin 256) (j : Fin 32) (hr : t.val * 256 + p.val < 256) :
    ((cfg3.win 6).blk t).view.emb (ix2 p j) = (ix2 ⟨t.val * 256 + p.val, hr⟩ j : S256x32.Idx) := by
  obtain ⟨-, -, -, -, -, -, -, -, -, -, -, -, e0, e1⟩ := index_facts3 t
  funext a; apply Fin.ext
  match a with
  | ⟨0, _⟩ => show win3_6.index t (0 : Fin 2) * 256 + 1 * p.val = t.val * 256 + p.val; omega
  | ⟨1, _⟩ => show win3_6.index t (1 : Fin 2) * 32 + 1 * j.val = j.val; omega

/-- Element (p, e) of the first piece's block at point t is the array's at row 256 t + p. -/
theorem read3_0 (c : Dev nD) (t : Fin cfg3.N) (p : Fin 256) (e : Fin 16) (hr : t.val * 256 + p.val < 256) :
    iblk3 V c 0 t (ix2 p e) = V c main_arg2 (ix2 ⟨t.val * 256 + p.val, hr⟩ e) := by
  obtain ⟨e0, e1, -⟩ := index_facts3 t
  show V c main_arg2 (((cfg3.win 0).blk t).view.emb (ix2 p e)) = V c main_arg2 _
  refine congrArg (V c main_arg2) ?_
  funext a; apply Fin.ext
  match a with
  | ⟨0, _⟩ => show win3_0.index t (0 : Fin 2) * 256 + 1 * p.val = t.val * 256 + p.val; omega
  | ⟨1, _⟩ => show win3_0.index t (1 : Fin 2) * 16 + 1 * e.val = e.val; omega

/-- Element (p, e) of the second piece's block at point t is the array's at row 256 t + p. -/
theorem read3_1 (c : Dev nD) (t : Fin cfg3.N) (p : Fin 256) (e : Fin 64) (hr : t.val * 256 + p.val < 256) :
    iblk3 V c 1 t (ix2 p e) = V c main_v71 (ix2 ⟨t.val * 256 + p.val, hr⟩ e) := by
  obtain ⟨-, -, e0, e1, -⟩ := index_facts3 t
  show V c main_v71 (((cfg3.win 1).blk t).view.emb (ix2 p e)) = V c main_v71 _
  refine congrArg (V c main_v71) ?_
  funext a; apply Fin.ext
  match a with
  | ⟨0, _⟩ => show win3_1.index t (0 : Fin 2) * 256 + 1 * p.val = t.val * 256 + p.val; omega
  | ⟨1, _⟩ => show win3_1.index t (1 : Fin 2) * 64 + 1 * e.val = e.val; omega

/-- The first weight matrix's block is the weight matrix. -/
theorem whole3_2 (c : Dev nD) (t : Fin cfg3.N) : iblk3 V c 2 t = V c main_arg15 := by
  obtain ⟨-, -, -, -, e0, e1, -⟩ := index_facts3 t
  funext y
  show V c main_arg15 (((cfg3.win 2).blk t).view.emb y) = V c main_arg15 y
  refine congrArg (V c main_arg15) ?_
  funext a; apply Fin.ext
  match a with
  | ⟨0, _⟩ => show win3_2.index t (0 : Fin 2) * 80 + 1 * (y 0).val = (y 0).val; omega
  | ⟨1, _⟩ => show win3_2.index t (1 : Fin 2) * 128 + 1 * (y 1).val = (y 1).val; omega

/-- The first bias's block is the bias. -/
theorem whole3_3 (c : Dev nD) (t : Fin cfg3.N) : iblk3 V c 3 t = V c main_v72 := by
  obtain ⟨-, -, -, -, -, -, e0, e1, -⟩ := index_facts3 t
  funext y
  show V c main_v72 (((cfg3.win 3).blk t).view.emb y) = V c main_v72 y
  refine congrArg (V c main_v72) ?_
  funext a; apply Fin.ext
  match a with
  | ⟨0, _⟩ => show win3_3.index t (0 : Fin 2) * 1 + 1 * (y 0).val = (y 0).val; omega
  | ⟨1, _⟩ => show win3_3.index t (1 : Fin 2) * 128 + 1 * (y 1).val = (y 1).val; omega

/-- The second weight matrix's block is the weight matrix. -/
theorem whole3_4 (c : Dev nD) (t : Fin cfg3.N) : iblk3 V c 4 t = V c main_arg17 := by
  obtain ⟨-, -, -, -, -, -, -, -, e0, e1, -⟩ := index_facts3 t
  funext y
  show V c main_arg17 (((cfg3.win 4).blk t).view.emb y) = V c main_arg17 y
  refine congrArg (V c main_arg17) ?_
  funext a; apply Fin.ext
  match a with
  | ⟨0, _⟩ => show win3_4.index t (0 : Fin 2) * 128 + 1 * (y 0).val = (y 0).val; omega
  | ⟨1, _⟩ => show win3_4.index t (1 : Fin 2) * 32 + 1 * (y 1).val = (y 1).val; omega

/-- The second bias's block is the bias. -/
theorem whole3_5 (c : Dev nD) (t : Fin cfg3.N) : iblk3 V c 5 t = V c main_v73 := by
  obtain ⟨-, -, -, -, -, -, -, -, -, -, e0, e1, -⟩ := index_facts3 t
  funext y
  show V c main_v73 (((cfg3.win 5).blk t).view.emb y) = V c main_v73 y
  refine congrArg (V c main_v73) ?_
  funext a; apply Fin.ext
  match a with
  | ⟨0, _⟩ => show win3_5.index t (0 : Fin 2) * 1 + 1 * (y 0).val = (y 0).val; omega
  | ⟨1, _⟩ => show win3_5.index t (1 : Fin 2) * 32 + 1 * (y 1).val = (y 1).val; omega

/-- Two functions, one of the output block's index and one of the array's index, that agree row by row (row p of the
    first against row 256 t + p of the second): the first, written back at point t, is block t of the second. -/
theorem block_of_rows3 (t : Fin cfg3.N) (B : S256x32.Idx → EReal) (G : S256x32.Idx → EReal)
    (h : ∀ (p : Fin 256) (j : Fin 32) (hr : t.val * 256 + p.val < 256), B (ix2 p j) = G (ix2 ⟨t.val * 256 + p.val, hr⟩ j)) :
    (cfg3.win 6).cut (grid3.coords t) B = ((cfg3.win 6).blk t).view.read (Elt Ideal) G := by
  have ht : t.val < 1 := Nat.lt_of_lt_of_eq t.isLt N_3
  funext y
  obtain ⟨p, j, rfl⟩ : ∃ (p : Fin 256) (j : Fin 32), y = ix2 p j := ⟨y 0, y 1, eq_ix2 y⟩
  have hp : p.val < 256 := p.isLt
  have hr : t.val * 256 + p.val < 256 := by omega
  show B (ix2 p j) = G (((cfg3.win 6).blk t).view.emb (ix2 p j))
  rw [out_emb3 t p j hr]
  exact h p j hr

/-- What point t writes back is block t of the stage function of the region's arrays. -/
theorem flushed3 (c : Dev nD) (t : Fin cfg3.N) :
    (dat3 V c).flushed 6 t = ((cfg3.win 6).blk t).view.read (Elt Ideal) (stageArr3 V c) := by
  show (cfg3.win 6).cut (grid3.coords t) ((dat3 V c).after 6 t) = _
  rw [after3_6]
  unfold out3_6
  rw [View.canon_unit_zero offsets_zero3]
  simp only [View.ld_unit_zero (S := S256x16) offsets_zero3, View.ld_unit_zero (S := S256x64) offsets_zero3,
    View.ld_unit_zero (S := S80x128) offsets_zero3, View.ld_unit_zero (S := S1x128) offsets_zero3,
    View.ld_unit_zero (S := S128x32) offsets_zero3, View.ld_unit_zero (S := S1x32) offsets_zero3]
  rw [Payload.pay3, whole3_2 V c t, whole3_3 V c t, whole3_4 V c t, whole3_5 V c t]
  refine block_of_rows3 t _ _ fun p j hr => ?_
  exact Spec.stage3_row _ _ _ _ _ _ _ _ p ⟨t.val * 256 + p.val, hr⟩ j
    (funext fun e => read3_0 V c t p e hr)
    (funext fun e => read3_1 V c t p e hr)

/-- An index of the array is in point t's block iff each coordinate is in the block's range on its axis. -/
theorem mem_block3 (t : Fin cfg3.N) (i : S256x32.Idx) :
    i ∈ ((cfg3.win 6).blk t).view.set ↔ ∀ a : Fin 2, win3_6.index t a * S256x32.size a ≤ (i a).val
      ∧ (i a).val < win3_6.index t a * S256x32.size a + S256x32.size a := by
  show i ∈ ((View.whole main_v74).slice (win3_6.rect t)).set ↔ _
  rw [View.set_slice_whole, Rect.mem_set_unit]
  exact Iff.rfl

/-- Every index of the array is in the block of the point numbered by its row divided by the block's rows. -/
theorem cover3 (i : S256x32.Idx) :
    ∃ t : Fin cfg3.N, (cfg3.win 6).flush t = true ∧ i ∈ ((cfg3.win 6).blk t).view.set := by
  have hi0 : (i 0).val < 256 := (i 0).isLt
  have hi1 : (i 1).val < 32 := (i 1).isLt
  have hq : (i 0).val / 256 < cfg3.N := Nat.lt_of_lt_of_eq (by omega) N_3.symm
  obtain ⟨-, -, -, -, -, -, -, -, -, -, -, -, e0, e1⟩ := index_facts3 ⟨(i 0).val / 256, hq⟩
  refine ⟨⟨(i 0).val / 256, hq⟩, flush3_6 _, ?_⟩
  rw [mem_block3]
  intro a
  match a with
  | ⟨0, _⟩ =>
    show win3_6.index ⟨(i 0).val / 256, hq⟩ (0 : Fin 2) * 256 ≤ (i 0).val
      ∧ (i 0).val < win3_6.index ⟨(i 0).val / 256, hq⟩ (0 : Fin 2) * 256 + 256
    rw [e0]; show (i 0).val / 256 * 256 ≤ (i 0).val ∧ (i 0).val < (i 0).val / 256 * 256 + 256; omega
  | ⟨1, _⟩ =>
    show win3_6.index ⟨(i 0).val / 256, hq⟩ (1 : Fin 2) * 32 ≤ (i 1).val
      ∧ (i 1).val < win3_6.index ⟨(i 0).val / 256, hq⟩ (1 : Fin 2) * 32 + 32
    rw [e1]; omega

/-- The region's output array after all grid points is the stage function of the region's input arrays. -/
theorem final3 (c : Dev nD) :
    (dat3 V c).arrAt 6 cfg3.N = Spec.stage3 (V c main_arg2) (V c main_v71) (V c main_arg15)
      (fun e => V c main_v72 (ix2 0 e)) (V c main_arg17) (fun j => V c main_v73 (ix2 0 j)) :=
  (dat3 V c).arrAt_eq_of_cover 6 (stageArr3 V c) (fun t _ => flushed3 V c t) cover3

end Cert.KernelIdeal.Blocks

end
-- ==== Proof.Bridge.lean ====
/-
  The two programs compute the same three arrays.

  The kernel's program reaches each result through its regions: a region's output array is the stage function of the
  arrays the region finds, those arrays are host terms of the launch memory and of earlier regions' outputs, and a
  bias reaches a region as a one-row matrix whose row is the bias vector. The reference's result terms hold the same
  host terms around its four perceptrons, each of which is the same stage function. With the arguments identified
  the two sides are then one term.
-/
import proofs.«158231_j85143431676130_1_alg».proof.Proof.RefTerms
import proofs.«158231_j85143431676130_1_alg».proof.Proof.RefStages
import proofs.«158231_j85143431676130_1_alg».proof.Proof.KernelHost
import proofs.«158231_j85143431676130_1_alg».proof.Proof.Blocks0
import proofs.«158231_j85143431676130_1_alg».proof.Proof.Blocks1
import proofs.«158231_j85143431676130_1_alg».proof.Proof.Blocks2
import proofs.«158231_j85143431676130_1_alg».proof.Proof.Blocks3
import Idealize.ShloMosaic.Lib.ValueLayout

noncomputable section

open Idealize.ShloMosaic Idealize.ShloMosaic.TcCoe Idealize.ShloMosaic.ValueIdx Idealize.SL.Sem

namespace Cert.Bridge

/-! ## A bias as a region finds it: the one row of the reshaped vector is the vector -/

theorem bias39 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    (fun e : Fin 128 => Cert.KernelIdeal.Gen.V1 m ρ c Cert.KernelIdeal.main_v39 (ix2 0 e)) = fun e => m ((c : Thread Cert.KernelIdeal.nD Cert.KernelIdeal.τ).loc Cert.KernelIdeal.main_arg4) (ix1 e) := by
  funext e
  rw [Cert.KernelIdeal.HostRead.V1_main_v39]
  exact shapeCast_a_1a_apply _ _ 0 e

theorem bias40 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    (fun e : Fin 64 => Cert.KernelIdeal.Gen.V1 m ρ c Cert.KernelIdeal.main_v40 (ix2 0 e)) = fun e => m ((c : Thread Cert.KernelIdeal.nD Cert.KernelIdeal.τ).loc Cert.KernelIdeal.main_arg6) (ix1 e) := by
  funext e
  rw [Cert.KernelIdeal.HostRead.V1_main_v40]
  exact shapeCast_a_1a_apply _ _ 0 e

theorem bias42 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    (fun e : Fin 128 => Cert.KernelIdeal.Gen.V3 m ρ c Cert.KernelIdeal.main_v42 (ix2 0 e)) = fun e => m ((c : Thread Cert.KernelIdeal.nD Cert.KernelIdeal.τ).loc Cert.KernelIdeal.main_arg8) (ix1 e) := by
  funext e
  rw [Cert.KernelIdeal.HostRead.V3_main_v42]
  exact shapeCast_a_1a_apply _ _ 0 e

theorem bias43 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    (fun e : Fin 128 => Cert.KernelIdeal.Gen.V3 m ρ c Cert.KernelIdeal.main_v43 (ix2 0 e)) = fun e => m ((c : Thread Cert.KernelIdeal.nD Cert.KernelIdeal.τ).loc Cert.KernelIdeal.main_arg10) (ix1 e) := by
  funext e
  rw [Cert.KernelIdeal.HostRead.V3_main_v43]
  exact shapeCast_a_1a_apply _ _ 0 e

theorem bias57 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    (fun e : Fin 128 => Cert.KernelIdeal.Gen.V5 m ρ c Cert.KernelIdeal.main_v57 (ix2 0 e)) = fun e => m ((c : Thread Cert.KernelIdeal.nD Cert.KernelIdeal.τ).loc Cert.KernelIdeal.main_arg12) (ix1 e) := by
  funext e
  rw [Cert.KernelIdeal.HostRead.V5_main_v57]
  exact shapeCast_a_1a_apply _ _ 0 e

theorem bias58 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    (fun e : Fin 64 => Cert.KernelIdeal.Gen.V5 m ρ c Cert.KernelIdeal.main_v58 (ix2 0 e)) = fun e => m ((c : Thread Cert.KernelIdeal.nD Cert.KernelIdeal.τ).loc Cert.KernelIdeal.main_arg14) (ix1 e) := by
  funext e
  rw [Cert.KernelIdeal.HostRead.V5_main_v58]
  exact shapeCast_a_1a_apply _ _ 0 e

theorem bias72 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    (fun e : Fin 128 => Cert.KernelIdeal.Gen.V7 m ρ c Cert.KernelIdeal.main_v72 (ix2 0 e)) = fun e => m ((c : Thread Cert.KernelIdeal.nD Cert.KernelIdeal.τ).loc Cert.KernelIdeal.main_arg16) (ix1 e) := by
  funext e
  rw [Cert.KernelIdeal.HostRead.V7_main_v72]
  exact shapeCast_a_1a_apply _ _ 0 e

theorem bias73 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    (fun e : Fin 32 => Cert.KernelIdeal.Gen.V7 m ρ c Cert.KernelIdeal.main_v73 (ix2 0 e)) = fun e => m ((c : Thread Cert.KernelIdeal.nD Cert.KernelIdeal.τ).loc Cert.KernelIdeal.main_arg18) (ix1 e) := by
  funext e
  rw [Cert.KernelIdeal.HostRead.V7_main_v73]
  exact shapeCast_a_1a_apply _ _ 0 e

/-! ## The three results -/

section
variable (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
include h0 h1 h2 h3 h4 h5 h6 h7 h8 h9 h10 h11 h12 h13 h14 h15 h16 h17 h18 h19 h20

set_option maxHeartbeats 1000000 in
/-- The new edge features: region 0's output. -/
theorem edges_eq : Cert.ReferenceIdeal.Terms.edges (F := Ideal) m' c = Cert.KernelIdeal.Gen.W8 m ρ c (Proc.devRef .tc Cert.KernelIdeal.main_v41) := by
  rw [Cert.KernelIdeal.HostRead.W8_main_v41 m ρ c, Cert.KernelIdeal.Blocks.final0 (Cert.KernelIdeal.Gen.V1 m ρ) c, Cert.KernelIdeal.HostRead.V1_main_v10, Cert.KernelIdeal.HostRead.V1_main_v17, Cert.KernelIdeal.HostRead.V1_main_arg1, Cert.KernelIdeal.HostRead.V1_main_v31, Cert.KernelIdeal.HostRead.V1_main_arg3, bias39, Cert.KernelIdeal.HostRead.V1_main_arg5, bias40]
  unfold Cert.ReferenceIdeal.Terms.edges
  rw [Cert.ReferenceIdeal.Stages.stage0_eq, h0, h1, h2, h3, h4, h5, h6, h19, h20]
  rfl

set_option maxHeartbeats 1000000 in
/-- The new node features: region 2's output, over the mean of region 1's messages. -/
theorem nodes_eq : Cert.ReferenceIdeal.Terms.nodes (F := Ideal) m' c = Cert.KernelIdeal.Gen.W8 m ρ c (Proc.devRef .tc Cert.KernelIdeal.main_v59) := by
  rw [Cert.KernelIdeal.HostRead.W8_main_v59 m ρ c, Cert.KernelIdeal.Blocks.final2 (Cert.KernelIdeal.Gen.V5 m ρ) c, Cert.KernelIdeal.HostRead.V5_main_arg0, Cert.KernelIdeal.HostRead.V5_main_v56, Cert.KernelIdeal.HostRead.V5_main_v38, Cert.KernelIdeal.HostRead.V5_main_arg11, bias57, Cert.KernelIdeal.HostRead.V5_main_arg13, bias58, Cert.KernelIdeal.Blocks.final1 (Cert.KernelIdeal.Gen.V3 m ρ) c, Cert.KernelIdeal.HostRead.V3_main_v10, Cert.KernelIdeal.HostRead.V3_main_v41, Cert.KernelIdeal.HostRead.V3_main_arg7, bias42, Cert.KernelIdeal.HostRead.V3_main_arg9, bias43, Cert.KernelIdeal.Blocks.final0 (Cert.KernelIdeal.Gen.V1 m ρ) c, Cert.KernelIdeal.HostRead.V1_main_v10, Cert.KernelIdeal.HostRead.V1_main_v17, Cert.KernelIdeal.HostRead.V1_main_arg1, Cert.KernelIdeal.HostRead.V1_main_v31, Cert.KernelIdeal.HostRead.V1_main_arg3, bias39, Cert.KernelIdeal.HostRead.V1_main_arg5, bias40]
  unfold Cert.ReferenceIdeal.Terms.nodes
  rw [Cert.ReferenceIdeal.Stages.stage2_eq, Cert.ReferenceIdeal.Stages.stage1_eq, Cert.ReferenceIdeal.Stages.stage0_eq]
  rw [h0, h1, h2, h3, h4, h5, h6, h7, h8, h9, h10, h11, h12, h13, h14, h19, h20]
  rfl

set_option maxHeartbeats 1000000 in
/-- The new graph features: region 3's output, over the mean of the new node features. -/
theorem graphs_eq : Cert.ReferenceIdeal.Terms.graphs (F := Ideal) m' c = Cert.KernelIdeal.Gen.W8 m ρ c (Proc.devRef .tc Cert.KernelIdeal.main_v74) := by
  rw [Cert.KernelIdeal.HostRead.W8_main_v74 m ρ c, Cert.KernelIdeal.Blocks.final3 (Cert.KernelIdeal.Gen.V7 m ρ) c, Cert.KernelIdeal.HostRead.V7_main_arg2, Cert.KernelIdeal.HostRead.V7_main_v71, Cert.KernelIdeal.HostRead.V7_main_arg15, bias72, Cert.KernelIdeal.HostRead.V7_main_arg17, bias73, Cert.KernelIdeal.Blocks.final2 (Cert.KernelIdeal.Gen.V5 m ρ) c, Cert.KernelIdeal.HostRead.V5_main_arg0, Cert.KernelIdeal.HostRead.V5_main_v56, Cert.KernelIdeal.HostRead.V5_main_v38, Cert.KernelIdeal.HostRead.V5_main_arg11, bias57, Cert.KernelIdeal.HostRead.V5_main_arg13, bias58, Cert.KernelIdeal.Blocks.final1 (Cert.KernelIdeal.Gen.V3 m ρ) c, Cert.KernelIdeal.HostRead.V3_main_v10, Cert.KernelIdeal.HostRead.V3_main_v41, Cert.KernelIdeal.HostRead.V3_main_arg7, bias42, Cert.KernelIdeal.HostRead.V3_main_arg9, bias43, Cert.KernelIdeal.Blocks.final0 (Cert.KernelIdeal.Gen.V1 m ρ) c, Cert.KernelIdeal.HostRead.V1_main_v10, Cert.KernelIdeal.HostRead.V1_main_v17, Cert.KernelIdeal.HostRead.V1_main_arg1, Cert.KernelIdeal.HostRead.V1_main_v31, Cert.KernelIdeal.HostRead.V1_main_arg3, bias39, Cert.KernelIdeal.HostRead.V1_main_arg5, bias40]
  unfold Cert.ReferenceIdeal.Terms.graphs
  rw [Cert.ReferenceIdeal.Stages.stage3_eq, Cert.ReferenceIdeal.Stages.stage2_eq, Cert.ReferenceIdeal.Stages.stage1_eq, Cert.ReferenceIdeal.Stages.stage0_eq]
  rw [h0, h1, h2, h3, h4, h5, h6, h7, h8, h9, h10, h11, h12, h13, h14, h15, h16, h17, h18, h19, h20]
  rfl

end

end Cert.Bridge

end
-- ==== Proof.lean ====
/-
  A message-passing layer over a graph of 50000 nodes, 800000 edges and 256 graphs: an edge model, a message model
  averaged over each node's incoming edges, a node model, and a global model over each graph's averaged nodes. All four
  are two-layer perceptrons (a linear map, a bias, the rectifier, a second linear map and bias) of several feature
  matrices laid side by side.

  The kernel's program gathers the rows it needs with host operations, runs each perceptron as a pipelined region over
  row tiles — the first layer as a SUM of one product per piece against that piece's band of rows of the weight
  matrix, the operands of every product narrowed — and takes the segment means with host operations between the
  regions. The reference concatenates the pieces and multiplies once. On the extended reals narrowing is the identity
  and a sum over the concatenated columns is the sum of the sums over the pieces (addition there is associative and
  commutative, infinities included), so each region's output array is the same function of its inputs as the
  reference's perceptron; the host operations around them are the same on both sides.

  The three frames are the generated ones (the reference's is its run, read through its host operations in stretches, with the results dropped); the ideal pass rewrote
  nothing, so there is nothing to preserve; the algebraic claim pairs the kernel's run, with its three result buffers
  read at the end of the fold through its segments, with the reference's run.
-/
import proofs.«158231_j85143431676130_1_alg».proof.Defs
import proofs.«158231_j85143431676130_1_alg».proof.Proof.Gen.Kernel
import proofs.«158231_j85143431676130_1_alg».proof.Proof.Gen.Kernel.Frame
import proofs.«158231_j85143431676130_1_alg».proof.Proof.Gen.KernelIdeal
import proofs.«158231_j85143431676130_1_alg».proof.Proof.Gen.KernelIdeal.Frame
import proofs.«158231_j85143431676130_1_alg».proof.Proof.Gen.ReferenceIdeal
import proofs.«158231_j85143431676130_1_alg».proof.Proof.RefRun
import proofs.«158231_j85143431676130_1_alg».proof.Proof.Gen.Pre_finite_inputs
import proofs.«158231_j85143431676130_1_alg».proof.Proof.FrameKept
import proofs.«158231_j85143431676130_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the three results dropped. -/
theorem frame_referenceIdeal : Cert.frame_ReferenceIdeal := fun m ρ _ =>
  (θ_run Cert.ReferenceIdeal.defs _ _).mono (fun _ h c => (h c).2.2.2) (Cert.ReferenceIdeal.HandRun.run (F := Ideal) m ρ)

/-- Both programs end with the new node, edge and graph features the kernel's fold leaves in its three result
    buffers: the kernel by its frame run with those buffers kept, the reference because its three result terms are
    those arrays once the arguments are identified. -/
theorem algebraic : Cert.algebraic_KernelIdeal_ReferenceIdeal := by
  intro m ρ m' ρ' _ hagree
  refine ⟨fun c => Cert.KernelIdeal.Gen.W8 m ρ c (Proc.devRef .tc Cert.KernelIdeal.main_v59),
    fun c => Cert.KernelIdeal.Gen.W8 m ρ c (Proc.devRef .tc Cert.KernelIdeal.main_v41),
    fun c => Cert.KernelIdeal.Gen.W8 m ρ c (Proc.devRef .tc Cert.KernelIdeal.main_v74),
    Cert.KernelIdeal.GenP.frame m ρ, ?_⟩
  refine (θ_run Cert.ReferenceIdeal.defs _ _).mono (fun _ h c => ?_) (Cert.ReferenceIdeal.HandRun.run (F := Ideal) m' ρ')
  obtain ⟨h0, h1, h2, h3, h4, h5, h6, h7, h8, h9, h10, h11, h12, h13, h14, h15, h16, h17, h18, h19, h20⟩ := hagree c
  exact ⟨(h c).1.trans (Cert.Bridge.nodes_eq m ρ m' c h0 h1 h2 h3 h4 h5 h6 h7 h8 h9 h10 h11 h12 h13 h14 h15 h16 h17 h18 h19 h20),
    (h c).2.1.trans (Cert.Bridge.edges_eq m ρ m' c h0 h1 h2 h3 h4 h5 h6 h7 h8 h9 h10 h11 h12 h13 h14 h15 h16 h17 h18 h19 h20),
    (h c).2.2.1.trans (Cert.Bridge.graphs_eq m ρ m' c h0 h1 h2 h3 h4 h5 h6 h7 h8 h9 h10 h11 h12 h13 h14 h15 h16 h17 h18 h19 h20),
    (h c).2.2.2⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
